-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) →
    ∃ (v0 : (c : Dev Cert.KernelIdeal.nD) → Buf (Elt Ideal) ((c.tc : Thread Cert.KernelIdeal.nD Cert.KernelIdeal.τ).loc Cert.KernelIdeal.main_v63)) (v1 : (c : Dev Cert.KernelIdeal.nD) → Buf (Elt Ideal) ((c.tc : Thread Cert.KernelIdeal.nD Cert.KernelIdeal.τ).loc Cert.KernelIdeal.main_v74)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_v74) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_v122) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S100000 : Shape := ⟨1, ![100000]⟩
abbrev S100000x1 : Shape := ⟨2, ![100000, 1]⟩
abbrev S128x128 : Shape := ⟨2, ![128, 128]⟩
abbrev S128 : Shape := ⟨1, ![128]⟩
abbrev S257x64 : Shape := ⟨2, ![257, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S100000x1 : S_.BroadcastsInDim S100000x1 (![] : Fin 0 → Fin S100000x1.rank)
  reducesTo_S100000x1_S_d0_1 : S100000x1.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S257x64 : S_.BroadcastsInDim S257x64 (![] : Fin 0 → Fin S257x64.rank)
  reducesTo_S257x64_S_d0_1 : S257x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part6 {F : FTy → Type} [FloatOps F] (main_arg25 : FVec F S1 .f32) (main_v98 : IVec S_ 1) (main_v101 : IVec S64x1 1) (main_c_39 : IVec S_ 1) : IVec S_ 1 :=
  let main_v102 : IVec S_ 1 := (fun x v => Host.reduce IntOp.andi x v reducesTo_S64x1_S_d0_1 h_S_) main_v101 main_c_39
  let main_v103 : IVec S_ 1 := andi main_v98 main_v102
  let main_v104 : FVec F S1 .f32 := Host.absf main_arg25
  let main_cst_40 : FVec F S_ .f32 := constant S_ .f32 0x7F800000#32
  let main_v105 : FVec F S1 .f32 := broadcastInDim S1 ![] bcast_S_S1 main_cst_40
  let main_v106 : IVec S1 1 := cmpf .olt main_v104 main_v105
  let main_c_41 : IVec S_ 1 := constantI S_ 1 1#1
  let main_v107 : IVec S_ 1 := (fun x v => Host.reduce IntOp.andi x v reducesTo_S1_S_d0 h_S_) main_v106 main_c_41
  let main_v108 : IVec S_ 1 := andi main_v103 main_v107
  main_v108

def fn_part5 {F : FTy → Type} [FloatOps F] (main_arg22 : FVec F S64x64 .f32) (main_arg23 : FVec F S64 .f32) (main_arg24 : FVec F S64x1 .f32) (main_arg25 : FVec F S1 .f32) (main_v83 : IVec S_ 1) (main_v84 : FVec F S64 .f32) (main_cst_32 : FVec F S_ .f32) : IVec S_ 1 :=
  let main_v85 : FVec F S64 .f32 := broadcastInDim S64 ![] bcast_S_S64 main_cst_32
  let main_v86 : IVec S64 1 := cmpf .olt main_v84 main_v85
  let main_c_33 : IVec S_ 1 := constantI S_ 1 1#1
  let main_v87 : IVec S_ 1 := (fun x v => Host.reduce IntOp.andi x v reducesTo_S64_S_d0 h_S_) main_v86 main_c_33
  let main_v88 : IVec S_ 1 := andi main_v83 main_v87
  let main_v89 : FVec F S64x64 .f32 := Host.absf main_arg22
  let main_cst_34 : FVec F S_ .f32 := constant S_ .f32 0x7F800000#32
  let main_v90 : FVec F S64x64 .f32 := broadcastInDim S64x64 ![] bcast_S_S64x64 main_cst_34
  let main_v91 : IVec S64x64 1 := cmpf .olt main_v89 main_v90
  let main_c_35 : IVec S_ 1 := constantI S_ 1 1#1
  let main_v92 : IVec S_ 1 := (fun x v => Host.reduce IntOp.andi x v reducesTo_S64x64_S_d0_1 h_S_) main_v91 main_c_35
  let main_v93 : IVec S_ 1 := andi main_v88 main_v92
  let main_v94 : FVec F S64 .f32 := Host.absf main_arg23
  let main_cst_36 : FVec F S_ .f32 := constant S_ .f32 0x7F800000#32
  let main_v95 : FVec F S64 .f32 := broadcastInDim S64 ![] bcast_S_S64 main_cst_36
  let main_v96 : IVec S64 1 := cmpf .olt main_v94 main_v95
  let main_c_37 : IVec S_ 1 := constantI S_ 1 1#1
  let main_v97 : IVec S_ 1 := (fun x v => Host.reduce IntOp.andi x v reducesTo_S64_S_d0 h_S_) main_v96 main_c_37
  let main_v98 : IVec S_ 1 := andi main_v93 main_v97
  let main_v99 : FVec F S64x1 .f32 := Host.absf main_arg24
  let main_cst_38 : FVec F S_ .f32 := constant S_ .f32 0x7F800000#32
  let main_v100 : FVec F S64x1 .f32 := broadcastInDim S64x1 ![] bcast_S_S64x1 main_cst_38
  let main_v101 : IVec S64x1 1 := cmpf .olt main_v99 main_v100
  let main_c_39 : IVec S_ 1 := constantI S_ 1 1#1
  fn_part6 (F := F) main_arg25 main_v98 main_v101 main_c_39

def fn_part4 {F : FTy → Type} [FloatOps F] (main_arg18 : FVec F S128 .f32) (main_arg19 : FVec F S128 .f32) (main_arg20 : FVec F S257x64 .f32) (main_arg21 : FVec F S64 .f32) (main_arg22 : FVec F S64x64 .f32) (main_arg23 : FVec F S64 .f32) (main_arg24 : FVec F S64x1 .f32) (main_arg25 : FVec F S1 .f32) (main_v63 : IVec S_ 1) (main_v67 : IVec S_ 1) : IVec S_ 1 :=
  let main_v68 : IVec S_ 1 := andi main_v63 main_v67
  let main_v69 : FVec F S128 .f32 := Host.absf main_arg18
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128 .f32 := Host.absf main_arg19
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S257x64 .f32 := Host.absf main_arg20
  let main_cst_30 : FVec F S_ .f32 := constant S_ .f32 0x7F800000#32
  let main_v80 : FVec F S257x64 .f32 := broadcastInDim S257x64 ![] bcast_S_S257x64 main_cst_30
  let main_v81 : IVec S257x64 1 := cmpf .olt main_v79 main_v80
  let main_c_31 : IVec S_ 1 := constantI S_ 1 1#1
  let main_v82 : IVec S_ 1 := (fun x v => Host.reduce IntOp.andi x v reducesTo_S257x64_S_d0_1 h_S_) main_v81 main_c_31
  let main_v83 : IVec S_ 1 := andi main_v78 main_v82
  let main_v84 : FVec F S64 .f32 := Host.absf main_arg21
  let main_cst_32 : FVec F S_ .f32 := constant S_ .f32 0x7F800000#32
  fn_part5 (F := F) main_arg22 main_arg23 main_arg24 main_arg25 main_v83 main_v84 main_cst_32

def fn_part3 {F : FTy → Type} [FloatOps F] (main_arg15 : FVec F S128 .f32) (main_arg16 : FVec F S128 .f32) (main_arg17 : FVec F S128 .f32) (main_arg18 : FVec F S128 .f32) (main_arg19 : FVec F S128 .f32) (main_arg20 : FVec F S257x64 .f32) (main_arg21 : FVec F S64 .f32) (main_arg22 : FVec F S64x64 .f32) (main_arg23 : FVec F S64 .f32) (main_arg24 : FVec F S64x1 .f32) (main_arg25 : FVec F S1 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg15
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg16
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg17
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg18 main_arg19 main_arg20 main_arg21 main_arg22 main_arg23 main_arg24 main_arg25 main_v63 main_v67

def fn_part2 {F : FTy → Type} [FloatOps F] (main_arg11 : FVec F S128 .f32) (main_arg12 : FVec F S128 .f32) (main_arg13 : FVec F S128x128 .f32) (main_arg14 : FVec F S128x128 .f32) (main_arg15 : FVec F S128 .f32) (main_arg16 : FVec F S128 .f32) (main_arg17 : FVec F S128 .f32) (main_arg18 : FVec F S128 .f32) (main_arg19 : FVec F S128 .f32) (main_arg20 : FVec F S257x64 .f32) (main_arg21 : FVec F S64 .f32) (main_arg22 : FVec F S64x64 .f32) (main_arg23 : FVec F S64 .f32) (main_arg24 : FVec F S64x1 .f32) (main_arg25 : FVec F S1 .f32) (main_v33 : IVec S_ 1) : IVec S_ 1 :=
  let main_v34 : FVec F S128 .f32 := Host.absf main_arg11
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg12
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg13
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128x128 .f32 := Host.absf main_arg14
  let main_cst_18 : FVec F S_ .f32 := constant S_ .f32 0x7F800000#32
  let main_v50 : FVec F S128x128 .f32 := broadcastInDim S128x128 ![] bcast_S_S128x128 main_cst_18
  fn_part3 (F := F) main_arg15 main_arg16 main_arg17 main_arg18 main_arg19 main_arg20 main_arg21 main_arg22 main_arg23 main_arg24 main_arg25 main_v48 main_v49 main_v50

def fn_part1 {F : FTy → Type} [FloatOps F] (main_arg8 : FVec F S128 .f32) (main_arg9 : FVec F S128 .f32) (main_arg10 : FVec F S128 .f32) (main_arg11 : FVec F S128 .f32) (main_arg12 : FVec F S128 .f32) (main_arg13 : FVec F S128x128 .f32) (main_arg14 : FVec F S128x128 .f32) (main_arg15 : FVec F S128 .f32) (main_arg16 : FVec F S128 .f32) (main_arg17 : FVec F S128 .f32) (main_arg18 : FVec F S128 .f32) (main_arg19 : FVec F S128 .f32) (main_arg20 : FVec F S257x64 .f32) (main_arg21 : FVec F S64 .f32) (main_arg22 : FVec F S64x64 .f32) (main_arg23 : FVec F S64 .f32) (main_arg24 : FVec F S64x1 .f32) (main_arg25 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg8
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg9
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg10
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg11 main_arg12 main_arg13 main_arg14 main_arg15 main_arg16 main_arg17 main_arg18 main_arg19 main_arg20 main_arg21 main_arg22 main_arg23 main_arg24 main_arg25 main_v33

def fn {F : FTy → Type} [FloatOps F] (main_arg0 : FVec F S50000x128 .f32) (main_arg1 : IVec S800000 32) (main_arg2 : IVec S800000 32) (main_arg3 : IVec S100000 32) (main_arg4 : IVec S100000 32) (main_arg5 : FVec F S100000x1 .f32) (main_arg6 : FVec F S128x128 .f32) (main_arg7 : FVec F S128x128 .f32) (main_arg8 : FVec F S128 .f32) (main_arg9 : FVec F S128 .f32) (main_arg10 : FVec F S128 .f32) (main_arg11 : FVec F S128 .f32) (main_arg12 : FVec F S128 .f32) (main_arg13 : FVec F S128x128 .f32) (main_arg14 : FVec F S128x128 .f32) (main_arg15 : FVec F S128 .f32) (main_arg16 : FVec F S128 .f32) (main_arg17 : FVec F S128 .f32) (main_arg18 : FVec F S128 .f32) (main_arg19 : FVec F S128 .f32) (main_arg20 : FVec F S257x64 .f32) (main_arg21 : FVec F S64 .f32) (main_arg22 : FVec F S64x64 .f32) (main_arg23 : FVec F S64 .f32) (main_arg24 : FVec F S64x1 .f32) (main_arg25 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S100000x1 .f32 := Host.absf main_arg5
  let main_cst_0 : FVec F S_ .f32 := constant S_ .f32 0x7F800000#32
  let main_v5 : FVec F S100000x1 .f32 := broadcastInDim S100000x1 ![] bcast_S_S100000x1 main_cst_0
  let main_v6 : IVec S100000x1 1 := cmpf .olt main_v4 main_v5
  let main_c_1 : IVec S_ 1 := constantI S_ 1 1#1
  let main_v7 : IVec S_ 1 := (fun x v => Host.reduce IntOp.andi x v reducesTo_S100000x1_S_d0_1 h_S_) main_v6 main_c_1
  let main_v8 : IVec S_ 1 := andi main_v3 main_v7
  let main_v9 : FVec F S128x128 .f32 := Host.absf main_arg6
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg7
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg8 main_arg9 main_arg10 main_arg11 main_arg12 main_arg13 main_arg14 main_arg15 main_arg16 main_arg17 main_arg18 main_arg19 main_arg20 main_arg21 main_arg22 main_arg23 main_arg24 main_arg25 main_v13 main_v16
-- ==== Kernel.lean ====
abbrev S50000x128 : Shape := ⟨2, ![50000, 128]⟩
abbrev S800000 : Shape := ⟨1, ![800000]⟩
abbrev S100000 : Shape := ⟨1, ![100000]⟩
abbrev S100000x1 : Shape := ⟨2, ![100000, 1]⟩
abbrev S128x128 : Shape := ⟨2, ![128, 128]⟩
abbrev S128 : Shape := ⟨1, ![128]⟩
abbrev S257x64 : Shape := ⟨2, ![257, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S5000x128 : Shape := ⟨2, ![5000, 128]⟩
abbrev S1x128 : Shape := ⟨2, ![1, 128]⟩
abbrev S100000x128 : Shape := ⟨2, ![100000, 128]⟩
abbrev S100000x257 : Shape := ⟨2, ![100000, 257]⟩
abbrev S2000x257 : Shape := ⟨2, ![2000, 257]⟩
abbrev S2000x1 : Shape := ⟨2, ![2000, 1]⟩
abbrev S2000x64 : Shape := ⟨2, ![2000, 64]⟩
abbrev S1x64 : Shape := ⟨2, ![1, 64]⟩
abbrev S1x1 : Shape := ⟨2, ![1, 1]⟩

abbrev nBuf : Space → Nat
  | .hbm => 128
  | .vmem => 36
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S100000, .i32⟩
  | .hbm, ⟨4, _⟩ => ⟨S100000, .i32⟩
  | .hbm, ⟨5, _⟩ => ⟨S100000x1, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S128x128, .f32⟩
  | .hbm, ⟨14, _⟩ => ⟨S128x128, .f32⟩
  | .hbm, ⟨15, _⟩ => ⟨S128, .f32⟩
  | .hbm, ⟨16, _⟩ => ⟨S128, .f32⟩
  | .hbm, ⟨17, _⟩ => ⟨S128, .f32⟩
  | .hbm, ⟨18, _⟩ => ⟨S128, .f32⟩
  | .hbm, ⟨19, _⟩ => ⟨S128, .f32⟩
  | .hbm, ⟨20, _⟩ => ⟨S257x64, .f32⟩
  | .hbm, ⟨21, _⟩ => ⟨S64, .f32⟩
  | .hbm, ⟨22, _⟩ => ⟨S64x64, .f32⟩
  | .hbm, ⟨23, _⟩ => ⟨S64, .f32⟩
  | .hbm, ⟨24, _⟩ => ⟨S64x1, .f32⟩
  | .hbm, ⟨25, _⟩ => ⟨S1, .f32⟩
  | .hbm, ⟨26, _⟩ => ⟨S_, .i32⟩
  | .hbm, ⟨27, _⟩ => ⟨S800000, .i32⟩
  | .hbm, ⟨28, _⟩ => ⟨S800000, .i1⟩
  | .hbm, ⟨29, _⟩ => ⟨S_, .i32⟩
  | .hbm, ⟨30, _⟩ => ⟨S800000, .i32⟩
  | .hbm, ⟨31, _⟩ => ⟨S800000, .i32⟩
  | .hbm, ⟨32, _⟩ => ⟨S800000, .i32⟩
  | .hbm, ⟨33, _⟩ => ⟨S800000x1, .i32⟩
  | .hbm, ⟨34, _⟩ => ⟨S800000x128, .f32⟩
  | .hbm, ⟨35, _⟩ => ⟨S_, .f32⟩
  | .hbm, ⟨36, _⟩ => ⟨S50000x128, .f32⟩
  | .hbm, ⟨37, _⟩ => ⟨S800000x1, .i32⟩
  | .hbm, ⟨38, _⟩ => ⟨S50000x128, .f32⟩
  | .hbm, ⟨39, _⟩ => ⟨S_, .f32⟩
  | .hbm, ⟨40, _⟩ => ⟨S800000, .f32⟩
  | .hbm, ⟨41, _⟩ => ⟨S_, .f32⟩
  | .hbm, ⟨42, _⟩ => ⟨S50000, .f32⟩
  | .hbm, ⟨43, _⟩ => ⟨S800000x1, .i32⟩
  | .hbm, ⟨44, _⟩ => ⟨S50000, .f32⟩
  | .hbm, ⟨45, _⟩ => ⟨S_, .f32⟩
  | .hbm, ⟨46, _⟩ => ⟨S50000, .f32⟩
  | .hbm, ⟨47, _⟩ => ⟨S50000, .f32⟩
  | .hbm, ⟨48, _⟩ => ⟨S50000x1, .f32⟩
  | .hbm, ⟨49, _⟩ => ⟨S50000x128, .f32⟩
  | .hbm, ⟨50, _⟩ => ⟨S50000x128, .f32⟩
  | .hbm, ⟨51, _⟩ => ⟨S50000x128, .f32⟩
  | .hbm, ⟨52, _⟩ => ⟨S_, .i32⟩
  | .hbm, ⟨53, _⟩ => ⟨S800000, .i32⟩
  | .hbm, ⟨54, _⟩ => ⟨S800000, .i1⟩
  | .hbm, ⟨55, _⟩ => ⟨S_, .i32⟩
  | .hbm, ⟨56, _⟩ => ⟨S800000, .i32⟩
  | .hbm, ⟨57, _⟩ => ⟨S800000, .i32⟩
  | .hbm, ⟨58, _⟩ => ⟨S800000, .i32⟩
  | .hbm, ⟨59, _⟩ => ⟨S800000x1, .i32⟩
  | .hbm, ⟨60, _⟩ => ⟨S800000x128, .f32⟩
  | .hbm, ⟨61, _⟩ => ⟨S_, .f32⟩
  | .hbm, ⟨62, _⟩ => ⟨S50000x128, .f32⟩
  | .hbm, ⟨63, _⟩ => ⟨S800000x1, .i32⟩
  | .hbm, ⟨64, _⟩ => ⟨S50000x128, .f32⟩
  | .hbm, ⟨65, _⟩ => ⟨S_, .f32⟩
  | .hbm, ⟨66, _⟩ => ⟨S800000, .f32⟩
  | .hbm, ⟨67, _⟩ => ⟨S_, .f32⟩
  | .hbm, ⟨68, _⟩ => ⟨S50000, .f32⟩
  | .hbm, ⟨69, _⟩ => ⟨S800000x1, .i32⟩
  | .hbm, ⟨70, _⟩ => ⟨S50000, .f32⟩
  | .hbm, ⟨71, _⟩ => ⟨S_, .f32⟩
  | .hbm, ⟨72, _⟩ => ⟨S50000, .f32⟩
  | .hbm, ⟨73, _⟩ => ⟨S50000, .f32⟩
  | .hbm, ⟨74, _⟩ => ⟨S50000x1, .f32⟩
  | .hbm, ⟨75, _⟩ => ⟨S50000x128, .f32⟩
  | .hbm, ⟨76, _⟩ => ⟨S50000x128, .f32⟩
  | .hbm, ⟨77, _⟩ => ⟨S50000x128, .f32⟩
  | .hbm, ⟨78, _⟩ => ⟨S50000x128, .i1⟩
  | .hbm, ⟨79, _⟩ => ⟨S_, .f32⟩
  | .hbm, ⟨80, _⟩ => ⟨S50000x128, .f32⟩
  | .hbm, ⟨81, _⟩ => ⟨S50000x128, .f32⟩
  | .hbm, ⟨82, _⟩ => ⟨S_, .f32⟩
  | .hbm, ⟨83, _⟩ => ⟨S50000x128, .f32⟩
  | .hbm, ⟨84, _⟩ => ⟨S50000x128, .i1⟩
  | .hbm, ⟨85, _⟩ => ⟨S_, .f32⟩
  | .hbm, ⟨86, _⟩ => ⟨S50000x128, .f32⟩
  | .hbm, ⟨87, _⟩ => ⟨S50000x128, .f32⟩
  | .hbm, ⟨88, _⟩ => ⟨S_, .f32⟩
  | .hbm, ⟨89, _⟩ => ⟨S50000x128, .f32⟩
  | .hbm, ⟨90, _⟩ => ⟨S50000x128, .i1⟩
  | .hbm, ⟨91, _⟩ => ⟨S_, .f32⟩
  | .hbm, ⟨92, _⟩ => ⟨S50000x128, .f32⟩
  | .hbm, ⟨93, _⟩ => ⟨S50000x128, .f32⟩
  | .hbm, ⟨94, _⟩ => ⟨S_, .i32⟩
  | .hbm, ⟨95, _⟩ => ⟨S100000, .i32⟩
  | .hbm, ⟨96, _⟩ => ⟨S100000, .i1⟩
  | .hbm, ⟨97, _⟩ => ⟨S_, .i32⟩
  | .hbm, ⟨98, _⟩ => ⟨S100000, .i32⟩
  | .hbm, ⟨99, _⟩ => ⟨S100000, .i32⟩
  | .hbm, ⟨100, _⟩ => ⟨S100000, .i32⟩
  | .hbm, ⟨101, _⟩ => ⟨S100000x1, .i32⟩
  | .hbm, ⟨102, _⟩ => ⟨S100000x128, .f32⟩
  | .hbm, ⟨103, _⟩ => ⟨S_, .i32⟩
  | .hbm, ⟨104, _⟩ => ⟨S100000, .i32⟩
  | .hbm, ⟨105, _⟩ => ⟨S100000, .i1⟩
  | .hbm, ⟨106, _⟩ => ⟨S_, .i32⟩
  | .hbm, ⟨107, _⟩ => ⟨S100000, .i32⟩
  | .hbm, ⟨108, _⟩ => ⟨S100000, .i32⟩
  | .hbm, ⟨109, _⟩ => ⟨S100000, .i32⟩
  | .hbm, ⟨110, _⟩ => ⟨S100000x1, .i32⟩
  | .hbm, ⟨111, _⟩ => ⟨S100000x128, .f32⟩
  | .hbm, ⟨112, _⟩ => ⟨S100000x257, .f32⟩
  | .hbm, ⟨113, _⟩ => ⟨S100000x1, .f32⟩
  | .hbm, ⟨114, _⟩ => ⟨S_, .f32⟩
  | .hbm, ⟨115, _⟩ => ⟨S1, .f32⟩
  | .hbm, ⟨116, _⟩ => ⟨S_, .f32⟩
  | .hbm, ⟨117, _⟩ => ⟨S1, .f32⟩
  | .hbm, ⟨118, _⟩ => ⟨S1, .f32⟩
  | .hbm, ⟨119, _⟩ => ⟨S1x1, .f32⟩
  | .hbm, ⟨120, _⟩ => ⟨S100000x1, .f32⟩
  | .hbm, ⟨121, _⟩ => ⟨S100000x1, .f32⟩
  | .hbm, ⟨122, _⟩ => ⟨S100000x1, .f32⟩
  | .hbm, ⟨123, _⟩ => ⟨S_, .f32⟩
  | .hbm, ⟨124, _⟩ => ⟨S1, .f32⟩
  | .hbm, ⟨125, _⟩ => ⟨S1x1, .f32⟩
  | .hbm, ⟨126, _⟩ => ⟨S100000x1, .f32⟩
  | .hbm, ⟨127, _⟩ => ⟨S100000x1, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S128, .f32⟩
  | .local _ .vmem, ⟨7, _⟩ => ⟨S128, .f32⟩
  | .local _ .vmem, ⟨8, _⟩ => ⟨S128, .f32⟩
  | .local _ .vmem, ⟨9, _⟩ => ⟨S128, .f32⟩
  | .local _ .vmem, ⟨10, _⟩ => ⟨S128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S128x128, .f32⟩
  | .local _ .vmem, ⟨18, _⟩ => ⟨S128x128, .f32⟩
  | .local _ .vmem, ⟨19, _⟩ => ⟨S128, .f32⟩
  | .local _ .vmem, ⟨20, _⟩ => ⟨S128, .f32⟩
  | .local _ .vmem, ⟨21, _⟩ => ⟨S128, .f32⟩
  | .local _ .vmem, ⟨22, _⟩ => ⟨S128, .f32⟩
  | .local _ .vmem, ⟨23, _⟩ => ⟨S128, .f32⟩
  | .local _ .vmem, ⟨24, _⟩ => ⟨S5000x128, .f32⟩
  | .local _ .vmem, ⟨25, _⟩ => ⟨S5000x128, .f32⟩
  | .local _ .vmem, ⟨26, _⟩ => ⟨S2000x257, .f32⟩
  | .local _ .vmem, ⟨27, _⟩ => ⟨S2000x257, .f32⟩
  | .local _ .vmem, ⟨28, _⟩ => ⟨S257x64, .f32⟩
  | .local _ .vmem, ⟨29, _⟩ => ⟨S64, .f32⟩
  | .local _ .vmem, ⟨30, _⟩ => ⟨S64x64, .f32⟩
  | .local _ .vmem, ⟨31, _⟩ => ⟨S64, .f32⟩
  | .local _ .vmem, ⟨32, _⟩ => ⟨S64x1, .f32⟩
  | .local _ .vmem, ⟨33, _⟩ => ⟨S1, .f32⟩
  | .local _ .vmem, ⟨34, _⟩ => ⟨S2000x1, .f32⟩
  | .local _ .vmem, ⟨35, _⟩ => ⟨S2000x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_c : Ref sig .tc := ⟨.hbm, 26, rfl⟩
abbrev main_v0 : Ref sig .tc := ⟨.hbm, 27, rfl⟩
abbrev main_v1 : Ref sig .tc := ⟨.hbm, 28, rfl⟩
abbrev main_c_0 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_cst : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_cst_1 : Ref sig .tc := ⟨.hbm, 39, rfl⟩
abbrev main_v10 : Ref sig .tc := ⟨.hbm, 40, rfl⟩
abbrev main_cst_2 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_cst_3 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_c_4 : Ref sig .tc := ⟨.hbm, 52, rfl⟩
abbrev main_v20 : Ref sig .tc := ⟨.hbm, 53, rfl⟩
abbrev main_v21 : Ref sig .tc := ⟨.hbm, 54, rfl⟩
abbrev main_c_5 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_cst_6 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_cst_7 : Ref sig .tc := ⟨.hbm, 65, rfl⟩
abbrev main_v30 : Ref sig .tc := ⟨.hbm, 66, rfl⟩
abbrev main_cst_8 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_cst_9 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_cst_10 : Ref sig .tc := ⟨.hbm, 79, rfl⟩
abbrev main_call0_v0 : Ref sig .tc := ⟨.hbm, 80, rfl⟩
abbrev main_v41 : Ref sig .tc := ⟨.hbm, 81, rfl⟩
abbrev main_cst_11 : Ref sig .tc := ⟨.hbm, 82, rfl⟩
abbrev main_v42 : Ref sig .tc := ⟨.hbm, 83, rfl⟩
abbrev main_v43 : Ref sig .tc := ⟨.hbm, 84, rfl⟩
abbrev main_cst_12 : Ref sig .tc := ⟨.hbm, 85, rfl⟩
abbrev main_call1_v0 : Ref sig .tc := ⟨.hbm, 86, rfl⟩
abbrev main_v44 : Ref sig .tc := ⟨.hbm, 87, rfl⟩
abbrev main_cst_13 : Ref sig .tc := ⟨.hbm, 88, rfl⟩
abbrev main_v45 : Ref sig .tc := ⟨.hbm, 89, rfl⟩
abbrev main_v46 : Ref sig .tc := ⟨.hbm, 90, rfl⟩
abbrev main_cst_14 : Ref sig .tc := ⟨.hbm, 91, rfl⟩
abbrev main_call2_v0 : Ref sig .tc := ⟨.hbm, 92, rfl⟩
abbrev main_v47 : Ref sig .tc := ⟨.hbm, 93, rfl⟩
abbrev main_c_15 : Ref sig .tc := ⟨.hbm, 94, rfl⟩
abbrev main_v48 : Ref sig .tc := ⟨.hbm, 95, rfl⟩
abbrev main_v49 : Ref sig .tc := ⟨.hbm, 96, rfl⟩
abbrev main_c_16 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_v54 : Ref sig .tc := ⟨.hbm, 102, rfl⟩
abbrev main_c_17 : Ref sig .tc := ⟨.hbm, 103, rfl⟩
abbrev main_v55 : Ref sig .tc := ⟨.hbm, 104, rfl⟩
abbrev main_v56 : Ref sig .tc := ⟨.hbm, 105, rfl⟩
abbrev main_c_18 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_v62 : Ref sig .tc := ⟨.hbm, 112, rfl⟩
abbrev main_v63 : Ref sig .tc := ⟨.hbm, 113, rfl⟩
abbrev main_cst_19 : Ref sig .tc := ⟨.hbm, 114, rfl⟩
abbrev main_v64 : Ref sig .tc := ⟨.hbm, 115, rfl⟩
abbrev main_cst_20 : Ref sig .tc := ⟨.hbm, 116, rfl⟩
abbrev main_v65 : Ref sig .tc := ⟨.hbm, 117, rfl⟩
abbrev main_v66 : Ref sig .tc := ⟨.hbm, 118, rfl⟩
abbrev main_v67 : Ref sig .tc := ⟨.hbm, 119, rfl⟩
abbrev main_v68 : Ref sig .tc := ⟨.hbm, 120, rfl⟩
abbrev main_v69 : Ref sig .tc := ⟨.hbm, 121, rfl⟩
abbrev main_v70 : Ref sig .tc := ⟨.hbm, 122, rfl⟩
abbrev main_cst_21 : Ref sig .tc := ⟨.hbm, 123, rfl⟩
abbrev main_v71 : Ref sig .tc := ⟨.hbm, 124, rfl⟩
abbrev main_v72 : Ref sig .tc := ⟨.hbm, 125, rfl⟩
abbrev main_v73 : Ref sig .tc := ⟨.hbm, 126, rfl⟩
abbrev main_v74 : Ref sig .tc := ⟨.hbm, 127, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg8_0 : Ref sig .tc := ⟨.vmem, 23, rfl⟩
abbrev cc1_stg9_0 : Ref sig .tc := ⟨.vmem, 24, rfl⟩
abbrev cc1_stg9_1 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg2_0 : Ref sig .tc := ⟨.vmem, 29, rfl⟩
abbrev cc2_stg3_0 : Ref sig .tc := ⟨.vmem, 30, rfl⟩
abbrev cc2_stg4_0 : Ref sig .tc := ⟨.vmem, 31, rfl⟩
abbrev cc2_stg5_0 : Ref sig .tc := ⟨.vmem, 32, rfl⟩
abbrev cc2_stg6_0 : Ref sig .tc := ⟨.vmem, 33, rfl⟩
abbrev cc2_stg7_0 : Ref sig .tc := ⟨.vmem, 34, rfl⟩
abbrev cc2_stg7_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem8_0 : DmaSem sig := 23
abbrev cc1_sem9_0 : DmaSem sig := 24
abbrev cc1_sem9_1 : DmaSem sig := 25
abbrev cc2_sem0_0 : DmaSem sig := 26
abbrev cc2_sem0_1 : DmaSem sig := 27
abbrev cc2_sem1_0 : DmaSem sig := 28
abbrev cc2_sem2_0 : DmaSem sig := 29
abbrev cc2_sem3_0 : DmaSem sig := 30
abbrev cc2_sem4_0 : DmaSem sig := 31
abbrev cc2_sem5_0 : DmaSem sig := 32
abbrev cc2_sem6_0 : DmaSem sig := 33
abbrev cc2_sem7_0 : DmaSem sig := 34
abbrev cc2_sem7_1 : DmaSem sig := 35

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S5000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S5000x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x257 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S257x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S2000x1 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  bcast_S_S100000 : S_.BroadcastsInDim S100000 (![] : Fin 0 → Fin S100000.rank)
  bcast_S100000_S100000x1_0 : S100000.BroadcastsInDim S100000x1 (![0] : Fin 1 → Fin S100000x1.rank)
  concatenates_S100000x128_S100000x128_S100000x1_S100000x257_d1 : Shape.Concatenates [S100000x128, S100000x128, S100000x1] S100000x257 1
  inb_S2000x257_S2000x257_0_0 : ∀ a, (![0, 0] : Fin 2 → Nat) a + S2000x257.size a ≤ S2000x257.size a
  h_S2000x257 : 0 < S2000x257.numel
  shapeCasts_S2000x257_S2000x257 : S2000x257.ShapeCasts S2000x257
  inb_S257x64_S257x64_0_0 : ∀ a, (![0, 0] : Fin 2 → Nat) a + S257x64.size a ≤ S257x64.size a
  h_S257x64 : 0 < S257x64.numel
  inb_S64_S64_0 : ∀ a, (![0] : Fin 1 → Nat) a + S64.size a ≤ S64.size a
  h_S64 : 0 < S64.numel
  shapeCasts_S64_S1x64 : S64.ShapeCasts S1x64
  broadcasts_S1x64_S2000x64 : S1x64.Broadcasts S2000x64
  inb_S64x64_S64x64_0_0 : ∀ a, (![0, 0] : Fin 2 → Nat) a + S64x64.size a ≤ S64x64.size a
  h_S64x64 : 0 < S64x64.numel
  inb_S64x1_S64x1_0_0 : ∀ a, (![0, 0] : Fin 2 → Nat) a + S64x1.size a ≤ S64x1.size a
  h_S64x1 : 0 < S64x1.numel
  inb_S1_S1_0 : ∀ a, (![0] : Fin 1 → Nat) a + S1.size a ≤ S1.size a
  h_S1 : 0 < S1.numel
  shapeCasts_S1_S1x1 : S1.ShapeCasts S1x1
  broadcasts_S1x1_S2000x1 : S1x1.Broadcasts S2000x1
  inb_S2000x1_S2000x1_0_0 : ∀ a, (![0, 0] : Fin 2 → Nat) a + S2000x1.size a ≤ S2000x1.size a
  h_S2000x1 : 0 < S2000x1.numel
  reducesTo_S100000x1_S1_d0 : S100000x1.ReducesTo [0] S1
  h_S_ : 0 < S_.numel
  bcast_S_S1 : S_.BroadcastsInDim S1 (![] : Fin 0 → Fin S1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S5000x128_S128x128_S5000x128_1_0_0_1_n_n_wf : DotDims.WF S5000x128 S128x128 S5000x128 [1] [0] [0] [1] [] []
  gather_S50000x128_S100000x1_S100000x128_1_0_n_n_0_1_1128_wf : GatherDims.WF S50000x128 S100000x1 S100000x128 [1] [0] [] [0] [] 1 ![1, 128]
  dot_S2000x257_S257x64_S2000x64_1_0_0_1_n_n_wf : DotDims.WF S2000x257 S257x64 S2000x64 [1] [0] [0] [1] [] []
  dot_S2000x64_S64x64_S2000x64_1_0_0_1_n_n_wf : DotDims.WF S2000x64 S64x64 S2000x64 [1] [0] [0] [1] [] []
  dot_S2000x64_S64x1_S2000x1_1_0_0_1_n_n_wf : DotDims.WF S2000x64 S64x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S5000x128.size a ≤ S50000x128.size a
  hwx0_9 : ∀ i : grid0.Coords, EltTy.bits .f32 = 32 ∨ (Rect.block (s := S50000x128) S5000x128.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128.size a ≤ S128.size a
  hwx1_7 : ∀ i : grid1.Coords, EltTy.bits .f32 = 32 ∨ (Rect.block (s := S128) S128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128.size a ≤ S128.size a
  hwx1_8 : ∀ i : grid1.Coords, EltTy.bits .f32 = 32 ∨ (Rect.block (s := S128) S128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S5000x128.size a ≤ S50000x128.size a
  hwx1_9 : ∀ i : grid1.Coords, EltTy.bits .f32 = 32 ∨ (Rect.block (s := S50000x128) S5000x128.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x257.size a ≤ S100000x257.size a
  hwx2_0 : ∀ i : grid2.Coords, EltTy.bits .f32 = 32 ∨ (Rect.block (s := S100000x257) S2000x257.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S257x64.size a ≤ S257x64.size a
  hwx2_1 : ∀ i : grid2.Coords, EltTy.bits .f32 = 32 ∨ (Rect.block (s := S257x64) S257x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64.size a ≤ S64.size a
  hwx2_2 : ∀ i : grid2.Coords, EltTy.bits .f32 = 32 ∨ (Rect.block (s := S64) S64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64.size a ≤ S64.size a
  hwx2_4 : ∀ i : grid2.Coords, EltTy.bits .f32 = 32 ∨ (Rect.block (s := S64) S64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x1.size a ≤ S64x1.size a
  hwx2_5 : ∀ i : grid2.Coords, EltTy.bits .f32 = 32 ∨ (Rect.block (s := S64x1) S64x1.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1.size a ≤ S1.size a
  hwx2_6 : ∀ i : grid2.Coords, EltTy.bits .f32 = 32 ∨ (Rect.block (s := S1) S1.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S2000x1.size a ≤ S100000x1.size a
  hwx2_7 : ∀ i : grid2.Coords, EltTy.bits .f32 = 32 ∨ (Rect.block (s := S100000x1) S2000x1.size (cc2_transform_7 i) (hinb2_7 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S100000x1_S100000x128_1_0_n_n_0_1_1128 : GatherDims S50000x128 S100000x1 S100000x128 where
  offsetDims := [1]
  collapsedSliceDims := [0]
  operandBatchingDims := []
  startIndicesBatchingDims := []
  startIndexMap := [0]
  indexVectorDim := 1
  sliceSizes := ![1, 128]
  wf := gather_S50000x128_S100000x1_S100000x128_1_0_n_n_0_1_1128_wf
def dot_S2000x257_S257x64_S2000x64_1_0_0_1_n_n : DotDims S2000x257 S257x64 S2000x64 where
  lhsContracting := [1]
  rhsContracting := [0]
  lhsNonContracting := [0]
  rhsNonContracting := [1]
  lhsBatch := []
  rhsBatch := []
  wf := dot_S2000x257_S257x64_S2000x64_1_0_0_1_n_n_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def dot_S2000x64_S64x1_S2000x1_1_0_0_1_n_n : DotDims S2000x64 S64x1 S2000x1 where
  lhsContracting := [1]
  rhsContracting := [0]
  lhsNonContracting := [0]
  rhsNonContracting := [1]
  lhsBatch := []
  rhsBatch := []
  wf := dot_S2000x64_S64x1_S2000x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg7) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg8) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg9) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg10) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg11) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg12) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v19) S5000x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v19) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v38) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg13) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg14) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg15) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg16) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg17) S128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg18) S128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg19) S128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v39) S5000x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v62) S2000x257.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg20) S257x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg21) S64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg22) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg23) S64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg24) S64x1.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg25) S1.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v63) S2000x1.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S50000x128 : Shape := ⟨2, ![50000, 128]⟩
abbrev S800000 : Shape := ⟨1, ![800000]⟩
abbrev S100000 : Shape := ⟨1, ![100000]⟩
abbrev S100000x1 : Shape := ⟨2, ![100000, 1]⟩
abbrev S128x128 : Shape := ⟨2, ![128, 128]⟩
abbrev S128 : Shape := ⟨1, ![128]⟩
abbrev S257x64 : Shape := ⟨2, ![257, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S100000x128 : Shape := ⟨2, ![100000, 128]⟩
abbrev S100000x257 : Shape := ⟨2, ![100000, 257]⟩
abbrev S100000x64 : Shape := ⟨2, ![100000, 64]⟩
abbrev S1x64 : Shape := ⟨2, ![1, 64]⟩
abbrev S1x1 : Shape := ⟨2, ![1, 1]⟩

abbrev nBuf : Space → Nat
  | .hbm => 214
  | .vmem => 0
  | .smem => 0
  | _ => 0

abbrev hbmTy0_0 (i : Nat) : BufTy := match i % 128 with
  | 0 => ⟨S50000x128, .f32⟩
  | 1 => ⟨S800000, .i32⟩
  | 2 => ⟨S800000, .i32⟩
  | 3 => ⟨S100000, .i32⟩
  | 4 => ⟨S100000, .i32⟩
  | 5 => ⟨S100000x1, .f32⟩
  | 6 => ⟨S128x128, .f32⟩
  | 7 => ⟨S128x128, .f32⟩
  | 8 => ⟨S128, .f32⟩
  | 9 => ⟨S128, .f32⟩
  | 10 => ⟨S128, .f32⟩
  | 11 => ⟨S128, .f32⟩
  | 12 => ⟨S128, .f32⟩
  | 13 => ⟨S128x128, .f32⟩
  | 14 => ⟨S128x128, .f32⟩
  | 15 => ⟨S128, .f32⟩
  | 16 => ⟨S128, .f32⟩
  | 17 => ⟨S128, .f32⟩
  | 18 => ⟨S128, .f32⟩
  | 19 => ⟨S128, .f32⟩
  | 20 => ⟨S257x64, .f32⟩
  | 21 => ⟨S64, .f32⟩
  | 22 => ⟨S64x64, .f32⟩
  | 23 => ⟨S64, .f32⟩
  | 24 => ⟨S64x1, .f32⟩
  | 25 => ⟨S1, .f32⟩
  | 26 => ⟨S_, .i32⟩
  | 27 => ⟨S800000, .i32⟩
  | 28 => ⟨S800000, .i1⟩
  | 29 => ⟨S_, .i32⟩
  | 30 => ⟨S800000, .i32⟩
  | 31 => ⟨S800000, .i32⟩
  | 32 => ⟨S800000, .i32⟩
  | 33 => ⟨S800000x1, .i32⟩
  | 34 => ⟨S800000x128, .f32⟩
  | 35 => ⟨S_, .f32⟩
  | 36 => ⟨S50000x128, .f32⟩
  | 37 => ⟨S800000x1, .i32⟩
  | 38 => ⟨S50000x128, .f32⟩
  | 39 => ⟨S_, .f32⟩
  | 40 => ⟨S800000, .f32⟩
  | 41 => ⟨S_, .f32⟩
  | 42 => ⟨S50000, .f32⟩
  | 43 => ⟨S800000x1, .i32⟩
  | 44 => ⟨S50000, .f32⟩
  | 45 => ⟨S_, .f32⟩
  | 46 => ⟨S50000, .f32⟩
  | 47 => ⟨S50000, .f32⟩
  | 48 => ⟨S50000x1, .f32⟩
  | 49 => ⟨S50000x128, .f32⟩
  | 50 => ⟨S50000x128, .f32⟩
  | 51 => ⟨S50000x128, .f32⟩
  | 52 => ⟨S50000x128, .f32⟩
  | 53 => ⟨S50000x128, .f32⟩
  | 54 => ⟨S1x128, .f32⟩
  | 55 => ⟨S50000x128, .f32⟩
  | 56 => ⟨S50000x128, .f32⟩
  | 57 => ⟨S1x128, .f32⟩
  | 58 => ⟨S50000x128, .f32⟩
  | 59 => ⟨S50000x128, .f32⟩
  | 60 => ⟨S1x128, .f32⟩
  | 61 => ⟨S50000x128, .f32⟩
  | 62 => ⟨S50000x128, .f32⟩
  | 63 => ⟨S_, .f32⟩
  | 64 => ⟨S128, .f32⟩
  | 65 => ⟨S128, .f32⟩
  | 66 => ⟨S128, .f32⟩
  | 67 => ⟨S1x128, .f32⟩
  | 68 => ⟨S50000x128, .f32⟩
  | 69 => ⟨S50000x128, .f32⟩
  | 70 => ⟨S1x128, .f32⟩
  | 71 => ⟨S50000x128, .f32⟩
  | 72 => ⟨S50000x128, .f32⟩
  | 73 => ⟨S_, .f32⟩
  | 74 => ⟨S_, .f32⟩
  | 75 => ⟨S50000x128, .f32⟩
  | 76 => ⟨S50000x128, .i1⟩
  | 77 => ⟨S_, .f32⟩
  | 78 => ⟨S50000x128, .f32⟩
  | 79 => ⟨S50000x128, .f32⟩
  | 80 => ⟨S50000x128, .f32⟩
  | 81 => ⟨S_, .i32⟩
  | 82 => ⟨S800000, .i32⟩
  | 83 => ⟨S800000, .i1⟩
  | 84 => ⟨S_, .i32⟩
  | 85 => ⟨S800000, .i32⟩
  | 86 => ⟨S800000, .i32⟩
  | 87 => ⟨S800000, .i32⟩
  | 88 => ⟨S800000x1, .i32⟩
  | 89 => ⟨S800000x128, .f32⟩
  | 90 => ⟨S_, .f32⟩
  | 91 => ⟨S50000x128, .f32⟩
  | 92 => ⟨S800000x1, .i32⟩
  | 93 => ⟨S50000x128, .f32⟩
  | 94 => ⟨S_, .f32⟩
  | 95 => ⟨S800000, .f32⟩
  | 96 => ⟨S_, .f32⟩
  | 97 => ⟨S50000, .f32⟩
  | 98 => ⟨S800000x1, .i32⟩
  | 99 => ⟨S50000, .f32⟩
  | 100 => ⟨S_, .f32⟩
  | 101 => ⟨S50000, .f32⟩
  | 102 => ⟨S50000, .f32⟩
  | 103 => ⟨S50000x1, .f32⟩
  | 104 => ⟨S50000x128, .f32⟩
  | 105 => ⟨S50000x128, .f32⟩
  | 106 => ⟨S50000x128, .f32⟩
  | 107 => ⟨S50000x128, .f32⟩
  | 108 => ⟨S50000x128, .f32⟩
  | 109 => ⟨S1x128, .f32⟩
  | 110 => ⟨S50000x128, .f32⟩
  | 111 => ⟨S50000x128, .f32⟩
  | 112 => ⟨S1x128, .f32⟩
  | 113 => ⟨S50000x128, .f32⟩
  | 114 => ⟨S50000x128, .f32⟩
  | 115 => ⟨S1x128, .f32⟩
  | 116 => ⟨S50000x128, .f32⟩
  | 117 => ⟨S50000x128, .f32⟩
  | 118 => ⟨S_, .f32⟩
  | 119 => ⟨S128, .f32⟩
  | 120 => ⟨S128, .f32⟩
  | 121 => ⟨S128, .f32⟩
  | 122 => ⟨S1x128, .f32⟩
  | 123 => ⟨S50000x128, .f32⟩
  | 124 => ⟨S50000x128, .f32⟩
  | 125 => ⟨S1x128, .f32⟩
  | 126 => ⟨S50000x128, .f32⟩
  | 127 => ⟨S50000x128, .f32⟩
  | _ => ⟨S50000x128, .f32⟩

abbrev hbmTy0_1 (i : Nat) : BufTy := match i % 128 with
  | 0 => ⟨S_, .f32⟩
  | 1 => ⟨S_, .f32⟩
  | 2 => ⟨S50000x128, .f32⟩
  | 3 => ⟨S50000x128, .i1⟩
  | 4 => ⟨S_, .f32⟩
  | 5 => ⟨S50000x128, .f32⟩
  | 6 => ⟨S50000x128, .f32⟩
  | 7 => ⟨S50000x128, .f32⟩
  | 8 => ⟨S_, .f32⟩
  | 9 => ⟨S50000x128, .i1⟩
  | 10 => ⟨S_, .f32⟩
  | 11 => ⟨S50000x128, .f32⟩
  | 12 => ⟨S50000x128, .f32⟩
  | 13 => ⟨S_, .f32⟩
  | 14 => ⟨S50000x128, .f32⟩
  | 15 => ⟨S50000x128, .i1⟩
  | 16 => ⟨S_, .f32⟩
  | 17 => ⟨S50000x128, .f32⟩
  | 18 => ⟨S50000x128, .f32⟩
  | 19 => ⟨S_, .f32⟩
  | 20 => ⟨S50000x128, .f32⟩
  | 21 => ⟨S50000x128, .i1⟩
  | 22 => ⟨S_, .f32⟩
  | 23 => ⟨S50000x128, .f32⟩
  | 24 => ⟨S50000x128, .f32⟩
  | 25 => ⟨S_, .i32⟩
  | 26 => ⟨S100000, .i32⟩
  | 27 => ⟨S100000, .i1⟩
  | 28 => ⟨S_, .i32⟩
  | 29 => ⟨S100000, .i32⟩
  | 30 => ⟨S100000, .i32⟩
  | 31 => ⟨S100000, .i32⟩
  | 32 => ⟨S100000x1, .i32⟩
  | 33 => ⟨S100000x128, .f32⟩
  | 34 => ⟨S_, .i32⟩
  | 35 => ⟨S100000, .i32⟩
  | 36 => ⟨S100000, .i1⟩
  | 37 => ⟨S_, .i32⟩
  | 38 => ⟨S100000, .i32⟩
  | 39 => ⟨S100000, .i32⟩
  | 40 => ⟨S100000, .i32⟩
  | 41 => ⟨S100000x1, .i32⟩
  | 42 => ⟨S100000x128, .f32⟩
  | 43 => ⟨S100000x257, .f32⟩
  | 44 => ⟨S100000x64, .f32⟩
  | 45 => ⟨S1x64, .f32⟩
  | 46 => ⟨S100000x64, .f32⟩
  | 47 => ⟨S100000x64, .f32⟩
  | 48 => ⟨S_, .f32⟩
  | 49 => ⟨S_, .f32⟩
  | 50 => ⟨S100000x64, .f32⟩
  | 51 => ⟨S100000x64, .i1⟩
  | 52 => ⟨S_, .f32⟩
  | 53 => ⟨S100000x64, .f32⟩
  | 54 => ⟨S100000x64, .f32⟩
  | 55 => ⟨S100000x64, .f32⟩
  | 56 => ⟨S100000x64, .f32⟩
  | 57 => ⟨S1x64, .f32⟩
  | 58 => ⟨S100000x64, .f32⟩
  | 59 => ⟨S100000x64, .f32⟩
  | 60 => ⟨S_, .f32⟩
  | 61 => ⟨S_, .f32⟩
  | 62 => ⟨S100000x64, .f32⟩
  | 63 => ⟨S100000x64, .i1⟩
  | 64 => ⟨S_, .f32⟩
  | 65 => ⟨S100000x64, .f32⟩
  | 66 => ⟨S100000x64, .f32⟩
  | 67 => ⟨S100000x64, .f32⟩
  | 68 => ⟨S100000x1, .f32⟩
  | 69 => ⟨S1x1, .f32⟩
  | 70 => ⟨S100000x1, .f32⟩
  | 71 => ⟨S100000x1, .f32⟩
  | 72 => ⟨S_, .f32⟩
  | 73 => ⟨S1, .f32⟩
  | 74 => ⟨S_, .f32⟩
  | 75 => ⟨S1, .f32⟩
  | 76 => ⟨S1, .f32⟩
  | 77 => ⟨S1x1, .f32⟩
  | 78 => ⟨S100000x1, .f32⟩
  | 79 => ⟨S100000x1, .f32⟩
  | 80 => ⟨S100000x1, .f32⟩
  | 81 => ⟨S_, .f32⟩
  | 82 => ⟨S1, .f32⟩
  | 83 => ⟨S1x1, .f32⟩
  | 84 => ⟨S100000x1, .f32⟩
  | 85 => ⟨S100000x1, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_c : Ref sig .tc := ⟨.hbm, 26, rfl⟩
abbrev main_v0 : Ref sig .tc := ⟨.hbm, 27, rfl⟩
abbrev main_v1 : Ref sig .tc := ⟨.hbm, 28, rfl⟩
abbrev main_c_0 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_cst : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_cst_1 : Ref sig .tc := ⟨.hbm, 39, rfl⟩
abbrev main_v10 : Ref sig .tc := ⟨.hbm, 40, rfl⟩
abbrev main_cst_2 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_cst_3 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_cst_4 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_cst_5 : Ref sig .tc := ⟨.hbm, 73, rfl⟩
abbrev main_call0_cst : Ref sig .tc := ⟨.hbm, 74, rfl⟩
abbrev main_call0_v0 : Ref sig .tc := ⟨.hbm, 75, rfl⟩
abbrev main_call0_v1 : Ref sig .tc := ⟨.hbm, 76, rfl⟩
abbrev main_call0_v2 : Ref sig .tc := ⟨.hbm, 77, rfl⟩
abbrev main_call0_v3 : Ref sig .tc := ⟨.hbm, 78, rfl⟩
abbrev main_call0_v4 : Ref sig .tc := ⟨.hbm, 79, rfl⟩
abbrev main_v40 : Ref sig .tc := ⟨.hbm, 80, rfl⟩
abbrev main_c_6 : Ref sig .tc := ⟨.hbm, 81, rfl⟩
abbrev main_v41 : Ref sig .tc := ⟨.hbm, 82, rfl⟩
abbrev main_v42 : Ref sig .tc := ⟨.hbm, 83, rfl⟩
abbrev main_c_7 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_cst_8 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_cst_9 : Ref sig .tc := ⟨.hbm, 94, rfl⟩
abbrev main_v51 : Ref sig .tc := ⟨.hbm, 95, rfl⟩
abbrev main_cst_10 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_cst_11 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_cst_12 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_cst_13 : Ref sig .tc := ⟨.hbm, 128, rfl⟩
abbrev main_call1_cst : Ref sig .tc := ⟨.hbm, 129, rfl⟩
abbrev main_call1_v0 : Ref sig .tc := ⟨.hbm, 130, rfl⟩
abbrev main_call1_v1 : Ref sig .tc := ⟨.hbm, 131, rfl⟩
abbrev main_call1_v2 : Ref sig .tc := ⟨.hbm, 132, rfl⟩
abbrev main_call1_v3 : Ref sig .tc := ⟨.hbm, 133, rfl⟩
abbrev main_call1_v4 : Ref sig .tc := ⟨.hbm, 134, rfl⟩
abbrev main_v81 : Ref sig .tc := ⟨.hbm, 135, rfl⟩
abbrev main_cst_14 : Ref sig .tc := ⟨.hbm, 136, rfl⟩
abbrev main_call2_v0 : Ref sig .tc := ⟨.hbm, 137, rfl⟩
abbrev main_call2_v1 : Ref sig .tc := ⟨.hbm, 138, rfl⟩
abbrev main_call2_call0_v0 : Ref sig .tc := ⟨.hbm, 139, rfl⟩
abbrev main_call2_v2 : Ref sig .tc := ⟨.hbm, 140, rfl⟩
abbrev main_call2_cst : Ref sig .tc := ⟨.hbm, 141, rfl⟩
abbrev main_call2_v3 : Ref sig .tc := ⟨.hbm, 142, rfl⟩
abbrev main_call2_v4 : Ref sig .tc := ⟨.hbm, 143, rfl⟩
abbrev main_call2_cst_0 : Ref sig .tc := ⟨.hbm, 144, rfl⟩
abbrev main_call2_call1_v0 : Ref sig .tc := ⟨.hbm, 145, rfl⟩
abbrev main_call2_v5 : Ref sig .tc := ⟨.hbm, 146, rfl⟩
abbrev main_call2_cst_1 : Ref sig .tc := ⟨.hbm, 147, rfl⟩
abbrev main_call2_v6 : Ref sig .tc := ⟨.hbm, 148, rfl⟩
abbrev main_call2_v7 : Ref sig .tc := ⟨.hbm, 149, rfl⟩
abbrev main_call2_cst_2 : Ref sig .tc := ⟨.hbm, 150, rfl⟩
abbrev main_call2_call2_v0 : Ref sig .tc := ⟨.hbm, 151, rfl⟩
abbrev main_v82 : Ref sig .tc := ⟨.hbm, 152, rfl⟩
abbrev main_c_15 : Ref sig .tc := ⟨.hbm, 153, rfl⟩
abbrev main_v83 : Ref sig .tc := ⟨.hbm, 154, rfl⟩
abbrev main_v84 : Ref sig .tc := ⟨.hbm, 155, rfl⟩
abbrev main_c_16 : Ref sig .tc := ⟨.hbm, 156, rfl⟩
abbrev main_v85 : Ref sig .tc := ⟨.hbm, 157, rfl⟩
abbrev main_v86 : Ref sig .tc := ⟨.hbm, 158, rfl⟩
abbrev main_v87 : Ref sig .tc := ⟨.hbm, 159, rfl⟩
abbrev main_v88 : Ref sig .tc := ⟨.hbm, 160, rfl⟩
abbrev main_v89 : Ref sig .tc := ⟨.hbm, 161, rfl⟩
abbrev main_c_17 : Ref sig .tc := ⟨.hbm, 162, rfl⟩
abbrev main_v90 : Ref sig .tc := ⟨.hbm, 163, rfl⟩
abbrev main_v91 : Ref sig .tc := ⟨.hbm, 164, rfl⟩
abbrev main_c_18 : Ref sig .tc := ⟨.hbm, 165, rfl⟩
abbrev main_v92 : Ref sig .tc := ⟨.hbm, 166, rfl⟩
abbrev main_v93 : Ref sig .tc := ⟨.hbm, 167, rfl⟩
abbrev main_v94 : Ref sig .tc := ⟨.hbm, 168, rfl⟩
abbrev main_v95 : Ref sig .tc := ⟨.hbm, 169, rfl⟩
abbrev main_v96 : Ref sig .tc := ⟨.hbm, 170, rfl⟩
abbrev main_v97 : Ref sig .tc := ⟨.hbm, 171, rfl⟩
abbrev main_v98 : Ref sig .tc := ⟨.hbm, 172, rfl⟩
abbrev main_v99 : Ref sig .tc := ⟨.hbm, 173, rfl⟩
abbrev main_v100 : Ref sig .tc := ⟨.hbm, 174, rfl⟩
abbrev main_v101 : Ref sig .tc := ⟨.hbm, 175, rfl⟩
abbrev main_cst_19 : Ref sig .tc := ⟨.hbm, 176, rfl⟩
abbrev main_call3_cst : Ref sig .tc := ⟨.hbm, 177, rfl⟩
abbrev main_call3_v0 : Ref sig .tc := ⟨.hbm, 178, rfl⟩
abbrev main_call3_v1 : Ref sig .tc := ⟨.hbm, 179, rfl⟩
abbrev main_call3_v2 : Ref sig .tc := ⟨.hbm, 180, rfl⟩
abbrev main_call3_v3 : Ref sig .tc := ⟨.hbm, 181, rfl⟩
abbrev main_call3_v4 : Ref sig .tc := ⟨.hbm, 182, rfl⟩
abbrev main_v102 : Ref sig .tc := ⟨.hbm, 183, rfl⟩
abbrev main_v103 : Ref sig .tc := ⟨.hbm, 184, rfl⟩
abbrev main_v104 : Ref sig .tc := ⟨.hbm, 185, rfl⟩
abbrev main_v105 : Ref sig .tc := ⟨.hbm, 186, rfl⟩
abbrev main_v106 : Ref sig .tc := ⟨.hbm, 187, rfl⟩
abbrev main_cst_20 : Ref sig .tc := ⟨.hbm, 188, rfl⟩
abbrev main_call4_cst : Ref sig .tc := ⟨.hbm, 189, rfl⟩
abbrev main_call4_v0 : Ref sig .tc := ⟨.hbm, 190, rfl⟩
abbrev main_call4_v1 : Ref sig .tc := ⟨.hbm, 191, rfl⟩
abbrev main_call4_v2 : Ref sig .tc := ⟨.hbm, 192, rfl⟩
abbrev main_call4_v3 : Ref sig .tc := ⟨.hbm, 193, rfl⟩
abbrev main_call4_v4 : Ref sig .tc := ⟨.hbm, 194, rfl⟩
abbrev main_v107 : Ref sig .tc := ⟨.hbm, 195, rfl⟩
abbrev main_v108 : Ref sig .tc := ⟨.hbm, 196, rfl⟩
abbrev main_v109 : Ref sig .tc := ⟨.hbm, 197, rfl⟩
abbrev main_v110 : Ref sig .tc := ⟨.hbm, 198, rfl⟩
abbrev main_v111 : Ref sig .tc := ⟨.hbm, 199, rfl⟩
abbrev main_cst_21 : Ref sig .tc := ⟨.hbm, 200, rfl⟩
abbrev main_v112 : Ref sig .tc := ⟨.hbm, 201, rfl⟩
abbrev main_cst_22 : Ref sig .tc := ⟨.hbm, 202, rfl⟩
abbrev main_v113 : Ref sig .tc := ⟨.hbm, 203, rfl⟩
abbrev main_v114 : Ref sig .tc := ⟨.hbm, 204, rfl⟩
abbrev main_v115 : Ref sig .tc := ⟨.hbm, 205, rfl⟩
abbrev main_v116 : Ref sig .tc := ⟨.hbm, 206, rfl⟩
abbrev main_v117 : Ref sig .tc := ⟨.hbm, 207, rfl⟩
abbrev main_v118 : Ref sig .tc := ⟨.hbm, 208, rfl⟩
abbrev main_cst_23 : Ref sig .tc := ⟨.hbm, 209, rfl⟩
abbrev main_v119 : Ref sig .tc := ⟨.hbm, 210, rfl⟩
abbrev main_v120 : Ref sig .tc := ⟨.hbm, 211, rfl⟩
abbrev main_v121 : Ref sig .tc := ⟨.hbm, 212, rfl⟩
abbrev main_v122 : Ref sig .tc := ⟨.hbm, 213, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S128 : S_.BroadcastsInDim S128 (![] : Fin 0 → Fin S128.rank)
  bcast_S_S100000 : S_.BroadcastsInDim S100000 (![] : Fin 0 → Fin S100000.rank)
  bcast_S100000_S100000x1_0 : S100000.BroadcastsInDim S100000x1 (![0] : Fin 1 → Fin S100000x1.rank)
  concatenates_S100000x128_S100000x128_S100000x1_S100000x257_d1 : Shape.Concatenates [S100000x128, S100000x128, S100000x1] S100000x257 1
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  reducesTo_S100000x1_S1_d0 : S100000x1.ReducesTo [0] S1
  h_S_ : 0 < S_.numel
  bcast_S_S1 : S_.BroadcastsInDim S1 (![] : Fin 0 → Fin S1.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  gather_S50000x128_S100000x1_S100000x128_1_0_n_n_0_1_1128_wf : GatherDims.WF S50000x128 S100000x1 S100000x128 [1] [0] [] [0] [] 1 ![1, 128]
  dot_S100000x257_S257x64_S100000x64_1_0_0_1_n_n_wf : DotDims.WF S100000x257 S257x64 S100000x64 [1] [0] [0] [1] [] []
  dot_S100000x64_S64x64_S100000x64_1_0_0_1_n_n_wf : DotDims.WF S100000x64 S64x64 S100000x64 [1] [0] [0] [1] [] []
  dot_S100000x64_S64x1_S100000x1_1_0_0_1_n_n_wf : DotDims.WF S100000x64 S64x1 S100000x1 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S100000x1_S100000x128_1_0_n_n_0_1_1128 : GatherDims S50000x128 S100000x1 S100000x128 where
  offsetDims := [1]
  collapsedSliceDims := [0]
  operandBatchingDims := []
  startIndicesBatchingDims := []
  startIndexMap := [0]
  indexVectorDim := 1
  sliceSizes := ![1, 128]
  wf := gather_S50000x128_S100000x1_S100000x128_1_0_n_n_0_1_1128_wf
def dot_S100000x257_S257x64_S100000x64_1_0_0_1_n_n : DotDims S100000x257 S257x64 S100000x64 where
  lhsContracting := [1]
  rhsContracting := [0]
  lhsNonContracting := [0]
  rhsNonContracting := [1]
  lhsBatch := []
  rhsBatch := []
  wf := dot_S100000x257_S257x64_S100000x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf

class Facts : Prop extends Facts₀ where

variable [Facts]
-- ==== Proof.KSage0.lean ====
/-
  The first GraphSAGE layer's kernel region: on a grid of 10 points, point t takes rows 5000·t … 5000·t+4999 of the
  node features and of the neighbour means, the two 128×128 weight matrices and the five length-128 vectors (bias, scale,
  shift, running mean, running variance) whole, and writes the block
      leaky_relu (γ · ((X·Wself + A·Wneigh + b) − rm) · rsqrt (rv + ε) + β)
  of the output. This module states, at any float instance and at any contents `V` the region is entered from: what
  each window holds at a point (its block of `V`'s array), what the body leaves in the output buffer (one store of the
  whole block, the payload of the nine loads), and that the body run on those buffers ends with the inputs as found
  and the output at that payload. Every input window holds its block at every point whether or not it was fetched
  there: the seven constant-index windows are fetched once, and their block index never moves.
-/
import proofs.«138996_j84593675862715_1_alg».proof.Proof.Gen.Kernel.Launch
import proofs.«138996_j84593675862715_1_alg».proof.Proof.Gen.Kernel.Skeleton
import proofs.«138996_j84593675862715_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Sage0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not. -/
theorem before_of_0 {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds its block at every point, fetched there or not. -/
theorem before_of_1 {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's staging buffer holds its block at every point, fetched there or not. -/
theorem before_of_2 {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's staging buffer holds its block at every point, fetched there or not. -/
theorem before_of_3 {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's staging buffer holds its block at every point, fetched there or not. -/
theorem before_of_4 {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's staging buffer holds its block at every point, fetched there or not. -/
theorem before_of_5 {c : Dev nD} (dat : Dat τ (Elt F) Unit ℕ (UR sig nD τ) ℕ cfg0 c) (hA : dat.A 5 = V c (Pipeline.arrRef spec0 5))
    (hafter : ∀ t, dat.after 5 t = iblk V c 5 t) (t : Fin cfg0.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's staging buffer holds its block at every point, fetched there or not. -/
theorem before_of_6 {c : Dev nD} (dat : Dat τ (Elt F) Unit ℕ (UR sig nD τ) ℕ cfg0 c) (hA : dat.A 6 = V c (Pipeline.arrRef spec0 6))
    (hafter : ∀ t, dat.after 6 t = iblk V c 6 t) (t : Fin cfg0.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's staging buffer holds its block at every point, fetched there or not. -/
theorem before_of_7 {c : Dev nD} (dat : Dat τ (Elt F) Unit ℕ (UR sig nD τ) ℕ cfg0 c) (hA : dat.A 7 = V c (Pipeline.arrRef spec0 7))
    (hafter : ∀ t, dat.after 7 t = iblk V c 7 t) (t : Fin cfg0.N) (d) : dat.before 7 t d = iblk V c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- Input window 8's staging buffer holds its block at every point, fetched there or not. -/
theorem before_of_8 {c : Dev nD} (dat : Dat τ (Elt F) Unit ℕ (UR sig nD τ) ℕ cfg0 c) (hA : dat.A 8 = V c (Pipeline.arrRef spec0 8))
    (hafter : ∀ t, dat.after 8 t = iblk V c 8 t) (t : Fin cfg0.N) (d) : dat.before 8 t d = iblk V c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-- The body reads and writes whole buffers: the row block, a weight matrix, a vector. -/
abbrev rA : Rect S5000x128 := Rect.unit (s := S5000x128) ![0, 0] S5000x128.size inb_S5000x128_S5000x128_0_0
abbrev rW : Rect S128x128 := Rect.unit (s := S128x128) ![0, 0] S128x128.size inb_S128x128_S128x128_0_0
abbrev rV : Rect S128 := Rect.unit (s := S128) ![0] S128.size inb_S128_S128_0

/-- What the body leaves in the output buffer, from the nine input buffers: its one store, of the whole block. -/
def outBlk (x0 x1 : Vec F S5000x128 .f32) (x2 x3 : Vec F S128x128 .f32) (x4 x5 x6 x7 x8 : Vec F S128 .f32) : Vec F S5000x128 .f32 :=
  View.canon [⟨rA, k0_pay1 (View.ld x0 rA) (View.ld x1 rA) (View.ld x2 rW) (View.ld x3 rW) (View.ld x4 rV) (View.ld x5 rV) (View.ld x7 rV) (View.ld x8 rV) (View.ld x6 rV)⟩]

/-- The one store covers the buffer. -/
theorem cover (p0 : Vec F S5000x128 .f32) (y : S5000x128.Idx) :
    ∃ pc ∈ ([⟨rA, p0⟩] : List (View.Piece (Elt F) S5000x128 .f32)), y ∈ pc.1.set :=
  View.cover_of_tiled [⟨rA, p0⟩] S5000x128.size (by rfl) y

set_option maxHeartbeats 4000000 in
/-- The body on whole buffers, the inputs at `x0 … x8` and the output at anything, runs to the continuation with the
    inputs as they were and the output at `outBlk` of them. -/
theorem sound_kernel (c : Dev nD) (E : Set ℕ) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S128 .f32) (harg6 : arg6.IsWhole) (arg7 : Memref sig .tc .vmem S128 .f32) (harg7 : arg7.IsWhole) (arg8 : Memref sig .tc .vmem S128 .f32) (harg8 : arg8.IsWhole) (arg9 : Memref sig .tc .vmem S128 .f32) (harg9 : arg9.IsWhole) (arg10 : Memref sig .tc .vmem S5000x128 .f32) (harg10 : arg10.IsWhole)
    (x0 x1 : Vec F S5000x128 .f32) (x2 x3 : Vec F S128x128 .f32) (x4 x5 x6 x7 x8 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (outBlk x0 x1 x2 x3 x4 x5 x6 x7 x8)) -∗ K ⟨⟩))
      ⊢ wp frame (wpE (defs₀ (F := F)) Variants.none c none) E (cc0__sage_kernel i arg1 harg1 arg2 harg2 arg3 harg3 arg4 harg4 arg5 harg5 arg6 harg6 arg7 harg7 arg8 harg8 arg9 harg9 arg10 harg10) K := by
  simp only [cc0__sage_kernel_eq_skeleton]; unfold cc0__sage_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover _)

/-- The pipeline's proof data on core `c`: the arrays as the region finds them; after the body at point `t` each input
    buffer at its block and the output buffer at `outBlk` of the input blocks; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => outBlk (iblk V c 0 t) (iblk V c 1 t) (iblk V c 2 t) (iblk V c 3 t) (iblk V c 4 t) (iblk V c 5 t) (iblk V c 6 t) (iblk V c 7 t) (iblk V c 8 t)
  Φ _ := Pipeline.ΦA spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = iblk V c 4 t := by dsimp only [dat]
theorem after_5 (c : Dev nD) (t : Fin cfg0.N) : (dat V c).after 5 t = iblk V c 5 t := by dsimp only [dat]
theorem after_6 (c : Dev nD) (t : Fin cfg0.N) : (dat V c).after 6 t = iblk V c 6 t := by dsimp only [dat]
theorem after_7 (c : Dev nD) (t : Fin cfg0.N) : (dat V c).after 7 t = iblk V c 7 t := by dsimp only [dat]
theorem after_8 (c : Dev nD) (t : Fin cfg0.N) : (dat V c).after 8 t = iblk V c 8 t := by dsimp only [dat]
theorem after_9 (c : Dev nD) (t : Fin cfg0.N) : (dat V c).after 9 t = outBlk (iblk V c 0 t) (iblk V c 1 t) (iblk V c 2 t) (iblk V c 3 t) (iblk V c 4 t) (iblk V c 5 t) (iblk V c 6 t) (iblk V c 7 t) (iblk V c 8 t) := by dsimp only [dat]

theorem before_0 (c : Dev nD) (t : Fin cfg0.N) (d) : (dat V c).before 0 t d = iblk V c 0 t :=
  before_of_0 V (dat V c) (A_eq V c 0) (after_0 V c) t d
theorem before_1 (c : Dev nD) (t : Fin cfg0.N) (d) : (dat V c).before 1 t d = iblk V c 1 t :=
  before_of_1 V (dat V c) (A_eq V c 1) (after_1 V c) t d
theorem before_2 (c : Dev nD) (t : Fin cfg0.N) (d) : (dat V c).before 2 t d = iblk V c 2 t :=
  before_of_2 V (dat V c) (A_eq V c 2) (after_2 V c) t d
theorem before_3 (c : Dev nD) (t : Fin cfg0.N) (d) : (dat V c).before 3 t d = iblk V c 3 t :=
  before_of_3 V (dat V c) (A_eq V c 3) (after_3 V c) t d
theorem before_4 (c : Dev nD) (t : Fin cfg0.N) (d) : (dat V c).before 4 t d = iblk V c 4 t :=
  before_of_4 V (dat V c) (A_eq V c 4) (after_4 V c) t d
theorem before_5 (c : Dev nD) (t : Fin cfg0.N) (d) : (dat V c).before 5 t d = iblk V c 5 t :=
  before_of_5 V (dat V c) (A_eq V c 5) (after_5 V c) t d
theorem before_6 (c : Dev nD) (t : Fin cfg0.N) (d) : (dat V c).before 6 t d = iblk V c 6 t :=
  before_of_6 V (dat V c) (A_eq V c 6) (after_6 V c) t d
theorem before_7 (c : Dev nD) (t : Fin cfg0.N) (d) : (dat V c).before 7 t d = iblk V c 7 t :=
  before_of_7 V (dat V c) (A_eq V c 7) (after_7 V c) t d
theorem before_8 (c : Dev nD) (t : Fin cfg0.N) (d) : (dat V c).before 8 t d = iblk V c 8 t :=
  before_of_8 V (dat V c) (A_eq V c 8) (after_8 V c) t d

/-- What the body is called with at point `t`, window by window, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d))
    ∗ (∃ d, owns (c : Thread nD τ) (st0_7 t) fullShare ((dat V c).before 7 t d))
    ∗ (∃ d, owns (c : Thread nD τ) (st0_8 t) fullShare ((dat V c).before 8 t d))
    ∗ (∃ d, owns (c : Thread nD τ) (st0_9 t) fullShare ((dat V c).before 9 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t)
    ∗ owns (c : Thread nD τ) (st0_7 t) fullShare ((dat V c).after 7 t)
    ∗ owns (c : Thread nD τ) (st0_8 t) fullShare ((dat V c).after 8 t)
    ∗ owns (c : Thread nD τ) (st0_9 t) fullShare ((dat V c).after 9 t))

set_option maxHeartbeats 4000000 in
/-- The body at any point: the input buffers hold their blocks, so `sound_kernel` applies; the invariant and what the core
    owes pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4, before_5, before_6, before_7, before_8]
  rw [show (dat V c).Φ t.succ = (dat V c).Φ t.castSucc from rfl,
    show (dat V c).owesAt () t.succ = (dat V c).owesAt () t.castSucc from rfl,
    after_0, after_1, after_2, after_3, after_4, after_5, after_6, after_7, after_8, after_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ _ _ _ _ _ _ _ _ _ _ _ _ _ _ _ _ _ _ _ _ _ (iblk V c 0 t) (iblk V c 1 t) (iblk V c 2 t) (iblk V c 3 t) (iblk V c 4 t) (iblk V c 5 t) (iblk V c 6 t) (iblk V c 7 t) (iblk V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body obligation, at every point. -/
theorem body_obligation (c : Dev nD) : BodyObligation (dat (F := F) V c) (defs₀ (F := F)) Variants.none () Set.univ := fun t => by
  rw [bigSep_W0, bigSep_W0]
  exact sound_body V c t

end Cert.Kernel.Sage0

end
-- ==== Proof.KSage1.lean ====
/-
  The second GraphSAGE layer's kernel region: on a grid of 10 points, point t takes rows 5000·t … 5000·t+4999 of the
  node features and of the neighbour means, the two 128×128 weight matrices and the five length-128 vectors (bias, scale,
  shift, running mean, running variance) whole, and writes the block
      leaky_relu (γ · ((X·Wself + A·Wneigh + b) − rm) · rsqrt (rv + ε) + β)
  of the output. This module states, at any float instance and at any contents `V` the region is entered from: what
  each window holds at a point (its block of `V`'s array), what the body leaves in the output buffer (one store of the
  whole block, the payload of the nine loads), and that the body run on those buffers ends with the inputs as found
  and the output at that payload. Every input window holds its block at every point whether or not it was fetched
  there: the seven constant-index windows are fetched once, and their block index never moves.
-/
import proofs.«138996_j84593675862715_1_alg».proof.Proof.Gen.Kernel.Launch
import proofs.«138996_j84593675862715_1_alg».proof.Proof.Gen.Kernel.Skeleton
import proofs.«138996_j84593675862715_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Sage1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not. -/
theorem before_of_0 {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds its block at every point, fetched there or not. -/
theorem before_of_1 {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's staging buffer holds its block at every point, fetched there or not. -/
theorem before_of_2 {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's staging buffer holds its block at every point, fetched there or not. -/
theorem before_of_3 {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's staging buffer holds its block at every point, fetched there or not. -/
theorem before_of_4 {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's staging buffer holds its block at every point, fetched there or not. -/
theorem before_of_5 {c : Dev nD} (dat : Dat τ (Elt F) Unit ℕ (UR sig nD τ) ℕ cfg1 c) (hA : dat.A 5 = V c (Pipeline.arrRef spec1 5))
    (hafter : ∀ t, dat.after 5 t = iblk V c 5 t) (t : Fin cfg1.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's staging buffer holds its block at every point, fetched there or not. -/
theorem before_of_6 {c : Dev nD} (dat : Dat τ (Elt F) Unit ℕ (UR sig nD τ) ℕ cfg1 c) (hA : dat.A 6 = V c (Pipeline.arrRef spec1 6))
    (hafter : ∀ t, dat.after 6 t = iblk V c 6 t) (t : Fin cfg1.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's staging buffer holds its block at every point, fetched there or not. -/
theorem before_of_7 {c : Dev nD} (dat : Dat τ (Elt F) Unit ℕ (UR sig nD τ) ℕ cfg1 c) (hA : dat.A 7 = V c (Pipeline.arrRef spec1 7))
    (hafter : ∀ t, dat.after 7 t = iblk V c 7 t) (t : Fin cfg1.N) (d) : dat.before 7 t d = iblk V c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- Input window 8's staging buffer holds its block at every point, fetched there or not. -/
theorem before_of_8 {c : Dev nD} (dat : Dat τ (Elt F) Unit ℕ (UR sig nD τ) ℕ cfg1 c) (hA : dat.A 8 = V c (Pipeline.arrRef spec1 8))
    (hafter : ∀ t, dat.after 8 t = iblk V c 8 t) (t : Fin cfg1.N) (d) : dat.before 8 t d = iblk V c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-- The body reads and writes whole buffers: the row block, a weight matrix, a vector. -/
abbrev rA : Rect S5000x128 := Rect.unit (s := S5000x128) ![0, 0] S5000x128.size inb_S5000x128_S5000x128_0_0
abbrev rW : Rect S128x128 := Rect.unit (s := S128x128) ![0, 0] S128x128.size inb_S128x128_S128x128_0_0
abbrev rV : Rect S128 := Rect.unit (s := S128) ![0] S128.size inb_S128_S128_0

/-- What the body leaves in the output buffer, from the nine input buffers: its one store, of the whole block. -/
def outBlk (x0 x1 : Vec F S5000x128 .f32) (x2 x3 : Vec F S128x128 .f32) (x4 x5 x6 x7 x8 : Vec F S128 .f32) : Vec F S5000x128 .f32 :=
  View.canon [⟨rA, k1_pay1 (View.ld x0 rA) (View.ld x1 rA) (View.ld x2 rW) (View.ld x3 rW) (View.ld x4 rV) (View.ld x5 rV) (View.ld x7 rV) (View.ld x8 rV) (View.ld x6 rV)⟩]

/-- The one store covers the buffer. -/
theorem cover (p0 : Vec F S5000x128 .f32) (y : S5000x128.Idx) :
    ∃ pc ∈ ([⟨rA, p0⟩] : List (View.Piece (Elt F) S5000x128 .f32)), y ∈ pc.1.set :=
  View.cover_of_tiled [⟨rA, p0⟩] S5000x128.size (by rfl) y

set_option maxHeartbeats 4000000 in
/-- The body on whole buffers, the inputs at `x0 … x8` and the output at anything, runs to the continuation with the
    inputs as they were and the output at `outBlk` of them. -/
theorem sound_kernel (c : Dev nD) (E : Set ℕ) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S128 .f32) (harg6 : arg6.IsWhole) (arg7 : Memref sig .tc .vmem S128 .f32) (harg7 : arg7.IsWhole) (arg8 : Memref sig .tc .vmem S128 .f32) (harg8 : arg8.IsWhole) (arg9 : Memref sig .tc .vmem S128 .f32) (harg9 : arg9.IsWhole) (arg10 : Memref sig .tc .vmem S5000x128 .f32) (harg10 : arg10.IsWhole)
    (x0 x1 : Vec F S5000x128 .f32) (x2 x3 : Vec F S128x128 .f32) (x4 x5 x6 x7 x8 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (outBlk x0 x1 x2 x3 x4 x5 x6 x7 x8)) -∗ K ⟨⟩))
      ⊢ wp frame (wpE (defs₀ (F := F)) Variants.none c none) E (cc1__sage_kernel i arg1 harg1 arg2 harg2 arg3 harg3 arg4 harg4 arg5 harg5 arg6 harg6 arg7 harg7 arg8 harg8 arg9 harg9 arg10 harg10) K := by
  simp only [cc1__sage_kernel_eq_skeleton]; unfold cc1__sage_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover _)

/-- The pipeline's proof data on core `c`: the arrays as the region finds them; after the body at point `t` each input
    buffer at its block and the output buffer at `outBlk` of the input blocks; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => outBlk (iblk V c 0 t) (iblk V c 1 t) (iblk V c 2 t) (iblk V c 3 t) (iblk V c 4 t) (iblk V c 5 t) (iblk V c 6 t) (iblk V c 7 t) (iblk V c 8 t)
  Φ _ := Pipeline.ΦA spec1 c
  q _ := fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = iblk V c 4 t := by dsimp only [dat]
theorem after_5 (c : Dev nD) (t : Fin cfg1.N) : (dat V c).after 5 t = iblk V c 5 t := by dsimp only [dat]
theorem after_6 (c : Dev nD) (t : Fin cfg1.N) : (dat V c).after 6 t = iblk V c 6 t := by dsimp only [dat]
theorem after_7 (c : Dev nD) (t : Fin cfg1.N) : (dat V c).after 7 t = iblk V c 7 t := by dsimp only [dat]
theorem after_8 (c : Dev nD) (t : Fin cfg1.N) : (dat V c).after 8 t = iblk V c 8 t := by dsimp only [dat]
theorem after_9 (c : Dev nD) (t : Fin cfg1.N) : (dat V c).after 9 t = outBlk (iblk V c 0 t) (iblk V c 1 t) (iblk V c 2 t) (iblk V c 3 t) (iblk V c 4 t) (iblk V c 5 t) (iblk V c 6 t) (iblk V c 7 t) (iblk V c 8 t) := by dsimp only [dat]

theorem before_0 (c : Dev nD) (t : Fin cfg1.N) (d) : (dat V c).before 0 t d = iblk V c 0 t :=
  before_of_0 V (dat V c) (A_eq V c 0) (after_0 V c) t d
theorem before_1 (c : Dev nD) (t : Fin cfg1.N) (d) : (dat V c).before 1 t d = iblk V c 1 t :=
  before_of_1 V (dat V c) (A_eq V c 1) (after_1 V c) t d
theorem before_2 (c : Dev nD) (t : Fin cfg1.N) (d) : (dat V c).before 2 t d = iblk V c 2 t :=
  before_of_2 V (dat V c) (A_eq V c 2) (after_2 V c) t d
theorem before_3 (c : Dev nD) (t : Fin cfg1.N) (d) : (dat V c).before 3 t d = iblk V c 3 t :=
  before_of_3 V (dat V c) (A_eq V c 3) (after_3 V c) t d
theorem before_4 (c : Dev nD) (t : Fin cfg1.N) (d) : (dat V c).before 4 t d = iblk V c 4 t :=
  before_of_4 V (dat V c) (A_eq V c 4) (after_4 V c) t d
theorem before_5 (c : Dev nD) (t : Fin cfg1.N) (d) : (dat V c).before 5 t d = iblk V c 5 t :=
  before_of_5 V (dat V c) (A_eq V c 5) (after_5 V c) t d
theorem before_6 (c : Dev nD) (t : Fin cfg1.N) (d) : (dat V c).before 6 t d = iblk V c 6 t :=
  before_of_6 V (dat V c) (A_eq V c 6) (after_6 V c) t d
theorem before_7 (c : Dev nD) (t : Fin cfg1.N) (d) : (dat V c).before 7 t d = iblk V c 7 t :=
  before_of_7 V (dat V c) (A_eq V c 7) (after_7 V c) t d
theorem before_8 (c : Dev nD) (t : Fin cfg1.N) (d) : (dat V c).before 8 t d = iblk V c 8 t :=
  before_of_8 V (dat V c) (A_eq V c 8) (after_8 V c) t d

/-- What the body is called with at point `t`, window by window, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d))
    ∗ (∃ d, owns (c : Thread nD τ) (st1_7 t) fullShare ((dat V c).before 7 t d))
    ∗ (∃ d, owns (c : Thread nD τ) (st1_8 t) fullShare ((dat V c).before 8 t d))
    ∗ (∃ d, owns (c : Thread nD τ) (st1_9 t) fullShare ((dat V c).before 9 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t)
    ∗ owns (c : Thread nD τ) (st1_6 t) fullShare ((dat V c).after 6 t)
    ∗ owns (c : Thread nD τ) (st1_7 t) fullShare ((dat V c).after 7 t)
    ∗ owns (c : Thread nD τ) (st1_8 t) fullShare ((dat V c).after 8 t)
    ∗ owns (c : Thread nD τ) (st1_9 t) fullShare ((dat V c).after 9 t))

set_option maxHeartbeats 4000000 in
/-- The body at any point: the input buffers hold their blocks, so `sound_kernel` applies; the invariant and what the core
    owes pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4, before_5, before_6, before_7, before_8]
  rw [show (dat V c).Φ t.succ = (dat V c).Φ t.castSucc from rfl,
    show (dat V c).owesAt () t.succ = (dat V c).owesAt () t.castSucc from rfl,
    after_0, after_1, after_2, after_3, after_4, after_5, after_6, after_7, after_8, after_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ _ _ _ _ _ _ _ _ _ _ _ _ _ _ _ _ _ _ _ _ _ (iblk V c 0 t) (iblk V c 1 t) (iblk V c 2 t) (iblk V c 3 t) (iblk V c 4 t) (iblk V c 5 t) (iblk V c 6 t) (iblk V c 7 t) (iblk V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body obligation, at every point. -/
theorem body_obligation (c : Dev nD) : BodyObligation (dat (F := F) V c) (defs₀ (F := F)) Variants.none () Set.univ := fun t => by
  rw [bigSep_W1, bigSep_W1]
  exact sound_body V c t

end Cert.Kernel.Sage1

end
-- ==== Proof.KMlp.lean ====
/-
  The candidate-scoring kernel region: on a grid of 50 points, point t takes rows 2000·t … 2000·t+1999 of the
  100000×257 candidate matrix and the three layers' weights and biases whole (257×64, 64, 64×64, 64, 64×1, 1), and
  writes the 2000×1 block  (leaky_relu (leaky_relu (CE·W₀ + b₀)·W₁ + b₁))·W₂ + b₂  of the scores. This module states, at
  any float instance and at any contents `V` the region is entered from: each window's block at a point, what the body
  leaves in the output buffer (one store of the whole block, the payload of the seven loads), and that the body run on
  those buffers ends with the inputs as found and the output at that payload. The six constant-index windows are
  fetched once and hold their (whole-array) block at every point.
-/
import proofs.«138996_j84593675862715_1_alg».proof.Proof.Gen.Kernel.Launch
import proofs.«138996_j84593675862715_1_alg».proof.Proof.Gen.Kernel.Skeleton
import proofs.«138996_j84593675862715_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Mlp

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, fetched there or not. -/
theorem before_of_0 {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds its block at every point, fetched there or not. -/
theorem before_of_1 {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's staging buffer holds its block at every point, fetched there or not. -/
theorem before_of_2 {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's staging buffer holds its block at every point, fetched there or not. -/
theorem before_of_3 {c : Dev nD} (dat : Dat τ (Elt F) Unit ℕ (UR sig nD τ) ℕ cfg2 c) (hA : dat.A 3 = V c (Pipeline.arrRef spec2 3))
    (hafter : ∀ t, dat.after 3 t = iblk V c 3 t) (t : Fin cfg2.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's staging buffer holds its block at every point, fetched there or not. -/
theorem before_of_4 {c : Dev nD} (dat : Dat τ (Elt F) Unit ℕ (UR sig nD τ) ℕ cfg2 c) (hA : dat.A 4 = V c (Pipeline.arrRef spec2 4))
    (hafter : ∀ t, dat.after 4 t = iblk V c 4 t) (t : Fin cfg2.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's staging buffer holds its block at every point, fetched there or not. -/
theorem before_of_5 {c : Dev nD} (dat : Dat τ (Elt F) Unit ℕ (UR sig nD τ) ℕ cfg2 c) (hA : dat.A 5 = V c (Pipeline.arrRef spec2 5))
    (hafter : ∀ t, dat.after 5 t = iblk V c 5 t) (t : Fin cfg2.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's staging buffer holds its block at every point, fetched there or not. -/
theorem before_of_6 {c : Dev nD} (dat : Dat τ (Elt F) Unit ℕ (UR sig nD τ) ℕ cfg2 c) (hA : dat.A 6 = V c (Pipeline.arrRef spec2 6))
    (hafter : ∀ t, dat.after 6 t = iblk V c 6 t) (t : Fin cfg2.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- The body reads and writes whole buffers. -/
abbrev rCE : Rect S2000x257 := Rect.unit (s := S2000x257) ![0, 0] S2000x257.size inb_S2000x257_S2000x257_0_0
abbrev rW0 : Rect S257x64 := Rect.unit (s := S257x64) ![0, 0] S257x64.size inb_S257x64_S257x64_0_0
abbrev rB : Rect S64 := Rect.unit (s := S64) ![0] S64.size inb_S64_S64_0
abbrev rW1 : Rect S64x64 := Rect.unit (s := S64x64) ![0, 0] S64x64.size inb_S64x64_S64x64_0_0
abbrev rW2 : Rect S64x1 := Rect.unit (s := S64x1) ![0, 0] S64x1.size inb_S64x1_S64x1_0_0
abbrev rB2 : Rect S1 := Rect.unit (s := S1) ![0] S1.size inb_S1_S1_0
abbrev rO : Rect S2000x1 := Rect.unit (s := S2000x1) ![0, 0] S2000x1.size inb_S2000x1_S2000x1_0_0

/-- What the body leaves in the output buffer, from the seven input buffers: its one store, of the whole block. -/
def outBlk (x0 : Vec F S2000x257 .f32) (x1 : Vec F S257x64 .f32) (x2 : Vec F S64 .f32) (x3 : Vec F S64x64 .f32) (x4 : Vec F S64 .f32) (x5 : Vec F S64x1 .f32) (x6 : Vec F S1 .f32) : Vec F S2000x1 .f32 :=
  View.canon [⟨rO, k2_pay1 (View.ld x0 rCE) (View.ld x1 rW0) (View.ld x2 rB) (View.ld x3 rW1) (View.ld x4 rB) (View.ld x5 rW2) (View.ld x6 rB2)⟩]

/-- The one store covers the buffer. -/
theorem cover (p0 : Vec F S2000x1 .f32) (y : S2000x1.Idx) :
    ∃ pc ∈ ([⟨rO, p0⟩] : List (View.Piece (Elt F) S2000x1 .f32)), y ∈ pc.1.set :=
  View.cover_of_tiled [⟨rO, p0⟩] S2000x1.size (by rfl) y

set_option maxHeartbeats 4000000 in
/-- The body on whole buffers, the inputs at `x0 … x6` and the output at anything, runs to the continuation with the
    inputs as they were and the output at `outBlk` of them. -/
theorem sound_kernel (c : Dev nD) (E : Set ℕ) (i : grid2.Coords) (arg1 : Memref sig .tc .vmem S2000x257 .f32) (harg1 : arg1.IsWhole) (arg2 : Memref sig .tc .vmem S257x64 .f32) (harg2 : arg2.IsWhole) (arg3 : Memref sig .tc .vmem S64 .f32) (harg3 : arg3.IsWhole) (arg4 : Memref sig .tc .vmem S64x64 .f32) (harg4 : arg4.IsWhole) (arg5 : Memref sig .tc .vmem S64 .f32) (harg5 : arg5.IsWhole) (arg6 : Memref sig .tc .vmem S64x1 .f32) (harg6 : arg6.IsWhole) (arg7 : Memref sig .tc .vmem S1 .f32) (harg7 : arg7.IsWhole) (arg8 : Memref sig .tc .vmem S2000x1 .f32) (harg8 : arg8.IsWhole)
    (x0 : Vec F S2000x257 .f32) (x1 : Vec F S257x64 .f32) (x2 : Vec F S64 .f32) (x3 : Vec F S64x64 .f32) (x4 : Vec F S64 .f32) (x5 : Vec F S64x1 .f32) (x6 : Vec F S1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (outBlk x0 x1 x2 x3 x4 x5 x6)) -∗ K ⟨⟩))
      ⊢ wp frame (wpE (defs₀ (F := F)) Variants.none c none) E (cc2__mlp_kernel i arg1 harg1 arg2 harg2 arg3 harg3 arg4 harg4 arg5 harg5 arg6 harg6 arg7 harg7 arg8 harg8) K := by
  simp only [cc2__mlp_kernel_eq_skeleton]; unfold cc2__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  try dsimp only
  exact View.read_writes_eq_canon _ _ _ (cover _)

/-- The pipeline's proof data on core `c`: the arrays as the region finds them; after the body at point `t` each input
    buffer at its block and the output buffer at `outBlk` of the input blocks; nothing owed; full shares. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => outBlk (iblk V c 0 t) (iblk V c 1 t) (iblk V c 2 t) (iblk V c 3 t) (iblk V c 4 t) (iblk V c 5 t) (iblk V c 6 t)
  Φ _ := Pipeline.ΦA spec2 c
  q _ := fullShare
  owed _ := 0

theorem A_eq (c : Dev nD) (w : Fin cfg2.W) : (dat V c).A w = V c (Pipeline.arrRef spec2 w) := by
  dsimp only [dat]

theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = iblk V c 2 t := by dsimp only [dat]
theorem after_3 (c : Dev nD) (t : Fin cfg2.N) : (dat V c).after 3 t = iblk V c 3 t := by dsimp only [dat]
theorem after_4 (c : Dev nD) (t : Fin cfg2.N) : (dat V c).after 4 t = iblk V c 4 t := by dsimp only [dat]
theorem after_5 (c : Dev nD) (t : Fin cfg2.N) : (dat V c).after 5 t = iblk V c 5 t := by dsimp only [dat]
theorem after_6 (c : Dev nD) (t : Fin cfg2.N) : (dat V c).after 6 t = iblk V c 6 t := by dsimp only [dat]
theorem after_7 (c : Dev nD) (t : Fin cfg2.N) : (dat V c).after 7 t = outBlk (iblk V c 0 t) (iblk V c 1 t) (iblk V c 2 t) (iblk V c 3 t) (iblk V c 4 t) (iblk V c 5 t) (iblk V c 6 t) := by dsimp only [dat]

theorem before_0 (c : Dev nD) (t : Fin cfg2.N) (d) : (dat V c).before 0 t d = iblk V c 0 t :=
  before_of_0 V (dat V c) (A_eq V c 0) (after_0 V c) t d
theorem before_1 (c : Dev nD) (t : Fin cfg2.N) (d) : (dat V c).before 1 t d = iblk V c 1 t :=
  before_of_1 V (dat V c) (A_eq V c 1) (after_1 V c) t d
theorem before_2 (c : Dev nD) (t : Fin cfg2.N) (d) : (dat V c).before 2 t d = iblk V c 2 t :=
  before_of_2 V (dat V c) (A_eq V c 2) (after_2 V c) t d
theorem before_3 (c : Dev nD) (t : Fin cfg2.N) (d) : (dat V c).before 3 t d = iblk V c 3 t :=
  before_of_3 V (dat V c) (A_eq V c 3) (after_3 V c) t d
theorem before_4 (c : Dev nD) (t : Fin cfg2.N) (d) : (dat V c).before 4 t d = iblk V c 4 t :=
  before_of_4 V (dat V c) (A_eq V c 4) (after_4 V c) t d
theorem before_5 (c : Dev nD) (t : Fin cfg2.N) (d) : (dat V c).before 5 t d = iblk V c 5 t :=
  before_of_5 V (dat V c) (A_eq V c 5) (after_5 V c) t d
theorem before_6 (c : Dev nD) (t : Fin cfg2.N) (d) : (dat V c).before 6 t d = iblk V c 6 t :=
  before_of_6 V (dat V c) (A_eq V c 6) (after_6 V c) t d

/-- What the body is called with at point `t`, window by window, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d))
    ∗ (∃ d, owns (c : Thread nD τ) (st2_4 t) fullShare ((dat V c).before 4 t d))
    ∗ (∃ d, owns (c : Thread nD τ) (st2_5 t) fullShare ((dat V c).before 5 t d))
    ∗ (∃ d, owns (c : Thread nD τ) (st2_6 t) fullShare ((dat V c).before 6 t d))
    ∗ (∃ d, owns (c : Thread nD τ) (st2_7 t) fullShare ((dat V c).before 7 t d)))

/-- and what it returns. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t)
    ∗ owns (c : Thread nD τ) (st2_4 t) fullShare ((dat V c).after 4 t)
    ∗ owns (c : Thread nD τ) (st2_5 t) fullShare ((dat V c).after 5 t)
    ∗ owns (c : Thread nD τ) (st2_6 t) fullShare ((dat V c).after 6 t)
    ∗ owns (c : Thread nD τ) (st2_7 t) fullShare ((dat V c).after 7 t))

set_option maxHeartbeats 4000000 in
/-- The body at any point: the input buffers hold their blocks, so `sound_kernel` applies; the invariant and what the core
    owes pass through unread. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2, before_3, before_4, before_5, before_6]
  rw [show (dat V c).Φ t.succ = (dat V c).Φ t.castSucc from rfl,
    show (dat V c).owesAt () t.succ = (dat V c).owesAt () t.castSucc from rfl,
    after_0, after_1, after_2, after_3, after_4, after_5, after_6, after_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (iblk V c 0 t) (iblk V c 1 t) (iblk V c 2 t) (iblk V c 3 t) (iblk V c 4 t) (iblk V c 5 t) (iblk V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation, at every point. -/
theorem body_obligation (c : Dev nD) : BodyObligation (dat (F := F) V c) (defs₀ (F := F)) Variants.none () Set.univ := fun t => by
  rw [bigSep_W2, bigSep_W2]
  exact sound_body V c t

end Cert.Kernel.Mlp

end
-- ==== Proof.KRun.lean ====
/-
  The run of the whole program, at any float instance: @main is thirteen items — stretches of host operations and the
  three kernel regions (the two GraphSAGE layers and the candidate-scoring network) — and every weakly fair execution
  walks them in order. The contents of the TensorCore's buffers between items are a fold from the launch memory: a host
  stretch applies its operations; a region leaves each of its windows' arrays at what the pipeline's write-backs make
  of it (an input array as entered, the output array the blocks the grid points wrote) and every other buffer as
  entered. The run ends with every buffer at the fold's last stage; no item writes an argument array.
-/
import proofs.«138996_j84593675862715_1_alg».proof.Proof.Gen.Kernel.Regions
import proofs.«138996_j84593675862715_1_alg».proof.Proof.KSage0
import proofs.«138996_j84593675862715_1_alg».proof.Proof.KSage1
import proofs.«138996_j84593675862715_1_alg».proof.Proof.KMlp
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents between items -/

/-- Core `c`'s buffers at launch. -/
abbrev W0 : Dev nD → Valuation τ sig (Elt F) := fun c b => m (c, b)
/-- After item 0, the host stretch `hostOps0`. -/
abbrev W1 : Dev nD → Valuation τ sig (Elt F) := fun c => StableHlo.after hostOps0 (W0 m c)
/-- The contents region 0 is entered from, read at the TensorCore's references. -/
abbrev E1 : (c : Dev nD) → (b : Ref sig .tc) → Buf (Elt F) ((c : Thread nD τ).loc b) := fun c b => W1 m c b
/-- After item 1, region 0: its windows' arrays at what the pipeline leaves, every other buffer as entered. -/
def W2 (c : Dev nD) : Valuation τ sig (Elt F) :=
  Pipeline.withArrays spec0 c (W1 m c) fun w => (Sage0.dat (E1 m) c).arrAt w cfg0.N
theorem W2_arr (c : Dev nD) (w : Fin cfg0.W) :
    W2 m c (Proc.devRef .tc (Pipeline.arrRef spec0 w)) = (Sage0.dat (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references. -/
abbrev X2 : (c : Dev nD) → (b : Ref sig .tc) → Buf (Elt F) ((c : Thread nD τ).loc b) := fun c b => W2 m c b
theorem hF0 (c : Dev nD) (w : Fin cfg0.W) : (Sage0.dat (E1 m) c).arrAt w cfg0.N = X2 m c (Pipeline.arrRef spec0 w) :=
  (W2_arr m c w).symm
theorem hrest0 (c : Dev nD) : ∀ b, b ∉ Finset.univ.image (Pipeline.arrRef spec0) → X2 m c b = E1 m c b :=
  fun b hb => W2_of_ne m c b fun w e => hb (Finset.mem_image.mpr ⟨w, Finset.mem_univ _, e⟩)
/-- A region changes no buffer but its output array: an input window's array is left as entered. -/
theorem W2_keep (c : Dev nD) (r : Ref sig .tc) (h : r ≠ main_v19) :
    W2 m c (Proc.devRef .tc r) = W1 m c (Proc.devRef .tc r) := by
  by_cases hr : ∃ w, Pipeline.arrRef spec0 w = r
  · obtain ⟨w, rfl⟩ := hr
    have hw : (cfg0.win w).isOut = false := by
      revert w; decide
    exact (W2_arr m c w).trans (((Sage0.dat (E1 m) c).arrAt_in w hw _).trans (Sage0.A_eq (E1 m) c w))
  · exact W2_of_ne m c r fun w e => hr ⟨w, e⟩
/-- After item 2, the host stretch `hostOps1`. -/
abbrev W3 : Dev nD → Valuation τ sig (Elt F) := fun c => StableHlo.after hostOps1 (W2 m c)
/-- The contents region 1 is entered from, read at the TensorCore's references. -/
abbrev E3 : (c : Dev nD) → (b : Ref sig .tc) → Buf (Elt F) ((c : Thread nD τ).loc b) := fun c b => W3 m c b
/-- After item 3, region 1: its windows' arrays at what the pipeline leaves, every other buffer as entered. -/
def W4 (c : Dev nD) : Valuation τ sig (Elt F) :=
  Pipeline.withArrays spec1 c (W3 m c) fun w => (Sage1.dat (E3 m) c).arrAt w cfg1.N
theorem W4_arr (c : Dev nD) (w : Fin cfg1.W) :
    W4 m c (Proc.devRef .tc (Pipeline.arrRef spec1 w)) = (Sage1.dat (E3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
/-- The same read at the TensorCore's references. -/
abbrev X4 : (c : Dev nD) → (b : Ref sig .tc) → Buf (Elt F) ((c : Thread nD τ).loc b) := fun c b => W4 m c b
theorem hF1 (c : Dev nD) (w : Fin cfg1.W) : (Sage1.dat (E3 m) c).arrAt w cfg1.N = X4 m c (Pipeline.arrRef spec1 w) :=
  (W4_arr m c w).symm
theorem hrest1 (c : Dev nD) : ∀ b, b ∉ Finset.univ.image (Pipeline.arrRef spec1) → X4 m c b = E3 m c b :=
  fun b hb => W4_of_ne m c b fun w e => hb (Finset.mem_image.mpr ⟨w, Finset.mem_univ _, e⟩)
/-- A region changes no buffer but its output array: an input window's array is left as entered. -/
theorem W4_keep (c : Dev nD) (r : Ref sig .tc) (h : r ≠ main_v39) :
    W4 m c (Proc.devRef .tc r) = W3 m c (Proc.devRef .tc r) := by
  by_cases hr : ∃ w, Pipeline.arrRef spec1 w = r
  · obtain ⟨w, rfl⟩ := hr
    have hw : (cfg1.win w).isOut = false := by
      revert w; decide
    exact (W4_arr m c w).trans (((Sage1.dat (E3 m) c).arrAt_in w hw _).trans (Sage1.A_eq (E3 m) c w))
  · exact W4_of_ne m c r fun w e => hr ⟨w, e⟩
/-- After item 4, the host stretch `hostOps2`. -/
abbrev W5 : Dev nD → Valuation τ sig (Elt F) := fun c => StableHlo.after hostOps2 (W4 m c)
/-- After item 5, the host stretch `hostOps2_1`. -/
abbrev W6 : Dev nD → Valuation τ sig (Elt F) := fun c => StableHlo.after hostOps2_1 (W5 m c)
/-- After item 6, the host stretch `hostOps2_2`. -/
abbrev W7 : Dev nD → Valuation τ sig (Elt F) := fun c => StableHlo.after hostOps2_2 (W6 m c)
/-- After item 7, the host stretch `hostOps2_3`. -/
abbrev W8 : Dev nD → Valuation τ sig (Elt F) := fun c => StableHlo.after hostOps2_3 (W7 m c)
/-- After item 8, the host stretch `hostOps2_4`. -/
abbrev W9 : Dev nD → Valuation τ sig (Elt F) := fun c => StableHlo.after hostOps2_4 (W8 m c)
/-- After item 9, the host stretch `hostOps2_5`. -/
abbrev W10 : Dev nD → Valuation τ sig (Elt F) := fun c => StableHlo.after hostOps2_5 (W9 m c)
/-- After item 10, the host stretch `hostOps2_6`. -/
abbrev W11 : Dev nD → Valuation τ sig (Elt F) := fun c => StableHlo.after hostOps2_6 (W10 m c)
/-- The contents region 2 is entered from, read at the TensorCore's references. -/
abbrev E11 : (c : Dev nD) → (b : Ref sig .tc) → Buf (Elt F) ((c : Thread nD τ).loc b) := fun c b => W11 m c b
/-- After item 11, region 2: its windows' arrays at what the pipeline leaves, every other buffer as entered. -/
def W12 (c : Dev nD) : Valuation τ sig (Elt F) :=
  Pipeline.withArrays spec2 c (W11 m c) fun w => (Mlp.dat (E11 m) c).arrAt w cfg2.N
theorem W12_arr (c : Dev nD) (w : Fin cfg2.W) :
    W12 m c (Proc.devRef .tc (Pipeline.arrRef spec2 w)) = (Mlp.dat (E11 m) c).arrAt w cfg2.N := by
  unfold W12; exact Pipeline.withArrays_arr spec2 launch2.win.arr_inj c _ _ w
theorem W12_of_ne (c : Dev nD) (b : Ref sig .tc) (hb : ∀ w, Pipeline.arrRef spec2 w ≠ b) :
    W12 m c (Proc.devRef .tc b) = W11 m c (Proc.devRef .tc b) := by
  unfold W12; exact Pipeline.withArrays_of_ne spec2 c _ _ b hb
/-- The same read at the TensorCore's references. -/
abbrev X12 : (c : Dev nD) → (b : Ref sig .tc) → Buf (Elt F) ((c : Thread nD τ).loc b) := fun c b => W12 m c b
theorem hF2 (c : Dev nD) (w : Fin cfg2.W) : (Mlp.dat (E11 m) c).arrAt w cfg2.N = X12 m c (Pipeline.arrRef spec2 w) :=
  (W12_arr m c w).symm
theorem hrest2 (c : Dev nD) : ∀ b, b ∉ Finset.univ.image (Pipeline.arrRef spec2) → X12 m c b = E11 m c b :=
  fun b hb => W12_of_ne m c b fun w e => hb (Finset.mem_image.mpr ⟨w, Finset.mem_univ _, e⟩)
/-- A region changes no buffer but its output array: an input window's array is left as entered. -/
theorem W12_keep (c : Dev nD) (r : Ref sig .tc) (h : r ≠ main_v63) :
    W12 m c (Proc.devRef .tc r) = W11 m c (Proc.devRef .tc r) := by
  by_cases hr : ∃ w, Pipeline.arrRef spec2 w = r
  · obtain ⟨w, rfl⟩ := hr
    have hw : (cfg2.win w).isOut = false := by
      revert w; decide
    exact (W12_arr m c w).trans (((Mlp.dat (E11 m) c).arrAt_in w hw _).trans (Mlp.A_eq (E11 m) c w))
  · exact W12_of_ne m c r fun w e => hr ⟨w, e⟩
/-- After item 12, the host stretch `hostOps3`. -/
abbrev W13 : Dev nD → Valuation τ sig (Elt F) := fun c => StableHlo.after hostOps3 (W12 m c)
theorem W1_keep (c : Dev nD) (r : Ref sig .tc) (h : r ∉ hostOps0_W) : W1 m c (Proc.devRef .tc r) = W0 m c (Proc.devRef .tc r) :=
  StableHlo.after_of_writes_sub hostOps0 _ hostOps0_writes h
theorem W3_keep (c : Dev nD) (r : Ref sig .tc) (h : r ∉ hostOps1_W) : W3 m c (Proc.devRef .tc r) = W2 m c (Proc.devRef .tc r) :=
  StableHlo.after_of_writes_sub hostOps1 _ hostOps1_writes h
theorem W5_keep (c : Dev nD) (r : Ref sig .tc) (h : r ∉ hostOps2_W) : W5 m c (Proc.devRef .tc r) = W4 m c (Proc.devRef .tc r) :=
  StableHlo.after_of_writes_sub hostOps2 _ hostOps2_writes h
theorem W6_keep (c : Dev nD) (r : Ref sig .tc) (h : r ∉ hostOps2_1_W) : W6 m c (Proc.devRef .tc r) = W5 m c (Proc.devRef .tc r) :=
  StableHlo.after_of_writes_sub hostOps2_1 _ hostOps2_1_writes h
theorem W7_keep (c : Dev nD) (r : Ref sig .tc) (h : r ∉ hostOps2_2_W) : W7 m c (Proc.devRef .tc r) = W6 m c (Proc.devRef .tc r) :=
  StableHlo.after_of_writes_sub hostOps2_2 _ hostOps2_2_writes h
theorem W8_keep (c : Dev nD) (r : Ref sig .tc) (h : r ∉ hostOps2_3_W) : W8 m c (Proc.devRef .tc r) = W7 m c (Proc.devRef .tc r) :=
  StableHlo.after_of_writes_sub hostOps2_3 _ hostOps2_3_writes h
theorem W9_keep (c : Dev nD) (r : Ref sig .tc) (h : r ∉ hostOps2_4_W) : W9 m c (Proc.devRef .tc r) = W8 m c (Proc.devRef .tc r) :=
  StableHlo.after_of_writes_sub hostOps2_4 _ hostOps2_4_writes h
theorem W10_keep (c : Dev nD) (r : Ref sig .tc) (h : r ∉ hostOps2_5_W) : W10 m c (Proc.devRef .tc r) = W9 m c (Proc.devRef .tc r) :=
  StableHlo.after_of_writes_sub hostOps2_5 _ hostOps2_5_writes h
theorem W11_keep (c : Dev nD) (r : Ref sig .tc) (h : r ∉ hostOps2_6_W) : W11 m c (Proc.devRef .tc r) = W10 m c (Proc.devRef .tc r) :=
  StableHlo.after_of_writes_sub hostOps2_6 _ hostOps2_6_writes h
theorem W13_keep (c : Dev nD) (r : Ref sig .tc) (h : r ∉ hostOps3_W) : W13 m c (Proc.devRef .tc r) = W12 m c (Proc.devRef .tc r) :=
  StableHlo.after_of_writes_sub hostOps3 _ hostOps3_writes h

/-- A buffer no host stretch writes and that is no region's output array ends as launched. -/
theorem W13_kept (c : Dev nD) (r : Ref sig .tc) (h1 : r ∉ hostOps0_W) (h2 : r ≠ main_v19) (h3 : r ∉ hostOps1_W) (h4 : r ≠ main_v39) (h5 : r ∉ hostOps2_W) (h6 : r ∉ hostOps2_1_W) (h7 : r ∉ hostOps2_2_W) (h8 : r ∉ hostOps2_3_W) (h9 : r ∉ hostOps2_4_W) (h10 : r ∉ hostOps2_5_W) (h11 : r ∉ hostOps2_6_W) (h12 : r ≠ main_v63) (h13 : r ∉ hostOps3_W) :
    W13 m c (Proc.devRef .tc r) = m ((c : Thread nD τ).loc r) :=
  (W13_keep m c r h13).trans <| (W12_keep m c r h12).trans <| (W11_keep m c r h11).trans <| (W10_keep m c r h10).trans <| (W9_keep m c r h9).trans <| (W8_keep m c r h8).trans <| (W7_keep m c r h7).trans <| (W6_keep m c r h6).trans <| (W5_keep m c r h5).trans <| (W4_keep m c r h4).trans <| (W3_keep m c r h3).trans <| (W2_keep m c r h2).trans <| (W1_keep m c r h1).trans rfl

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => Sage0.dat (E1 m) c
  | ⟨1, _⟩ => fun c => Sage1.dat (E3 m) c
  | ⟨2, _⟩ => fun c => Mlp.dat (E11 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the last contents, the generator register at some state. -/
abbrev Tₙ (c : Dev nD) : sProp 𝕄 := iprop(StableHlo.held (c : Thread nD τ) (Pipeline.ucRefs τ sig) (W13 m c) ∗ ∃ r, prngReg c r)

/-! ## The regions as segments -/

set_option backward.isDefEq.respectTransparency.types false in
/-- Region 0 over the thread state: entered from every unscoped buffer at the contents before it, left at the contents
    after it. Its arrays are split out of the unscoped buffers and put back at the exit contents; the generator register goes
    into the pipeline's invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Sage0.body_obligation (E1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (X2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at the contents
    after it. Its arrays are split out of the unscoped buffers and put back at the exit contents; the generator register goes
    into the pipeline's invariant and comes out; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Sage1.body_obligation (E3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E3 m c) (X4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at the contents before it, left at the contents
    after it. Its arrays are split out of the unscoped buffers and put back at the exit contents; the generator register goes
    into the pipeline's invariant and comes out; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (Mlp.body_obligation (E11 m) c).loose
  hwaits := Pipeline.hwaits_of_owed_zero _ _ _ _ L lv 2 fun _ _ => rfl
  pre c := iprop(StableHlo.held (c : Thread nD τ) (Pipeline.ucRefs τ sig) (W11 m c) ∗ R c)
  post c := iprop(StableHlo.held (c : Thread nD τ) (Pipeline.ucRefs τ sig) (W12 m c) ∗ R c)
  X c := iprop(∃ r, prngReg c r)
  Y c := iprop(∃ r, prngReg c r)
  Z c := Pipeline.unscopedRest (Ix := Unit) (Name := ℕ) (U := UR sig nD τ) (Lvl := ℕ) spec2 c (E11 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E11 m c) (X12 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

variable (ρ : Dev nD → PrngReg)

/-- @main's thirteen items in order. -/
abbrev segList : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .host (hseg hostOps2_1 hostOps2_1_sub hostOps2_1_fresh (W5 m)),
    .host (hseg hostOps2_2 hostOps2_2_sub hostOps2_2_fresh (W6 m)),
    .host (hseg hostOps2_3 hostOps2_3_sub hostOps2_3_fresh (W7 m)),
    .host (hseg hostOps2_4 hostOps2_4_sub hostOps2_4_fresh (W8 m)),
    .host (hseg hostOps2_5 hostOps2_5_sub hostOps2_5_fresh (W9 m)),
    .host (hseg hostOps2_6 hostOps2_6_sub hostOps2_6_fresh (W10 m)),
    .region (reg2 m),
    .host (hseg hostOps3 hostOps3_sub hostOps3_fresh (W12 m)) ]

set_option backward.isDefEq.respectTransparency.types false in
/-- THE RUN: from any memory with zero counters every weakly fair execution of @main terminates, nothing faulting, and every
    final state has every unscoped buffer at the fold's last contents. -/
theorem run : θ_run defs (onTc (τ := τ) (main (F := F))) ⟨m, fun _ => 0, ρ⟩ (fun r => ∀ c : Dev nD, ∀ b : Ref sig .tc,
      ¬ (Proc.devRef .tc b : DevRef τ sig).isScoped → r.2.mem ((c.tc : Thread nD τ).loc b) = W13 m c (Proc.devRef .tc b)) :=
  Pipeline.θ_run_regions_kit (pcfgs (F := F)) adm (pdats m) () cellOf_inj emb₁ defs₀ 𝒱₀ L lv m ρ main (segList m)
    (fun c Q => by
      rewrite [main_chain c, Pipeline.Seg.run_eq_chain,
        show (segList m).map Pipeline.Seg.prog = [
          StableHlo.seq hostOps0,
          Prog.lift (.customCall (Pipeline.entry 0) ()),
          StableHlo.seq hostOps1,
          Prog.lift (.customCall (Pipeline.entry 1) ()),
          StableHlo.seq hostOps2,
          StableHlo.seq hostOps2_1,
          StableHlo.seq hostOps2_2,
          StableHlo.seq hostOps2_3,
          StableHlo.seq hostOps2_4,
          StableHlo.seq hostOps2_5,
          StableHlo.seq hostOps2_6,
          Prog.lift (.customCall (Pipeline.entry 2) ()),
          StableHlo.seq hostOps3 ] from rfl]
      exact .rfl)
    (by simp only [segList, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W13 m c) ∗ R c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m c b)
    (hfin := fun c s' => by
      iintro ⟨⟨Hh, -⟩, HSI⟩
      unfold StableHlo.held
      imodintro
      iapply (pointsTo_read_all (Pipeline.ucRefs τ sig) (fun b => (((c : Thread nD τ)).1, b)) (W13 m c) s')
      isplitl [Hh] <;> iassumption)
    (hQ := fun s h c b hb => h c _ (mem_uc b hb))

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) :=
  (θ_run defs _ _).mono (fun r h c => ⟨(h c main_arg0 (by decide)).trans (W13_kept m c main_arg0 (by decide) (by decide) (by decide) (by decide) (by decide) (by decide) (by decide) (by decide) (by decide) (by decide) (by decide) (by decide) (by decide)),
    (h c main_arg1 (by decide)).trans (W13_kept m c main_arg1 (by decide) (by decide) (by decide) (by decide) (by decide) (by decide) (by decide) (by decide) (by decide) (by decide) (by decide) (by decide) (by decide)),
    (h c main_arg2 (by decide)).trans (W13_kept m c main_arg2 (by decide) (by decide) (by decide) (by decide) (by decide) (by decide) (by decide) (by decide) (by decide) (by decide) (by decide) (by decide) (by decide)),
    (h c main_arg3 (by decide)).trans (W13_kept m c main_arg3 (by decide) (by decide) (by decide) (by decide) (by decide) (by decide) (by decide) (by decide) (by decide) (by decide) (by decide) (by decide) (by decide)),
    (h c main_arg4 (by decide)).trans (W13_kept m c main_arg4 (by decide) (by decide) (by decide) (by decide) (by decide) (by decide) (by decide) (by decide) (by decide) (by decide) (by decide) (by decide) (by decide)),
    (h c main_arg5 (by decide)).trans (W13_kept m c main_arg5 (by decide) (by decide) (by decide) (by decide) (by decide) (by decide) (by decide) (by decide) (by decide) (by decide) (by decide) (by decide) (by decide)),
    (h c main_arg6 (by decide)).trans (W13_kept m c main_arg6 (by decide) (by decide) (by decide) (by decide) (by decide) (by decide) (by decide) (by decide) (by decide) (by decide) (by decide) (by decide) (by decide)),
    (h c main_arg7 (by decide)).trans (W13_kept m c main_arg7 (by decide) (by decide) (by decide) (by decide) (by decide) (by decide) (by decide) (by decide) (by decide) (by decide) (by decide) (by decide) (by decide)),
    (h c main_arg8 (by decide)).trans (W13_kept m c main_arg8 (by decide) (by decide) (by decide) (by decide) (by decide) (by decide) (by decide) (by decide) (by decide) (by decide) (by decide) (by decide) (by decide)),
    (h c main_arg9 (by decide)).trans (W13_kept m c main_arg9 (by decide) (by decide) (by decide) (by decide) (by decide) (by decide) (by decide) (by decide) (by decide) (by decide) (by decide) (by decide) (by decide)),
    (h c main_arg10 (by decide)).trans (W13_kept m c main_arg10 (by decide) (by decide) (by decide) (by decide) (by decide) (by decide) (by decide) (by decide) (by decide) (by decide) (by decide) (by decide) (by decide)),
    (h c main_arg11 (by decide)).trans (W13_kept m c main_arg11 (by decide) (by decide) (by decide) (by decide) (by decide) (by decide) (by decide) (by decide) (by decide) (by decide) (by decide) (by decide) (by decide)),
    (h c main_arg12 (by decide)).trans (W13_kept m c main_arg12 (by decide) (by decide) (by decide) (by decide) (by decide) (by decide) (by decide) (by decide) (by decide) (by decide) (by decide) (by decide) (by decide)),
    (h c main_arg13 (by decide)).trans (W13_kept m c main_arg13 (by decide) (by decide) (by decide) (by decide) (by decide) (by decide) (by decide) (by decide) (by decide) (by decide) (by decide) (by decide) (by decide)),
    (h c main_arg14 (by decide)).trans (W13_kept m c main_arg14 (by decide) (by decide) (by decide) (by decide) (by decide) (by decide) (by decide) (by decide) (by decide) (by decide) (by decide) (by decide) (by decide)),
    (h c main_arg15 (by decide)).trans (W13_kept m c main_arg15 (by decide) (by decide) (by decide) (by decide) (by decide) (by decide) (by decide) (by decide) (by decide) (by decide) (by decide) (by decide) (by decide)),
    (h c main_arg16 (by decide)).trans (W13_kept m c main_arg16 (by decide) (by decide) (by decide) (by decide) (by decide) (by decide) (by decide) (by decide) (by decide) (by decide) (by decide) (by decide) (by decide)),
    (h c main_arg17 (by decide)).trans (W13_kept m c main_arg17 (by decide) (by decide) (by decide) (by decide) (by decide) (by decide) (by decide) (by decide) (by decide) (by decide) (by decide) (by decide) (by decide)),
    (h c main_arg18 (by decide)).trans (W13_kept m c main_arg18 (by decide) (by decide) (by decide) (by decide) (by decide) (by decide) (by decide) (by decide) (by decide) (by decide) (by decide) (by decide) (by decide)),
    (h c main_arg19 (by decide)).trans (W13_kept m c main_arg19 (by decide) (by decide) (by decide) (by decide) (by decide) (by decide) (by decide) (by decide) (by decide) (by decide) (by decide) (by decide) (by decide)),
    (h c main_arg20 (by decide)).trans (W13_kept m c main_arg20 (by decide) (by decide) (by decide) (by decide) (by decide) (by decide) (by decide) (by decide) (by decide) (by decide) (by decide) (by decide) (by decide)),
    (h c main_arg21 (by decide)).trans (W13_kept m c main_arg21 (by decide) (by decide) (by decide) (by decide) (by decide) (by decide) (by decide) (by decide) (by decide) (by decide) (by decide) (by decide) (by decide)),
    (h c main_arg22 (by decide)).trans (W13_kept m c main_arg22 (by decide) (by decide) (by decide) (by decide) (by decide) (by decide) (by decide) (by decide) (by decide) (by decide) (by decide) (by decide) (by decide)),
    (h c main_arg23 (by decide)).trans (W13_kept m c main_arg23 (by decide) (by decide) (by decide) (by decide) (by decide) (by decide) (by decide) (by decide) (by decide) (by decide) (by decide) (by decide) (by decide)),
    (h c main_arg24 (by decide)).trans (W13_kept m c main_arg24 (by decide) (by decide) (by decide) (by decide) (by decide) (by decide) (by decide) (by decide) (by decide) (by decide) (by decide) (by decide) (by decide)),
    (h c main_arg25 (by decide)).trans (W13_kept m c main_arg25 (by decide) (by decide) (by decide) (by decide) (by decide) (by decide) (by decide) (by decide) (by decide) (by decide) (by decide) (by decide) (by decide))⟩) (run m ρ)

end Cert.Kernel.Run

end
-- ==== Proof.KISage0.lean ====
/-
  The first GraphSAGE layer's kernel region: on a grid of 10 points, point t takes rows 5000·t … 5000·t+4999 of the
  node features and of the neighbour means, the two 128×128 weight matrices and the five length-128 vectors (bias, scale,
  shift, running mean, running variance) whole, and writes the block
      leaky_relu (γ · ((X·Wself + A·Wneigh + b) − rm) · rsqrt (rv + ε) + β)
  of the output. This module states, at any float instance and at any contents `V` the region is entered from: what
  each window holds at a point (its block of `V`'s array), what the body leaves in the output buffer (one store of the
  whole block, the payload of the nine loads), and that the body run on those buffers ends with the inputs as found
  and the output at that payload. Every input window holds its block at every point whether or not it was fetched
  there: the seven constant-index windows are fetched once, and their block index never moves.
-/
import proofs.«138996_j84593675862715_1_alg».proof.Proof.Gen.KernelIdeal.Launch
import proofs.«138996_j84593675862715_1_alg».proof.Proof.Gen.KernelIdeal.Skeleton
import proofs.«138996_j84593675862715_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Sage0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not. -/
theorem before_of_0 {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds its block at every point, fetched there or not. -/
theorem before_of_1 {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's staging buffer holds its block at every point, fetched there or not. -/
theorem before_of_2 {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's staging buffer holds its block at every point, fetched there or not. -/
theorem before_of_3 {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's staging buffer holds its block at every point, fetched there or not. -/
theorem before_of_4 {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's staging buffer holds its block at every point, fetched there or not. -/
theorem before_of_5 {c : Dev nD} (dat : Dat τ (Elt F) Unit ℕ (UR sig nD τ) ℕ cfg0 c) (hA : dat.A 5 = V c (Pipeline.arrRef spec0 5))
    (hafter : ∀ t, dat.after 5 t = iblk V c 5 t) (t : Fin cfg0.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's staging buffer holds its block at every point, fetched there or not. -/
theorem before_of_6 {c : Dev nD} (dat : Dat τ (Elt F) Unit ℕ (UR sig nD τ) ℕ cfg0 c) (hA : dat.A 6 = V c (Pipeline.arrRef spec0 6))
    (hafter : ∀ t, dat.after 6 t = iblk V c 6 t) (t : Fin cfg0.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's staging buffer holds its block at every point, fetched there or not. -/
theorem before_of_7 {c : Dev nD} (dat : Dat τ (Elt F) Unit ℕ (UR sig nD τ) ℕ cfg0 c) (hA : dat.A 7 = V c (Pipeline.arrRef spec0 7))
    (hafter : ∀ t, dat.after 7 t = iblk V c 7 t) (t : Fin cfg0.N) (d) : dat.before 7 t d = iblk V c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- Input window 8's staging buffer holds its block at every point, fetched there or not. -/
theorem before_of_8 {c : Dev nD} (dat : Dat τ (Elt F) Unit ℕ (UR sig nD τ) ℕ cfg0 c) (hA : dat.A 8 = V c (Pipeline.arrRef spec0 8))
    (hafter : ∀ t, dat.after 8 t = iblk V c 8 t) (t : Fin cfg0.N) (d) : dat.before 8 t d = iblk V c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-- The body reads and writes whole buffers: the row block, a weight matrix, a vector. -/
abbrev rA : Rect S5000x128 := Rect.unit (s := S5000x128) ![0, 0] S5000x128.size inb_S5000x128_S5000x128_0_0
abbrev rW : Rect S128x128 := Rect.unit (s := S128x128) ![0, 0] S128x128.size inb_S128x128_S128x128_0_0
abbrev rV : Rect S128 := Rect.unit (s := S128) ![0] S128.size inb_S128_S128_0

/-- What the body leaves in the output buffer, from the nine input buffers: its one store, of the whole block. -/
def outBlk (x0 x1 : Vec F S5000x128 .f32) (x2 x3 : Vec F S128x128 .f32) (x4 x5 x6 x7 x8 : Vec F S128 .f32) : Vec F S5000x128 .f32 :=
  View.canon [⟨rA, k0_pay1 (View.ld x0 rA) (View.ld x1 rA) (View.ld x2 rW) (View.ld x3 rW) (View.ld x4 rV) (View.ld x5 rV) (View.ld x7 rV) (View.ld x8 rV) (View.ld x6 rV)⟩]

/-- The one store covers the buffer. -/
theorem cover (p0 : Vec F S5000x128 .f32) (y : S5000x128.Idx) :
    ∃ pc ∈ ([⟨rA, p0⟩] : List (View.Piece (Elt F) S5000x128 .f32)), y ∈ pc.1.set :=
  View.cover_of_tiled [⟨rA, p0⟩] S5000x128.size (by rfl) y

set_option maxHeartbeats 4000000 in
/-- The body on whole buffers, the inputs at `x0 … x8` and the output at anything, runs to the continuation with the
    inputs as they were and the output at `outBlk` of them. -/
theorem sound_kernel (c : Dev nD) (E : Set ℕ) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S128 .f32) (harg6 : arg6.IsWhole) (arg7 : Memref sig .tc .vmem S128 .f32) (harg7 : arg7.IsWhole) (arg8 : Memref sig .tc .vmem S128 .f32) (harg8 : arg8.IsWhole) (arg9 : Memref sig .tc .vmem S128 .f32) (harg9 : arg9.IsWhole) (arg10 : Memref sig .tc .vmem S5000x128 .f32) (harg10 : arg10.IsWhole)
    (x0 x1 : Vec F S5000x128 .f32) (x2 x3 : Vec F S128x128 .f32) (x4 x5 x6 x7 x8 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (outBlk x0 x1 x2 x3 x4 x5 x6 x7 x8)) -∗ K ⟨⟩))
      ⊢ wp frame (wpE (defs₀ (F := F)) Variants.none c none) E (cc0__sage_kernel i arg1 harg1 arg2 harg2 arg3 harg3 arg4 harg4 arg5 harg5 arg6 harg6 arg7 harg7 arg8 harg8 arg9 harg9 arg10 harg10) K := by
  simp only [cc0__sage_kernel_eq_skeleton]; unfold cc0__sage_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover _)

/-- The pipeline's proof data on core `c`: the arrays as the region finds them; after the body at point `t` each input
    buffer at its block and the output buffer at `outBlk` of the input blocks; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => outBlk (iblk V c 0 t) (iblk V c 1 t) (iblk V c 2 t) (iblk V c 3 t) (iblk V c 4 t) (iblk V c 5 t) (iblk V c 6 t) (iblk V c 7 t) (iblk V c 8 t)
  Φ _ := Pipeline.ΦA spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = iblk V c 4 t := by dsimp only [dat]
theorem after_5 (c : Dev nD) (t : Fin cfg0.N) : (dat V c).after 5 t = iblk V c 5 t := by dsimp only [dat]
theorem after_6 (c : Dev nD) (t : Fin cfg0.N) : (dat V c).after 6 t = iblk V c 6 t := by dsimp only [dat]
theorem after_7 (c : Dev nD) (t : Fin cfg0.N) : (dat V c).after 7 t = iblk V c 7 t := by dsimp only [dat]
theorem after_8 (c : Dev nD) (t : Fin cfg0.N) : (dat V c).after 8 t = iblk V c 8 t := by dsimp only [dat]
theorem after_9 (c : Dev nD) (t : Fin cfg0.N) : (dat V c).after 9 t = outBlk (iblk V c 0 t) (iblk V c 1 t) (iblk V c 2 t) (iblk V c 3 t) (iblk V c 4 t) (iblk V c 5 t) (iblk V c 6 t) (iblk V c 7 t) (iblk V c 8 t) := by dsimp only [dat]

theorem before_0 (c : Dev nD) (t : Fin cfg0.N) (d) : (dat V c).before 0 t d = iblk V c 0 t :=
  before_of_0 V (dat V c) (A_eq V c 0) (after_0 V c) t d
theorem before_1 (c : Dev nD) (t : Fin cfg0.N) (d) : (dat V c).before 1 t d = iblk V c 1 t :=
  before_of_1 V (dat V c) (A_eq V c 1) (after_1 V c) t d
theorem before_2 (c : Dev nD) (t : Fin cfg0.N) (d) : (dat V c).before 2 t d = iblk V c 2 t :=
  before_of_2 V (dat V c) (A_eq V c 2) (after_2 V c) t d
theorem before_3 (c : Dev nD) (t : Fin cfg0.N) (d) : (dat V c).before 3 t d = iblk V c 3 t :=
  before_of_3 V (dat V c) (A_eq V c 3) (after_3 V c) t d
theorem before_4 (c : Dev nD) (t : Fin cfg0.N) (d) : (dat V c).before 4 t d = iblk V c 4 t :=
  before_of_4 V (dat V c) (A_eq V c 4) (after_4 V c) t d
theorem before_5 (c : Dev nD) (t : Fin cfg0.N) (d) : (dat V c).before 5 t d = iblk V c 5 t :=
  before_of_5 V (dat V c) (A_eq V c 5) (after_5 V c) t d
theorem before_6 (c : Dev nD) (t : Fin cfg0.N) (d) : (dat V c).before 6 t d = iblk V c 6 t :=
  before_of_6 V (dat V c) (A_eq V c 6) (after_6 V c) t d
theorem before_7 (c : Dev nD) (t : Fin cfg0.N) (d) : (dat V c).before 7 t d = iblk V c 7 t :=
  before_of_7 V (dat V c) (A_eq V c 7) (after_7 V c) t d
theorem before_8 (c : Dev nD) (t : Fin cfg0.N) (d) : (dat V c).before 8 t d = iblk V c 8 t :=
  before_of_8 V (dat V c) (A_eq V c 8) (after_8 V c) t d

/-- What the body is called with at point `t`, window by window, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d))
    ∗ (∃ d, owns (c : Thread nD τ) (st0_7 t) fullShare ((dat V c).before 7 t d))
    ∗ (∃ d, owns (c : Thread nD τ) (st0_8 t) fullShare ((dat V c).before 8 t d))
    ∗ (∃ d, owns (c : Thread nD τ) (st0_9 t) fullShare ((dat V c).before 9 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t)
    ∗ owns (c : Thread nD τ) (st0_7 t) fullShare ((dat V c).after 7 t)
    ∗ owns (c : Thread nD τ) (st0_8 t) fullShare ((dat V c).after 8 t)
    ∗ owns (c : Thread nD τ) (st0_9 t) fullShare ((dat V c).after 9 t))

set_option maxHeartbeats 4000000 in
/-- The body at any point: the input buffers hold their blocks, so `sound_kernel` applies; the invariant and what the core
    owes pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4, before_5, before_6, before_7, before_8]
  rw [show (dat V c).Φ t.succ = (dat V c).Φ t.castSucc from rfl,
    show (dat V c).owesAt () t.succ = (dat V c).owesAt () t.castSucc from rfl,
    after_0, after_1, after_2, after_3, after_4, after_5, after_6, after_7, after_8, after_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ _ _ _ _ _ _ _ _ _ _ _ _ _ _ _ _ _ _ _ _ _ (iblk V c 0 t) (iblk V c 1 t) (iblk V c 2 t) (iblk V c 3 t) (iblk V c 4 t) (iblk V c 5 t) (iblk V c 6 t) (iblk V c 7 t) (iblk V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body obligation, at every point. -/
theorem body_obligation (c : Dev nD) : BodyObligation (dat (F := F) V c) (defs₀ (F := F)) Variants.none () Set.univ := fun t => by
  rw [bigSep_W0, bigSep_W0]
  exact sound_body V c t

end Cert.KernelIdeal.Sage0

end
-- ==== Proof.KISage1.lean ====
/-
  The second GraphSAGE layer's kernel region: on a grid of 10 points, point t takes rows 5000·t … 5000·t+4999 of the
  node features and of the neighbour means, the two 128×128 weight matrices and the five length-128 vectors (bias, scale,
  shift, running mean, running variance) whole, and writes the block
      leaky_relu (γ · ((X·Wself + A·Wneigh + b) − rm) · rsqrt (rv + ε) + β)
  of the output. This module states, at any float instance and at any contents `V` the region is entered from: what
  each window holds at a point (its block of `V`'s array), what the body leaves in the output buffer (one store of the
  whole block, the payload of the nine loads), and that the body run on those buffers ends with the inputs as found
  and the output at that payload. Every input window holds its block at every point whether or not it was fetched
  there: the seven constant-index windows are fetched once, and their block index never moves.
-/
import proofs.«138996_j84593675862715_1_alg».proof.Proof.Gen.KernelIdeal.Launch
import proofs.«138996_j84593675862715_1_alg».proof.Proof.Gen.KernelIdeal.Skeleton
import proofs.«138996_j84593675862715_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Sage1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not. -/
theorem before_of_0 {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds its block at every point, fetched there or not. -/
theorem before_of_1 {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's staging buffer holds its block at every point, fetched there or not. -/
theorem before_of_2 {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's staging buffer holds its block at every point, fetched there or not. -/
theorem before_of_3 {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's staging buffer holds its block at every point, fetched there or not. -/
theorem before_of_4 {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's staging buffer holds its block at every point, fetched there or not. -/
theorem before_of_5 {c : Dev nD} (dat : Dat τ (Elt F) Unit ℕ (UR sig nD τ) ℕ cfg1 c) (hA : dat.A 5 = V c (Pipeline.arrRef spec1 5))
    (hafter : ∀ t, dat.after 5 t = iblk V c 5 t) (t : Fin cfg1.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's staging buffer holds its block at every point, fetched there or not. -/
theorem before_of_6 {c : Dev nD} (dat : Dat τ (Elt F) Unit ℕ (UR sig nD τ) ℕ cfg1 c) (hA : dat.A 6 = V c (Pipeline.arrRef spec1 6))
    (hafter : ∀ t, dat.after 6 t = iblk V c 6 t) (t : Fin cfg1.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's staging buffer holds its block at every point, fetched there or not. -/
theorem before_of_7 {c : Dev nD} (dat : Dat τ (Elt F) Unit ℕ (UR sig nD τ) ℕ cfg1 c) (hA : dat.A 7 = V c (Pipeline.arrRef spec1 7))
    (hafter : ∀ t, dat.after 7 t = iblk V c 7 t) (t : Fin cfg1.N) (d) : dat.before 7 t d = iblk V c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- Input window 8's staging buffer holds its block at every point, fetched there or not. -/
theorem before_of_8 {c : Dev nD} (dat : Dat τ (Elt F) Unit ℕ (UR sig nD τ) ℕ cfg1 c) (hA : dat.A 8 = V c (Pipeline.arrRef spec1 8))
    (hafter : ∀ t, dat.after 8 t = iblk V c 8 t) (t : Fin cfg1.N) (d) : dat.before 8 t d = iblk V c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-- The body reads and writes whole buffers: the row block, a weight matrix, a vector. -/
abbrev rA : Rect S5000x128 := Rect.unit (s := S5000x128) ![0, 0] S5000x128.size inb_S5000x128_S5000x128_0_0
abbrev rW : Rect S128x128 := Rect.unit (s := S128x128) ![0, 0] S128x128.size inb_S128x128_S128x128_0_0
abbrev rV : Rect S128 := Rect.unit (s := S128) ![0] S128.size inb_S128_S128_0

/-- What the body leaves in the output buffer, from the nine input buffers: its one store, of the whole block. -/
def outBlk (x0 x1 : Vec F S5000x128 .f32) (x2 x3 : Vec F S128x128 .f32) (x4 x5 x6 x7 x8 : Vec F S128 .f32) : Vec F S5000x128 .f32 :=
  View.canon [⟨rA, k1_pay1 (View.ld x0 rA) (View.ld x1 rA) (View.ld x2 rW) (View.ld x3 rW) (View.ld x4 rV) (View.ld x5 rV) (View.ld x7 rV) (View.ld x8 rV) (View.ld x6 rV)⟩]

/-- The one store covers the buffer. -/
theorem cover (p0 : Vec F S5000x128 .f32) (y : S5000x128.Idx) :
    ∃ pc ∈ ([⟨rA, p0⟩] : List (View.Piece (Elt F) S5000x128 .f32)), y ∈ pc.1.set :=
  View.cover_of_tiled [⟨rA, p0⟩] S5000x128.size (by rfl) y

set_option maxHeartbeats 4000000 in
/-- The body on whole buffers, the inputs at `x0 … x8` and the output at anything, runs to the continuation with the
    inputs as they were and the output at `outBlk` of them. -/
theorem sound_kernel (c : Dev nD) (E : Set ℕ) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S128 .f32) (harg6 : arg6.IsWhole) (arg7 : Memref sig .tc .vmem S128 .f32) (harg7 : arg7.IsWhole) (arg8 : Memref sig .tc .vmem S128 .f32) (harg8 : arg8.IsWhole) (arg9 : Memref sig .tc .vmem S128 .f32) (harg9 : arg9.IsWhole) (arg10 : Memref sig .tc .vmem S5000x128 .f32) (harg10 : arg10.IsWhole)
    (x0 x1 : Vec F S5000x128 .f32) (x2 x3 : Vec F S128x128 .f32) (x4 x5 x6 x7 x8 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (outBlk x0 x1 x2 x3 x4 x5 x6 x7 x8)) -∗ K ⟨⟩))
      ⊢ wp frame (wpE (defs₀ (F := F)) Variants.none c none) E (cc1__sage_kernel i arg1 harg1 arg2 harg2 arg3 harg3 arg4 harg4 arg5 harg5 arg6 harg6 arg7 harg7 arg8 harg8 arg9 harg9 arg10 harg10) K := by
  simp only [cc1__sage_kernel_eq_skeleton]; unfold cc1__sage_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover _)

/-- The pipeline's proof data on core `c`: the arrays as the region finds them; after the body at point `t` each input
    buffer at its block and the output buffer at `outBlk` of the input blocks; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => outBlk (iblk V c 0 t) (iblk V c 1 t) (iblk V c 2 t) (iblk V c 3 t) (iblk V c 4 t) (iblk V c 5 t) (iblk V c 6 t) (iblk V c 7 t) (iblk V c 8 t)
  Φ _ := Pipeline.ΦA spec1 c
  q _ := fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = iblk V c 4 t := by dsimp only [dat]
theorem after_5 (c : Dev nD) (t : Fin cfg1.N) : (dat V c).after 5 t = iblk V c 5 t := by dsimp only [dat]
theorem after_6 (c : Dev nD) (t : Fin cfg1.N) : (dat V c).after 6 t = iblk V c 6 t := by dsimp only [dat]
theorem after_7 (c : Dev nD) (t : Fin cfg1.N) : (dat V c).after 7 t = iblk V c 7 t := by dsimp only [dat]
theorem after_8 (c : Dev nD) (t : Fin cfg1.N) : (dat V c).after 8 t = iblk V c 8 t := by dsimp only [dat]
theorem after_9 (c : Dev nD) (t : Fin cfg1.N) : (dat V c).after 9 t = outBlk (iblk V c 0 t) (iblk V c 1 t) (iblk V c 2 t) (iblk V c 3 t) (iblk V c 4 t) (iblk V c 5 t) (iblk V c 6 t) (iblk V c 7 t) (iblk V c 8 t) := by dsimp only [dat]

theorem before_0 (c : Dev nD) (t : Fin cfg1.N) (d) : (dat V c).before 0 t d = iblk V c 0 t :=
  before_of_0 V (dat V c) (A_eq V c 0) (after_0 V c) t d
theorem before_1 (c : Dev nD) (t : Fin cfg1.N) (d) : (dat V c).before 1 t d = iblk V c 1 t :=
  before_of_1 V (dat V c) (A_eq V c 1) (after_1 V c) t d
theorem before_2 (c : Dev nD) (t : Fin cfg1.N) (d) : (dat V c).before 2 t d = iblk V c 2 t :=
  before_of_2 V (dat V c) (A_eq V c 2) (after_2 V c) t d
theorem before_3 (c : Dev nD) (t : Fin cfg1.N) (d) : (dat V c).before 3 t d = iblk V c 3 t :=
  before_of_3 V (dat V c) (A_eq V c 3) (after_3 V c) t d
theorem before_4 (c : Dev nD) (t : Fin cfg1.N) (d) : (dat V c).before 4 t d = iblk V c 4 t :=
  before_of_4 V (dat V c) (A_eq V c 4) (after_4 V c) t d
theorem before_5 (c : Dev nD) (t : Fin cfg1.N) (d) : (dat V c).before 5 t d = iblk V c 5 t :=
  before_of_5 V (dat V c) (A_eq V c 5) (after_5 V c) t d
theorem before_6 (c : Dev nD) (t : Fin cfg1.N) (d) : (dat V c).before 6 t d = iblk V c 6 t :=
  before_of_6 V (dat V c) (A_eq V c 6) (after_6 V c) t d
theorem before_7 (c : Dev nD) (t : Fin cfg1.N) (d) : (dat V c).before 7 t d = iblk V c 7 t :=
  before_of_7 V (dat V c) (A_eq V c 7) (after_7 V c) t d
theorem before_8 (c : Dev nD) (t : Fin cfg1.N) (d) : (dat V c).before 8 t d = iblk V c 8 t :=
  before_of_8 V (dat V c) (A_eq V c 8) (after_8 V c) t d

/-- What the body is called with at point `t`, window by window, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d))
    ∗ (∃ d, owns (c : Thread nD τ) (st1_7 t) fullShare ((dat V c).before 7 t d))
    ∗ (∃ d, owns (c : Thread nD τ) (st1_8 t) fullShare ((dat V c).before 8 t d))
    ∗ (∃ d, owns (c : Thread nD τ) (st1_9 t) fullShare ((dat V c).before 9 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t)
    ∗ owns (c : Thread nD τ) (st1_6 t) fullShare ((dat V c).after 6 t)
    ∗ owns (c : Thread nD τ) (st1_7 t) fullShare ((dat V c).after 7 t)
    ∗ owns (c : Thread nD τ) (st1_8 t) fullShare ((dat V c).after 8 t)
    ∗ owns (c : Thread nD τ) (st1_9 t) fullShare ((dat V c).after 9 t))

set_option maxHeartbeats 4000000 in
/-- The body at any point: the input buffers hold their blocks, so `sound_kernel` applies; the invariant and what the core
    owes pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4, before_5, before_6, before_7, before_8]
  rw [show (dat V c).Φ t.succ = (dat V c).Φ t.castSucc from rfl,
    show (dat V c).owesAt () t.succ = (dat V c).owesAt () t.castSucc from rfl,
    after_0, after_1, after_2, after_3, after_4, after_5, after_6, after_7, after_8, after_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ _ _ _ _ _ _ _ _ _ _ _ _ _ _ _ _ _ _ _ _ _ (iblk V c 0 t) (iblk V c 1 t) (iblk V c 2 t) (iblk V c 3 t) (iblk V c 4 t) (iblk V c 5 t) (iblk V c 6 t) (iblk V c 7 t) (iblk V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body obligation, at every point. -/
theorem body_obligation (c : Dev nD) : BodyObligation (dat (F := F) V c) (defs₀ (F := F)) Variants.none () Set.univ := fun t => by
  rw [bigSep_W1, bigSep_W1]
  exact sound_body V c t

end Cert.KernelIdeal.Sage1

end
-- ==== Proof.KIMlp.lean ====
/-
  The candidate-scoring kernel region: on a grid of 50 points, point t takes rows 2000·t … 2000·t+1999 of the
  100000×257 candidate matrix and the three layers' weights and biases whole (257×64, 64, 64×64, 64, 64×1, 1), and
  writes the 2000×1 block  (leaky_relu (leaky_relu (CE·W₀ + b₀)·W₁ + b₁))·W₂ + b₂  of the scores. This module states, at
  any float instance and at any contents `V` the region is entered from: each window's block at a point, what the body
  leaves in the output buffer (one store of the whole block, the payload of the seven loads), and that the body run on
  those buffers ends with the inputs as found and the output at that payload. The six constant-index windows are
  fetched once and hold their (whole-array) block at every point.
-/
import proofs.«138996_j84593675862715_1_alg».proof.Proof.Gen.KernelIdeal.Launch
import proofs.«138996_j84593675862715_1_alg».proof.Proof.Gen.KernelIdeal.Skeleton
import proofs.«138996_j84593675862715_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Mlp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, fetched there or not. -/
theorem before_of_0 {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds its block at every point, fetched there or not. -/
theorem before_of_1 {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's staging buffer holds its block at every point, fetched there or not. -/
theorem before_of_2 {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's staging buffer holds its block at every point, fetched there or not. -/
theorem before_of_3 {c : Dev nD} (dat : Dat τ (Elt F) Unit ℕ (UR sig nD τ) ℕ cfg2 c) (hA : dat.A 3 = V c (Pipeline.arrRef spec2 3))
    (hafter : ∀ t, dat.after 3 t = iblk V c 3 t) (t : Fin cfg2.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's staging buffer holds its block at every point, fetched there or not. -/
theorem before_of_4 {c : Dev nD} (dat : Dat τ (Elt F) Unit ℕ (UR sig nD τ) ℕ cfg2 c) (hA : dat.A 4 = V c (Pipeline.arrRef spec2 4))
    (hafter : ∀ t, dat.after 4 t = iblk V c 4 t) (t : Fin cfg2.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's staging buffer holds its block at every point, fetched there or not. -/
theorem before_of_5 {c : Dev nD} (dat : Dat τ (Elt F) Unit ℕ (UR sig nD τ) ℕ cfg2 c) (hA : dat.A 5 = V c (Pipeline.arrRef spec2 5))
    (hafter : ∀ t, dat.after 5 t = iblk V c 5 t) (t : Fin cfg2.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's staging buffer holds its block at every point, fetched there or not. -/
theorem before_of_6 {c : Dev nD} (dat : Dat τ (Elt F) Unit ℕ (UR sig nD τ) ℕ cfg2 c) (hA : dat.A 6 = V c (Pipeline.arrRef spec2 6))
    (hafter : ∀ t, dat.after 6 t = iblk V c 6 t) (t : Fin cfg2.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- The body reads and writes whole buffers. -/
abbrev rCE : Rect S2000x257 := Rect.unit (s := S2000x257) ![0, 0] S2000x257.size inb_S2000x257_S2000x257_0_0
abbrev rW0 : Rect S257x64 := Rect.unit (s := S257x64) ![0, 0] S257x64.size inb_S257x64_S257x64_0_0
abbrev rB : Rect S64 := Rect.unit (s := S64) ![0] S64.size inb_S64_S64_0
abbrev rW1 : Rect S64x64 := Rect.unit (s := S64x64) ![0, 0] S64x64.size inb_S64x64_S64x64_0_0
abbrev rW2 : Rect S64x1 := Rect.unit (s := S64x1) ![0, 0] S64x1.size inb_S64x1_S64x1_0_0
abbrev rB2 : Rect S1 := Rect.unit (s := S1) ![0] S1.size inb_S1_S1_0
abbrev rO : Rect S2000x1 := Rect.unit (s := S2000x1) ![0, 0] S2000x1.size inb_S2000x1_S2000x1_0_0

/-- What the body leaves in the output buffer, from the seven input buffers: its one store, of the whole block. -/
def outBlk (x0 : Vec F S2000x257 .f32) (x1 : Vec F S257x64 .f32) (x2 : Vec F S64 .f32) (x3 : Vec F S64x64 .f32) (x4 : Vec F S64 .f32) (x5 : Vec F S64x1 .f32) (x6 : Vec F S1 .f32) : Vec F S2000x1 .f32 :=
  View.canon [⟨rO, k2_pay1 (View.ld x0 rCE) (View.ld x1 rW0) (View.ld x2 rB) (View.ld x3 rW1) (View.ld x4 rB) (View.ld x5 rW2) (View.ld x6 rB2)⟩]

/-- The one store covers the buffer. -/
theorem cover (p0 : Vec F S2000x1 .f32) (y : S2000x1.Idx) :
    ∃ pc ∈ ([⟨rO, p0⟩] : List (View.Piece (Elt F) S2000x1 .f32)), y ∈ pc.1.set :=
  View.cover_of_tiled [⟨rO, p0⟩] S2000x1.size (by rfl) y

set_option maxHeartbeats 4000000 in
/-- The body on whole buffers, the inputs at `x0 … x6` and the output at anything, runs to the continuation with the
    inputs as they were and the output at `outBlk` of them. -/
theorem sound_kernel (c : Dev nD) (E : Set ℕ) (i : grid2.Coords) (arg1 : Memref sig .tc .vmem S2000x257 .f32) (harg1 : arg1.IsWhole) (arg2 : Memref sig .tc .vmem S257x64 .f32) (harg2 : arg2.IsWhole) (arg3 : Memref sig .tc .vmem S64 .f32) (harg3 : arg3.IsWhole) (arg4 : Memref sig .tc .vmem S64x64 .f32) (harg4 : arg4.IsWhole) (arg5 : Memref sig .tc .vmem S64 .f32) (harg5 : arg5.IsWhole) (arg6 : Memref sig .tc .vmem S64x1 .f32) (harg6 : arg6.IsWhole) (arg7 : Memref sig .tc .vmem S1 .f32) (harg7 : arg7.IsWhole) (arg8 : Memref sig .tc .vmem S2000x1 .f32) (harg8 : arg8.IsWhole)
    (x0 : Vec F S2000x257 .f32) (x1 : Vec F S257x64 .f32) (x2 : Vec F S64 .f32) (x3 : Vec F S64x64 .f32) (x4 : Vec F S64 .f32) (x5 : Vec F S64x1 .f32) (x6 : Vec F S1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (outBlk x0 x1 x2 x3 x4 x5 x6)) -∗ K ⟨⟩))
      ⊢ wp frame (wpE (defs₀ (F := F)) Variants.none c none) E (cc2__mlp_kernel i arg1 harg1 arg2 harg2 arg3 harg3 arg4 harg4 arg5 harg5 arg6 harg6 arg7 harg7 arg8 harg8) K := by
  simp only [cc2__mlp_kernel_eq_skeleton]; unfold cc2__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  try dsimp only
  exact View.read_writes_eq_canon _ _ _ (cover _)

/-- The pipeline's proof data on core `c`: the arrays as the region finds them; after the body at point `t` each input
    buffer at its block and the output buffer at `outBlk` of the input blocks; nothing owed; full shares. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => outBlk (iblk V c 0 t) (iblk V c 1 t) (iblk V c 2 t) (iblk V c 3 t) (iblk V c 4 t) (iblk V c 5 t) (iblk V c 6 t)
  Φ _ := Pipeline.ΦA spec2 c
  q _ := fullShare
  owed _ := 0

theorem A_eq (c : Dev nD) (w : Fin cfg2.W) : (dat V c).A w = V c (Pipeline.arrRef spec2 w) := by
  dsimp only [dat]

theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = iblk V c 2 t := by dsimp only [dat]
theorem after_3 (c : Dev nD) (t : Fin cfg2.N) : (dat V c).after 3 t = iblk V c 3 t := by dsimp only [dat]
theorem after_4 (c : Dev nD) (t : Fin cfg2.N) : (dat V c).after 4 t = iblk V c 4 t := by dsimp only [dat]
theorem after_5 (c : Dev nD) (t : Fin cfg2.N) : (dat V c).after 5 t = iblk V c 5 t := by dsimp only [dat]
theorem after_6 (c : Dev nD) (t : Fin cfg2.N) : (dat V c).after 6 t = iblk V c 6 t := by dsimp only [dat]
theorem after_7 (c : Dev nD) (t : Fin cfg2.N) : (dat V c).after 7 t = outBlk (iblk V c 0 t) (iblk V c 1 t) (iblk V c 2 t) (iblk V c 3 t) (iblk V c 4 t) (iblk V c 5 t) (iblk V c 6 t) := by dsimp only [dat]

theorem before_0 (c : Dev nD) (t : Fin cfg2.N) (d) : (dat V c).before 0 t d = iblk V c 0 t :=
  before_of_0 V (dat V c) (A_eq V c 0) (after_0 V c) t d
theorem before_1 (c : Dev nD) (t : Fin cfg2.N) (d) : (dat V c).before 1 t d = iblk V c 1 t :=
  before_of_1 V (dat V c) (A_eq V c 1) (after_1 V c) t d
theorem before_2 (c : Dev nD) (t : Fin cfg2.N) (d) : (dat V c).before 2 t d = iblk V c 2 t :=
  before_of_2 V (dat V c) (A_eq V c 2) (after_2 V c) t d
theorem before_3 (c : Dev nD) (t : Fin cfg2.N) (d) : (dat V c).before 3 t d = iblk V c 3 t :=
  before_of_3 V (dat V c) (A_eq V c 3) (after_3 V c) t d
theorem before_4 (c : Dev nD) (t : Fin cfg2.N) (d) : (dat V c).before 4 t d = iblk V c 4 t :=
  before_of_4 V (dat V c) (A_eq V c 4) (after_4 V c) t d
theorem before_5 (c : Dev nD) (t : Fin cfg2.N) (d) : (dat V c).before 5 t d = iblk V c 5 t :=
  before_of_5 V (dat V c) (A_eq V c 5) (after_5 V c) t d
theorem before_6 (c : Dev nD) (t : Fin cfg2.N) (d) : (dat V c).before 6 t d = iblk V c 6 t :=
  before_of_6 V (dat V c) (A_eq V c 6) (after_6 V c) t d

/-- What the body is called with at point `t`, window by window, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d))
    ∗ (∃ d, owns (c : Thread nD τ) (st2_4 t) fullShare ((dat V c).before 4 t d))
    ∗ (∃ d, owns (c : Thread nD τ) (st2_5 t) fullShare ((dat V c).before 5 t d))
    ∗ (∃ d, owns (c : Thread nD τ) (st2_6 t) fullShare ((dat V c).before 6 t d))
    ∗ (∃ d, owns (c : Thread nD τ) (st2_7 t) fullShare ((dat V c).before 7 t d)))

/-- and what it returns. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t)
    ∗ owns (c : Thread nD τ) (st2_4 t) fullShare ((dat V c).after 4 t)
    ∗ owns (c : Thread nD τ) (st2_5 t) fullShare ((dat V c).after 5 t)
    ∗ owns (c : Thread nD τ) (st2_6 t) fullShare ((dat V c).after 6 t)
    ∗ owns (c : Thread nD τ) (st2_7 t) fullShare ((dat V c).after 7 t))

set_option maxHeartbeats 4000000 in
/-- The body at any point: the input buffers hold their blocks, so `sound_kernel` applies; the invariant and what the core
    owes pass through unread. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2, before_3, before_4, before_5, before_6]
  rw [show (dat V c).Φ t.succ = (dat V c).Φ t.castSucc from rfl,
    show (dat V c).owesAt () t.succ = (dat V c).owesAt () t.castSucc from rfl,
    after_0, after_1, after_2, after_3, after_4, after_5, after_6, after_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (iblk V c 0 t) (iblk V c 1 t) (iblk V c 2 t) (iblk V c 3 t) (iblk V c 4 t) (iblk V c 5 t) (iblk V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation, at every point. -/
theorem body_obligation (c : Dev nD) : BodyObligation (dat (F := F) V c) (defs₀ (F := F)) Variants.none () Set.univ := fun t => by
  rw [bigSep_W2, bigSep_W2]
  exact sound_body V c t

end Cert.KernelIdeal.Mlp

end
-- ==== Proof.KIRun.lean ====
/-
  The run of the whole program, at any float instance: @main is thirteen items — stretches of host operations and the
  three kernel regions (the two GraphSAGE layers and the candidate-scoring network) — and every weakly fair execution
  walks them in order. The contents of the TensorCore's buffers between items are a fold from the launch memory: a host
  stretch applies its operations; a region leaves each of its windows' arrays at what the pipeline's write-backs make
  of it (an input array as entered, the output array the blocks the grid points wrote) and every other buffer as
  entered. The run ends with every buffer at the fold's last stage; no item writes an argument array.
-/
import proofs.«138996_j84593675862715_1_alg».proof.Proof.Gen.KernelIdeal.Regions
import proofs.«138996_j84593675862715_1_alg».proof.Proof.KISage0
import proofs.«138996_j84593675862715_1_alg».proof.Proof.KISage1
import proofs.«138996_j84593675862715_1_alg».proof.Proof.KIMlp
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents between items -/

/-- Core `c`'s buffers at launch. -/
abbrev W0 : Dev nD → Valuation τ sig (Elt F) := fun c b => m (c, b)
/-- After item 0, the host stretch `hostOps0`. -/
abbrev W1 : Dev nD → Valuation τ sig (Elt F) := fun c => StableHlo.after hostOps0 (W0 m c)
/-- The contents region 0 is entered from, read at the TensorCore's references. -/
abbrev E1 : (c : Dev nD) → (b : Ref sig .tc) → Buf (Elt F) ((c : Thread nD τ).loc b) := fun c b => W1 m c b
/-- After item 1, region 0: its windows' arrays at what the pipeline leaves, every other buffer as entered. -/
def W2 (c : Dev nD) : Valuation τ sig (Elt F) :=
  Pipeline.withArrays spec0 c (W1 m c) fun w => (Sage0.dat (E1 m) c).arrAt w cfg0.N
theorem W2_arr (c : Dev nD) (w : Fin cfg0.W) :
    W2 m c (Proc.devRef .tc (Pipeline.arrRef spec0 w)) = (Sage0.dat (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references. -/
abbrev X2 : (c : Dev nD) → (b : Ref sig .tc) → Buf (Elt F) ((c : Thread nD τ).loc b) := fun c b => W2 m c b
theorem hF0 (c : Dev nD) (w : Fin cfg0.W) : (Sage0.dat (E1 m) c).arrAt w cfg0.N = X2 m c (Pipeline.arrRef spec0 w) :=
  (W2_arr m c w).symm
theorem hrest0 (c : Dev nD) : ∀ b, b ∉ Finset.univ.image (Pipeline.arrRef spec0) → X2 m c b = E1 m c b :=
  fun b hb => W2_of_ne m c b fun w e => hb (Finset.mem_image.mpr ⟨w, Finset.mem_univ _, e⟩)
/-- A region changes no buffer but its output array: an input window's array is left as entered. -/
theorem W2_keep (c : Dev nD) (r : Ref sig .tc) (h : r ≠ main_v19) :
    W2 m c (Proc.devRef .tc r) = W1 m c (Proc.devRef .tc r) := by
  by_cases hr : ∃ w, Pipeline.arrRef spec0 w = r
  · obtain ⟨w, rfl⟩ := hr
    have hw : (cfg0.win w).isOut = false := by
      revert w; decide
    exact (W2_arr m c w).trans (((Sage0.dat (E1 m) c).arrAt_in w hw _).trans (Sage0.A_eq (E1 m) c w))
  · exact W2_of_ne m c r fun w e => hr ⟨w, e⟩
/-- After item 2, the host stretch `hostOps1`. -/
abbrev W3 : Dev nD → Valuation τ sig (Elt F) := fun c => StableHlo.after hostOps1 (W2 m c)
/-- The contents region 1 is entered from, read at the TensorCore's references. -/
abbrev E3 : (c : Dev nD) → (b : Ref sig .tc) → Buf (Elt F) ((c : Thread nD τ).loc b) := fun c b => W3 m c b
/-- After item 3, region 1: its windows' arrays at what the pipeline leaves, every other buffer as entered. -/
def W4 (c : Dev nD) : Valuation τ sig (Elt F) :=
  Pipeline.withArrays spec1 c (W3 m c) fun w => (Sage1.dat (E3 m) c).arrAt w cfg1.N
theorem W4_arr (c : Dev nD) (w : Fin cfg1.W) :
    W4 m c (Proc.devRef .tc (Pipeline.arrRef spec1 w)) = (Sage1.dat (E3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
/-- The same read at the TensorCore's references. -/
abbrev X4 : (c : Dev nD) → (b : Ref sig .tc) → Buf (Elt F) ((c : Thread nD τ).loc b) := fun c b => W4 m c b
theorem hF1 (c : Dev nD) (w : Fin cfg1.W) : (Sage1.dat (E3 m) c).arrAt w cfg1.N = X4 m c (Pipeline.arrRef spec1 w) :=
  (W4_arr m c w).symm
theorem hrest1 (c : Dev nD) : ∀ b, b ∉ Finset.univ.image (Pipeline.arrRef spec1) → X4 m c b = E3 m c b :=
  fun b hb => W4_of_ne m c b fun w e => hb (Finset.mem_image.mpr ⟨w, Finset.mem_univ _, e⟩)
/-- A region changes no buffer but its output array: an input window's array is left as entered. -/
theorem W4_keep (c : Dev nD) (r : Ref sig .tc) (h : r ≠ main_v39) :
    W4 m c (Proc.devRef .tc r) = W3 m c (Proc.devRef .tc r) := by
  by_cases hr : ∃ w, Pipeline.arrRef spec1 w = r
  · obtain ⟨w, rfl⟩ := hr
    have hw : (cfg1.win w).isOut = false := by
      revert w; decide
    exact (W4_arr m c w).trans (((Sage1.dat (E3 m) c).arrAt_in w hw _).trans (Sage1.A_eq (E3 m) c w))
  · exact W4_of_ne m c r fun w e => hr ⟨w, e⟩
/-- After item 4, the host stretch `hostOps2`. -/
abbrev W5 : Dev nD → Valuation τ sig (Elt F) := fun c => StableHlo.after hostOps2 (W4 m c)
/-- After item 5, the host stretch `hostOps2_1`. -/
abbrev W6 : Dev nD → Valuation τ sig (Elt F) := fun c => StableHlo.after hostOps2_1 (W5 m c)
/-- After item 6, the host stretch `hostOps2_2`. -/
abbrev W7 : Dev nD → Valuation τ sig (Elt F) := fun c => StableHlo.after hostOps2_2 (W6 m c)
/-- After item 7, the host stretch `hostOps2_3`. -/
abbrev W8 : Dev nD → Valuation τ sig (Elt F) := fun c => StableHlo.after hostOps2_3 (W7 m c)
/-- After item 8, the host stretch `hostOps2_4`. -/
abbrev W9 : Dev nD → Valuation τ sig (Elt F) := fun c => StableHlo.after hostOps2_4 (W8 m c)
/-- After item 9, the host stretch `hostOps2_5`. -/
abbrev W10 : Dev nD → Valuation τ sig (Elt F) := fun c => StableHlo.after hostOps2_5 (W9 m c)
/-- After item 10, the host stretch `hostOps2_6`. -/
abbrev W11 : Dev nD → Valuation τ sig (Elt F) := fun c => StableHlo.after hostOps2_6 (W10 m c)
/-- The contents region 2 is entered from, read at the TensorCore's references. -/
abbrev E11 : (c : Dev nD) → (b : Ref sig .tc) → Buf (Elt F) ((c : Thread nD τ).loc b) := fun c b => W11 m c b
/-- After item 11, region 2: its windows' arrays at what the pipeline leaves, every other buffer as entered. -/
def W12 (c : Dev nD) : Valuation τ sig (Elt F) :=
  Pipeline.withArrays spec2 c (W11 m c) fun w => (Mlp.dat (E11 m) c).arrAt w cfg2.N
theorem W12_arr (c : Dev nD) (w : Fin cfg2.W) :
    W12 m c (Proc.devRef .tc (Pipeline.arrRef spec2 w)) = (Mlp.dat (E11 m) c).arrAt w cfg2.N := by
  unfold W12; exact Pipeline.withArrays_arr spec2 launch2.win.arr_inj c _ _ w
theorem W12_of_ne (c : Dev nD) (b : Ref sig .tc) (hb : ∀ w, Pipeline.arrRef spec2 w ≠ b) :
    W12 m c (Proc.devRef .tc b) = W11 m c (Proc.devRef .tc b) := by
  unfold W12; exact Pipeline.withArrays_of_ne spec2 c _ _ b hb
/-- The same read at the TensorCore's references. -/
abbrev X12 : (c : Dev nD) → (b : Ref sig .tc) → Buf (Elt F) ((c : Thread nD τ).loc b) := fun c b => W12 m c b
theorem hF2 (c : Dev nD) (w : Fin cfg2.W) : (Mlp.dat (E11 m) c).arrAt w cfg2.N = X12 m c (Pipeline.arrRef spec2 w) :=
  (W12_arr m c w).symm
theorem hrest2 (c : Dev nD) : ∀ b, b ∉ Finset.univ.image (Pipeline.arrRef spec2) → X12 m c b = E11 m c b :=
  fun b hb => W12_of_ne m c b fun w e => hb (Finset.mem_image.mpr ⟨w, Finset.mem_univ _, e⟩)
/-- A region changes no buffer but its output array: an input window's array is left as entered. -/
theorem W12_keep (c : Dev nD) (r : Ref sig .tc) (h : r ≠ main_v63) :
    W12 m c (Proc.devRef .tc r) = W11 m c (Proc.devRef .tc r) := by
  by_cases hr : ∃ w, Pipeline.arrRef spec2 w = r
  · obtain ⟨w, rfl⟩ := hr
    have hw : (cfg2.win w).isOut = false := by
      revert w; decide
    exact (W12_arr m c w).trans (((Mlp.dat (E11 m) c).arrAt_in w hw _).trans (Mlp.A_eq (E11 m) c w))
  · exact W12_of_ne m c r fun w e => hr ⟨w, e⟩
/-- After item 12, the host stretch `hostOps3`. -/
abbrev W13 : Dev nD → Valuation τ sig (Elt F) := fun c => StableHlo.after hostOps3 (W12 m c)
theorem W1_keep (c : Dev nD) (r : Ref sig .tc) (h : r ∉ hostOps0_W) : W1 m c (Proc.devRef .tc r) = W0 m c (Proc.devRef .tc r) :=
  StableHlo.after_of_writes_sub hostOps0 _ hostOps0_writes h
theorem W3_keep (c : Dev nD) (r : Ref sig .tc) (h : r ∉ hostOps1_W) : W3 m c (Proc.devRef .tc r) = W2 m c (Proc.devRef .tc r) :=
  StableHlo.after_of_writes_sub hostOps1 _ hostOps1_writes h
theorem W5_keep (c : Dev nD) (r : Ref sig .tc) (h : r ∉ hostOps2_W) : W5 m c (Proc.devRef .tc r) = W4 m c (Proc.devRef .tc r) :=
  StableHlo.after_of_writes_sub hostOps2 _ hostOps2_writes h
theorem W6_keep (c : Dev nD) (r : Ref sig .tc) (h : r ∉ hostOps2_1_W) : W6 m c (Proc.devRef .tc r) = W5 m c (Proc.devRef .tc r) :=
  StableHlo.after_of_writes_sub hostOps2_1 _ hostOps2_1_writes h
theorem W7_keep (c : Dev nD) (r : Ref sig .tc) (h : r ∉ hostOps2_2_W) : W7 m c (Proc.devRef .tc r) = W6 m c (Proc.devRef .tc r) :=
  StableHlo.after_of_writes_sub hostOps2_2 _ hostOps2_2_writes h
theorem W8_keep (c : Dev nD) (r : Ref sig .tc) (h : r ∉ hostOps2_3_W) : W8 m c (Proc.devRef .tc r) = W7 m c (Proc.devRef .tc r) :=
  StableHlo.after_of_writes_sub hostOps2_3 _ hostOps2_3_writes h
theorem W9_keep (c : Dev nD) (r : Ref sig .tc) (h : r ∉ hostOps2_4_W) : W9 m c (Proc.devRef .tc r) = W8 m c (Proc.devRef .tc r) :=
  StableHlo.after_of_writes_sub hostOps2_4 _ hostOps2_4_writes h
theorem W10_keep (c : Dev nD) (r : Ref sig .tc) (h : r ∉ hostOps2_5_W) : W10 m c (Proc.devRef .tc r) = W9 m c (Proc.devRef .tc r) :=
  StableHlo.after_of_writes_sub hostOps2_5 _ hostOps2_5_writes h
theorem W11_keep (c : Dev nD) (r : Ref sig .tc) (h : r ∉ hostOps2_6_W) : W11 m c (Proc.devRef .tc r) = W10 m c (Proc.devRef .tc r) :=
  StableHlo.after_of_writes_sub hostOps2_6 _ hostOps2_6_writes h
theorem W13_keep (c : Dev nD) (r : Ref sig .tc) (h : r ∉ hostOps3_W) : W13 m c (Proc.devRef .tc r) = W12 m c (Proc.devRef .tc r) :=
  StableHlo.after_of_writes_sub hostOps3 _ hostOps3_writes h

/-- A buffer no host stretch writes and that is no region's output array ends as launched. -/
theorem W13_kept (c : Dev nD) (r : Ref sig .tc) (h1 : r ∉ hostOps0_W) (h2 : r ≠ main_v19) (h3 : r ∉ hostOps1_W) (h4 : r ≠ main_v39) (h5 : r ∉ hostOps2_W) (h6 : r ∉ hostOps2_1_W) (h7 : r ∉ hostOps2_2_W) (h8 : r ∉ hostOps2_3_W) (h9 : r ∉ hostOps2_4_W) (h10 : r ∉ hostOps2_5_W) (h11 : r ∉ hostOps2_6_W) (h12 : r ≠ main_v63) (h13 : r ∉ hostOps3_W) :
    W13 m c (Proc.devRef .tc r) = m ((c : Thread nD τ).loc r) :=
  (W13_keep m c r h13).trans <| (W12_keep m c r h12).trans <| (W11_keep m c r h11).trans <| (W10_keep m c r h10).trans <| (W9_keep m c r h9).trans <| (W8_keep m c r h8).trans <| (W7_keep m c r h7).trans <| (W6_keep m c r h6).trans <| (W5_keep m c r h5).trans <| (W4_keep m c r h4).trans <| (W3_keep m c r h3).trans <| (W2_keep m c r h2).trans <| (W1_keep m c r h1).trans rfl

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => Sage0.dat (E1 m) c
  | ⟨1, _⟩ => fun c => Sage1.dat (E3 m) c
  | ⟨2, _⟩ => fun c => Mlp.dat (E11 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the last contents, the generator register at some state. -/
abbrev Tₙ (c : Dev nD) : sProp 𝕄 := iprop(StableHlo.held (c : Thread nD τ) (Pipeline.ucRefs τ sig) (W13 m c) ∗ ∃ r, prngReg c r)

/-! ## The regions as segments -/

set_option backward.isDefEq.respectTransparency.types false in
/-- Region 0 over the thread state: entered from every unscoped buffer at the contents before it, left at the contents
    after it. Its arrays are split out of the unscoped buffers and put back at the exit contents; the generator register goes
    into the pipeline's invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Sage0.body_obligation (E1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (X2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at the contents
    after it. Its arrays are split out of the unscoped buffers and put back at the exit contents; the generator register goes
    into the pipeline's invariant and comes out; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Sage1.body_obligation (E3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E3 m c) (X4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at the contents before it, left at the contents
    after it. Its arrays are split out of the unscoped buffers and put back at the exit contents; the generator register goes
    into the pipeline's invariant and comes out; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (Mlp.body_obligation (E11 m) c).loose
  hwaits := Pipeline.hwaits_of_owed_zero _ _ _ _ L lv 2 fun _ _ => rfl
  pre c := iprop(StableHlo.held (c : Thread nD τ) (Pipeline.ucRefs τ sig) (W11 m c) ∗ R c)
  post c := iprop(StableHlo.held (c : Thread nD τ) (Pipeline.ucRefs τ sig) (W12 m c) ∗ R c)
  X c := iprop(∃ r, prngReg c r)
  Y c := iprop(∃ r, prngReg c r)
  Z c := Pipeline.unscopedRest (Ix := Unit) (Name := ℕ) (U := UR sig nD τ) (Lvl := ℕ) spec2 c (E11 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E11 m c) (X12 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

variable (ρ : Dev nD → PrngReg)

/-- @main's thirteen items in order. -/
abbrev segList : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .host (hseg hostOps2_1 hostOps2_1_sub hostOps2_1_fresh (W5 m)),
    .host (hseg hostOps2_2 hostOps2_2_sub hostOps2_2_fresh (W6 m)),
    .host (hseg hostOps2_3 hostOps2_3_sub hostOps2_3_fresh (W7 m)),
    .host (hseg hostOps2_4 hostOps2_4_sub hostOps2_4_fresh (W8 m)),
    .host (hseg hostOps2_5 hostOps2_5_sub hostOps2_5_fresh (W9 m)),
    .host (hseg hostOps2_6 hostOps2_6_sub hostOps2_6_fresh (W10 m)),
    .region (reg2 m),
    .host (hseg hostOps3 hostOps3_sub hostOps3_fresh (W12 m)) ]

set_option backward.isDefEq.respectTransparency.types false in
/-- THE RUN: from any memory with zero counters every weakly fair execution of @main terminates, nothing faulting, and every
    final state has every unscoped buffer at the fold's last contents. -/
theorem run : θ_run defs (onTc (τ := τ) (main (F := F))) ⟨m, fun _ => 0, ρ⟩ (fun r => ∀ c : Dev nD, ∀ b : Ref sig .tc,
      ¬ (Proc.devRef .tc b : DevRef τ sig).isScoped → r.2.mem ((c.tc : Thread nD τ).loc b) = W13 m c (Proc.devRef .tc b)) :=
  Pipeline.θ_run_regions_kit (pcfgs (F := F)) adm (pdats m) () cellOf_inj emb₁ defs₀ 𝒱₀ L lv m ρ main (segList m)
    (fun c Q => by
      rewrite [main_chain c, Pipeline.Seg.run_eq_chain,
        show (segList m).map Pipeline.Seg.prog = [
          StableHlo.seq hostOps0,
          Prog.lift (.customCall (Pipeline.entry 0) ()),
          StableHlo.seq hostOps1,
          Prog.lift (.customCall (Pipeline.entry 1) ()),
          StableHlo.seq hostOps2,
          StableHlo.seq hostOps2_1,
          StableHlo.seq hostOps2_2,
          StableHlo.seq hostOps2_3,
          StableHlo.seq hostOps2_4,
          StableHlo.seq hostOps2_5,
          StableHlo.seq hostOps2_6,
          Prog.lift (.customCall (Pipeline.entry 2) ()),
          StableHlo.seq hostOps3 ] from rfl]
      exact .rfl)
    (by simp only [segList, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W13 m c) ∗ R c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m c b)
    (hfin := fun c s' => by
      iintro ⟨⟨Hh, -⟩, HSI⟩
      unfold StableHlo.held
      imodintro
      iapply (pointsTo_read_all (Pipeline.ucRefs τ sig) (fun b => (((c : Thread nD τ)).1, b)) (W13 m c) s')
      isplitl [Hh] <;> iassumption)
    (hQ := fun s h c b hb => h c _ (mem_uc b hb))

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) :=
  (θ_run defs _ _).mono (fun r h c => ⟨(h c main_arg0 (by decide)).trans (W13_kept m c main_arg0 (by decide) (by decide) (by decide) (by decide) (by decide) (by decide) (by decide) (by decide) (by decide) (by decide) (by decide) (by decide) (by decide)),
    (h c main_arg1 (by decide)).trans (W13_kept m c main_arg1 (by decide) (by decide) (by decide) (by decide) (by decide) (by decide) (by decide) (by decide) (by decide) (by decide) (by decide) (by decide) (by decide)),
    (h c main_arg2 (by decide)).trans (W13_kept m c main_arg2 (by decide) (by decide) (by decide) (by decide) (by decide) (by decide) (by decide) (by decide) (by decide) (by decide) (by decide) (by decide) (by decide)),
    (h c main_arg3 (by decide)).trans (W13_kept m c main_arg3 (by decide) (by decide) (by decide) (by decide) (by decide) (by decide) (by decide) (by decide) (by decide) (by decide) (by decide) (by decide) (by decide)),
    (h c main_arg4 (by decide)).trans (W13_kept m c main_arg4 (by decide) (by decide) (by decide) (by decide) (by decide) (by decide) (by decide) (by decide) (by decide) (by decide) (by decide) (by decide) (by decide)),
    (h c main_arg5 (by decide)).trans (W13_kept m c main_arg5 (by decide) (by decide) (by decide) (by decide) (by decide) (by decide) (by decide) (by decide) (by decide) (by decide) (by decide) (by decide) (by decide)),
    (h c main_arg6 (by decide)).trans (W13_kept m c main_arg6 (by decide) (by decide) (by decide) (by decide) (by decide) (by decide) (by decide) (by decide) (by decide) (by decide) (by decide) (by decide) (by decide)),
    (h c main_arg7 (by decide)).trans (W13_kept m c main_arg7 (by decide) (by decide) (by decide) (by decide) (by decide) (by decide) (by decide) (by decide) (by decide) (by decide) (by decide) (by decide) (by decide)),
    (h c main_arg8 (by decide)).trans (W13_kept m c main_arg8 (by decide) (by decide) (by decide) (by decide) (by decide) (by decide) (by decide) (by decide) (by decide) (by decide) (by decide) (by decide) (by decide)),
    (h c main_arg9 (by decide)).trans (W13_kept m c main_arg9 (by decide) (by decide) (by decide) (by decide) (by decide) (by decide) (by decide) (by decide) (by decide) (by decide) (by decide) (by decide) (by decide)),
    (h c main_arg10 (by decide)).trans (W13_kept m c main_arg10 (by decide) (by decide) (by decide) (by decide) (by decide) (by decide) (by decide) (by decide) (by decide) (by decide) (by decide) (by decide) (by decide)),
    (h c main_arg11 (by decide)).trans (W13_kept m c main_arg11 (by decide) (by decide) (by decide) (by decide) (by decide) (by decide) (by decide) (by decide) (by decide) (by decide) (by decide) (by decide) (by decide)),
    (h c main_arg12 (by decide)).trans (W13_kept m c main_arg12 (by decide) (by decide) (by decide) (by decide) (by decide) (by decide) (by decide) (by decide) (by decide) (by decide) (by decide) (by decide) (by decide)),
    (h c main_arg13 (by decide)).trans (W13_kept m c main_arg13 (by decide) (by decide) (by decide) (by decide) (by decide) (by decide) (by decide) (by decide) (by decide) (by decide) (by decide) (by decide) (by decide)),
    (h c main_arg14 (by decide)).trans (W13_kept m c main_arg14 (by decide) (by decide) (by decide) (by decide) (by decide) (by decide) (by decide) (by decide) (by decide) (by decide) (by decide) (by decide) (by decide)),
    (h c main_arg15 (by decide)).trans (W13_kept m c main_arg15 (by decide) (by decide) (by decide) (by decide) (by decide) (by decide) (by decide) (by decide) (by decide) (by decide) (by decide) (by decide) (by decide)),
    (h c main_arg16 (by decide)).trans (W13_kept m c main_arg16 (by decide) (by decide) (by decide) (by decide) (by decide) (by decide) (by decide) (by decide) (by decide) (by decide) (by decide) (by decide) (by decide)),
    (h c main_arg17 (by decide)).trans (W13_kept m c main_arg17 (by decide) (by decide) (by decide) (by decide) (by decide) (by decide) (by decide) (by decide) (by decide) (by decide) (by decide) (by decide) (by decide)),
    (h c main_arg18 (by decide)).trans (W13_kept m c main_arg18 (by decide) (by decide) (by decide) (by decide) (by decide) (by decide) (by decide) (by decide) (by decide) (by decide) (by decide) (by decide) (by decide)),
    (h c main_arg19 (by decide)).trans (W13_kept m c main_arg19 (by decide) (by decide) (by decide) (by decide) (by decide) (by decide) (by decide) (by decide) (by decide) (by decide) (by decide) (by decide) (by decide)),
    (h c main_arg20 (by decide)).trans (W13_kept m c main_arg20 (by decide) (by decide) (by decide) (by decide) (by decide) (by decide) (by decide) (by decide) (by decide) (by decide) (by decide) (by decide) (by decide)),
    (h c main_arg21 (by decide)).trans (W13_kept m c main_arg21 (by decide) (by decide) (by decide) (by decide) (by decide) (by decide) (by decide) (by decide) (by decide) (by decide) (by decide) (by decide) (by decide)),
    (h c main_arg22 (by decide)).trans (W13_kept m c main_arg22 (by decide) (by decide) (by decide) (by decide) (by decide) (by decide) (by decide) (by decide) (by decide) (by decide) (by decide) (by decide) (by decide)),
    (h c main_arg23 (by decide)).trans (W13_kept m c main_arg23 (by decide) (by decide) (by decide) (by decide) (by decide) (by decide) (by decide) (by decide) (by decide) (by decide) (by decide) (by decide) (by decide)),
    (h c main_arg24 (by decide)).trans (W13_kept m c main_arg24 (by decide) (by decide) (by decide) (by decide) (by decide) (by decide) (by decide) (by decide) (by decide) (by decide) (by decide) (by decide) (by decide)),
    (h c main_arg25 (by decide)).trans (W13_kept m c main_arg25 (by decide) (by decide) (by decide) (by decide) (by decide) (by decide) (by decide) (by decide) (by decide) (by decide) (by decide) (by decide) (by decide))⟩) (run m ρ)

end Cert.KernelIdeal.Run

end
-- ==== Proof.RefRun.lean ====
import proofs.«138996_j84593675862715_1_alg».proof.Defs
import proofs.«138996_j84593675862715_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The operations

@main is a straight line of host operations: 150 statements in three windows, five of them calls of outlined
functions. A call executes the callee's body on the operands, so the line the device runs has the callee's
operations in the call's place, each over the buffers that call names (its record). -/

/-- @main's statements 1 … 60 as operations, in order: the call of `leaky_relu` is its six operations and `_where`'s select, over the call's buffer record. -/
abbrev ops0 : List (HloOp τ sig (Elt F)) :=
  [ nullary main_c (constantI S_ 32 0#32),
    unary main_c main_v0 (broadcastInDim S800000 ![] bcast_S_S800000 : (⟨S_, .i32⟩ : BufTy).Contents (Elt F) → (⟨S800000, .i32⟩ : BufTy).Contents (Elt F)),
    binary main_arg1 main_v0 main_v1 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v2 (broadcastInDim S800000 ![] bcast_S_S800000 : (⟨S_, .i32⟩ : BufTy).Contents (Elt F) → (⟨S800000, .i32⟩ : BufTy).Contents (Elt F)),
    binary main_arg1 main_v2 main_v3 (addi : (⟨S800000, .i32⟩ : BufTy).Contents (Elt F) → (⟨S800000, .i32⟩ : BufTy).Contents (Elt F) → (⟨S800000, .i32⟩ : BufTy).Contents (Elt F)),
    ternary main_v1 main_v3 main_arg1 main_v4 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v4 main_v5 (broadcastInDim S800000x1 ![0] bcast_S800000_S800000x1_0 : (⟨S800000, .i32⟩ : BufTy).Contents (Elt F) → (⟨S800000x1, .i32⟩ : BufTy).Contents (Elt F)),
    binary main_arg0 main_v5 main_v6 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst (constant S_ .f32 0x00000000#32),
    unary main_cst main_v7 (broadcastInDim S50000x128 ![] bcast_S_S50000x128 : (⟨S_, .f32⟩ : BufTy).Contents (Elt F) → (⟨S50000x128, .f32⟩ : BufTy).Contents (Elt F)),
    unary main_arg2 main_v8 (broadcastInDim S800000x1 ![0] bcast_S800000_S800000x1_0 : (⟨S800000, .i32⟩ : BufTy).Contents (Elt F) → (⟨S800000x1, .i32⟩ : BufTy).Contents (Elt F)),
    ternary main_v7 main_v8 main_v6 main_v9 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    nullary main_cst_1 (constant S_ .f32 0x3F800000#32),
    unary main_cst_1 main_v10 (broadcastInDim S800000 ![] bcast_S_S800000 : (⟨S_, .f32⟩ : BufTy).Contents (Elt F) → (⟨S800000, .f32⟩ : BufTy).Contents (Elt F)),
    nullary main_cst_2 (constant S_ .f32 0x00000000#32),
    unary main_cst_2 main_v11 (broadcastInDim S50000 ![] bcast_S_S50000 : (⟨S_, .f32⟩ : BufTy).Contents (Elt F) → (⟨S50000, .f32⟩ : BufTy).Contents (Elt F)),
    unary main_arg2 main_v12 (broadcastInDim S800000x1 ![0] bcast_S800000_S800000x1_0 : (⟨S800000, .i32⟩ : BufTy).Contents (Elt F) → (⟨S800000x1, .i32⟩ : BufTy).Contents (Elt F)),
    ternary main_v11 main_v12 main_v10 main_v13 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_3 (constant S_ .f32 0x3F800000#32),
    unary main_cst_3 main_v14 (broadcastInDim S50000 ![] bcast_S_S50000 : (⟨S_, .f32⟩ : BufTy).Contents (Elt F) → (⟨S50000, .f32⟩ : BufTy).Contents (Elt F)),
    binary main_v13 main_v14 main_v15 (maximumf : (⟨S50000, .f32⟩ : BufTy).Contents (Elt F) → (⟨S50000, .f32⟩ : BufTy).Contents (Elt F) → (⟨S50000, .f32⟩ : BufTy).Contents (Elt F)),
    unary main_v15 main_v16 (broadcastInDim S50000x1 ![0] bcast_S50000_S50000x1_0 : (⟨S50000, .f32⟩ : BufTy).Contents (Elt F) → (⟨S50000x1, .f32⟩ : BufTy).Contents (Elt F)),
    unary main_v16 main_v17 (broadcastInDim S50000x128 ![0, 1] bcast_S50000x1_S50000x128_0_1 : (⟨S50000x1, .f32⟩ : BufTy).Contents (Elt F) → (⟨S50000x128, .f32⟩ : BufTy).Contents (Elt F)),
    binary main_v9 main_v17 main_v18 (Host.divf : (⟨S50000x128, .f32⟩ : BufTy).Contents (Elt F) → (⟨S50000x128, .f32⟩ : BufTy).Contents (Elt F) → (⟨S50000x128, .f32⟩ : BufTy).Contents (Elt F)),
    binary main_arg0 main_arg6 main_v19 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v18 main_arg7 main_v20 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v19 main_v20 main_v21 (addf : (⟨S50000x128, .f32⟩ : BufTy).Contents (Elt F) → (⟨S50000x128, .f32⟩ : BufTy).Contents (Elt F) → (⟨S50000x128, .f32⟩ : BufTy).Contents (Elt F)),
    unary main_arg8 main_v22 (broadcastInDim S1x128 ![1] bcast_S128_S1x128_1 : (⟨S128, .f32⟩ : BufTy).Contents (Elt F) → (⟨S1x128, .f32⟩ : BufTy).Contents (Elt F)),
    unary main_v22 main_v23 (broadcastInDim S50000x128 ![0, 1] bcast_S1x128_S50000x128_0_1 : (⟨S1x128, .f32⟩ : BufTy).Contents (Elt F) → (⟨S50000x128, .f32⟩ : BufTy).Contents (Elt F)),
    binary main_v21 main_v23 main_v24 (addf : (⟨S50000x128, .f32⟩ : BufTy).Contents (Elt F) → (⟨S50000x128, .f32⟩ : BufTy).Contents (Elt F) → (⟨S50000x128, .f32⟩ : BufTy).Contents (Elt F)),
    unary main_arg11 main_v25 (broadcastInDim S1x128 ![1] bcast_S128_S1x128_1 : (⟨S128, .f32⟩ : BufTy).Contents (Elt F) → (⟨S1x128, .f32⟩ : BufTy).Contents (Elt F)),
    unary main_v25 main_v26 (broadcastInDim S50000x128 ![0, 1] bcast_S1x128_S50000x128_0_1 : (⟨S1x128, .f32⟩ : BufTy).Contents (Elt F) → (⟨S50000x128, .f32⟩ : BufTy).Contents (Elt F)),
    binary main_v24 main_v26 main_v27 (subf : (⟨S50000x128, .f32⟩ : BufTy).Contents (Elt F) → (⟨S50000x128, .f32⟩ : BufTy).Contents (Elt F) → (⟨S50000x128, .f32⟩ : BufTy).Contents (Elt F)),
    unary main_arg9 main_v28 (broadcastInDim S1x128 ![1] bcast_S128_S1x128_1 : (⟨S128, .f32⟩ : BufTy).Contents (Elt F) → (⟨S1x128, .f32⟩ : BufTy).Contents (Elt F)),
    unary main_v28 main_v29 (broadcastInDim S50000x128 ![0, 1] bcast_S1x128_S50000x128_0_1 : (⟨S1x128, .f32⟩ : BufTy).Contents (Elt F) → (⟨S50000x128, .f32⟩ : BufTy).Contents (Elt F)),
    binary main_v29 main_v27 main_v30 (mulf : (⟨S50000x128, .f32⟩ : BufTy).Contents (Elt F) → (⟨S50000x128, .f32⟩ : BufTy).Contents (Elt F) → (⟨S50000x128, .f32⟩ : BufTy).Contents (Elt F)),
    nullary main_cst_4 (constant S_ .f32 0x3727C5AC#32),
    unary main_cst_4 main_v31 (broadcastInDim S128 ![] bcast_S_S128 : (⟨S_, .f32⟩ : BufTy).Contents (Elt F) → (⟨S128, .f32⟩ : BufTy).Contents (Elt F)),
    binary main_arg12 main_v31 main_v32 (addf : (⟨S128, .f32⟩ : BufTy).Contents (Elt F) → (⟨S128, .f32⟩ : BufTy).Contents (Elt F) → (⟨S128, .f32⟩ : BufTy).Contents (Elt F)),
    unary main_v32 main_v33 (Host.rsqrt : (⟨S128, .f32⟩ : BufTy).Contents (Elt F) → (⟨S128, .f32⟩ : BufTy).Contents (Elt F)),
    unary main_v33 main_v34 (broadcastInDim S1x128 ![1] bcast_S128_S1x128_1 : (⟨S128, .f32⟩ : BufTy).Contents (Elt F) → (⟨S1x128, .f32⟩ : BufTy).Contents (Elt F)),
    unary main_v34 main_v35 (broadcastInDim S50000x128 ![0, 1] bcast_S1x128_S50000x128_0_1 : (⟨S1x128, .f32⟩ : BufTy).Contents (Elt F) → (⟨S50000x128, .f32⟩ : BufTy).Contents (Elt F)),
    binary main_v30 main_v35 main_v36 (mulf : (⟨S50000x128, .f32⟩ : BufTy).Contents (Elt F) → (⟨S50000x128, .f32⟩ : BufTy).Contents (Elt F) → (⟨S50000x128, .f32⟩ : BufTy).Contents (Elt F)),
    unary main_arg10 main_v37 (broadcastInDim S1x128 ![1] bcast_S128_S1x128_1 : (⟨S128, .f32⟩ : BufTy).Contents (Elt F) → (⟨S1x128, .f32⟩ : BufTy).Contents (Elt F)),
    unary main_v37 main_v38 (broadcastInDim S50000x128 ![0, 1] bcast_S1x128_S50000x128_0_1 : (⟨S1x128, .f32⟩ : BufTy).Contents (Elt F) → (⟨S50000x128, .f32⟩ : BufTy).Contents (Elt F)),
    binary main_v36 main_v38 main_v39 (addf : (⟨S50000x128, .f32⟩ : BufTy).Contents (Elt F) → (⟨S50000x128, .f32⟩ : BufTy).Contents (Elt F) → (⟨S50000x128, .f32⟩ : BufTy).Contents (Elt F)),
    nullary main_cst_5 (constant S_ .f32 0x3C23D70A#32),
    TRef.nullary main_call0.cst (constant S_ .f32 0x00000000#32),
    TRef.unary main_call0.cst main_call0.v0 (broadcastInDim S50000x128 ![] bcast_S_S50000x128),
    TRef.binary (.of main_v39 : TRef sig ⟨S50000x128, .f32⟩) main_call0.v0 main_call0.v1 (cmpf .oge),
    TRef.unary (.of main_cst_5 : TRef sig ⟨S_, .f32⟩) main_call0.v2 id,
    TRef.unary main_call0.v2 main_call0.v3 (broadcastInDim S50000x128 ![] bcast_S_S50000x128),
    TRef.binary main_call0.v3 (.of main_v39 : TRef sig ⟨S50000x128, .f32⟩) main_call0.v4 mulf,
    TRef.ternary main_call0.v1 (.of main_v39 : TRef sig ⟨S50000x128, .f32⟩) main_call0.v4 main_call0.call0.v0 select,
    nullary main_c_6 (constantI S_ 32 0#32),
    unary main_c_6 main_v41 (broadcastInDim S800000 ![] bcast_S_S800000 : (⟨S_, .i32⟩ : BufTy).Contents (Elt F) → (⟨S800000, .i32⟩ : BufTy).Contents (Elt F)),
    binary main_arg1 main_v41 main_v42 (cmpi .slt : (⟨S800000, .i32⟩ : BufTy).Contents (Elt F) → (⟨S800000, .i32⟩ : BufTy).Contents (Elt F) → (⟨S800000, .i1⟩ : BufTy).Contents (Elt F)),
    nullary main_c_7 (constantI S_ 32 50000#32),
    unary main_c_7 main_v43 (broadcastInDim S800000 ![] bcast_S_S800000 : (⟨S_, .i32⟩ : BufTy).Contents (Elt F) → (⟨S800000, .i32⟩ : BufTy).Contents (Elt F)),
    binary main_arg1 main_v43 main_v44 (addi : (⟨S800000, .i32⟩ : BufTy).Contents (Elt F) → (⟨S800000, .i32⟩ : BufTy).Contents (Elt F) → (⟨S800000, .i32⟩ : BufTy).Contents (Elt F)),
    ternary main_v42 main_v44 main_arg1 main_v45 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v45 main_v46 (broadcastInDim S800000x1 ![0] bcast_S800000_S800000x1_0 : (⟨S800000, .i32⟩ : BufTy).Contents (Elt F) → (⟨S800000x1, .i32⟩ : BufTy).Contents (Elt F)),
    binary main_v40 main_v46 main_v47 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst_8 (constant S_ .f32 0x00000000#32),
    unary main_cst_8 main_v48 (broadcastInDim S50000x128 ![] bcast_S_S50000x128 : (⟨S_, .f32⟩ : BufTy).Contents (Elt F) → (⟨S50000x128, .f32⟩ : BufTy).Contents (Elt F)) ]

/-- @main's statements 61 … 120 as operations, in order: `leaky_relu`'s seven over its record, then `nan_to_num`'s sixteen (each `_where_0` a broadcast and a select) over its own. -/
abbrev ops1 : List (HloOp τ sig (Elt F)) :=
  [ unary main_arg2 main_v49 (broadcastInDim S800000x1 ![0] bcast_S800000_S800000x1_0 : (⟨S800000, .i32⟩ : BufTy).Contents (Elt F) → (⟨S800000x1, .i32⟩ : BufTy).Contents (Elt F)),
    ternary main_v48 main_v49 main_v47 main_v50 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    nullary main_cst_9 (constant S_ .f32 0x3F800000#32),
    unary main_cst_9 main_v51 (broadcastInDim S800000 ![] bcast_S_S800000 : (⟨S_, .f32⟩ : BufTy).Contents (Elt F) → (⟨S800000, .f32⟩ : BufTy).Contents (Elt F)),
    nullary main_cst_10 (constant S_ .f32 0x00000000#32),
    unary main_cst_10 main_v52 (broadcastInDim S50000 ![] bcast_S_S50000 : (⟨S_, .f32⟩ : BufTy).Contents (Elt F) → (⟨S50000, .f32⟩ : BufTy).Contents (Elt F)),
    unary main_arg2 main_v53 (broadcastInDim S800000x1 ![0] bcast_S800000_S800000x1_0 : (⟨S800000, .i32⟩ : BufTy).Contents (Elt F) → (⟨S800000x1, .i32⟩ : BufTy).Contents (Elt F)),
    ternary main_v52 main_v53 main_v51 main_v54 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_11 (constant S_ .f32 0x3F800000#32),
    unary main_cst_11 main_v55 (broadcastInDim S50000 ![] bcast_S_S50000 : (⟨S_, .f32⟩ : BufTy).Contents (Elt F) → (⟨S50000, .f32⟩ : BufTy).Contents (Elt F)),
    binary main_v54 main_v55 main_v56 (maximumf : (⟨S50000, .f32⟩ : BufTy).Contents (Elt F) → (⟨S50000, .f32⟩ : BufTy).Contents (Elt F) → (⟨S50000, .f32⟩ : BufTy).Contents (Elt F)),
    unary main_v56 main_v57 (broadcastInDim S50000x1 ![0] bcast_S50000_S50000x1_0 : (⟨S50000, .f32⟩ : BufTy).Contents (Elt F) → (⟨S50000x1, .f32⟩ : BufTy).Contents (Elt F)),
    unary main_v57 main_v58 (broadcastInDim S50000x128 ![0, 1] bcast_S50000x1_S50000x128_0_1 : (⟨S50000x1, .f32⟩ : BufTy).Contents (Elt F) → (⟨S50000x128, .f32⟩ : BufTy).Contents (Elt F)),
    binary main_v50 main_v58 main_v59 (Host.divf : (⟨S50000x128, .f32⟩ : BufTy).Contents (Elt F) → (⟨S50000x128, .f32⟩ : BufTy).Contents (Elt F) → (⟨S50000x128, .f32⟩ : BufTy).Contents (Elt F)),
    binary main_v40 main_arg13 main_v60 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v59 main_arg14 main_v61 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v60 main_v61 main_v62 (addf : (⟨S50000x128, .f32⟩ : BufTy).Contents (Elt F) → (⟨S50000x128, .f32⟩ : BufTy).Contents (Elt F) → (⟨S50000x128, .f32⟩ : BufTy).Contents (Elt F)),
    unary main_arg15 main_v63 (broadcastInDim S1x128 ![1] bcast_S128_S1x128_1 : (⟨S128, .f32⟩ : BufTy).Contents (Elt F) → (⟨S1x128, .f32⟩ : BufTy).Contents (Elt F)),
    unary main_v63 main_v64 (broadcastInDim S50000x128 ![0, 1] bcast_S1x128_S50000x128_0_1 : (⟨S1x128, .f32⟩ : BufTy).Contents (Elt F) → (⟨S50000x128, .f32⟩ : BufTy).Contents (Elt F)),
    binary main_v62 main_v64 main_v65 (addf : (⟨S50000x128, .f32⟩ : BufTy).Contents (Elt F) → (⟨S50000x128, .f32⟩ : BufTy).Contents (Elt F) → (⟨S50000x128, .f32⟩ : BufTy).Contents (Elt F)),
    unary main_arg18 main_v66 (broadcastInDim S1x128 ![1] bcast_S128_S1x128_1 : (⟨S128, .f32⟩ : BufTy).Contents (Elt F) → (⟨S1x128, .f32⟩ : BufTy).Contents (Elt F)),
    unary main_v66 main_v67 (broadcastInDim S50000x128 ![0, 1] bcast_S1x128_S50000x128_0_1 : (⟨S1x128, .f32⟩ : BufTy).Contents (Elt F) → (⟨S50000x128, .f32⟩ : BufTy).Contents (Elt F)),
    binary main_v65 main_v67 main_v68 (subf : (⟨S50000x128, .f32⟩ : BufTy).Contents (Elt F) → (⟨S50000x128, .f32⟩ : BufTy).Contents (Elt F) → (⟨S50000x128, .f32⟩ : BufTy).Contents (Elt F)),
    unary main_arg16 main_v69 (broadcastInDim S1x128 ![1] bcast_S128_S1x128_1 : (⟨S128, .f32⟩ : BufTy).Contents (Elt F) → (⟨S1x128, .f32⟩ : BufTy).Contents (Elt F)),
    unary main_v69 main_v70 (broadcastInDim S50000x128 ![0, 1] bcast_S1x128_S50000x128_0_1 : (⟨S1x128, .f32⟩ : BufTy).Contents (Elt F) → (⟨S50000x128, .f32⟩ : BufTy).Contents (Elt F)),
    binary main_v70 main_v68 main_v71 (mulf : (⟨S50000x128, .f32⟩ : BufTy).Contents (Elt F) → (⟨S50000x128, .f32⟩ : BufTy).Contents (Elt F) → (⟨S50000x128, .f32⟩ : BufTy).Contents (Elt F)),
    nullary main_cst_12 (constant S_ .f32 0x3727C5AC#32),
    unary main_cst_12 main_v72 (broadcastInDim S128 ![] bcast_S_S128 : (⟨S_, .f32⟩ : BufTy).Contents (Elt F) → (⟨S128, .f32⟩ : BufTy).Contents (Elt F)),
    binary main_arg19 main_v72 main_v73 (addf : (⟨S128, .f32⟩ : BufTy).Contents (Elt F) → (⟨S128, .f32⟩ : BufTy).Contents (Elt F) → (⟨S128, .f32⟩ : BufTy).Contents (Elt F)),
    unary main_v73 main_v74 (Host.rsqrt : (⟨S128, .f32⟩ : BufTy).Contents (Elt F) → (⟨S128, .f32⟩ : BufTy).Contents (Elt F)),
    unary main_v74 main_v75 (broadcastInDim S1x128 ![1] bcast_S128_S1x128_1 : (⟨S128, .f32⟩ : BufTy).Contents (Elt F) → (⟨S1x128, .f32⟩ : BufTy).Contents (Elt F)),
    unary main_v75 main_v76 (broadcastInDim S50000x128 ![0, 1] bcast_S1x128_S50000x128_0_1 : (⟨S1x128, .f32⟩ : BufTy).Contents (Elt F) → (⟨S50000x128, .f32⟩ : BufTy).Contents (Elt F)),
    binary main_v71 main_v76 main_v77 (mulf : (⟨S50000x128, .f32⟩ : BufTy).Contents (Elt F) → (⟨S50000x128, .f32⟩ : BufTy).Contents (Elt F) → (⟨S50000x128, .f32⟩ : BufTy).Contents (Elt F)),
    unary main_arg17 main_v78 (broadcastInDim S1x128 ![1] bcast_S128_S1x128_1 : (⟨S128, .f32⟩ : BufTy).Contents (Elt F) → (⟨S1x128, .f32⟩ : BufTy).Contents (Elt F)),
    unary main_v78 main_v79 (broadcastInDim S50000x128 ![0, 1] bcast_S1x128_S50000x128_0_1 : (⟨S1x128, .f32⟩ : BufTy).Contents (Elt F) → (⟨S50000x128, .f32⟩ : BufTy).Contents (Elt F)),
    binary main_v77 main_v79 main_v80 (addf : (⟨S50000x128, .f32⟩ : BufTy).Contents (Elt F) → (⟨S50000x128, .f32⟩ : BufTy).Contents (Elt F) → (⟨S50000x128, .f32⟩ : BufTy).Contents (Elt F)),
    nullary main_cst_13 (constant S_ .f32 0x3C23D70A#32),
    TRef.nullary main_call1.cst (constant S_ .f32 0x00000000#32),
    TRef.unary main_call1.cst main_call1.v0 (broadcastInDim S50000x128 ![] bcast_S_S50000x128),
    TRef.binary (.of main_v80 : TRef sig ⟨S50000x128, .f32⟩) main_call1.v0 main_call1.v1 (cmpf .oge),
    TRef.unary (.of main_cst_13 : TRef sig ⟨S_, .f32⟩) main_call1.v2 id,
    TRef.unary main_call1.v2 main_call1.v3 (broadcastInDim S50000x128 ![] bcast_S_S50000x128),
    TRef.binary main_call1.v3 (.of main_v80 : TRef sig ⟨S50000x128, .f32⟩) main_call1.v4 mulf,
    TRef.ternary main_call1.v1 (.of main_v80 : TRef sig ⟨S50000x128, .f32⟩) main_call1.v4 main_call1.call0.v0 select,
    nullary main_cst_14 (constant S_ .f32 0x283424DC#32),
    TRef.binary (.of main_v81 : TRef sig ⟨S50000x128, .f32⟩) (.of main_v81 : TRef sig ⟨S50000x128, .f32⟩) main_call2.v0 (cmpf .une),
    TRef.unary (.of main_cst_14 : TRef sig ⟨S_, .f32⟩) main_call2.v1 id,
    TRef.unary main_call2.v1 main_call2.call0.v0 (broadcastInDim S50000x128 ![] bcast_S_S50000x128),
    TRef.ternary main_call2.v0 main_call2.call0.v0 (.of main_v81 : TRef sig ⟨S50000x128, .f32⟩) main_call2.call0.v1 select,
    TRef.nullary main_call2.cst (constant S_ .f32 0x7F800000#32),
    TRef.unary main_call2.cst main_call2.v3 (broadcastInDim S50000x128 ![] bcast_S_S50000x128),
    TRef.binary main_call2.call0.v1 main_call2.v3 main_call2.v4 (cmpf .oeq),
    TRef.nullary main_call2.cst_0 (constant S_ .f32 0x7F7FFFFF#32),
    TRef.unary main_call2.cst_0 main_call2.call1.v0 (broadcastInDim S50000x128 ![] bcast_S_S50000x128),
    TRef.ternary main_call2.v4 main_call2.call1.v0 main_call2.call0.v1 main_call2.call1.v1 select,
    TRef.nullary main_call2.cst_1 (constant S_ .f32 0xFF800000#32),
    TRef.unary main_call2.cst_1 main_call2.v6 (broadcastInDim S50000x128 ![] bcast_S_S50000x128),
    TRef.binary main_call2.call1.v1 main_call2.v6 main_call2.v7 (cmpf .oeq),
    TRef.nullary main_call2.cst_2 (constant S_ .f32 0xFF7FFFFF#32),
    TRef.unary main_call2.cst_2 main_call2.call2.v0 (broadcastInDim S50000x128 ![] bcast_S_S50000x128),
    TRef.ternary main_call2.v7 main_call2.call2.v0 main_call2.call1.v1 main_call2.call2.v1 select,
    nullary main_c_15 (constantI S_ 32 0#32),
    unary main_c_15 main_v83 (broadcastInDim S100000 ![] bcast_S_S100000 : (⟨S_, .i32⟩ : BufTy).Contents (Elt F) → (⟨S100000, .i32⟩ : BufTy).Contents (Elt F)),
    binary main_arg3 main_v83 main_v84 (cmpi .slt : (⟨S100000, .i32⟩ : BufTy).Contents (Elt F) → (⟨S100000, .i32⟩ : BufTy).Contents (Elt F) → (⟨S100000, .i1⟩ : BufTy).Contents (Elt F)),
    nullary main_c_16 (constantI S_ 32 50000#32),
    unary main_c_16 main_v85 (broadcastInDim S100000 ![] bcast_S_S100000 : (⟨S_, .i32⟩ : BufTy).Contents (Elt F) → (⟨S100000, .i32⟩ : BufTy).Contents (Elt F)),
    binary main_arg3 main_v85 main_v86 (addi : (⟨S100000, .i32⟩ : BufTy).Contents (Elt F) → (⟨S100000, .i32⟩ : BufTy).Contents (Elt F) → (⟨S100000, .i32⟩ : BufTy).Contents (Elt F)),
    ternary main_v84 main_v86 main_arg3 main_v87 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v87 main_v88 (broadcastInDim S100000x1 ![0] bcast_S100000_S100000x1_0 : (⟨S100000, .i32⟩ : BufTy).Contents (Elt F) → (⟨S100000x1, .i32⟩ : BufTy).Contents (Elt F)),
    binary main_v82 main_v88 main_v89 ((fun x i => Host.gather gather_S50000x128_S100000x1_S100000x128_1_0_n_n_0_1_1128 x i) : (⟨S50000x128, .f32⟩ : BufTy).Contents (Elt F) → (⟨S100000x1, .i32⟩ : BufTy).Contents (Elt F) → (⟨S100000x128, .f32⟩ : BufTy).Contents (Elt F)),
    nullary main_c_17 (constantI S_ 32 0#32),
    unary main_c_17 main_v90 (broadcastInDim S100000 ![] bcast_S_S100000 : (⟨S_, .i32⟩ : BufTy).Contents (Elt F) → (⟨S100000, .i32⟩ : BufTy).Contents (Elt F)),
    binary main_arg4 main_v90 main_v91 (cmpi .slt : (⟨S100000, .i32⟩ : BufTy).Contents (Elt F) → (⟨S100000, .i32⟩ : BufTy).Contents (Elt F) → (⟨S100000, .i1⟩ : BufTy).Contents (Elt F)),
    nullary main_c_18 (constantI S_ 32 50000#32),
    unary main_c_18 main_v92 (broadcastInDim S100000 ![] bcast_S_S100000 : (⟨S_, .i32⟩ : BufTy).Contents (Elt F) → (⟨S100000, .i32⟩ : BufTy).Contents (Elt F)),
    binary main_arg4 main_v92 main_v93 (addi : (⟨S100000, .i32⟩ : BufTy).Contents (Elt F) → (⟨S100000, .i32⟩ : BufTy).Contents (Elt F) → (⟨S100000, .i32⟩ : BufTy).Contents (Elt F)),
    ternary main_v91 main_v93 main_arg4 main_v94 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v94 main_v95 (broadcastInDim S100000x1 ![0] bcast_S100000_S100000x1_0 : (⟨S100000, .i32⟩ : BufTy).Contents (Elt F) → (⟨S100000x1, .i32⟩ : BufTy).Contents (Elt F)),
    binary main_v82 main_v95 main_v96 ((fun x i => Host.gather gather_S50000x128_S100000x1_S100000x128_1_0_n_n_0_1_1128 x i) : (⟨S50000x128, .f32⟩ : BufTy).Contents (Elt F) → (⟨S100000x1, .i32⟩ : BufTy).Contents (Elt F) → (⟨S100000x128, .f32⟩ : BufTy).Contents (Elt F)),
    nary ![main_v89, main_v96, main_arg5] main_v97 (fun u => concatenate S100000x257 1 [⟨S100000x128, u 0⟩, ⟨S100000x128, u 1⟩, ⟨S100000x1, u 2⟩] concatenates_S100000x128_S100000x128_S100000x1_S100000x257_d1),
    binary main_v97 main_arg20 main_v98 ((fun l r => Host.dotGeneral dot_S100000x257_S257x64_S100000x64_1_0_0_1_n_n none l r) : (⟨S100000x257, .f32⟩ : BufTy).Contents (Elt F) → (⟨S257x64, .f32⟩ : BufTy).Contents (Elt F) → (⟨S100000x64, .f32⟩ : BufTy).Contents (Elt F)) ]

/-- @main's statements 121 … 150 as operations, in order: the two calls of `leaky_relu_1` are seven operations each over their records. -/
abbrev ops2 : List (HloOp τ sig (Elt F)) :=
  [ unary main_arg21 main_v99 (broadcastInDim S1x64 ![1] bcast_S64_S1x64_1 : (⟨S64, .f32⟩ : BufTy).Contents (Elt F) → (⟨S1x64, .f32⟩ : BufTy).Contents (Elt F)),
    unary main_v99 main_v100 (broadcastInDim S100000x64 ![0, 1] bcast_S1x64_S100000x64_0_1 : (⟨S1x64, .f32⟩ : BufTy).Contents (Elt F) → (⟨S100000x64, .f32⟩ : BufTy).Contents (Elt F)),
    binary main_v98 main_v100 main_v101 (addf : (⟨S100000x64, .f32⟩ : BufTy).Contents (Elt F) → (⟨S100000x64, .f32⟩ : BufTy).Contents (Elt F) → (⟨S100000x64, .f32⟩ : BufTy).Contents (Elt F)),
    nullary main_cst_19 (constant S_ .f32 0x3C23D70A#32),
    TRef.nullary main_call3.cst (constant S_ .f32 0x00000000#32),
    TRef.unary main_call3.cst main_call3.v0 (broadcastInDim S100000x64 ![] bcast_S_S100000x64),
    TRef.binary (.of main_v101 : TRef sig ⟨S100000x64, .f32⟩) main_call3.v0 main_call3.v1 (cmpf .oge),
    TRef.unary (.of main_cst_19 : TRef sig ⟨S_, .f32⟩) main_call3.v2 id,
    TRef.unary main_call3.v2 main_call3.v3 (broadcastInDim S100000x64 ![] bcast_S_S100000x64),
    TRef.binary main_call3.v3 (.of main_v101 : TRef sig ⟨S100000x64, .f32⟩) main_call3.v4 mulf,
    TRef.ternary main_call3.v1 (.of main_v101 : TRef sig ⟨S100000x64, .f32⟩) main_call3.v4 main_call3.call0.v0 select,
    binary main_v102 main_arg22 main_v103 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg23 main_v104 (broadcastInDim S1x64 ![1] bcast_S64_S1x64_1 : (⟨S64, .f32⟩ : BufTy).Contents (Elt F) → (⟨S1x64, .f32⟩ : BufTy).Contents (Elt F)),
    unary main_v104 main_v105 (broadcastInDim S100000x64 ![0, 1] bcast_S1x64_S100000x64_0_1 : (⟨S1x64, .f32⟩ : BufTy).Contents (Elt F) → (⟨S100000x64, .f32⟩ : BufTy).Contents (Elt F)),
    binary main_v103 main_v105 main_v106 (addf : (⟨S100000x64, .f32⟩ : BufTy).Contents (Elt F) → (⟨S100000x64, .f32⟩ : BufTy).Contents (Elt F) → (⟨S100000x64, .f32⟩ : BufTy).Contents (Elt F)),
    nullary main_cst_20 (constant S_ .f32 0x3C23D70A#32),
    TRef.nullary main_call4.cst (constant S_ .f32 0x00000000#32),
    TRef.unary main_call4.cst main_call4.v0 (broadcastInDim S100000x64 ![] bcast_S_S100000x64),
    TRef.binary (.of main_v106 : TRef sig ⟨S100000x64, .f32⟩) main_call4.v0 main_call4.v1 (cmpf .oge),
    TRef.unary (.of main_cst_20 : TRef sig ⟨S_, .f32⟩) main_call4.v2 id,
    TRef.unary main_call4.v2 main_call4.v3 (broadcastInDim S100000x64 ![] bcast_S_S100000x64),
    TRef.binary main_call4.v3 (.of main_v106 : TRef sig ⟨S100000x64, .f32⟩) main_call4.v4 mulf,
    TRef.ternary main_call4.v1 (.of main_v106 : TRef sig ⟨S100000x64, .f32⟩) main_call4.v4 main_call4.call0.v0 select,
    binary main_v107 main_arg24 main_v108 ((fun l r => Host.dotGeneral dot_S100000x64_S64x1_S100000x1_1_0_0_1_n_n none l r) : (⟨S100000x64, .f32⟩ : BufTy).Contents (Elt F) → (⟨S64x1, .f32⟩ : BufTy).Contents (Elt F) → (⟨S100000x1, .f32⟩ : BufTy).Contents (Elt F)),
    unary main_arg25 main_v109 (broadcastInDim S1x1 ![1] bcast_S1_S1x1_1 : (⟨S1, .f32⟩ : BufTy).Contents (Elt F) → (⟨S1x1, .f32⟩ : BufTy).Contents (Elt F)),
    unary main_v109 main_v110 (broadcastInDim S100000x1 ![0, 1] bcast_S1x1_S100000x1_0_1 : (⟨S1x1, .f32⟩ : BufTy).Contents (Elt F) → (⟨S100000x1, .f32⟩ : BufTy).Contents (Elt F)),
    binary main_v108 main_v110 main_v111 (addf : (⟨S100000x1, .f32⟩ : BufTy).Contents (Elt F) → (⟨S100000x1, .f32⟩ : BufTy).Contents (Elt F) → (⟨S100000x1, .f32⟩ : BufTy).Contents (Elt F)),
    nullary main_cst_21 (constant S_ .f32 0xFF800000#32),
    binary main_v111 main_cst_21 main_v112 ((fun x v => Host.reduce FloatOps.maximumf x v reducesTo_S100000x1_S1_d0 h_S_) : (⟨S100000x1, .f32⟩ : BufTy).Contents (Elt F) → (⟨S_, .f32⟩ : BufTy).Contents (Elt F) → (⟨S1, .f32⟩ : BufTy).Contents (Elt F)),
    nullary main_cst_22 (constant S_ .f32 0xFF800000#32),
    unary main_cst_22 main_v113 (broadcastInDim S1 ![] bcast_S_S1 : (⟨S_, .f32⟩ : BufTy).Contents (Elt F) → (⟨S1, .f32⟩ : BufTy).Contents (Elt F)),
    binary main_v113 main_v112 main_v114 (maximumf : (⟨S1, .f32⟩ : BufTy).Contents (Elt F) → (⟨S1, .f32⟩ : BufTy).Contents (Elt F) → (⟨S1, .f32⟩ : BufTy).Contents (Elt F)),
    unary main_v114 main_v115 (broadcastInDim S1x1 ![1] bcast_S1_S1x1_1 : (⟨S1, .f32⟩ : BufTy).Contents (Elt F) → (⟨S1x1, .f32⟩ : BufTy).Contents (Elt F)),
    unary main_v115 main_v116 (broadcastInDim S100000x1 ![0, 1] bcast_S1x1_S100000x1_0_1 : (⟨S1x1, .f32⟩ : BufTy).Contents (Elt F) → (⟨S100000x1, .f32⟩ : BufTy).Contents (Elt F)),
    binary main_v111 main_v116 main_v117 (subf : (⟨S100000x1, .f32⟩ : BufTy).Contents (Elt F) → (⟨S100000x1, .f32⟩ : BufTy).Contents (Elt F) → (⟨S100000x1, .f32⟩ : BufTy).Contents (Elt F)),
    unary main_v117 main_v118 (Host.exp : (⟨S100000x1, .f32⟩ : BufTy).Contents (Elt F) → (⟨S100000x1, .f32⟩ : BufTy).Contents (Elt F)),
    nullary main_cst_23 (constant S_ .f32 0x00000000#32),
    binary main_v118 main_cst_23 main_v119 ((fun x v => Host.reduceAdd x v reducesTo_S100000x1_S1_d0 h_S_) : (⟨S100000x1, .f32⟩ : BufTy).Contents (Elt F) → (⟨S_, .f32⟩ : BufTy).Contents (Elt F) → (⟨S1, .f32⟩ : BufTy).Contents (Elt F)),
    unary main_v119 main_v120 (broadcastInDim S1x1 ![1] bcast_S1_S1x1_1 : (⟨S1, .f32⟩ : BufTy).Contents (Elt F) → (⟨S1x1, .f32⟩ : BufTy).Contents (Elt F)),
    unary main_v120 main_v121 (broadcastInDim S100000x1 ![0, 1] bcast_S1x1_S100000x1_0_1 : (⟨S1x1, .f32⟩ : BufTy).Contents (Elt F) → (⟨S100000x1, .f32⟩ : BufTy).Contents (Elt F)),
    binary main_v118 main_v121 main_v122 (Host.divf : (⟨S100000x1, .f32⟩ : BufTy).Contents (Elt F) → (⟨S100000x1, .f32⟩ : BufTy).Contents (Elt F) → (⟨S100000x1, .f32⟩ : BufTy).Contents (Elt F)) ]

/-- @main's 188 operations, in order. -/
abbrev ops : List (HloOp τ sig (Elt F)) := ops0 ++ ops1 ++ ops2

/-- Each window is the line of its operations: the functions' definitions unfold at their calls and the records at
    their fields, and both sides are one chain of steps. -/
theorem part0_eq (c : Dev nD) : main_part0 (F := F) c = seq ops0 := rfl
theorem part1_eq (c : Dev nD) : main_part1 (F := F) c = seq ops1 := rfl
theorem part2_eq (c : Dev nD) : main_part2 (F := F) c = seq ops2 := rfl

/-- @main runs its three windows in order, which is the concatenated line run as one. -/
theorem main_eq (c : Dev nD) : main (F := F) c = seq ops := by
  show (main_part0 (F := F) c >>= fun _ => main_part1 (F := F) c >>= fun _ => main_part2 (F := F) c) = seq (ops0 ++ ops1 ++ ops2)
  rw [part0_eq, part1_eq, part2_eq, seq_append, seq_append, bind_assoc]

/-! ## The side conditions of the run -/

theorem scopedRefs_eq : (Finset.univ.filter fun b : Ref sig .tc => b.isScoped) = ∅ := by decide
theorem scopedSems_eq : (Finset.univ.filter fun sm : SemLoc sig => sm.isScoped .tc) = ∅ := by decide

theorem ops0_sub : (ops0 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., unary_bufs_sub ..,
    ternary_bufs_sub .., nullary_bufs_sub .., unary_bufs_sub .., nullary_bufs_sub .., unary_bufs_sub .., unary_bufs_sub ..,
    ternary_bufs_sub .., nullary_bufs_sub .., unary_bufs_sub .., binary_bufs_sub .., unary_bufs_sub .., unary_bufs_sub ..,
    binary_bufs_sub .., binary_bufs_sub .., binary_bufs_sub .., binary_bufs_sub .., unary_bufs_sub .., unary_bufs_sub ..,
    binary_bufs_sub .., unary_bufs_sub .., unary_bufs_sub .., binary_bufs_sub .., unary_bufs_sub .., unary_bufs_sub ..,
    binary_bufs_sub .., nullary_bufs_sub .., unary_bufs_sub .., binary_bufs_sub .., unary_bufs_sub .., unary_bufs_sub ..,
    unary_bufs_sub .., binary_bufs_sub .., unary_bufs_sub .., unary_bufs_sub .., binary_bufs_sub .., nullary_bufs_sub ..,
    nullary_bufs_sub .., unary_bufs_sub .., binary_bufs_sub .., unary_bufs_sub .., unary_bufs_sub .., binary_bufs_sub ..,
    ternary_bufs_sub .., nullary_bufs_sub .., unary_bufs_sub .., binary_bufs_sub .., nullary_bufs_sub .., unary_bufs_sub ..,
    binary_bufs_sub .., ternary_bufs_sub .., unary_bufs_sub .., binary_bufs_sub .., nullary_bufs_sub .., unary_bufs_sub ..⟩

theorem ops1_sub : (ops1 : List (HloOp τ sig (Elt F))).Forall fun op => op.bufs ⊆ tcRefs τ sig :=
  ⟨unary_bufs_sub .., ternary_bufs_sub .., nullary_bufs_sub .., unary_bufs_sub .., nullary_bufs_sub .., unary_bufs_sub ..,
    unary_bufs_sub .., ternary_bufs_sub .., nullary_bufs_sub .., unary_bufs_sub .., binary_bufs_sub .., unary_bufs_sub ..,
    unary_bufs_sub .., binary_bufs_sub .., binary_bufs_sub .., binary_bufs_sub .., binary_bufs_sub .., unary_bufs_sub ..,
    unary_bufs_sub .., binary_bufs_sub .., unary_bufs_sub .., unary_bufs_sub .., binary_bufs_sub .., unary_bufs_sub ..,
    unary_bufs_sub .., binary_bufs_sub .., nullary_bufs_sub .., unary_bufs_sub .., binary_bufs_sub .., unary_bufs_sub ..,
    unary_bufs_sub .., unary_bufs_sub .., binary_bufs_sub .., unary_bufs_sub .., unary_bufs_sub .., binary_bufs_sub ..,
    nullary_bufs_sub .., nullary_bufs_sub .., unary_bufs_sub .., binary_bufs_sub .., unary_bufs_sub .., unary_bufs_sub ..,
    binary_bufs_sub .., ternary_bufs_sub .., nullary_bufs_sub .., binary_bufs_sub .., unary_bufs_sub .., unary_bufs_sub ..,
    ternary_bufs_sub .., nullary_bufs_sub .., unary_bufs_sub .., binary_bufs_sub .., nullary_bufs_sub .., unary_bufs_sub ..,
    ternary_bufs_sub .., nullary_bufs_sub .., unary_bufs_sub .., binary_bufs_sub .., nullary_bufs_sub .., unary_bufs_sub ..,
    ternary_bufs_sub .., nullary_bufs_sub .., unary_bufs_sub .., binary_bufs_sub .., nullary_bufs_sub .., unary_bufs_sub ..,
    binary_bufs_sub .., ternary_bufs_sub .., unary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., nary_bufs_sub .., binary_bufs_sub ..⟩

theorem ops2_sub : (ops2 : List (HloOp τ sig (Elt F))).Forall fun op => op.bufs ⊆ tcRefs τ sig :=
  ⟨unary_bufs_sub .., unary_bufs_sub .., binary_bufs_sub .., nullary_bufs_sub .., nullary_bufs_sub .., unary_bufs_sub ..,
    binary_bufs_sub .., unary_bufs_sub .., unary_bufs_sub .., binary_bufs_sub .., ternary_bufs_sub .., binary_bufs_sub ..,
    unary_bufs_sub .., unary_bufs_sub .., binary_bufs_sub .., nullary_bufs_sub .., nullary_bufs_sub .., unary_bufs_sub ..,
    binary_bufs_sub .., unary_bufs_sub .., unary_bufs_sub .., binary_bufs_sub .., ternary_bufs_sub .., binary_bufs_sub ..,
    unary_bufs_sub .., unary_bufs_sub .., binary_bufs_sub .., nullary_bufs_sub .., binary_bufs_sub .., nullary_bufs_sub ..,
    unary_bufs_sub .., binary_bufs_sub .., unary_bufs_sub .., unary_bufs_sub .., binary_bufs_sub .., unary_bufs_sub ..,
    nullary_bufs_sub .., binary_bufs_sub .., unary_bufs_sub .., unary_bufs_sub .., binary_bufs_sub ..⟩

/-- A property of every operation of the three windows is one of every operation of the line. -/
theorem forall_ops {P : HloOp τ sig (Elt F) → Prop} (h0 : (ops0 : List (HloOp τ sig (Elt F))).Forall P)
    (h1 : (ops1 : List (HloOp τ sig (Elt F))).Forall P) (h2 : (ops2 : List (HloOp τ sig (Elt F))).Forall P) :
    ∀ op ∈ (ops : List (HloOp τ sig (Elt F))), P op := fun op h => by
  rcases List.mem_append.mp h with h | h
  · rcases List.mem_append.mp h with h | h
    · exact List.forall_iff_forall_mem.mp h0 op h
    · exact List.forall_iff_forall_mem.mp h1 op h
  · exact List.forall_iff_forall_mem.mp h2 op h

/-- Every operation touches TensorCore references only. -/
theorem ops_sub : (ops : List (HloOp τ sig (Elt F))).Forall fun op => op.bufs ⊆ tcRefs τ sig :=
  List.forall_iff_forall_mem.mpr (forall_ops ops0_sub ops1_sub ops2_sub)

theorem ops0_fresh : (ops0 : List (HloOp τ sig (Elt F))).Forall fun op => op.fresh = ∅ := by
  simp only [List.Forall]; repeat' constructor
theorem ops1_fresh : (ops1 : List (HloOp τ sig (Elt F))).Forall fun op => op.fresh = ∅ := by
  simp only [List.Forall]; repeat' constructor
theorem ops2_fresh : (ops2 : List (HloOp τ sig (Elt F))).Forall fun op => op.fresh = ∅ := by
  simp only [List.Forall]; repeat' constructor

/-- Every operation determines its results. -/
theorem ops_fresh : ∀ op ∈ (ops : List (HloOp τ sig (Elt F))), op.fresh = ∅ := forall_ops ops0_fresh ops1_fresh ops2_fresh

/-! ## What the line writes

Each operation writes its one result buffer; the 188 result references, in order. No argument is among them, so
an argument's buffer holds its launch contents after the line. -/

/-- The references the operations write, in order. -/
abbrev W : List (Ref sig .tc) :=
  [main_c, main_v0, main_v1, main_c_0, main_v2, main_v3, main_v4, main_v5, main_v6, main_cst,
   main_v7, main_v8, main_v9, main_cst_1, main_v10, main_cst_2, main_v11, main_v12, main_v13, main_cst_3,
   main_v14, main_v15, main_v16, main_v17, main_v18, main_v19, main_v20, main_v21, main_v22, main_v23,
   main_v24, main_v25, main_v26, main_v27, main_v28, main_v29, main_v30, main_cst_4, main_v31, main_v32,
   main_v33, main_v34, main_v35, main_v36, main_v37, main_v38, main_v39, main_cst_5, main_call0_cst, main_call0_v0,
   main_call0_v1, main_call0_v2, main_call0_v3, main_call0_v4, main_v40, main_c_6, main_v41, main_v42, main_c_7, main_v43,
   main_v44, main_v45, main_v46, main_v47, main_cst_8, main_v48, main_v49, main_v50, main_cst_9, main_v51,
   main_cst_10, main_v52, main_v53, main_v54, main_cst_11, main_v55, main_v56, main_v57, main_v58, main_v59,
   main_v60, main_v61, main_v62, main_v63, main_v64, main_v65, main_v66, main_v67, main_v68, main_v69,
   main_v70, main_v71, main_cst_12, main_v72, main_v73, main_v74, main_v75, main_v76, main_v77, main_v78,
   main_v79, main_v80, main_cst_13, main_call1_cst, main_call1_v0, main_call1_v1, main_call1_v2, main_call1_v3, main_call1_v4, main_v81,
   main_cst_14, main_call2_v0, main_call2_v1, main_call2_call0_v0, main_call2_v2, main_call2_cst, main_call2_v3, main_call2_v4, main_call2_cst_0, main_call2_call1_v0,
   main_call2_v5, main_call2_cst_1, main_call2_v6, main_call2_v7, main_call2_cst_2, main_call2_call2_v0, main_v82, main_c_15, main_v83, main_v84,
   main_c_16, main_v85, main_v86, main_v87, main_v88, main_v89, main_c_17, main_v90, main_v91, main_c_18,
   main_v92, main_v93, main_v94, main_v95, main_v96, main_v97, main_v98, main_v99, main_v100, main_v101,
   main_cst_19, main_call3_cst, main_call3_v0, main_call3_v1, main_call3_v2, main_call3_v3, main_call3_v4, main_v102, main_v103, main_v104,
   main_v105, main_v106, main_cst_20, main_call4_cst, main_call4_v0, main_call4_v1, main_call4_v2, main_call4_v3, main_call4_v4, main_v107,
   main_v108, main_v109, main_v110, main_v111, main_cst_21, main_v112, main_cst_22, main_v113, main_v114, main_v115,
   main_v116, main_v117, main_v118, main_cst_23, main_v119, main_v120, main_v121, main_v122]

/-- A result buffer whose reference is listed lies in the listed references' buffers. -/
theorem single_sub_W (y : Ref sig .tc) (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

theorem ops0_writes : (ops0 : List (HloOp τ sig (Elt F))).Forall fun op => op.writes ⊆ (W.map (Proc.devRef (τ := τ) .tc)).toFinset :=
  ⟨single_sub_W main_c (by decide), single_sub_W main_v0 (by decide), single_sub_W main_v1 (by decide), single_sub_W main_c_0 (by decide),
    single_sub_W main_v2 (by decide), single_sub_W main_v3 (by decide), single_sub_W main_v4 (by decide), single_sub_W main_v5 (by decide),
    single_sub_W main_v6 (by decide), single_sub_W main_cst (by decide), single_sub_W main_v7 (by decide), single_sub_W main_v8 (by decide),
    single_sub_W main_v9 (by decide), single_sub_W main_cst_1 (by decide), single_sub_W main_v10 (by decide), single_sub_W main_cst_2 (by decide),
    single_sub_W main_v11 (by decide), single_sub_W main_v12 (by decide), single_sub_W main_v13 (by decide), single_sub_W main_cst_3 (by decide),
    single_sub_W main_v14 (by decide), single_sub_W main_v15 (by decide), single_sub_W main_v16 (by decide), single_sub_W main_v17 (by decide),
    single_sub_W main_v18 (by decide), single_sub_W main_v19 (by decide), single_sub_W main_v20 (by decide), single_sub_W main_v21 (by decide),
    single_sub_W main_v22 (by decide), single_sub_W main_v23 (by decide), single_sub_W main_v24 (by decide), single_sub_W main_v25 (by decide),
    single_sub_W main_v26 (by decide), single_sub_W main_v27 (by decide), single_sub_W main_v28 (by decide), single_sub_W main_v29 (by decide),
    single_sub_W main_v30 (by decide), single_sub_W main_cst_4 (by decide), single_sub_W main_v31 (by decide), single_sub_W main_v32 (by decide),
    single_sub_W main_v33 (by decide), single_sub_W main_v34 (by decide), single_sub_W main_v35 (by decide), single_sub_W main_v36 (by decide),
    single_sub_W main_v37 (by decide), single_sub_W main_v38 (by decide), single_sub_W main_v39 (by decide), single_sub_W main_cst_5 (by decide),
    single_sub_W main_call0_cst (by decide), single_sub_W main_call0_v0 (by decide), single_sub_W main_call0_v1 (by decide), single_sub_W main_call0_v2 (by decide),
    single_sub_W main_call0_v3 (by decide), single_sub_W main_call0_v4 (by decide), single_sub_W main_v40 (by decide), single_sub_W main_c_6 (by decide),
    single_sub_W main_v41 (by decide), single_sub_W main_v42 (by decide), single_sub_W main_c_7 (by decide), single_sub_W main_v43 (by decide),
    single_sub_W main_v44 (by decide), single_sub_W main_v45 (by decide), single_sub_W main_v46 (by decide), single_sub_W main_v47 (by decide),
    single_sub_W main_cst_8 (by decide), single_sub_W main_v48 (by decide)⟩

theorem ops1_writes : (ops1 : List (HloOp τ sig (Elt F))).Forall fun op => op.writes ⊆ (W.map (Proc.devRef (τ := τ) .tc)).toFinset :=
  ⟨single_sub_W main_v49 (by decide), single_sub_W main_v50 (by decide), single_sub_W main_cst_9 (by decide), single_sub_W main_v51 (by decide),
    single_sub_W main_cst_10 (by decide), single_sub_W main_v52 (by decide), single_sub_W main_v53 (by decide), single_sub_W main_v54 (by decide),
    single_sub_W main_cst_11 (by decide), single_sub_W main_v55 (by decide), single_sub_W main_v56 (by decide), single_sub_W main_v57 (by decide),
    single_sub_W main_v58 (by decide), single_sub_W main_v59 (by decide), single_sub_W main_v60 (by decide), single_sub_W main_v61 (by decide),
    single_sub_W main_v62 (by decide), single_sub_W main_v63 (by decide), single_sub_W main_v64 (by decide), single_sub_W main_v65 (by decide),
    single_sub_W main_v66 (by decide), single_sub_W main_v67 (by decide), single_sub_W main_v68 (by decide), single_sub_W main_v69 (by decide),
    single_sub_W main_v70 (by decide), single_sub_W main_v71 (by decide), single_sub_W main_cst_12 (by decide), single_sub_W main_v72 (by decide),
    single_sub_W main_v73 (by decide), single_sub_W main_v74 (by decide), single_sub_W main_v75 (by decide), single_sub_W main_v76 (by decide),
    single_sub_W main_v77 (by decide), single_sub_W main_v78 (by decide), single_sub_W main_v79 (by decide), single_sub_W main_v80 (by decide),
    single_sub_W main_cst_13 (by decide), single_sub_W main_call1_cst (by decide), single_sub_W main_call1_v0 (by decide), single_sub_W main_call1_v1 (by decide),
    single_sub_W main_call1_v2 (by decide), single_sub_W main_call1_v3 (by decide), single_sub_W main_call1_v4 (by decide), single_sub_W main_v81 (by decide),
    single_sub_W main_cst_14 (by decide), single_sub_W main_call2_v0 (by decide), single_sub_W main_call2_v1 (by decide), single_sub_W main_call2_call0_v0 (by decide),
    single_sub_W main_call2_v2 (by decide), single_sub_W main_call2_cst (by decide), single_sub_W main_call2_v3 (by decide), single_sub_W main_call2_v4 (by decide),
    single_sub_W main_call2_cst_0 (by decide), single_sub_W main_call2_call1_v0 (by decide), single_sub_W main_call2_v5 (by decide), single_sub_W main_call2_cst_1 (by decide),
    single_sub_W main_call2_v6 (by decide), single_sub_W main_call2_v7 (by decide), single_sub_W main_call2_cst_2 (by decide), single_sub_W main_call2_call2_v0 (by decide),
    single_sub_W main_v82 (by decide), single_sub_W main_c_15 (by decide), single_sub_W main_v83 (by decide), single_sub_W main_v84 (by decide),
    single_sub_W main_c_16 (by decide), single_sub_W main_v85 (by decide), single_sub_W main_v86 (by decide), single_sub_W main_v87 (by decide),
    single_sub_W main_v88 (by decide), single_sub_W main_v89 (by decide), single_sub_W main_c_17 (by decide), single_sub_W main_v90 (by decide),
    single_sub_W main_v91 (by decide), single_sub_W main_c_18 (by decide), single_sub_W main_v92 (by decide), single_sub_W main_v93 (by decide),
    single_sub_W main_v94 (by decide), single_sub_W main_v95 (by decide), single_sub_W main_v96 (by decide), single_sub_W main_v97 (by decide),
    single_sub_W main_v98 (by decide)⟩

theorem ops2_writes : (ops2 : List (HloOp τ sig (Elt F))).Forall fun op => op.writes ⊆ (W.map (Proc.devRef (τ := τ) .tc)).toFinset :=
  ⟨single_sub_W main_v99 (by decide), single_sub_W main_v100 (by decide), single_sub_W main_v101 (by decide), single_sub_W main_cst_19 (by decide),
    single_sub_W main_call3_cst (by decide), single_sub_W main_call3_v0 (by decide), single_sub_W main_call3_v1 (by decide), single_sub_W main_call3_v2 (by decide),
    single_sub_W main_call3_v3 (by decide), single_sub_W main_call3_v4 (by decide), single_sub_W main_v102 (by decide), single_sub_W main_v103 (by decide),
    single_sub_W main_v104 (by decide), single_sub_W main_v105 (by decide), single_sub_W main_v106 (by decide), single_sub_W main_cst_20 (by decide),
    single_sub_W main_call4_cst (by decide), single_sub_W main_call4_v0 (by decide), single_sub_W main_call4_v1 (by decide), single_sub_W main_call4_v2 (by decide),
    single_sub_W main_call4_v3 (by decide), single_sub_W main_call4_v4 (by decide), single_sub_W main_v107 (by decide), single_sub_W main_v108 (by decide),
    single_sub_W main_v109 (by decide), single_sub_W main_v110 (by decide), single_sub_W main_v111 (by decide), single_sub_W main_cst_21 (by decide),
    single_sub_W main_v112 (by decide), single_sub_W main_cst_22 (by decide), single_sub_W main_v113 (by decide), single_sub_W main_v114 (by decide),
    single_sub_W main_v115 (by decide), single_sub_W main_v116 (by decide), single_sub_W main_v117 (by decide), single_sub_W main_v118 (by decide),
    single_sub_W main_cst_23 (by decide), single_sub_W main_v119 (by decide), single_sub_W main_v120 (by decide), single_sub_W main_v121 (by decide),
    single_sub_W main_v122 (by decide)⟩

theorem ops_writes : (ops : List (HloOp τ sig (Elt F))).Forall fun op => op.writes ⊆ (W.map (Proc.devRef (τ := τ) .tc)).toFinset :=
  List.forall_iff_forall_mem.mpr (forall_ops ops0_writes ops1_writes ops2_writes)

/-- A buffer whose reference no operation writes holds after the line what it held before. -/
theorem after_ops_of_not_mem (V : Valuation τ sig (Elt F)) (r : Ref sig .tc) (h : r ∉ W) :
    after ops V (Proc.devRef .tc r) = V (Proc.devRef .tc r) :=
  after_of_writes_sub ops V ops_writes h

/-! ## The run -/

/-- The first result: what `main_v111`'s buffer holds after the line, from the launch contents. -/
def res111 (m : (ℓ : Loc nD τ sig) → Buf (Elt F) ℓ) (c : Dev nD) : Buf (Elt F) ((c.tc : Thread nD τ).loc main_v111) :=
  after ops (launchContents m c) (Proc.devRef .tc main_v111)

/-- The second result: what `main_v122`'s buffer holds after the line, from the launch contents. -/
def res122 (m : (ℓ : Loc nD τ sig) → Buf (Elt F) ℓ) (c : Dev nD) : Buf (Elt F) ((c.tc : Thread nD τ).loc main_v122) :=
  after ops (launchContents m c) (Proc.devRef .tc main_v122)

/-- On every device, for any float values, from any memory with zero counters: every weakly fair execution of @main
    terminates, every TensorCore buffer at the line's fold over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ (fun _ => ops_fresh)

/-- The same read at the two results and the arguments: the results at the fold, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v111) = res111 m c
      ∧ r.2.mem ((c.tc : Thread nD τ).loc main_v122) = res122 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25) :=
  (θ_run defs _ _).mono (fun _ h c => ⟨h c main_v111, h c main_v122,
      (h c main_arg0).trans (after_ops_of_not_mem _ main_arg0 (by decide)), (h c main_arg1).trans (after_ops_of_not_mem _ main_arg1 (by decide)),
      (h c main_arg2).trans (after_ops_of_not_mem _ main_arg2 (by decide)), (h c main_arg3).trans (after_ops_of_not_mem _ main_arg3 (by decide)),
      (h c main_arg4).trans (after_ops_of_not_mem _ main_arg4 (by decide)), (h c main_arg5).trans (after_ops_of_not_mem _ main_arg5 (by decide)),
      (h c main_arg6).trans (after_ops_of_not_mem _ main_arg6 (by decide)), (h c main_arg7).trans (after_ops_of_not_mem _ main_arg7 (by decide)),
      (h c main_arg8).trans (after_ops_of_not_mem _ main_arg8 (by decide)), (h c main_arg9).trans (after_ops_of_not_mem _ main_arg9 (by decide)),
      (h c main_arg10).trans (after_ops_of_not_mem _ main_arg10 (by decide)), (h c main_arg11).trans (after_ops_of_not_mem _ main_arg11 (by decide)),
      (h c main_arg12).trans (after_ops_of_not_mem _ main_arg12 (by decide)), (h c main_arg13).trans (after_ops_of_not_mem _ main_arg13 (by decide)),
      (h c main_arg14).trans (after_ops_of_not_mem _ main_arg14 (by decide)), (h c main_arg15).trans (after_ops_of_not_mem _ main_arg15 (by decide)),
      (h c main_arg16).trans (after_ops_of_not_mem _ main_arg16 (by decide)), (h c main_arg17).trans (after_ops_of_not_mem _ main_arg17 (by decide)),
      (h c main_arg18).trans (after_ops_of_not_mem _ main_arg18 (by decide)), (h c main_arg19).trans (after_ops_of_not_mem _ main_arg19 (by decide)),
      (h c main_arg20).trans (after_ops_of_not_mem _ main_arg20 (by decide)), (h c main_arg21).trans (after_ops_of_not_mem _ main_arg21 (by decide)),
      (h c main_arg22).trans (after_ops_of_not_mem _ main_arg22 (by decide)), (h c main_arg23).trans (after_ops_of_not_mem _ main_arg23 (by decide)),
      (h c main_arg24).trans (after_ops_of_not_mem _ main_arg24 (by decide)), (h c main_arg25).trans (after_ops_of_not_mem _ main_arg25 (by decide))⟩)
    (run_all m ρ)

/-- The frame: @main runs and every argument ends unchanged. -/
theorem frame (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25) :=
  (θ_run defs _ _).mono (fun _ h c => (h c).2.2) (run m ρ)

/-- The frame as the claim states it, at the ideal instance. -/
theorem frame_ReferenceIdeal [hPre_finite_inputs : Cert.Pre_finite_inputs.Facts] :
    Cert.frame_ReferenceIdeal (hReferenceIdeal := Cert.ReferenceIdeal.Gen.facts) :=
  fun m g _ => frame m g

end Cert.ReferenceIdeal.RefRun

end
-- ==== Proof.RefDefs.lean ====
import proofs.«138996_j84593675862715_1_alg».proof.Proof.RefRun
import Idealize.ShloMosaic.PureOps.Ideal

noncomputable section

namespace Cert.ReferenceIdeal.RefClosed

open Cert.ReferenceIdeal Cert.ReferenceIdeal.Gen Cert.ReferenceIdeal.RefRun Idealize.ShloMosaic Idealize.ShloMosaic.TcCoe Idealize.SL.Sem Idealize.ShloMosaic.StableHlo

/-! ## The reference's results as closed terms of its arguments, at the ideal instance

Each definition is the printed program's own nesting of one stretch of @main — every operation its PureOps function
applied to its operands' terms, the outlined functions' bodies in their calls' places, a `stablehlo.convert` the
identity it prints as. A value with several consumers appears once per use. -/

/-- Mean aggregation over the edges (`%18` of `%arg0, %arg1, %arg2`; `%59` of `%40, %arg1, %arg2` is the same
    function): the rows of `x` gathered at the wrapped source indices, summed into their destination rows, each row
    divided by its in-degree floored at one. -/
def aggOf (x : FVec Ideal S50000x128 .f32) (src dst : IVec S800000 32) : FVec Ideal S50000x128 .f32 :=
  ((Host.divf : FVec Ideal S50000x128 .f32 → FVec Ideal S50000x128 .f32 → FVec Ideal S50000x128 .f32)
    (((fun x i u => Host.scatterAdd scatter_S50000x128_S800000x1_S800000x128_1_0_0_1 x i u) : FVec Ideal S50000x128 .f32 → IVec S800000x1 32 → FVec Ideal S800000x128 .f32 → FVec Ideal S50000x128 .f32)
      ((broadcastInDim S50000x128 ![] bcast_S_S50000x128 : FVec Ideal S_ .f32 → FVec Ideal S50000x128 .f32)
        (constant S_ .f32 0x00000000#32 : FVec Ideal S_ .f32))
      ((broadcastInDim S800000x1 ![0] bcast_S800000_S800000x1_0 : IVec S800000 32 → IVec S800000x1 32) dst)
      (((fun x i => Host.gather gather_S50000x128_S800000x1_S800000x128_1_0_n_n_0_1_1128 x i) : FVec Ideal S50000x128 .f32 → IVec S800000x1 32 → FVec Ideal S800000x128 .f32)
        x
        ((broadcastInDim S800000x1 ![0] bcast_S800000_S800000x1_0 : IVec S800000 32 → IVec S800000x1 32)
          ((select : IVec S800000 1 → IVec S800000 32 → IVec S800000 32 → IVec S800000 32)
            ((cmpi .slt : IVec S800000 32 → IVec S800000 32 → IVec S800000 1)
              src
              ((broadcastInDim S800000 ![] bcast_S_S800000 : IVec S_ 32 → IVec S800000 32) (constantI S_ 32 0#32 : IVec S_ 32)))
            ((addi : IVec S800000 32 → IVec S800000 32 → IVec S800000 32)
              src
              ((broadcastInDim S800000 ![] bcast_S_S800000 : IVec S_ 32 → IVec S800000 32) (constantI S_ 32 50000#32 : IVec S_ 32)))
            src))))
    ((broadcastInDim S50000x128 ![0, 1] bcast_S50000x1_S50000x128_0_1 : FVec Ideal S50000x1 .f32 → FVec Ideal S50000x128 .f32)
      ((broadcastInDim S50000x1 ![0] bcast_S50000_S50000x1_0 : FVec Ideal S50000 .f32 → FVec Ideal S50000x1 .f32)
        ((maximumf : FVec Ideal S50000 .f32 → FVec Ideal S50000 .f32 → FVec Ideal S50000 .f32)
          (((fun x i u => Host.scatterAdd scatter_S50000_S800000x1_S800000_n_0_0_1 x i u) : FVec Ideal S50000 .f32 → IVec S800000x1 32 → FVec Ideal S800000 .f32 → FVec Ideal S50000 .f32)
            ((broadcastInDim S50000 ![] bcast_S_S50000 : FVec Ideal S_ .f32 → FVec Ideal S50000 .f32)
              (constant S_ .f32 0x00000000#32 : FVec Ideal S_ .f32))
            ((broadcastInDim S800000x1 ![0] bcast_S800000_S800000x1_0 : IVec S800000 32 → IVec S800000x1 32) dst)
            ((broadcastInDim S800000 ![] bcast_S_S800000 : FVec Ideal S_ .f32 → FVec Ideal S800000 .f32)
              (constant S_ .f32 0x3F800000#32 : FVec Ideal S_ .f32)))
          ((broadcastInDim S50000 ![] bcast_S_S50000 : FVec Ideal S_ .f32 → FVec Ideal S50000 .f32)
            (constant S_ .f32 0x3F800000#32 : FVec Ideal S_ .f32))))))

/-- One layer (`%40` of `%arg0, %18, %arg6 … %arg12`; `%81` of `%40, %59, %arg13 … %arg19` is the same function):
    `x · ws + agg · wn + b`, normalised with the running mean `rm` and variance `rv` (scale `γ`, shift `β`), then the
    leaky rectifier. -/
def refLayer (x agg : FVec Ideal S50000x128 .f32) (ws wn : FVec Ideal S128x128 .f32) (b γ β rm rv : FVec Ideal S128 .f32) :
    FVec Ideal S50000x128 .f32 :=
  ((select : IVec S50000x128 1 → FVec Ideal S50000x128 .f32 → FVec Ideal S50000x128 .f32 → FVec Ideal S50000x128 .f32)
    ((cmpf .oge : FVec Ideal S50000x128 .f32 → FVec Ideal S50000x128 .f32 → IVec S50000x128 1)
      ((addf : FVec Ideal S50000x128 .f32 → FVec Ideal S50000x128 .f32 → FVec Ideal S50000x128 .f32)
        ((mulf : FVec Ideal S50000x128 .f32 → FVec Ideal S50000x128 .f32 → FVec Ideal S50000x128 .f32)
          ((mulf : FVec Ideal S50000x128 .f32 → FVec Ideal S50000x128 .f32 → FVec Ideal S50000x128 .f32)
            ((broadcastInDim S50000x128 ![0, 1] bcast_S1x128_S50000x128_0_1 : FVec Ideal S1x128 .f32 → FVec Ideal S50000x128 .f32)
              ((broadcastInDim S1x128 ![1] bcast_S128_S1x128_1 : FVec Ideal S128 .f32 → FVec Ideal S1x128 .f32) γ))
            ((subf : FVec Ideal S50000x128 .f32 → FVec Ideal S50000x128 .f32 → FVec Ideal S50000x128 .f32)
              ((addf : FVec Ideal S50000x128 .f32 → FVec Ideal S50000x128 .f32 → FVec Ideal S50000x128 .f32)
                ((addf : FVec Ideal S50000x128 .f32 → FVec Ideal S50000x128 .f32 → FVec Ideal S50000x128 .f32)
                  (((fun l r => Host.dotGeneral dot_S50000x128_S128x128_S50000x128_1_0_0_1_n_n none l r) : FVec Ideal S50000x128 .f32 → FVec Ideal S128x128 .f32 → FVec Ideal S50000x128 .f32) x ws)
                  (((fun l r => Host.dotGeneral dot_S50000x128_S128x128_S50000x128_1_0_0_1_n_n none l r) : FVec Ideal S50000x128 .f32 → FVec Ideal S128x128 .f32 → FVec Ideal S50000x128 .f32) agg wn))
                ((broadcastInDim S50000x128 ![0, 1] bcast_S1x128_S50000x128_0_1 : FVec Ideal S1x128 .f32 → FVec Ideal S50000x128 .f32)
                  ((broadcastInDim S1x128 ![1] bcast_S128_S1x128_1 : FVec Ideal S128 .f32 → FVec Ideal S1x128 .f32) b)))
              ((broadcastInDim S50000x128 ![0, 1] bcast_S1x128_S50000x128_0_1 : FVec Ideal S1x128 .f32 → FVec Ideal S50000x128 .f32)
                ((broadcastInDim S1x128 ![1] bcast_S128_S1x128_1 : FVec Ideal S128 .f32 → FVec Ideal S1x128 .f32) rm))))
          ((broadcastInDim S50000x128 ![0, 1] bcast_S1x128_S50000x128_0_1 : FVec Ideal S1x128 .f32 → FVec Ideal S50000x128 .f32)
            ((broadcastInDim S1x128 ![1] bcast_S128_S1x128_1 : FVec Ideal S128 .f32 → FVec Ideal S1x128 .f32)
              ((Host.rsqrt : FVec Ideal S128 .f32 → FVec Ideal S128 .f32)
                ((addf : FVec Ideal S128 .f32 → FVec Ideal S128 .f32 → FVec Ideal S128 .f32)
                  rv
                  ((broadcastInDim S128 ![] bcast_S_S128 : FVec Ideal S_ .f32 → FVec Ideal S128 .f32)
                    (constant S_ .f32 0x3727C5AC#32 : FVec Ideal S_ .f32)))))))
        ((broadcastInDim S50000x128 ![0, 1] bcast_S1x128_S50000x128_0_1 : FVec Ideal S1x128 .f32 → FVec Ideal S50000x128 .f32)
          ((broadcastInDim S1x128 ![1] bcast_S128_S1x128_1 : FVec Ideal S128 .f32 → FVec Ideal S1x128 .f32) β)))
      ((broadcastInDim S50000x128 ![] bcast_S_S50000x128 : FVec Ideal S_ .f32 → FVec Ideal S50000x128 .f32)
        (constant S_ .f32 0x00000000#32 : FVec Ideal S_ .f32)))
    ((addf : FVec Ideal S50000x128 .f32 → FVec Ideal S50000x128 .f32 → FVec Ideal S50000x128 .f32)
      ((mulf : FVec Ideal S50000x128 .f32 → FVec Ideal S50000x128 .f32 → FVec Ideal S50000x128 .f32)
        ((mulf : FVec Ideal S50000x128 .f32 → FVec Ideal S50000x128 .f32 → FVec Ideal S50000x128 .f32)
          ((broadcastInDim S50000x128 ![0, 1] bcast_S1x128_S50000x128_0_1 : FVec Ideal S1x128 .f32 → FVec Ideal S50000x128 .f32)
            ((broadcastInDim S1x128 ![1] bcast_S128_S1x128_1 : FVec Ideal S128 .f32 → FVec Ideal S1x128 .f32) γ))
          ((subf : FVec Ideal S50000x128 .f32 → FVec Ideal S50000x128 .f32 → FVec Ideal S50000x128 .f32)
            ((addf : FVec Ideal S50000x128 .f32 → FVec Ideal S50000x128 .f32 → FVec Ideal S50000x128 .f32)
              ((addf : FVec Ideal S50000x128 .f32 → FVec Ideal S50000x128 .f32 → FVec Ideal S50000x128 .f32)
                (((fun l r => Host.dotGeneral dot_S50000x128_S128x128_S50000x128_1_0_0_1_n_n none l r) : FVec Ideal S50000x128 .f32 → FVec Ideal S128x128 .f32 → FVec Ideal S50000x128 .f32) x ws)
                (((fun l r => Host.dotGeneral dot_S50000x128_S128x128_S50000x128_1_0_0_1_n_n none l r) : FVec Ideal S50000x128 .f32 → FVec Ideal S128x128 .f32 → FVec Ideal S50000x128 .f32) agg wn))
              ((broadcastInDim S50000x128 ![0, 1] bcast_S1x128_S50000x128_0_1 : FVec Ideal S1x128 .f32 → FVec Ideal S50000x128 .f32)
                ((broadcastInDim S1x128 ![1] bcast_S128_S1x128_1 : FVec Ideal S128 .f32 → FVec Ideal S1x128 .f32) b)))
            ((broadcastInDim S50000x128 ![0, 1] bcast_S1x128_S50000x128_0_1 : FVec Ideal S1x128 .f32 → FVec Ideal S50000x128 .f32)
              ((broadcastInDim S1x128 ![1] bcast_S128_S1x128_1 : FVec Ideal S128 .f32 → FVec Ideal S1x128 .f32) rm))))
        ((broadcastInDim S50000x128 ![0, 1] bcast_S1x128_S50000x128_0_1 : FVec Ideal S1x128 .f32 → FVec Ideal S50000x128 .f32)
          ((broadcastInDim S1x128 ![1] bcast_S128_S1x128_1 : FVec Ideal S128 .f32 → FVec Ideal S1x128 .f32)
            ((Host.rsqrt : FVec Ideal S128 .f32 → FVec Ideal S128 .f32)
              ((addf : FVec Ideal S128 .f32 → FVec Ideal S128 .f32 → FVec Ideal S128 .f32)
                rv
                ((broadcastInDim S128 ![] bcast_S_S128 : FVec Ideal S_ .f32 → FVec Ideal S128 .f32)
                  (constant S_ .f32 0x3727C5AC#32 : FVec Ideal S_ .f32)))))))
      ((broadcastInDim S50000x128 ![0, 1] bcast_S1x128_S50000x128_0_1 : FVec Ideal S1x128 .f32 → FVec Ideal S50000x128 .f32)
        ((broadcastInDim S1x128 ![1] bcast_S128_S1x128_1 : FVec Ideal S128 .f32 → FVec Ideal S1x128 .f32) β)))
    ((mulf : FVec Ideal S50000x128 .f32 → FVec Ideal S50000x128 .f32 → FVec Ideal S50000x128 .f32)
      ((broadcastInDim S50000x128 ![] bcast_S_S50000x128 : FVec Ideal S_ .f32 → FVec Ideal S50000x128 .f32)
        ((id : FVec Ideal S_ .f32 → FVec Ideal S_ .f32)
          (constant S_ .f32 0x3C23D70A#32 : FVec Ideal S_ .f32)))
      ((addf : FVec Ideal S50000x128 .f32 → FVec Ideal S50000x128 .f32 → FVec Ideal S50000x128 .f32)
        ((mulf : FVec Ideal S50000x128 .f32 → FVec Ideal S50000x128 .f32 → FVec Ideal S50000x128 .f32)
          ((mulf : FVec Ideal S50000x128 .f32 → FVec Ideal S50000x128 .f32 → FVec Ideal S50000x128 .f32)
            ((broadcastInDim S50000x128 ![0, 1] bcast_S1x128_S50000x128_0_1 : FVec Ideal S1x128 .f32 → FVec Ideal S50000x128 .f32)
              ((broadcastInDim S1x128 ![1] bcast_S128_S1x128_1 : FVec Ideal S128 .f32 → FVec Ideal S1x128 .f32) γ))
            ((subf : FVec Ideal S50000x128 .f32 → FVec Ideal S50000x128 .f32 → FVec Ideal S50000x128 .f32)
              ((addf : FVec Ideal S50000x128 .f32 → FVec Ideal S50000x128 .f32 → FVec Ideal S50000x128 .f32)
                ((addf : FVec Ideal S50000x128 .f32 → FVec Ideal S50000x128 .f32 → FVec Ideal S50000x128 .f32)
                  (((fun l r => Host.dotGeneral dot_S50000x128_S128x128_S50000x128_1_0_0_1_n_n none l r) : FVec Ideal S50000x128 .f32 → FVec Ideal S128x128 .f32 → FVec Ideal S50000x128 .f32) x ws)
                  (((fun l r => Host.dotGeneral dot_S50000x128_S128x128_S50000x128_1_0_0_1_n_n none l r) : FVec Ideal S50000x128 .f32 → FVec Ideal S128x128 .f32 → FVec Ideal S50000x128 .f32) agg wn))
                ((broadcastInDim S50000x128 ![0, 1] bcast_S1x128_S50000x128_0_1 : FVec Ideal S1x128 .f32 → FVec Ideal S50000x128 .f32)
                  ((broadcastInDim S1x128 ![1] bcast_S128_S1x128_1 : FVec Ideal S128 .f32 → FVec Ideal S1x128 .f32) b)))
              ((broadcastInDim S50000x128 ![0, 1] bcast_S1x128_S50000x128_0_1 : FVec Ideal S1x128 .f32 → FVec Ideal S50000x128 .f32)
                ((broadcastInDim S1x128 ![1] bcast_S128_S1x128_1 : FVec Ideal S128 .f32 → FVec Ideal S1x128 .f32) rm))))
          ((broadcastInDim S50000x128 ![0, 1] bcast_S1x128_S50000x128_0_1 : FVec Ideal S1x128 .f32 → FVec Ideal S50000x128 .f32)
            ((broadcastInDim S1x128 ![1] bcast_S128_S1x128_1 : FVec Ideal S128 .f32 → FVec Ideal S1x128 .f32)
              ((Host.rsqrt : FVec Ideal S128 .f32 → FVec Ideal S128 .f32)
                ((addf : FVec Ideal S128 .f32 → FVec Ideal S128 .f32 → FVec Ideal S128 .f32)
                  rv
                  ((broadcastInDim S128 ![] bcast_S_S128 : FVec Ideal S_ .f32 → FVec Ideal S128 .f32)
                    (constant S_ .f32 0x3727C5AC#32 : FVec Ideal S_ .f32)))))))
        ((broadcastInDim S50000x128 ![0, 1] bcast_S1x128_S50000x128_0_1 : FVec Ideal S1x128 .f32 → FVec Ideal S50000x128 .f32)
          ((broadcastInDim S1x128 ![1] bcast_S128_S1x128_1 : FVec Ideal S128 .f32 → FVec Ideal S1x128 .f32) β)))))

/-- The candidate edges' features (`%97` of `%81, %arg3, %arg4, %arg5`): the node features with non-finite values
    replaced, gathered at the two wrapped endpoint indices and concatenated with the edge feature `f`. -/
def candOf (h : FVec Ideal S50000x128 .f32) (u v : IVec S100000 32) (f : FVec Ideal S100000x1 .f32) : FVec Ideal S100000x257 .f32 :=
  (concatenate S100000x257 1 [⟨S100000x128, (((fun x i => Host.gather gather_S50000x128_S100000x1_S100000x128_1_0_n_n_0_1_1128 x i) : FVec Ideal S50000x128 .f32 → IVec S100000x1 32 → FVec Ideal S100000x128 .f32)
        ((select : IVec S50000x128 1 → FVec Ideal S50000x128 .f32 → FVec Ideal S50000x128 .f32 → FVec Ideal S50000x128 .f32)
          ((cmpf .oeq : FVec Ideal S50000x128 .f32 → FVec Ideal S50000x128 .f32 → IVec S50000x128 1)
            ((select : IVec S50000x128 1 → FVec Ideal S50000x128 .f32 → FVec Ideal S50000x128 .f32 → FVec Ideal S50000x128 .f32)
              ((cmpf .oeq : FVec Ideal S50000x128 .f32 → FVec Ideal S50000x128 .f32 → IVec S50000x128 1)
                ((select : IVec S50000x128 1 → FVec Ideal S50000x128 .f32 → FVec Ideal S50000x128 .f32 → FVec Ideal S50000x128 .f32)
                  ((cmpf .une : FVec Ideal S50000x128 .f32 → FVec Ideal S50000x128 .f32 → IVec S50000x128 1) h h)
                  ((broadcastInDim S50000x128 ![] bcast_S_S50000x128 : FVec Ideal S_ .f32 → FVec Ideal S50000x128 .f32)
                    ((id : FVec Ideal S_ .f32 → FVec Ideal S_ .f32)
                      (constant S_ .f32 0x283424DC#32 : FVec Ideal S_ .f32)))
                  h)
                ((broadcastInDim S50000x128 ![] bcast_S_S50000x128 : FVec Ideal S_ .f32 → FVec Ideal S50000x128 .f32)
                  (constant S_ .f32 0x7F800000#32 : FVec Ideal S_ .f32)))
              ((broadcastInDim S50000x128 ![] bcast_S_S50000x128 : FVec Ideal S_ .f32 → FVec Ideal S50000x128 .f32)
                (constant S_ .f32 0x7F7FFFFF#32 : FVec Ideal S_ .f32))
              ((select : IVec S50000x128 1 → FVec Ideal S50000x128 .f32 → FVec Ideal S50000x128 .f32 → FVec Ideal S50000x128 .f32)
                ((cmpf .une : FVec Ideal S50000x128 .f32 → FVec Ideal S50000x128 .f32 → IVec S50000x128 1) h h)
                ((broadcastInDim S50000x128 ![] bcast_S_S50000x128 : FVec Ideal S_ .f32 → FVec Ideal S50000x128 .f32)
                  ((id : FVec Ideal S_ .f32 → FVec Ideal S_ .f32)
                    (constant S_ .f32 0x283424DC#32 : FVec Ideal S_ .f32)))
                h))
            ((broadcastInDim S50000x128 ![] bcast_S_S50000x128 : FVec Ideal S_ .f32 → FVec Ideal S50000x128 .f32)
              (constant S_ .f32 0xFF800000#32 : FVec Ideal S_ .f32)))
          ((broadcastInDim S50000x128 ![] bcast_S_S50000x128 : FVec Ideal S_ .f32 → FVec Ideal S50000x128 .f32)
            (constant S_ .f32 0xFF7FFFFF#32 : FVec Ideal S_ .f32))
          ((select : IVec S50000x128 1 → FVec Ideal S50000x128 .f32 → FVec Ideal S50000x128 .f32 → FVec Ideal S50000x128 .f32)
            ((cmpf .oeq : FVec Ideal S50000x128 .f32 → FVec Ideal S50000x128 .f32 → IVec S50000x128 1)
              ((select : IVec S50000x128 1 → FVec Ideal S50000x128 .f32 → FVec Ideal S50000x128 .f32 → FVec Ideal S50000x128 .f32)
                ((cmpf .une : FVec Ideal S50000x128 .f32 → FVec Ideal S50000x128 .f32 → IVec S50000x128 1) h h)
                ((broadcastInDim S50000x128 ![] bcast_S_S50000x128 : FVec Ideal S_ .f32 → FVec Ideal S50000x128 .f32)
                  ((id : FVec Ideal S_ .f32 → FVec Ideal S_ .f32)
                    (constant S_ .f32 0x283424DC#32 : FVec Ideal S_ .f32)))
                h)
              ((broadcastInDim S50000x128 ![] bcast_S_S50000x128 : FVec Ideal S_ .f32 → FVec Ideal S50000x128 .f32)
                (constant S_ .f32 0x7F800000#32 : FVec Ideal S_ .f32)))
            ((broadcastInDim S50000x128 ![] bcast_S_S50000x128 : FVec Ideal S_ .f32 → FVec Ideal S50000x128 .f32)
              (constant S_ .f32 0x7F7FFFFF#32 : FVec Ideal S_ .f32))
            ((select : IVec S50000x128 1 → FVec Ideal S50000x128 .f32 → FVec Ideal S50000x128 .f32 → FVec Ideal S50000x128 .f32)
              ((cmpf .une : FVec Ideal S50000x128 .f32 → FVec Ideal S50000x128 .f32 → IVec S50000x128 1) h h)
              ((broadcastInDim S50000x128 ![] bcast_S_S50000x128 : FVec Ideal S_ .f32 → FVec Ideal S50000x128 .f32)
                ((id : FVec Ideal S_ .f32 → FVec Ideal S_ .f32)
                  (constant S_ .f32 0x283424DC#32 : FVec Ideal S_ .f32)))
              h)))
        ((broadcastInDim S100000x1 ![0] bcast_S100000_S100000x1_0 : IVec S100000 32 → IVec S100000x1 32)
          ((select : IVec S100000 1 → IVec S100000 32 → IVec S100000 32 → IVec S100000 32)
            ((cmpi .slt : IVec S100000 32 → IVec S100000 32 → IVec S100000 1)
              u
              ((broadcastInDim S100000 ![] bcast_S_S100000 : IVec S_ 32 → IVec S100000 32) (constantI S_ 32 0#32 : IVec S_ 32)))
            ((addi : IVec S100000 32 → IVec S100000 32 → IVec S100000 32)
              u
              ((broadcastInDim S100000 ![] bcast_S_S100000 : IVec S_ 32 → IVec S100000 32) (constantI S_ 32 50000#32 : IVec S_ 32)))
            u)))⟩,
      ⟨S100000x128, (((fun x i => Host.gather gather_S50000x128_S100000x1_S100000x128_1_0_n_n_0_1_1128 x i) : FVec Ideal S50000x128 .f32 → IVec S100000x1 32 → FVec Ideal S100000x128 .f32)
        ((select : IVec S50000x128 1 → FVec Ideal S50000x128 .f32 → FVec Ideal S50000x128 .f32 → FVec Ideal S50000x128 .f32)
          ((cmpf .oeq : FVec Ideal S50000x128 .f32 → FVec Ideal S50000x128 .f32 → IVec S50000x128 1)
            ((select : IVec S50000x128 1 → FVec Ideal S50000x128 .f32 → FVec Ideal S50000x128 .f32 → FVec Ideal S50000x128 .f32)
              ((cmpf .oeq : FVec Ideal S50000x128 .f32 → FVec Ideal S50000x128 .f32 → IVec S50000x128 1)
                ((select : IVec S50000x128 1 → FVec Ideal S50000x128 .f32 → FVec Ideal S50000x128 .f32 → FVec Ideal S50000x128 .f32)
                  ((cmpf .une : FVec Ideal S50000x128 .f32 → FVec Ideal S50000x128 .f32 → IVec S50000x128 1) h h)
                  ((broadcastInDim S50000x128 ![] bcast_S_S50000x128 : FVec Ideal S_ .f32 → FVec Ideal S50000x128 .f32)
                    ((id : FVec Ideal S_ .f32 → FVec Ideal S_ .f32)
                      (constant S_ .f32 0x283424DC#32 : FVec Ideal S_ .f32)))
                  h)
                ((broadcastInDim S50000x128 ![] bcast_S_S50000x128 : FVec Ideal S_ .f32 → FVec Ideal S50000x128 .f32)
                  (constant S_ .f32 0x7F800000#32 : FVec Ideal S_ .f32)))
              ((broadcastInDim S50000x128 ![] bcast_S_S50000x128 : FVec Ideal S_ .f32 → FVec Ideal S50000x128 .f32)
                (constant S_ .f32 0x7F7FFFFF#32 : FVec Ideal S_ .f32))
              ((select : IVec S50000x128 1 → FVec Ideal S50000x128 .f32 → FVec Ideal S50000x128 .f32 → FVec Ideal S50000x128 .f32)
                ((cmpf .une : FVec Ideal S50000x128 .f32 → FVec Ideal S50000x128 .f32 → IVec S50000x128 1) h h)
                ((broadcastInDim S50000x128 ![] bcast_S_S50000x128 : FVec Ideal S_ .f32 → FVec Ideal S50000x128 .f32)
                  ((id : FVec Ideal S_ .f32 → FVec Ideal S_ .f32)
                    (constant S_ .f32 0x283424DC#32 : FVec Ideal S_ .f32)))
                h))
            ((broadcastInDim S50000x128 ![] bcast_S_S50000x128 : FVec Ideal S_ .f32 → FVec Ideal S50000x128 .f32)
              (constant S_ .f32 0xFF800000#32 : FVec Ideal S_ .f32)))
          ((broadcastInDim S50000x128 ![] bcast_S_S50000x128 : FVec Ideal S_ .f32 → FVec Ideal S50000x128 .f32)
            (constant S_ .f32 0xFF7FFFFF#32 : FVec Ideal S_ .f32))
          ((select : IVec S50000x128 1 → FVec Ideal S50000x128 .f32 → FVec Ideal S50000x128 .f32 → FVec Ideal S50000x128 .f32)
            ((cmpf .oeq : FVec Ideal S50000x128 .f32 → FVec Ideal S50000x128 .f32 → IVec S50000x128 1)
              ((select : IVec S50000x128 1 → FVec Ideal S50000x128 .f32 → FVec Ideal S50000x128 .f32 → FVec Ideal S50000x128 .f32)
                ((cmpf .une : FVec Ideal S50000x128 .f32 → FVec Ideal S50000x128 .f32 → IVec S50000x128 1) h h)
                ((broadcastInDim S50000x128 ![] bcast_S_S50000x128 : FVec Ideal S_ .f32 → FVec Ideal S50000x128 .f32)
                  ((id : FVec Ideal S_ .f32 → FVec Ideal S_ .f32)
                    (constant S_ .f32 0x283424DC#32 : FVec Ideal S_ .f32)))
                h)
              ((broadcastInDim S50000x128 ![] bcast_S_S50000x128 : FVec Ideal S_ .f32 → FVec Ideal S50000x128 .f32)
                (constant S_ .f32 0x7F800000#32 : FVec Ideal S_ .f32)))
            ((broadcastInDim S50000x128 ![] bcast_S_S50000x128 : FVec Ideal S_ .f32 → FVec Ideal S50000x128 .f32)
              (constant S_ .f32 0x7F7FFFFF#32 : FVec Ideal S_ .f32))
            ((select : IVec S50000x128 1 → FVec Ideal S50000x128 .f32 → FVec Ideal S50000x128 .f32 → FVec Ideal S50000x128 .f32)
              ((cmpf .une : FVec Ideal S50000x128 .f32 → FVec Ideal S50000x128 .f32 → IVec S50000x128 1) h h)
              ((broadcastInDim S50000x128 ![] bcast_S_S50000x128 : FVec Ideal S_ .f32 → FVec Ideal S50000x128 .f32)
                ((id : FVec Ideal S_ .f32 → FVec Ideal S_ .f32)
                  (constant S_ .f32 0x283424DC#32 : FVec Ideal S_ .f32)))
              h)))
        ((broadcastInDim S100000x1 ![0] bcast_S100000_S100000x1_0 : IVec S100000 32 → IVec S100000x1 32)
          ((select : IVec S100000 1 → IVec S100000 32 → IVec S100000 32 → IVec S100000 32)
            ((cmpi .slt : IVec S100000 32 → IVec S100000 32 → IVec S100000 1)
              v
              ((broadcastInDim S100000 ![] bcast_S_S100000 : IVec S_ 32 → IVec S100000 32) (constantI S_ 32 0#32 : IVec S_ 32)))
            ((addi : IVec S100000 32 → IVec S100000 32 → IVec S100000 32)
              v
              ((broadcastInDim S100000 ![] bcast_S_S100000 : IVec S_ 32 → IVec S100000 32) (constantI S_ 32 50000#32 : IVec S_ 32)))
            v)))⟩,
      ⟨S100000x1, f⟩] concatenates_S100000x128_S100000x128_S100000x1_S100000x257_d1)

/-- The three-layer perceptron on the candidates (`%111` of `%97, %arg20 … %arg25`). -/
def refMlp (ce : FVec Ideal S100000x257 .f32) (mw0 : FVec Ideal S257x64 .f32) (mb0 : FVec Ideal S64 .f32)
    (mw1 : FVec Ideal S64x64 .f32) (mb1 : FVec Ideal S64 .f32) (mw2 : FVec Ideal S64x1 .f32) (mb2 : FVec Ideal S1 .f32) :
    FVec Ideal S100000x1 .f32 :=
  ((addf : FVec Ideal S100000x1 .f32 → FVec Ideal S100000x1 .f32 → FVec Ideal S100000x1 .f32)
    (((fun l r => Host.dotGeneral dot_S100000x64_S64x1_S100000x1_1_0_0_1_n_n none l r) : FVec Ideal S100000x64 .f32 → FVec Ideal S64x1 .f32 → FVec Ideal S100000x1 .f32)
      ((select : IVec S100000x64 1 → FVec Ideal S100000x64 .f32 → FVec Ideal S100000x64 .f32 → FVec Ideal S100000x64 .f32)
        ((cmpf .oge : FVec Ideal S100000x64 .f32 → FVec Ideal S100000x64 .f32 → IVec S100000x64 1)
          ((addf : FVec Ideal S100000x64 .f32 → FVec Ideal S100000x64 .f32 → FVec Ideal S100000x64 .f32)
            (((fun l r => Host.dotGeneral dot_S100000x64_S64x64_S100000x64_1_0_0_1_n_n none l r) : FVec Ideal S100000x64 .f32 → FVec Ideal S64x64 .f32 → FVec Ideal S100000x64 .f32)
              ((select : IVec S100000x64 1 → FVec Ideal S100000x64 .f32 → FVec Ideal S100000x64 .f32 → FVec Ideal S100000x64 .f32)
                ((cmpf .oge : FVec Ideal S100000x64 .f32 → FVec Ideal S100000x64 .f32 → IVec S100000x64 1)
                  ((addf : FVec Ideal S100000x64 .f32 → FVec Ideal S100000x64 .f32 → FVec Ideal S100000x64 .f32)
                    (((fun l r => Host.dotGeneral dot_S100000x257_S257x64_S100000x64_1_0_0_1_n_n none l r) : FVec Ideal S100000x257 .f32 → FVec Ideal S257x64 .f32 → FVec Ideal S100000x64 .f32) ce mw0)
                    ((broadcastInDim S100000x64 ![0, 1] bcast_S1x64_S100000x64_0_1 : FVec Ideal S1x64 .f32 → FVec Ideal S100000x64 .f32)
                      ((broadcastInDim S1x64 ![1] bcast_S64_S1x64_1 : FVec Ideal S64 .f32 → FVec Ideal S1x64 .f32) mb0)))
                  ((broadcastInDim S100000x64 ![] bcast_S_S100000x64 : FVec Ideal S_ .f32 → FVec Ideal S100000x64 .f32)
                    (constant S_ .f32 0x00000000#32 : FVec Ideal S_ .f32)))
                ((addf : FVec Ideal S100000x64 .f32 → FVec Ideal S100000x64 .f32 → FVec Ideal S100000x64 .f32)
                  (((fun l r => Host.dotGeneral dot_S100000x257_S257x64_S100000x64_1_0_0_1_n_n none l r) : FVec Ideal S100000x257 .f32 → FVec Ideal S257x64 .f32 → FVec Ideal S100000x64 .f32) ce mw0)
                  ((broadcastInDim S100000x64 ![0, 1] bcast_S1x64_S100000x64_0_1 : FVec Ideal S1x64 .f32 → FVec Ideal S100000x64 .f32)
                    ((broadcastInDim S1x64 ![1] bcast_S64_S1x64_1 : FVec Ideal S64 .f32 → FVec Ideal S1x64 .f32) mb0)))
                ((mulf : FVec Ideal S100000x64 .f32 → FVec Ideal S100000x64 .f32 → FVec Ideal S100000x64 .f32)
                  ((broadcastInDim S100000x64 ![] bcast_S_S100000x64 : FVec Ideal S_ .f32 → FVec Ideal S100000x64 .f32)
                    ((id : FVec Ideal S_ .f32 → FVec Ideal S_ .f32)
                      (constant S_ .f32 0x3C23D70A#32 : FVec Ideal S_ .f32)))
                  ((addf : FVec Ideal S100000x64 .f32 → FVec Ideal S100000x64 .f32 → FVec Ideal S100000x64 .f32)
                    (((fun l r => Host.dotGeneral dot_S100000x257_S257x64_S100000x64_1_0_0_1_n_n none l r) : FVec Ideal S100000x257 .f32 → FVec Ideal S257x64 .f32 → FVec Ideal S100000x64 .f32) ce mw0)
                    ((broadcastInDim S100000x64 ![0, 1] bcast_S1x64_S100000x64_0_1 : FVec Ideal S1x64 .f32 → FVec Ideal S100000x64 .f32)
                      ((broadcastInDim S1x64 ![1] bcast_S64_S1x64_1 : FVec Ideal S64 .f32 → FVec Ideal S1x64 .f32) mb0)))))
              mw1)
            ((broadcastInDim S100000x64 ![0, 1] bcast_S1x64_S100000x64_0_1 : FVec Ideal S1x64 .f32 → FVec Ideal S100000x64 .f32)
              ((broadcastInDim S1x64 ![1] bcast_S64_S1x64_1 : FVec Ideal S64 .f32 → FVec Ideal S1x64 .f32) mb1)))
          ((broadcastInDim S100000x64 ![] bcast_S_S100000x64 : FVec Ideal S_ .f32 → FVec Ideal S100000x64 .f32)
            (constant S_ .f32 0x00000000#32 : FVec Ideal S_ .f32)))
        ((addf : FVec Ideal S100000x64 .f32 → FVec Ideal S100000x64 .f32 → FVec Ideal S100000x64 .f32)
          (((fun l r => Host.dotGeneral dot_S100000x64_S64x64_S100000x64_1_0_0_1_n_n none l r) : FVec Ideal S100000x64 .f32 → FVec Ideal S64x64 .f32 → FVec Ideal S100000x64 .f32)
            ((select : IVec S100000x64 1 → FVec Ideal S100000x64 .f32 → FVec Ideal S100000x64 .f32 → FVec Ideal S100000x64 .f32)
              ((cmpf .oge : FVec Ideal S100000x64 .f32 → FVec Ideal S100000x64 .f32 → IVec S100000x64 1)
                ((addf : FVec Ideal S100000x64 .f32 → FVec Ideal S100000x64 .f32 → FVec Ideal S100000x64 .f32)
                  (((fun l r => Host.dotGeneral dot_S100000x257_S257x64_S100000x64_1_0_0_1_n_n none l r) : FVec Ideal S100000x257 .f32 → FVec Ideal S257x64 .f32 → FVec Ideal S100000x64 .f32) ce mw0)
                  ((broadcastInDim S100000x64 ![0, 1] bcast_S1x64_S100000x64_0_1 : FVec Ideal S1x64 .f32 → FVec Ideal S100000x64 .f32)
                    ((broadcastInDim S1x64 ![1] bcast_S64_S1x64_1 : FVec Ideal S64 .f32 → FVec Ideal S1x64 .f32) mb0)))
                ((broadcastInDim S100000x64 ![] bcast_S_S100000x64 : FVec Ideal S_ .f32 → FVec Ideal S100000x64 .f32)
                  (constant S_ .f32 0x00000000#32 : FVec Ideal S_ .f32)))
              ((addf : FVec Ideal S100000x64 .f32 → FVec Ideal S100000x64 .f32 → FVec Ideal S100000x64 .f32)
                (((fun l r => Host.dotGeneral dot_S100000x257_S257x64_S100000x64_1_0_0_1_n_n none l r) : FVec Ideal S100000x257 .f32 → FVec Ideal S257x64 .f32 → FVec Ideal S100000x64 .f32) ce mw0)
                ((broadcastInDim S100000x64 ![0, 1] bcast_S1x64_S100000x64_0_1 : FVec Ideal S1x64 .f32 → FVec Ideal S100000x64 .f32)
                  ((broadcastInDim S1x64 ![1] bcast_S64_S1x64_1 : FVec Ideal S64 .f32 → FVec Ideal S1x64 .f32) mb0)))
              ((mulf : FVec Ideal S100000x64 .f32 → FVec Ideal S100000x64 .f32 → FVec Ideal S100000x64 .f32)
                ((broadcastInDim S100000x64 ![] bcast_S_S100000x64 : FVec Ideal S_ .f32 → FVec Ideal S100000x64 .f32)
                  ((id : FVec Ideal S_ .f32 → FVec Ideal S_ .f32)
                    (constant S_ .f32 0x3C23D70A#32 : FVec Ideal S_ .f32)))
                ((addf : FVec Ideal S100000x64 .f32 → FVec Ideal S100000x64 .f32 → FVec Ideal S100000x64 .f32)
                  (((fun l r => Host.dotGeneral dot_S100000x257_S257x64_S100000x64_1_0_0_1_n_n none l r) : FVec Ideal S100000x257 .f32 → FVec Ideal S257x64 .f32 → FVec Ideal S100000x64 .f32) ce mw0)
                  ((broadcastInDim S100000x64 ![0, 1] bcast_S1x64_S100000x64_0_1 : FVec Ideal S1x64 .f32 → FVec Ideal S100000x64 .f32)
                    ((broadcastInDim S1x64 ![1] bcast_S64_S1x64_1 : FVec Ideal S64 .f32 → FVec Ideal S1x64 .f32) mb0)))))
            mw1)
          ((broadcastInDim S100000x64 ![0, 1] bcast_S1x64_S100000x64_0_1 : FVec Ideal S1x64 .f32 → FVec Ideal S100000x64 .f32)
            ((broadcastInDim S1x64 ![1] bcast_S64_S1x64_1 : FVec Ideal S64 .f32 → FVec Ideal S1x64 .f32) mb1)))
        ((mulf : FVec Ideal S100000x64 .f32 → FVec Ideal S100000x64 .f32 → FVec Ideal S100000x64 .f32)
          ((broadcastInDim S100000x64 ![] bcast_S_S100000x64 : FVec Ideal S_ .f32 → FVec Ideal S100000x64 .f32)
            ((id : FVec Ideal S_ .f32 → FVec Ideal S_ .f32)
              (constant S_ .f32 0x3C23D70A#32 : FVec Ideal S_ .f32)))
          ((addf : FVec Ideal S100000x64 .f32 → FVec Ideal S100000x64 .f32 → FVec Ideal S100000x64 .f32)
            (((fun l r => Host.dotGeneral dot_S100000x64_S64x64_S100000x64_1_0_0_1_n_n none l r) : FVec Ideal S100000x64 .f32 → FVec Ideal S64x64 .f32 → FVec Ideal S100000x64 .f32)
              ((select : IVec S100000x64 1 → FVec Ideal S100000x64 .f32 → FVec Ideal S100000x64 .f32 → FVec Ideal S100000x64 .f32)
                ((cmpf .oge : FVec Ideal S100000x64 .f32 → FVec Ideal S100000x64 .f32 → IVec S100000x64 1)
                  ((addf : FVec Ideal S100000x64 .f32 → FVec Ideal S100000x64 .f32 → FVec Ideal S100000x64 .f32)
                    (((fun l r => Host.dotGeneral dot_S100000x257_S257x64_S100000x64_1_0_0_1_n_n none l r) : FVec Ideal S100000x257 .f32 → FVec Ideal S257x64 .f32 → FVec Ideal S100000x64 .f32) ce mw0)
                    ((broadcastInDim S100000x64 ![0, 1] bcast_S1x64_S100000x64_0_1 : FVec Ideal S1x64 .f32 → FVec Ideal S100000x64 .f32)
                      ((broadcastInDim S1x64 ![1] bcast_S64_S1x64_1 : FVec Ideal S64 .f32 → FVec Ideal S1x64 .f32) mb0)))
                  ((broadcastInDim S100000x64 ![] bcast_S_S100000x64 : FVec Ideal S_ .f32 → FVec Ideal S100000x64 .f32)
                    (constant S_ .f32 0x00000000#32 : FVec Ideal S_ .f32)))
                ((addf : FVec Ideal S100000x64 .f32 → FVec Ideal S100000x64 .f32 → FVec Ideal S100000x64 .f32)
                  (((fun l r => Host.dotGeneral dot_S100000x257_S257x64_S100000x64_1_0_0_1_n_n none l r) : FVec Ideal S100000x257 .f32 → FVec Ideal S257x64 .f32 → FVec Ideal S100000x64 .f32) ce mw0)
                  ((broadcastInDim S100000x64 ![0, 1] bcast_S1x64_S100000x64_0_1 : FVec Ideal S1x64 .f32 → FVec Ideal S100000x64 .f32)
                    ((broadcastInDim S1x64 ![1] bcast_S64_S1x64_1 : FVec Ideal S64 .f32 → FVec Ideal S1x64 .f32) mb0)))
                ((mulf : FVec Ideal S100000x64 .f32 → FVec Ideal S100000x64 .f32 → FVec Ideal S100000x64 .f32)
                  ((broadcastInDim S100000x64 ![] bcast_S_S100000x64 : FVec Ideal S_ .f32 → FVec Ideal S100000x64 .f32)
                    ((id : FVec Ideal S_ .f32 → FVec Ideal S_ .f32)
                      (constant S_ .f32 0x3C23D70A#32 : FVec Ideal S_ .f32)))
                  ((addf : FVec Ideal S100000x64 .f32 → FVec Ideal S100000x64 .f32 → FVec Ideal S100000x64 .f32)
                    (((fun l r => Host.dotGeneral dot_S100000x257_S257x64_S100000x64_1_0_0_1_n_n none l r) : FVec Ideal S100000x257 .f32 → FVec Ideal S257x64 .f32 → FVec Ideal S100000x64 .f32) ce mw0)
                    ((broadcastInDim S100000x64 ![0, 1] bcast_S1x64_S100000x64_0_1 : FVec Ideal S1x64 .f32 → FVec Ideal S100000x64 .f32)
                      ((broadcastInDim S1x64 ![1] bcast_S64_S1x64_1 : FVec Ideal S64 .f32 → FVec Ideal S1x64 .f32) mb0)))))
              mw1)
            ((broadcastInDim S100000x64 ![0, 1] bcast_S1x64_S100000x64_0_1 : FVec Ideal S1x64 .f32 → FVec Ideal S100000x64 .f32)
              ((broadcastInDim S1x64 ![1] bcast_S64_S1x64_1 : FVec Ideal S64 .f32 → FVec Ideal S1x64 .f32) mb1)))))
      mw2)
    ((broadcastInDim S100000x1 ![0, 1] bcast_S1x1_S100000x1_0_1 : FVec Ideal S1x1 .f32 → FVec Ideal S100000x1 .f32)
      ((broadcastInDim S1x1 ![1] bcast_S1_S1x1_1 : FVec Ideal S1 .f32 → FVec Ideal S1x1 .f32) mb2)))

/-- The softmax over all candidates (`%122` of `%111`): the maximum subtracted, exponentials, divided by their sum. -/
def softmaxOf (y : FVec Ideal S100000x1 .f32) : FVec Ideal S100000x1 .f32 :=
  ((Host.divf : FVec Ideal S100000x1 .f32 → FVec Ideal S100000x1 .f32 → FVec Ideal S100000x1 .f32)
    ((Host.exp : FVec Ideal S100000x1 .f32 → FVec Ideal S100000x1 .f32)
      ((subf : FVec Ideal S100000x1 .f32 → FVec Ideal S100000x1 .f32 → FVec Ideal S100000x1 .f32)
        y
        ((broadcastInDim S100000x1 ![0, 1] bcast_S1x1_S100000x1_0_1 : FVec Ideal S1x1 .f32 → FVec Ideal S100000x1 .f32)
          ((broadcastInDim S1x1 ![1] bcast_S1_S1x1_1 : FVec Ideal S1 .f32 → FVec Ideal S1x1 .f32)
            ((maximumf : FVec Ideal S1 .f32 → FVec Ideal S1 .f32 → FVec Ideal S1 .f32)
              ((broadcastInDim S1 ![] bcast_S_S1 : FVec Ideal S_ .f32 → FVec Ideal S1 .f32)
                (constant S_ .f32 0xFF800000#32 : FVec Ideal S_ .f32))
              (((fun x v => Host.reduce FloatOps.maximumf x v reducesTo_S100000x1_S1_d0 h_S_) : FVec Ideal S100000x1 .f32 → FVec Ideal S_ .f32 → FVec Ideal S1 .f32)
                y
                (constant S_ .f32 0xFF800000#32 : FVec Ideal S_ .f32)))))))
    ((broadcastInDim S100000x1 ![0, 1] bcast_S1x1_S100000x1_0_1 : FVec Ideal S1x1 .f32 → FVec Ideal S100000x1 .f32)
      ((broadcastInDim S1x1 ![1] bcast_S1_S1x1_1 : FVec Ideal S1 .f32 → FVec Ideal S1x1 .f32)
        (((fun x v => Host.reduceAdd x v reducesTo_S100000x1_S1_d0 h_S_) : FVec Ideal S100000x1 .f32 → FVec Ideal S_ .f32 → FVec Ideal S1 .f32)
          ((Host.exp : FVec Ideal S100000x1 .f32 → FVec Ideal S100000x1 .f32)
            ((subf : FVec Ideal S100000x1 .f32 → FVec Ideal S100000x1 .f32 → FVec Ideal S100000x1 .f32)
              y
              ((broadcastInDim S100000x1 ![0, 1] bcast_S1x1_S100000x1_0_1 : FVec Ideal S1x1 .f32 → FVec Ideal S100000x1 .f32)
                ((broadcastInDim S1x1 ![1] bcast_S1_S1x1_1 : FVec Ideal S1 .f32 → FVec Ideal S1x1 .f32)
                  ((maximumf : FVec Ideal S1 .f32 → FVec Ideal S1 .f32 → FVec Ideal S1 .f32)
                    ((broadcastInDim S1 ![] bcast_S_S1 : FVec Ideal S_ .f32 → FVec Ideal S1 .f32)
                      (constant S_ .f32 0xFF800000#32 : FVec Ideal S_ .f32))
                    (((fun x v => Host.reduce FloatOps.maximumf x v reducesTo_S100000x1_S1_d0 h_S_) : FVec Ideal S100000x1 .f32 → FVec Ideal S_ .f32 → FVec Ideal S1 .f32)
                      y
                      (constant S_ .f32 0xFF800000#32 : FVec Ideal S_ .f32)))))))
          (constant S_ .f32 0x00000000#32 : FVec Ideal S_ .f32)))))

end Cert.ReferenceIdeal.RefClosed

end
-- ==== Proof.StageLib.lean ====
import Idealize.ShloMosaic.Lib.StableHlo.Run

noncomputable section

namespace Cert.StageLib

open Idealize.ShloMosaic Idealize.ShloMosaic.TcCoe Idealize.SL.Sem Idealize.ShloMosaic.StableHlo

variable {τ : Topo} {sig : RefSig} {Val : EltTy → Type}

/-! ## A line in single-assignment form, read at its end

A line of host operations in which every operation writes one buffer that no other operation of the line writes, and
reads buffers written earlier in the line or not at all. The contents after the WHOLE line then satisfy each
operation's equation: the result buffer holds the operation's function of what the operand buffers hold, all read at
the end of the line. -/

/-- Operation by operation, the line `l` writes exactly the buffers of the references `ws`. -/
def Aligned (l : List (HloOp τ sig Val)) (ws : List (Ref sig .tc)) : Prop :=
  List.Forall₂ (fun op y => op.writes = {Proc.devRef (τ := τ) .tc y}) l ws

theorem Aligned.not_written {l : List (HloOp τ sig Val)} {ws : List (Ref sig .tc)} (h : Aligned l ws)
    {r : Ref sig .tc} (hr : r ∉ ws) : ∀ op ∈ l, Proc.devRef (τ := τ) .tc r ∉ op.writes := by
  induction h with
  | nil => intro op hop; cases hop
  | @cons op y l ws hab _ ih =>
    intro o ho
    rcases List.mem_cons.mp ho with rfl | ho
    · rw [hab, Finset.mem_singleton]
      exact fun e => hr (Proc.devRef_injective _ e ▸ List.mem_cons_self)
    · exact ih (fun hm => hr (List.mem_cons_of_mem _ hm)) o ho

/-- A buffer whose reference is not among the written ones keeps its contents. -/
theorem Aligned.after_of_not_mem {l : List (HloOp τ sig Val)} {ws : List (Ref sig .tc)} (h : Aligned l ws)
    (V : Valuation τ sig Val) {r : Ref sig .tc} (hr : r ∉ ws) :
    after l V (Proc.devRef .tc r) = V (Proc.devRef .tc r) :=
  after_of_forall_not_mem l V (h.not_written hr)

/-- Two aligned lines one after the other are aligned. -/
theorem Aligned.append {l₁ l₂ : List (HloOp τ sig Val)} {w₁ w₂ : List (Ref sig .tc)} (h₁ : Aligned l₁ w₁) (h₂ : Aligned l₂ w₂) :
    Aligned (l₁ ++ l₂) (w₁ ++ w₂) := List.rel_append h₁ h₂

/-- Two lines one after the other. -/
theorem after_app : ∀ (l₁ l₂ : List (HloOp τ sig Val)) (V : Valuation τ sig Val),
    after (l₁ ++ l₂) V = after l₂ (after l₁ V)
  | [], _, _ => rfl
  | op :: l₁, l₂, V => by rw [List.cons_append, after_cons, after_cons, after_app l₁ l₂]

/-- Around the `k`-th operation: a buffer no later operation writes holds at the end what it held just after that
    operation, and one that neither it nor a later one writes, what it held just before. -/
theorem stage_core {l : List (HloOp τ sig Val)} {ws : List (Ref sig .tc)} (hA : Aligned l ws) (k : Nat)
    (op : HloOp τ sig Val) (hk : l[k]? = some op) (V : Valuation τ sig Val) :
    ∃ U : Valuation τ sig Val,
      (∀ r : Ref sig .tc, r ∉ ws.drop (k + 1) → after l V (Proc.devRef .tc r) = op.result U (Proc.devRef .tc r))
      ∧ (∀ r : Ref sig .tc, r ∉ ws.drop k → after l V (Proc.devRef .tc r) = U (Proc.devRef .tc r)) := by
  obtain ⟨hlt, rfl⟩ := List.getElem?_eq_some_iff.mp hk
  have hd : l.drop k = l[k] :: l.drop (k + 1) := List.drop_eq_getElem_cons hlt
  have e0 : after l V = after (l.drop k) (after (l.take k) V) := by
    rw [← after_app, List.take_append_drop]
  have e1 : after l V = after (l.drop (k + 1)) ((l[k]).result (after (l.take k) V)) := by
    rw [e0, hd, after_cons]
  have hA1 : Aligned (l.drop (k + 1)) (ws.drop (k + 1)) := List.forall₂_drop (k + 1) hA
  have hA0 : Aligned (l.drop k) (ws.drop k) := List.forall₂_drop k hA
  refine ⟨after (l.take k) V, fun r hr => ?_, fun r hr => ?_⟩
  · rw [e1]; exact hA1.after_of_not_mem _ hr
  · rw [e0]; exact hA0.after_of_not_mem _ hr

/-! ### One operation's equation at the end of the line, by its builder -/

variable {l : List (HloOp τ sig Val)} {ws : List (Ref sig .tc)}

theorem stage_nullary (hA : Aligned l ws) (k : Nat) (y : Ref sig .tc) (v : y.ty.Contents Val)
    (hy : y.space ≠ .host ∧ (y : DevRef τ sig).isScoped = false)
    (hk : l[k]? = some (nullary y v hy)) (V : Valuation τ sig Val) (hy' : y ∉ ws.drop (k + 1)) :
    after l V (Proc.devRef .tc y) = v := by
  obtain ⟨U, h1, -⟩ := stage_core hA k _ hk V
  rw [h1 y hy', nullary_result]

theorem stage_unary (hA : Aligned l ws) (k : Nat) (x y : Ref sig .tc) (f : x.ty.Contents Val → y.ty.Contents Val)
    (hx : x.space ≠ .host ∧ (x : DevRef τ sig).isScoped = false) (hy : y.space ≠ .host ∧ (y : DevRef τ sig).isScoped = false)
    (hk : l[k]? = some (unary x y f hx hy)) (V : Valuation τ sig Val)
    (hx' : x ∉ ws.drop k) (hy' : y ∉ ws.drop (k + 1)) :
    after l V (Proc.devRef .tc y) = f (after l V (Proc.devRef .tc x)) := by
  obtain ⟨U, h1, h0⟩ := stage_core hA k _ hk V
  rw [h1 y hy', h0 x hx', unary_result]

theorem stage_binary (hA : Aligned l ws) (k : Nat) (a b y : Ref sig .tc) (f : a.ty.Contents Val → b.ty.Contents Val → y.ty.Contents Val)
    (ha : a.space ≠ .host ∧ (a : DevRef τ sig).isScoped = false) (hb : b.space ≠ .host ∧ (b : DevRef τ sig).isScoped = false)
    (hy : y.space ≠ .host ∧ (y : DevRef τ sig).isScoped = false)
    (hk : l[k]? = some (binary a b y f ha hb hy)) (V : Valuation τ sig Val)
    (ha' : a ∉ ws.drop k) (hb' : b ∉ ws.drop k) (hy' : y ∉ ws.drop (k + 1)) :
    after l V (Proc.devRef .tc y) = f (after l V (Proc.devRef .tc a)) (after l V (Proc.devRef .tc b)) := by
  obtain ⟨U, h1, h0⟩ := stage_core hA k _ hk V
  rw [h1 y hy', h0 a ha', h0 b hb', binary_result]

theorem stage_ternary (hA : Aligned l ws) (k : Nat) (c a b y : Ref sig .tc)
    (f : c.ty.Contents Val → a.ty.Contents Val → b.ty.Contents Val → y.ty.Contents Val)
    (hc : c.space ≠ .host ∧ (c : DevRef τ sig).isScoped = false) (ha : a.space ≠ .host ∧ (a : DevRef τ sig).isScoped = false)
    (hb : b.space ≠ .host ∧ (b : DevRef τ sig).isScoped = false) (hy : y.space ≠ .host ∧ (y : DevRef τ sig).isScoped = false)
    (hk : l[k]? = some (ternary c a b y f hc ha hb hy)) (V : Valuation τ sig Val)
    (hc' : c ∉ ws.drop k) (ha' : a ∉ ws.drop k) (hb' : b ∉ ws.drop k) (hy' : y ∉ ws.drop (k + 1)) :
    after l V (Proc.devRef .tc y)
      = f (after l V (Proc.devRef .tc c)) (after l V (Proc.devRef .tc a)) (after l V (Proc.devRef .tc b)) := by
  obtain ⟨U, h1, h0⟩ := stage_core hA k _ hk V
  rw [h1 y hy', h0 c hc', h0 a ha', h0 b hb', ternary_result]

theorem stage_nary (hA : Aligned l ws) (k : Nat) {n : Nat} (xs : Fin n → Ref sig .tc) (y : Ref sig .tc)
    (f : ((i : Fin n) → (xs i).ty.Contents Val) → y.ty.Contents Val)
    (hxs : ∀ i, (xs i).space ≠ .host ∧ ((xs i : Ref sig .tc) : DevRef τ sig).isScoped = false)
    (hy : y.space ≠ .host ∧ (y : DevRef τ sig).isScoped = false)
    (hk : l[k]? = some (nary xs y f hxs hy)) (V : Valuation τ sig Val)
    (hx' : ∀ i, xs i ∉ ws.drop k) (hy' : y ∉ ws.drop (k + 1)) :
    after l V (Proc.devRef .tc y) = f (fun i => after l V (Proc.devRef .tc (xs i))) := by
  obtain ⟨U, h1, h0⟩ := stage_core hA k _ hk V
  rw [h1 y hy', nary_result]
  congr 1; funext i; exact (h0 (xs i) (hx' i)).symm

end Cert.StageLib

end
-- ==== Proof.KIGlueV.lean ====
/-
  The host operations between the kernel's regions, read at the end of their stretches, from ANY contents of the buffers
  they start from. Each stretch is a line in single-assignment form, so every operation's equation holds of the contents
  after the whole stretch (each result from its operands, all read at the end); rewriting them from the stretch's last
  result back to the buffers the stretch starts from leaves the composition of host operations the reference applies:
  the neighbour mean before each GraphSAGE region, the candidate matrix before the scoring region (seven stretches, run
  as one line), the softmax over the candidates after it.
-/
import proofs.«138996_j84593675862715_1_alg».proof.Proof.Gen.KernelIdeal.Regions
import proofs.«138996_j84593675862715_1_alg».proof.Proof.RefDefs
import proofs.«138996_j84593675862715_1_alg».proof.Proof.StageLib
import Idealize.ShloMosaic.Lib.StableHlo.Run
import Idealize.ShloMosaic.PureOps.Ideal

set_option maxRecDepth 16384

noncomputable section

namespace Cert.KernelIdeal.Glue

open Cert.KernelIdeal Cert.KernelIdeal.Gen Cert.StageLib
open Cert.ReferenceIdeal.RefClosed (aggOf candOf softmaxOf)
open Idealize.ShloMosaic Idealize.ShloMosaic.TcCoe Idealize.ShloMosaic.StableHlo
open Idealize.SL Idealize.SL.Sem

variable {F : FTy → Type} [FloatOps F]

/-- The side condition every builder asks of a literal reference: on the device, not scoped. -/
local macro "dv" : term => `(by exact ⟨by decide, rfl⟩)

/-! ## Before the first region -/

theorem aligned_hostOps0 : Aligned (hostOps0 (F := F)) hostOps0_W := by
  unfold Aligned; repeat (first | exact List.Forall₂.nil | refine List.Forall₂.cons rfl ?_)

theorem s0_main_c (V : Valuation τ sig (Elt F)) :
    after hostOps0 V (Proc.devRef .tc main_c)
      = (constantI S_ 32 0#32 : (⟨S_, .i32⟩ : BufTy).Contents (Elt F)) :=
  stage_nullary aligned_hostOps0 0 main_c (constantI S_ 32 0#32 : (⟨S_, .i32⟩ : BufTy).Contents (Elt F)) dv rfl V (by decide)

theorem s0_main_v0 (V : Valuation τ sig (Elt F)) :
    after hostOps0 V (Proc.devRef .tc main_v0)
      = (broadcastInDim S800000 ![] bcast_S_S800000 : (⟨S_, .i32⟩ : BufTy).Contents (Elt F) → (⟨S800000, .i32⟩ : BufTy).Contents (Elt F))
          (after hostOps0 V (Proc.devRef .tc main_c)) :=
  stage_unary aligned_hostOps0 1 main_c main_v0 (broadcastInDim S800000 ![] bcast_S_S800000 : (⟨S_, .i32⟩ : BufTy).Contents (Elt F) → (⟨S800000, .i32⟩ : BufTy).Contents (Elt F)) dv dv rfl V (by decide) (by decide)

theorem s0_main_v1 (V : Valuation τ sig (Elt F)) :
    after hostOps0 V (Proc.devRef .tc main_v1)
      = (cmpi .slt : (⟨S800000, .i32⟩ : BufTy).Contents (Elt F) → (⟨S800000, .i32⟩ : BufTy).Contents (Elt F) → (⟨S800000, .i1⟩ : BufTy).Contents (Elt F))
          (after hostOps0 V (Proc.devRef .tc main_arg1))
          (after hostOps0 V (Proc.devRef .tc main_v0)) :=
  stage_binary aligned_hostOps0 2 main_arg1 main_v0 main_v1 (cmpi .slt : (⟨S800000, .i32⟩ : BufTy).Contents (Elt F) → (⟨S800000, .i32⟩ : BufTy).Contents (Elt F) → (⟨S800000, .i1⟩ : BufTy).Contents (Elt F)) dv dv dv rfl V (by decide) (by decide) (by decide)

theorem s0_main_c_0 (V : Valuation τ sig (Elt F)) :
    after hostOps0 V (Proc.devRef .tc main_c_0)
      = (constantI S_ 32 50000#32 : (⟨S_, .i32⟩ : BufTy).Contents (Elt F)) :=
  stage_nullary aligned_hostOps0 3 main_c_0 (constantI S_ 32 50000#32 : (⟨S_, .i32⟩ : BufTy).Contents (Elt F)) dv rfl V (by decide)

theorem s0_main_v2 (V : Valuation τ sig (Elt F)) :
    after hostOps0 V (Proc.devRef .tc main_v2)
      = (broadcastInDim S800000 ![] bcast_S_S800000 : (⟨S_, .i32⟩ : BufTy).Contents (Elt F) → (⟨S800000, .i32⟩ : BufTy).Contents (Elt F))
          (after hostOps0 V (Proc.devRef .tc main_c_0)) :=
  stage_unary aligned_hostOps0 4 main_c_0 main_v2 (broadcastInDim S800000 ![] bcast_S_S800000 : (⟨S_, .i32⟩ : BufTy).Contents (Elt F) → (⟨S800000, .i32⟩ : BufTy).Contents (Elt F)) dv dv rfl V (by decide) (by decide)

theorem s0_main_v3 (V : Valuation τ sig (Elt F)) :
    after hostOps0 V (Proc.devRef .tc main_v3)
      = (addi : (⟨S800000, .i32⟩ : BufTy).Contents (Elt F) → (⟨S800000, .i32⟩ : BufTy).Contents (Elt F) → (⟨S800000, .i32⟩ : BufTy).Contents (Elt F))
          (after hostOps0 V (Proc.devRef .tc main_arg1))
          (after hostOps0 V (Proc.devRef .tc main_v2)) :=
  stage_binary aligned_hostOps0 5 main_arg1 main_v2 main_v3 (addi : (⟨S800000, .i32⟩ : BufTy).Contents (Elt F) → (⟨S800000, .i32⟩ : BufTy).Contents (Elt F) → (⟨S800000, .i32⟩ : BufTy).Contents (Elt F)) dv dv dv rfl V (by decide) (by decide) (by decide)

theorem s0_main_v4 (V : Valuation τ sig (Elt F)) :
    after hostOps0 V (Proc.devRef .tc main_v4)
      = (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F))
          (after hostOps0 V (Proc.devRef .tc main_v1))
          (after hostOps0 V (Proc.devRef .tc main_v3))
          (after hostOps0 V (Proc.devRef .tc main_arg1)) :=
  stage_ternary aligned_hostOps0 6 main_v1 main_v3 main_arg1 main_v4 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) dv dv dv dv rfl V (by decide) (by decide) (by decide) (by decide)

theorem s0_main_v5 (V : Valuation τ sig (Elt F)) :
    after hostOps0 V (Proc.devRef .tc main_v5)
      = (broadcastInDim S800000x1 ![0] bcast_S800000_S800000x1_0 : (⟨S800000, .i32⟩ : BufTy).Contents (Elt F) → (⟨S800000x1, .i32⟩ : BufTy).Contents (Elt F))
          (after hostOps0 V (Proc.devRef .tc main_v4)) :=
  stage_unary aligned_hostOps0 7 main_v4 main_v5 (broadcastInDim S800000x1 ![0] bcast_S800000_S800000x1_0 : (⟨S800000, .i32⟩ : BufTy).Contents (Elt F) → (⟨S800000x1, .i32⟩ : BufTy).Contents (Elt F)) dv dv rfl V (by decide) (by decide)

theorem s0_main_v6 (V : Valuation τ sig (Elt F)) :
    after hostOps0 V (Proc.devRef .tc main_v6)
      = ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F))
          (after hostOps0 V (Proc.devRef .tc main_arg0))
          (after hostOps0 V (Proc.devRef .tc main_v5)) :=
  stage_binary aligned_hostOps0 8 main_arg0 main_v5 main_v6 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)) dv dv dv rfl V (by decide) (by decide) (by decide)

theorem s0_main_cst (V : Valuation τ sig (Elt F)) :
    after hostOps0 V (Proc.devRef .tc main_cst)
      = (constant S_ .f32 0x00000000#32 : (⟨S_, .f32⟩ : BufTy).Contents (Elt F)) :=
  stage_nullary aligned_hostOps0 9 main_cst (constant S_ .f32 0x00000000#32 : (⟨S_, .f32⟩ : BufTy).Contents (Elt F)) dv rfl V (by decide)

theorem s0_main_v7 (V : Valuation τ sig (Elt F)) :
    after hostOps0 V (Proc.devRef .tc main_v7)
      = (broadcastInDim S50000x128 ![] bcast_S_S50000x128 : (⟨S_, .f32⟩ : BufTy).Contents (Elt F) → (⟨S50000x128, .f32⟩ : BufTy).Contents (Elt F))
          (after hostOps0 V (Proc.devRef .tc main_cst)) :=
  stage_unary aligned_hostOps0 10 main_cst main_v7 (broadcastInDim S50000x128 ![] bcast_S_S50000x128 : (⟨S_, .f32⟩ : BufTy).Contents (Elt F) → (⟨S50000x128, .f32⟩ : BufTy).Contents (Elt F)) dv dv rfl V (by decide) (by decide)

theorem s0_main_v8 (V : Valuation τ sig (Elt F)) :
    after hostOps0 V (Proc.devRef .tc main_v8)
      = (broadcastInDim S800000x1 ![0] bcast_S800000_S800000x1_0 : (⟨S800000, .i32⟩ : BufTy).Contents (Elt F) → (⟨S800000x1, .i32⟩ : BufTy).Contents (Elt F))
          (after hostOps0 V (Proc.devRef .tc main_arg2)) :=
  stage_unary aligned_hostOps0 11 main_arg2 main_v8 (broadcastInDim S800000x1 ![0] bcast_S800000_S800000x1_0 : (⟨S800000, .i32⟩ : BufTy).Contents (Elt F) → (⟨S800000x1, .i32⟩ : BufTy).Contents (Elt F)) dv dv rfl V (by decide) (by decide)

theorem s0_main_v9 (V : Valuation τ sig (Elt F)) :
    after hostOps0 V (Proc.devRef .tc main_v9)
      = ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F))
          (after hostOps0 V (Proc.devRef .tc main_v7))
          (after hostOps0 V (Proc.devRef .tc main_v8))
          (after hostOps0 V (Proc.devRef .tc main_v6)) :=
  stage_ternary aligned_hostOps0 12 main_v7 main_v8 main_v6 main_v9 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)) dv dv dv dv rfl V (by decide) (by decide) (by decide) (by decide)

theorem s0_main_cst_1 (V : Valuation τ sig (Elt F)) :
    after hostOps0 V (Proc.devRef .tc main_cst_1)
      = (constant S_ .f32 0x3F800000#32 : (⟨S_, .f32⟩ : BufTy).Contents (Elt F)) :=
  stage_nullary aligned_hostOps0 13 main_cst_1 (constant S_ .f32 0x3F800000#32 : (⟨S_, .f32⟩ : BufTy).Contents (Elt F)) dv rfl V (by decide)

theorem s0_main_v10 (V : Valuation τ sig (Elt F)) :
    after hostOps0 V (Proc.devRef .tc main_v10)
      = (broadcastInDim S800000 ![] bcast_S_S800000 : (⟨S_, .f32⟩ : BufTy).Contents (Elt F) → (⟨S800000, .f32⟩ : BufTy).Contents (Elt F))
          (after hostOps0 V (Proc.devRef .tc main_cst_1)) :=
  stage_unary aligned_hostOps0 14 main_cst_1 main_v10 (broadcastInDim S800000 ![] bcast_S_S800000 : (⟨S_, .f32⟩ : BufTy).Contents (Elt F) → (⟨S800000, .f32⟩ : BufTy).Contents (Elt F)) dv dv rfl V (by decide) (by decide)

theorem s0_main_cst_2 (V : Valuation τ sig (Elt F)) :
    after hostOps0 V (Proc.devRef .tc main_cst_2)
      = (constant S_ .f32 0x00000000#32 : (⟨S_, .f32⟩ : BufTy).Contents (Elt F)) :=
  stage_nullary aligned_hostOps0 15 main_cst_2 (constant S_ .f32 0x00000000#32 : (⟨S_, .f32⟩ : BufTy).Contents (Elt F)) dv rfl V (by decide)

theorem s0_main_v11 (V : Valuation τ sig (Elt F)) :
    after hostOps0 V (Proc.devRef .tc main_v11)
      = (broadcastInDim S50000 ![] bcast_S_S50000 : (⟨S_, .f32⟩ : BufTy).Contents (Elt F) → (⟨S50000, .f32⟩ : BufTy).Contents (Elt F))
          (after hostOps0 V (Proc.devRef .tc main_cst_2)) :=
  stage_unary aligned_hostOps0 16 main_cst_2 main_v11 (broadcastInDim S50000 ![] bcast_S_S50000 : (⟨S_, .f32⟩ : BufTy).Contents (Elt F) → (⟨S50000, .f32⟩ : BufTy).Contents (Elt F)) dv dv rfl V (by decide) (by decide)

theorem s0_main_v12 (V : Valuation τ sig (Elt F)) :
    after hostOps0 V (Proc.devRef .tc main_v12)
      = (broadcastInDim S800000x1 ![0] bcast_S800000_S800000x1_0 : (⟨S800000, .i32⟩ : BufTy).Contents (Elt F) → (⟨S800000x1, .i32⟩ : BufTy).Contents (Elt F))
          (after hostOps0 V (Proc.devRef .tc main_arg2)) :=
  stage_unary aligned_hostOps0 17 main_arg2 main_v12 (broadcastInDim S800000x1 ![0] bcast_S800000_S800000x1_0 : (⟨S800000, .i32⟩ : BufTy).Contents (Elt F) → (⟨S800000x1, .i32⟩ : BufTy).Contents (Elt F)) dv dv rfl V (by decide) (by decide)

theorem s0_main_v13 (V : Valuation τ sig (Elt F)) :
    after hostOps0 V (Proc.devRef .tc main_v13)
      = ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F))
          (after hostOps0 V (Proc.devRef .tc main_v11))
          (after hostOps0 V (Proc.devRef .tc main_v12))
          (after hostOps0 V (Proc.devRef .tc main_v10)) :=
  stage_ternary aligned_hostOps0 18 main_v11 main_v12 main_v10 main_v13 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)) dv dv dv dv rfl V (by decide) (by decide) (by decide) (by decide)

theorem s0_main_cst_3 (V : Valuation τ sig (Elt F)) :
    after hostOps0 V (Proc.devRef .tc main_cst_3)
      = (constant S_ .f32 0x3F800000#32 : (⟨S_, .f32⟩ : BufTy).Contents (Elt F)) :=
  stage_nullary aligned_hostOps0 19 main_cst_3 (constant S_ .f32 0x3F800000#32 : (⟨S_, .f32⟩ : BufTy).Contents (Elt F)) dv rfl V (by decide)

theorem s0_main_v14 (V : Valuation τ sig (Elt F)) :
    after hostOps0 V (Proc.devRef .tc main_v14)
      = (broadcastInDim S50000 ![] bcast_S_S50000 : (⟨S_, .f32⟩ : BufTy).Contents (Elt F) → (⟨S50000, .f32⟩ : BufTy).Contents (Elt F))
          (after hostOps0 V (Proc.devRef .tc main_cst_3)) :=
  stage_unary aligned_hostOps0 20 main_cst_3 main_v14 (broadcastInDim S50000 ![] bcast_S_S50000 : (⟨S_, .f32⟩ : BufTy).Contents (Elt F) → (⟨S50000, .f32⟩ : BufTy).Contents (Elt F)) dv dv rfl V (by decide) (by decide)

theorem s0_main_v15 (V : Valuation τ sig (Elt F)) :
    after hostOps0 V (Proc.devRef .tc main_v15)
      = (maximumf : (⟨S50000, .f32⟩ : BufTy).Contents (Elt F) → (⟨S50000, .f32⟩ : BufTy).Contents (Elt F) → (⟨S50000, .f32⟩ : BufTy).Contents (Elt F))
          (after hostOps0 V (Proc.devRef .tc main_v13))
          (after hostOps0 V (Proc.devRef .tc main_v14)) :=
  stage_binary aligned_hostOps0 21 main_v13 main_v14 main_v15 (maximumf : (⟨S50000, .f32⟩ : BufTy).Contents (Elt F) → (⟨S50000, .f32⟩ : BufTy).Contents (Elt F) → (⟨S50000, .f32⟩ : BufTy).Contents (Elt F)) dv dv dv rfl V (by decide) (by decide) (by decide)

theorem s0_main_v16 (V : Valuation τ sig (Elt F)) :
    after hostOps0 V (Proc.devRef .tc main_v16)
      = (broadcastInDim S50000x1 ![0] bcast_S50000_S50000x1_0 : (⟨S50000, .f32⟩ : BufTy).Contents (Elt F) → (⟨S50000x1, .f32⟩ : BufTy).Contents (Elt F))
          (after hostOps0 V (Proc.devRef .tc main_v15)) :=
  stage_unary aligned_hostOps0 22 main_v15 main_v16 (broadcastInDim S50000x1 ![0] bcast_S50000_S50000x1_0 : (⟨S50000, .f32⟩ : BufTy).Contents (Elt F) → (⟨S50000x1, .f32⟩ : BufTy).Contents (Elt F)) dv dv rfl V (by decide) (by decide)

theorem s0_main_v17 (V : Valuation τ sig (Elt F)) :
    after hostOps0 V (Proc.devRef .tc main_v17)
      = (broadcastInDim S50000x128 ![0, 1] bcast_S50000x1_S50000x128_0_1 : (⟨S50000x1, .f32⟩ : BufTy).Contents (Elt F) → (⟨S50000x128, .f32⟩ : BufTy).Contents (Elt F))
          (after hostOps0 V (Proc.devRef .tc main_v16)) :=
  stage_unary aligned_hostOps0 23 main_v16 main_v17 (broadcastInDim S50000x128 ![0, 1] bcast_S50000x1_S50000x128_0_1 : (⟨S50000x1, .f32⟩ : BufTy).Contents (Elt F) → (⟨S50000x128, .f32⟩ : BufTy).Contents (Elt F)) dv dv rfl V (by decide) (by decide)

theorem s0_main_v18 (V : Valuation τ sig (Elt F)) :
    after hostOps0 V (Proc.devRef .tc main_v18)
      = (Host.divf : (⟨S50000x128, .f32⟩ : BufTy).Contents (Elt F) → (⟨S50000x128, .f32⟩ : BufTy).Contents (Elt F) → (⟨S50000x128, .f32⟩ : BufTy).Contents (Elt F))
          (after hostOps0 V (Proc.devRef .tc main_v9))
          (after hostOps0 V (Proc.devRef .tc main_v17)) :=
  stage_binary aligned_hostOps0 24 main_v9 main_v17 main_v18 (Host.divf : (⟨S50000x128, .f32⟩ : BufTy).Contents (Elt F) → (⟨S50000x128, .f32⟩ : BufTy).Contents (Elt F) → (⟨S50000x128, .f32⟩ : BufTy).Contents (Elt F)) dv dv dv rfl V (by decide) (by decide) (by decide)

/-- Before the first region, from any contents: the neighbour mean of the node features. -/
theorem agg0_V (V : Valuation τ sig (Elt Ideal)) :
    after hostOps0 V (Proc.devRef .tc main_v18)
      = aggOf (V (Proc.devRef .tc main_arg0)) (V (Proc.devRef .tc main_arg1)) (V (Proc.devRef .tc main_arg2)) := by
  rw [s0_main_v18 V, s0_main_v17 V, s0_main_v16 V, s0_main_v15 V, s0_main_v14 V, s0_main_cst_3 V,
    s0_main_v13 V, s0_main_v12 V, s0_main_v11 V, s0_main_cst_2 V, s0_main_v10 V, s0_main_cst_1 V,
    s0_main_v9 V, s0_main_v8 V, s0_main_v7 V, s0_main_cst V, s0_main_v6 V, s0_main_v5 V,
    s0_main_v4 V, s0_main_v3 V, s0_main_v2 V, s0_main_c_0 V, s0_main_v1 V, s0_main_v0 V,
    s0_main_c V]
  rw [aligned_hostOps0.after_of_not_mem V (r := main_arg0) (by decide),
    aligned_hostOps0.after_of_not_mem V (r := main_arg1) (by decide),
    aligned_hostOps0.after_of_not_mem V (r := main_arg2) (by decide)]
  rfl

/-! ## Before the second region -/

theorem aligned_hostOps1 : Aligned (hostOps1 (F := F)) hostOps1_W := by
  unfold Aligned; repeat (first | exact List.Forall₂.nil | refine List.Forall₂.cons rfl ?_)

theorem s1_main_c_4 (V : Valuation τ sig (Elt F)) :
    after hostOps1 V (Proc.devRef .tc main_c_4)
      = (constantI S_ 32 0#32 : (⟨S_, .i32⟩ : BufTy).Contents (Elt F)) :=
  stage_nullary aligned_hostOps1 0 main_c_4 (constantI S_ 32 0#32 : (⟨S_, .i32⟩ : BufTy).Contents (Elt F)) dv rfl V (by decide)

theorem s1_main_v20 (V : Valuation τ sig (Elt F)) :
    after hostOps1 V (Proc.devRef .tc main_v20)
      = (broadcastInDim S800000 ![] bcast_S_S800000 : (⟨S_, .i32⟩ : BufTy).Contents (Elt F) → (⟨S800000, .i32⟩ : BufTy).Contents (Elt F))
          (after hostOps1 V (Proc.devRef .tc main_c_4)) :=
  stage_unary aligned_hostOps1 1 main_c_4 main_v20 (broadcastInDim S800000 ![] bcast_S_S800000 : (⟨S_, .i32⟩ : BufTy).Contents (Elt F) → (⟨S800000, .i32⟩ : BufTy).Contents (Elt F)) dv dv rfl V (by decide) (by decide)

theorem s1_main_v21 (V : Valuation τ sig (Elt F)) :
    after hostOps1 V (Proc.devRef .tc main_v21)
      = (cmpi .slt : (⟨S800000, .i32⟩ : BufTy).Contents (Elt F) → (⟨S800000, .i32⟩ : BufTy).Contents (Elt F) → (⟨S800000, .i1⟩ : BufTy).Contents (Elt F))
          (after hostOps1 V (Proc.devRef .tc main_arg1))
          (after hostOps1 V (Proc.devRef .tc main_v20)) :=
  stage_binary aligned_hostOps1 2 main_arg1 main_v20 main_v21 (cmpi .slt : (⟨S800000, .i32⟩ : BufTy).Contents (Elt F) → (⟨S800000, .i32⟩ : BufTy).Contents (Elt F) → (⟨S800000, .i1⟩ : BufTy).Contents (Elt F)) dv dv dv rfl V (by decide) (by decide) (by decide)

theorem s1_main_c_5 (V : Valuation τ sig (Elt F)) :
    after hostOps1 V (Proc.devRef .tc main_c_5)
      = (constantI S_ 32 50000#32 : (⟨S_, .i32⟩ : BufTy).Contents (Elt F)) :=
  stage_nullary aligned_hostOps1 3 main_c_5 (constantI S_ 32 50000#32 : (⟨S_, .i32⟩ : BufTy).Contents (Elt F)) dv rfl V (by decide)

theorem s1_main_v22 (V : Valuation τ sig (Elt F)) :
    after hostOps1 V (Proc.devRef .tc main_v22)
      = (broadcastInDim S800000 ![] bcast_S_S800000 : (⟨S_, .i32⟩ : BufTy).Contents (Elt F) → (⟨S800000, .i32⟩ : BufTy).Contents (Elt F))
          (after hostOps1 V (Proc.devRef .tc main_c_5)) :=
  stage_unary aligned_hostOps1 4 main_c_5 main_v22 (broadcastInDim S800000 ![] bcast_S_S800000 : (⟨S_, .i32⟩ : BufTy).Contents (Elt F) → (⟨S800000, .i32⟩ : BufTy).Contents (Elt F)) dv dv rfl V (by decide) (by decide)

theorem s1_main_v23 (V : Valuation τ sig (Elt F)) :
    after hostOps1 V (Proc.devRef .tc main_v23)
      = (addi : (⟨S800000, .i32⟩ : BufTy).Contents (Elt F) → (⟨S800000, .i32⟩ : BufTy).Contents (Elt F) → (⟨S800000, .i32⟩ : BufTy).Contents (Elt F))
          (after hostOps1 V (Proc.devRef .tc main_arg1))
          (after hostOps1 V (Proc.devRef .tc main_v22)) :=
  stage_binary aligned_hostOps1 5 main_arg1 main_v22 main_v23 (addi : (⟨S800000, .i32⟩ : BufTy).Contents (Elt F) → (⟨S800000, .i32⟩ : BufTy).Contents (Elt F) → (⟨S800000, .i32⟩ : BufTy).Contents (Elt F)) dv dv dv rfl V (by decide) (by decide) (by decide)

theorem s1_main_v24 (V : Valuation τ sig (Elt F)) :
    after hostOps1 V (Proc.devRef .tc main_v24)
      = (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F))
          (after hostOps1 V (Proc.devRef .tc main_v21))
          (after hostOps1 V (Proc.devRef .tc main_v23))
          (after hostOps1 V (Proc.devRef .tc main_arg1)) :=
  stage_ternary aligned_hostOps1 6 main_v21 main_v23 main_arg1 main_v24 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) dv dv dv dv rfl V (by decide) (by decide) (by decide) (by decide)

theorem s1_main_v25 (V : Valuation τ sig (Elt F)) :
    after hostOps1 V (Proc.devRef .tc main_v25)
      = (broadcastInDim S800000x1 ![0] bcast_S800000_S800000x1_0 : (⟨S800000, .i32⟩ : BufTy).Contents (Elt F) → (⟨S800000x1, .i32⟩ : BufTy).Contents (Elt F))
          (after hostOps1 V (Proc.devRef .tc main_v24)) :=
  stage_unary aligned_hostOps1 7 main_v24 main_v25 (broadcastInDim S800000x1 ![0] bcast_S800000_S800000x1_0 : (⟨S800000, .i32⟩ : BufTy).Contents (Elt F) → (⟨S800000x1, .i32⟩ : BufTy).Contents (Elt F)) dv dv rfl V (by decide) (by decide)

theorem s1_main_v26 (V : Valuation τ sig (Elt F)) :
    after hostOps1 V (Proc.devRef .tc main_v26)
      = ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F))
          (after hostOps1 V (Proc.devRef .tc main_v19))
          (after hostOps1 V (Proc.devRef .tc main_v25)) :=
  stage_binary aligned_hostOps1 8 main_v19 main_v25 main_v26 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)) dv dv dv rfl V (by decide) (by decide) (by decide)

theorem s1_main_cst_6 (V : Valuation τ sig (Elt F)) :
    after hostOps1 V (Proc.devRef .tc main_cst_6)
      = (constant S_ .f32 0x00000000#32 : (⟨S_, .f32⟩ : BufTy).Contents (Elt F)) :=
  stage_nullary aligned_hostOps1 9 main_cst_6 (constant S_ .f32 0x00000000#32 : (⟨S_, .f32⟩ : BufTy).Contents (Elt F)) dv rfl V (by decide)

theorem s1_main_v27 (V : Valuation τ sig (Elt F)) :
    after hostOps1 V (Proc.devRef .tc main_v27)
      = (broadcastInDim S50000x128 ![] bcast_S_S50000x128 : (⟨S_, .f32⟩ : BufTy).Contents (Elt F) → (⟨S50000x128, .f32⟩ : BufTy).Contents (Elt F))
          (after hostOps1 V (Proc.devRef .tc main_cst_6)) :=
  stage_unary aligned_hostOps1 10 main_cst_6 main_v27 (broadcastInDim S50000x128 ![] bcast_S_S50000x128 : (⟨S_, .f32⟩ : BufTy).Contents (Elt F) → (⟨S50000x128, .f32⟩ : BufTy).Contents (Elt F)) dv dv rfl V (by decide) (by decide)

theorem s1_main_v28 (V : Valuation τ sig (Elt F)) :
    after hostOps1 V (Proc.devRef .tc main_v28)
      = (broadcastInDim S800000x1 ![0] bcast_S800000_S800000x1_0 : (⟨S800000, .i32⟩ : BufTy).Contents (Elt F) → (⟨S800000x1, .i32⟩ : BufTy).Contents (Elt F))
          (after hostOps1 V (Proc.devRef .tc main_arg2)) :=
  stage_unary aligned_hostOps1 11 main_arg2 main_v28 (broadcastInDim S800000x1 ![0] bcast_S800000_S800000x1_0 : (⟨S800000, .i32⟩ : BufTy).Contents (Elt F) → (⟨S800000x1, .i32⟩ : BufTy).Contents (Elt F)) dv dv rfl V (by decide) (by decide)

theorem s1_main_v29 (V : Valuation τ sig (Elt F)) :
    after hostOps1 V (Proc.devRef .tc main_v29)
      = ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F))
          (after hostOps1 V (Proc.devRef .tc main_v27))
          (after hostOps1 V (Proc.devRef .tc main_v28))
          (after hostOps1 V (Proc.devRef .tc main_v26)) :=
  stage_ternary aligned_hostOps1 12 main_v27 main_v28 main_v26 main_v29 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)) dv dv dv dv rfl V (by decide) (by decide) (by decide) (by decide)

theorem s1_main_cst_7 (V : Valuation τ sig (Elt F)) :
    after hostOps1 V (Proc.devRef .tc main_cst_7)
      = (constant S_ .f32 0x3F800000#32 : (⟨S_, .f32⟩ : BufTy).Contents (Elt F)) :=
  stage_nullary aligned_hostOps1 13 main_cst_7 (constant S_ .f32 0x3F800000#32 : (⟨S_, .f32⟩ : BufTy).Contents (Elt F)) dv rfl V (by decide)

theorem s1_main_v30 (V : Valuation τ sig (Elt F)) :
    after hostOps1 V (Proc.devRef .tc main_v30)
      = (broadcastInDim S800000 ![] bcast_S_S800000 : (⟨S_, .f32⟩ : BufTy).Contents (Elt F) → (⟨S800000, .f32⟩ : BufTy).Contents (Elt F))
          (after hostOps1 V (Proc.devRef .tc main_cst_7)) :=
  stage_unary aligned_hostOps1 14 main_cst_7 main_v30 (broadcastInDim S800000 ![] bcast_S_S800000 : (⟨S_, .f32⟩ : BufTy).Contents (Elt F) → (⟨S800000, .f32⟩ : BufTy).Contents (Elt F)) dv dv rfl V (by decide) (by decide)

theorem s1_main_cst_8 (V : Valuation τ sig (Elt F)) :
    after hostOps1 V (Proc.devRef .tc main_cst_8)
      = (constant S_ .f32 0x00000000#32 : (⟨S_, .f32⟩ : BufTy).Contents (Elt F)) :=
  stage_nullary aligned_hostOps1 15 main_cst_8 (constant S_ .f32 0x00000000#32 : (⟨S_, .f32⟩ : BufTy).Contents (Elt F)) dv rfl V (by decide)

theorem s1_main_v31 (V : Valuation τ sig (Elt F)) :
    after hostOps1 V (Proc.devRef .tc main_v31)
      = (broadcastInDim S50000 ![] bcast_S_S50000 : (⟨S_, .f32⟩ : BufTy).Contents (Elt F) → (⟨S50000, .f32⟩ : BufTy).Contents (Elt F))
          (after hostOps1 V (Proc.devRef .tc main_cst_8)) :=
  stage_unary aligned_hostOps1 16 main_cst_8 main_v31 (broadcastInDim S50000 ![] bcast_S_S50000 : (⟨S_, .f32⟩ : BufTy).Contents (Elt F) → (⟨S50000, .f32⟩ : BufTy).Contents (Elt F)) dv dv rfl V (by decide) (by decide)

theorem s1_main_v32 (V : Valuation τ sig (Elt F)) :
    after hostOps1 V (Proc.devRef .tc main_v32)
      = (broadcastInDim S800000x1 ![0] bcast_S800000_S800000x1_0 : (⟨S800000, .i32⟩ : BufTy).Contents (Elt F) → (⟨S800000x1, .i32⟩ : BufTy).Contents (Elt F))
          (after hostOps1 V (Proc.devRef .tc main_arg2)) :=
  stage_unary aligned_hostOps1 17 main_arg2 main_v32 (broadcastInDim S800000x1 ![0] bcast_S800000_S800000x1_0 : (⟨S800000, .i32⟩ : BufTy).Contents (Elt F) → (⟨S800000x1, .i32⟩ : BufTy).Contents (Elt F)) dv dv rfl V (by decide) (by decide)

theorem s1_main_v33 (V : Valuation τ sig (Elt F)) :
    after hostOps1 V (Proc.devRef .tc main_v33)
      = ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F))
          (after hostOps1 V (Proc.devRef .tc main_v31))
          (after hostOps1 V (Proc.devRef .tc main_v32))
          (after hostOps1 V (Proc.devRef .tc main_v30)) :=
  stage_ternary aligned_hostOps1 18 main_v31 main_v32 main_v30 main_v33 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)) dv dv dv dv rfl V (by decide) (by decide) (by decide) (by decide)

theorem s1_main_cst_9 (V : Valuation τ sig (Elt F)) :
    after hostOps1 V (Proc.devRef .tc main_cst_9)
      = (constant S_ .f32 0x3F800000#32 : (⟨S_, .f32⟩ : BufTy).Contents (Elt F)) :=
  stage_nullary aligned_hostOps1 19 main_cst_9 (constant S_ .f32 0x3F800000#32 : (⟨S_, .f32⟩ : BufTy).Contents (Elt F)) dv rfl V (by decide)

theorem s1_main_v34 (V : Valuation τ sig (Elt F)) :
    after hostOps1 V (Proc.devRef .tc main_v34)
      = (broadcastInDim S50000 ![] bcast_S_S50000 : (⟨S_, .f32⟩ : BufTy).Contents (Elt F) → (⟨S50000, .f32⟩ : BufTy).Contents (Elt F))
          (after hostOps1 V (Proc.devRef .tc main_cst_9)) :=
  stage_unary aligned_hostOps1 20 main_cst_9 main_v34 (broadcastInDim S50000 ![] bcast_S_S50000 : (⟨S_, .f32⟩ : BufTy).Contents (Elt F) → (⟨S50000, .f32⟩ : BufTy).Contents (Elt F)) dv dv rfl V (by decide) (by decide)

theorem s1_main_v35 (V : Valuation τ sig (Elt F)) :
    after hostOps1 V (Proc.devRef .tc main_v35)
      = (maximumf : (⟨S50000, .f32⟩ : BufTy).Contents (Elt F) → (⟨S50000, .f32⟩ : BufTy).Contents (Elt F) → (⟨S50000, .f32⟩ : BufTy).Contents (Elt F))
          (after hostOps1 V (Proc.devRef .tc main_v33))
          (after hostOps1 V (Proc.devRef .tc main_v34)) :=
  stage_binary aligned_hostOps1 21 main_v33 main_v34 main_v35 (maximumf : (⟨S50000, .f32⟩ : BufTy).Contents (Elt F) → (⟨S50000, .f32⟩ : BufTy).Contents (Elt F) → (⟨S50000, .f32⟩ : BufTy).Contents (Elt F)) dv dv dv rfl V (by decide) (by decide) (by decide)

theorem s1_main_v36 (V : Valuation τ sig (Elt F)) :
    after hostOps1 V (Proc.devRef .tc main_v36)
      = (broadcastInDim S50000x1 ![0] bcast_S50000_S50000x1_0 : (⟨S50000, .f32⟩ : BufTy).Contents (Elt F) → (⟨S50000x1, .f32⟩ : BufTy).Contents (Elt F))
          (after hostOps1 V (Proc.devRef .tc main_v35)) :=
  stage_unary aligned_hostOps1 22 main_v35 main_v36 (broadcastInDim S50000x1 ![0] bcast_S50000_S50000x1_0 : (⟨S50000, .f32⟩ : BufTy).Contents (Elt F) → (⟨S50000x1, .f32⟩ : BufTy).Contents (Elt F)) dv dv rfl V (by decide) (by decide)

theorem s1_main_v37 (V : Valuation τ sig (Elt F)) :
    after hostOps1 V (Proc.devRef .tc main_v37)
      = (broadcastInDim S50000x128 ![0, 1] bcast_S50000x1_S50000x128_0_1 : (⟨S50000x1, .f32⟩ : BufTy).Contents (Elt F) → (⟨S50000x128, .f32⟩ : BufTy).Contents (Elt F))
          (after hostOps1 V (Proc.devRef .tc main_v36)) :=
  stage_unary aligned_hostOps1 23 main_v36 main_v37 (broadcastInDim S50000x128 ![0, 1] bcast_S50000x1_S50000x128_0_1 : (⟨S50000x1, .f32⟩ : BufTy).Contents (Elt F) → (⟨S50000x128, .f32⟩ : BufTy).Contents (Elt F)) dv dv rfl V (by decide) (by decide)

theorem s1_main_v38 (V : Valuation τ sig (Elt F)) :
    after hostOps1 V (Proc.devRef .tc main_v38)
      = (Host.divf : (⟨S50000x128, .f32⟩ : BufTy).Contents (Elt F) → (⟨S50000x128, .f32⟩ : BufTy).Contents (Elt F) → (⟨S50000x128, .f32⟩ : BufTy).Contents (Elt F))
          (after hostOps1 V (Proc.devRef .tc main_v29))
          (after hostOps1 V (Proc.devRef .tc main_v37)) :=
  stage_binary aligned_hostOps1 24 main_v29 main_v37 main_v38 (Host.divf : (⟨S50000x128, .f32⟩ : BufTy).Contents (Elt F) → (⟨S50000x128, .f32⟩ : BufTy).Contents (Elt F) → (⟨S50000x128, .f32⟩ : BufTy).Contents (Elt F)) dv dv dv rfl V (by decide) (by decide) (by decide)

/-- Before the second region, from any contents: the neighbour mean of the first layer's output. -/
theorem agg1_V (V : Valuation τ sig (Elt Ideal)) :
    after hostOps1 V (Proc.devRef .tc main_v38)
      = aggOf (V (Proc.devRef .tc main_v19)) (V (Proc.devRef .tc main_arg1)) (V (Proc.devRef .tc main_arg2)) := by
  rw [s1_main_v38 V, s1_main_v37 V, s1_main_v36 V, s1_main_v35 V, s1_main_v34 V, s1_main_cst_9 V,
    s1_main_v33 V, s1_main_v32 V, s1_main_v31 V, s1_main_cst_8 V, s1_main_v30 V, s1_main_cst_7 V,
    s1_main_v29 V, s1_main_v28 V, s1_main_v27 V, s1_main_cst_6 V, s1_main_v26 V, s1_main_v25 V,
    s1_main_v24 V, s1_main_v23 V, s1_main_v22 V, s1_main_c_5 V, s1_main_v21 V, s1_main_v20 V,
    s1_main_c_4 V]
  rw [aligned_hostOps1.after_of_not_mem V (r := main_v19) (by decide),
    aligned_hostOps1.after_of_not_mem V (r := main_arg1) (by decide),
    aligned_hostOps1.after_of_not_mem V (r := main_arg2) (by decide)]
  rfl

/-! ## Before the scoring region -/

/-- The seven stretches as one line. -/
abbrev candOps : List (HloOp τ sig (Elt F)) := hostOps2 ++ hostOps2_1 ++ hostOps2_2 ++ hostOps2_3 ++ hostOps2_4 ++ hostOps2_5 ++ hostOps2_6
/-- The references the line writes, in order. -/
abbrev candW : List (Ref sig .tc) := hostOps2_W ++ hostOps2_1_W ++ hostOps2_2_W ++ hostOps2_3_W ++ hostOps2_4_W ++ hostOps2_5_W ++ hostOps2_6_W

theorem aligned_hostOps2 : Aligned (hostOps2 (F := F)) hostOps2_W := by
  unfold Aligned; repeat (first | exact List.Forall₂.nil | refine List.Forall₂.cons rfl ?_)
theorem aligned_hostOps2_1 : Aligned (hostOps2_1 (F := F)) hostOps2_1_W := by
  unfold Aligned; repeat (first | exact List.Forall₂.nil | refine List.Forall₂.cons rfl ?_)
theorem aligned_hostOps2_2 : Aligned (hostOps2_2 (F := F)) hostOps2_2_W := by
  unfold Aligned; repeat (first | exact List.Forall₂.nil | refine List.Forall₂.cons rfl ?_)
theorem aligned_hostOps2_3 : Aligned (hostOps2_3 (F := F)) hostOps2_3_W := by
  unfold Aligned; repeat (first | exact List.Forall₂.nil | refine List.Forall₂.cons rfl ?_)
theorem aligned_hostOps2_4 : Aligned (hostOps2_4 (F := F)) hostOps2_4_W := by
  unfold Aligned; repeat (first | exact List.Forall₂.nil | refine List.Forall₂.cons rfl ?_)
theorem aligned_hostOps2_5 : Aligned (hostOps2_5 (F := F)) hostOps2_5_W := by
  unfold Aligned; repeat (first | exact List.Forall₂.nil | refine List.Forall₂.cons rfl ?_)
theorem aligned_hostOps2_6 : Aligned (hostOps2_6 (F := F)) hostOps2_6_W := by
  unfold Aligned; repeat (first | exact List.Forall₂.nil | refine List.Forall₂.cons rfl ?_)

theorem aligned_candOps : Aligned (candOps (F := F)) candW :=
  ((((((aligned_hostOps2).append aligned_hostOps2_1).append aligned_hostOps2_2).append aligned_hostOps2_3).append aligned_hostOps2_4).append aligned_hostOps2_5).append aligned_hostOps2_6

/-- The seven stretches run in order are the one line run. -/
theorem after_candOps (V : Valuation τ sig (Elt F)) :
    after hostOps2_6 (after hostOps2_5 (after hostOps2_4 (after hostOps2_3 (after hostOps2_2 (after hostOps2_1 (after hostOps2 V)))))) = after candOps V := by
  simp only [after_app]

theorem sc_main_v40 (V : Valuation τ sig (Elt F)) :
    after candOps V (Proc.devRef .tc main_v40)
      = (cmpf .une : (⟨S50000x128, .f32⟩ : BufTy).Contents (Elt F) → (⟨S50000x128, .f32⟩ : BufTy).Contents (Elt F) → (⟨S50000x128, .i1⟩ : BufTy).Contents (Elt F))
          (after candOps V (Proc.devRef .tc main_v39))
          (after candOps V (Proc.devRef .tc main_v39)) :=
  stage_binary aligned_candOps 0 main_v39 main_v39 main_v40 (cmpf .une : (⟨S50000x128, .f32⟩ : BufTy).Contents (Elt F) → (⟨S50000x128, .f32⟩ : BufTy).Contents (Elt F) → (⟨S50000x128, .i1⟩ : BufTy).Contents (Elt F)) dv dv dv rfl V (by decide) (by decide) (by decide)

theorem sc_main_cst_10 (V : Valuation τ sig (Elt F)) :
    after candOps V (Proc.devRef .tc main_cst_10)
      = (constant S_ .f32 0x283424DC#32 : (⟨S_, .f32⟩ : BufTy).Contents (Elt F)) :=
  stage_nullary aligned_candOps 1 main_cst_10 (constant S_ .f32 0x283424DC#32 : (⟨S_, .f32⟩ : BufTy).Contents (Elt F)) dv rfl V (by decide)

theorem sc_main_call0_v0 (V : Valuation τ sig (Elt F)) :
    after candOps V (Proc.devRef .tc main_call0_v0)
      = (broadcastInDim S50000x128 ![] bcast_S_S50000x128 : (⟨S_, .f32⟩ : BufTy).Contents (Elt F) → (⟨S50000x128, .f32⟩ : BufTy).Contents (Elt F))
          (after candOps V (Proc.devRef .tc main_cst_10)) :=
  stage_unary aligned_candOps 2 main_cst_10 main_call0_v0 (broadcastInDim S50000x128 ![] bcast_S_S50000x128 : (⟨S_, .f32⟩ : BufTy).Contents (Elt F) → (⟨S50000x128, .f32⟩ : BufTy).Contents (Elt F)) dv dv rfl V (by decide) (by decide)

theorem sc_main_v41 (V : Valuation τ sig (Elt F)) :
    after candOps V (Proc.devRef .tc main_v41)
      = (select : (⟨S50000x128, .i1⟩ : BufTy).Contents (Elt F) → (⟨S50000x128, .f32⟩ : BufTy).Contents (Elt F) → (⟨S50000x128, .f32⟩ : BufTy).Contents (Elt F) → (⟨S50000x128, .f32⟩ : BufTy).Contents (Elt F))
          (after candOps V (Proc.devRef .tc main_v40))
          (after candOps V (Proc.devRef .tc main_call0_v0))
          (after candOps V (Proc.devRef .tc main_v39)) :=
  stage_ternary aligned_candOps 3 main_v40 main_call0_v0 main_v39 main_v41 (select : (⟨S50000x128, .i1⟩ : BufTy).Contents (Elt F) → (⟨S50000x128, .f32⟩ : BufTy).Contents (Elt F) → (⟨S50000x128, .f32⟩ : BufTy).Contents (Elt F) → (⟨S50000x128, .f32⟩ : BufTy).Contents (Elt F)) dv dv dv dv rfl V (by decide) (by decide) (by decide) (by decide)

theorem sc_main_cst_11 (V : Valuation τ sig (Elt F)) :
    after candOps V (Proc.devRef .tc main_cst_11)
      = (constant S_ .f32 0x7F800000#32 : (⟨S_, .f32⟩ : BufTy).Contents (Elt F)) :=
  stage_nullary aligned_candOps 4 main_cst_11 (constant S_ .f32 0x7F800000#32 : (⟨S_, .f32⟩ : BufTy).Contents (Elt F)) dv rfl V (by decide)

theorem sc_main_v42 (V : Valuation τ sig (Elt F)) :
    after candOps V (Proc.devRef .tc main_v42)
      = (broadcastInDim S50000x128 ![] bcast_S_S50000x128 : (⟨S_, .f32⟩ : BufTy).Contents (Elt F) → (⟨S50000x128, .f32⟩ : BufTy).Contents (Elt F))
          (after candOps V (Proc.devRef .tc main_cst_11)) :=
  stage_unary aligned_candOps 5 main_cst_11 main_v42 (broadcastInDim S50000x128 ![] bcast_S_S50000x128 : (⟨S_, .f32⟩ : BufTy).Contents (Elt F) → (⟨S50000x128, .f32⟩ : BufTy).Contents (Elt F)) dv dv rfl V (by decide) (by decide)

theorem sc_main_v43 (V : Valuation τ sig (Elt F)) :
    after candOps V (Proc.devRef .tc main_v43)
      = (cmpf .oeq : (⟨S50000x128, .f32⟩ : BufTy).Contents (Elt F) → (⟨S50000x128, .f32⟩ : BufTy).Contents (Elt F) → (⟨S50000x128, .i1⟩ : BufTy).Contents (Elt F))
          (after candOps V (Proc.devRef .tc main_v41))
          (after candOps V (Proc.devRef .tc main_v42)) :=
  stage_binary aligned_candOps 6 main_v41 main_v42 main_v43 (cmpf .oeq : (⟨S50000x128, .f32⟩ : BufTy).Contents (Elt F) → (⟨S50000x128, .f32⟩ : BufTy).Contents (Elt F) → (⟨S50000x128, .i1⟩ : BufTy).Contents (Elt F)) dv dv dv rfl V (by decide) (by decide) (by decide)

theorem sc_main_cst_12 (V : Valuation τ sig (Elt F)) :
    after candOps V (Proc.devRef .tc main_cst_12)
      = (constant S_ .f32 0x7F7FFFFF#32 : (⟨S_, .f32⟩ : BufTy).Contents (Elt F)) :=
  stage_nullary aligned_candOps 7 main_cst_12 (constant S_ .f32 0x7F7FFFFF#32 : (⟨S_, .f32⟩ : BufTy).Contents (Elt F)) dv rfl V (by decide)

theorem sc_main_call1_v0 (V : Valuation τ sig (Elt F)) :
    after candOps V (Proc.devRef .tc main_call1_v0)
      = (broadcastInDim S50000x128 ![] bcast_S_S50000x128 : (⟨S_, .f32⟩ : BufTy).Contents (Elt F) → (⟨S50000x128, .f32⟩ : BufTy).Contents (Elt F))
          (after candOps V (Proc.devRef .tc main_cst_12)) :=
  stage_unary aligned_candOps 8 main_cst_12 main_call1_v0 (broadcastInDim S50000x128 ![] bcast_S_S50000x128 : (⟨S_, .f32⟩ : BufTy).Contents (Elt F) → (⟨S50000x128, .f32⟩ : BufTy).Contents (Elt F)) dv dv rfl V (by decide) (by decide)

theorem sc_main_v44 (V : Valuation τ sig (Elt F)) :
    after candOps V (Proc.devRef .tc main_v44)
      = (select : (⟨S50000x128, .i1⟩ : BufTy).Contents (Elt F) → (⟨S50000x128, .f32⟩ : BufTy).Contents (Elt F) → (⟨S50000x128, .f32⟩ : BufTy).Contents (Elt F) → (⟨S50000x128, .f32⟩ : BufTy).Contents (Elt F))
          (after candOps V (Proc.devRef .tc main_v43))
          (after candOps V (Proc.devRef .tc main_call1_v0))
          (after candOps V (Proc.devRef .tc main_v41)) :=
  stage_ternary aligned_candOps 9 main_v43 main_call1_v0 main_v41 main_v44 (select : (⟨S50000x128, .i1⟩ : BufTy).Contents (Elt F) → (⟨S50000x128, .f32⟩ : BufTy).Contents (Elt F) → (⟨S50000x128, .f32⟩ : BufTy).Contents (Elt F) → (⟨S50000x128, .f32⟩ : BufTy).Contents (Elt F)) dv dv dv dv rfl V (by decide) (by decide) (by decide) (by decide)

theorem sc_main_cst_13 (V : Valuation τ sig (Elt F)) :
    after candOps V (Proc.devRef .tc main_cst_13)
      = (constant S_ .f32 0xFF800000#32 : (⟨S_, .f32⟩ : BufTy).Contents (Elt F)) :=
  stage_nullary aligned_candOps 10 main_cst_13 (constant S_ .f32 0xFF800000#32 : (⟨S_, .f32⟩ : BufTy).Contents (Elt F)) dv rfl V (by decide)

theorem sc_main_v45 (V : Valuation τ sig (Elt F)) :
    after candOps V (Proc.devRef .tc main_v45)
      = (broadcastInDim S50000x128 ![] bcast_S_S50000x128 : (⟨S_, .f32⟩ : BufTy).Contents (Elt F) → (⟨S50000x128, .f32⟩ : BufTy).Contents (Elt F))
          (after candOps V (Proc.devRef .tc main_cst_13)) :=
  stage_unary aligned_candOps 11 main_cst_13 main_v45 (broadcastInDim S50000x128 ![] bcast_S_S50000x128 : (⟨S_, .f32⟩ : BufTy).Contents (Elt F) → (⟨S50000x128, .f32⟩ : BufTy).Contents (Elt F)) dv dv rfl V (by decide) (by decide)

theorem sc_main_v46 (V : Valuation τ sig (Elt F)) :
    after candOps V (Proc.devRef .tc main_v46)
      = (cmpf .oeq : (⟨S50000x128, .f32⟩ : BufTy).Contents (Elt F) → (⟨S50000x128, .f32⟩ : BufTy).Contents (Elt F) → (⟨S50000x128, .i1⟩ : BufTy).Contents (Elt F))
          (after candOps V (Proc.devRef .tc main_v44))
          (after candOps V (Proc.devRef .tc main_v45)) :=
  stage_binary aligned_candOps 12 main_v44 main_v45 main_v46 (cmpf .oeq : (⟨S50000x128, .f32⟩ : BufTy).Contents (Elt F) → (⟨S50000x128, .f32⟩ : BufTy).Contents (Elt F) → (⟨S50000x128, .i1⟩ : BufTy).Contents (Elt F)) dv dv dv rfl V (by decide) (by decide) (by decide)

theorem sc_main_cst_14 (V : Valuation τ sig (Elt F)) :
    after candOps V (Proc.devRef .tc main_cst_14)
      = (constant S_ .f32 0xFF7FFFFF#32 : (⟨S_, .f32⟩ : BufTy).Contents (Elt F)) :=
  stage_nullary aligned_candOps 13 main_cst_14 (constant S_ .f32 0xFF7FFFFF#32 : (⟨S_, .f32⟩ : BufTy).Contents (Elt F)) dv rfl V (by decide)

theorem sc_main_call2_v0 (V : Valuation τ sig (Elt F)) :
    after candOps V (Proc.devRef .tc main_call2_v0)
      = (broadcastInDim S50000x128 ![] bcast_S_S50000x128 : (⟨S_, .f32⟩ : BufTy).Contents (Elt F) → (⟨S50000x128, .f32⟩ : BufTy).Contents (Elt F))
          (after candOps V (Proc.devRef .tc main_cst_14)) :=
  stage_unary aligned_candOps 14 main_cst_14 main_call2_v0 (broadcastInDim S50000x128 ![] bcast_S_S50000x128 : (⟨S_, .f32⟩ : BufTy).Contents (Elt F) → (⟨S50000x128, .f32⟩ : BufTy).Contents (Elt F)) dv dv rfl V (by decide) (by decide)

theorem sc_main_v47 (V : Valuation τ sig (Elt F)) :
    after candOps V (Proc.devRef .tc main_v47)
      = (select : (⟨S50000x128, .i1⟩ : BufTy).Contents (Elt F) → (⟨S50000x128, .f32⟩ : BufTy).Contents (Elt F) → (⟨S50000x128, .f32⟩ : BufTy).Contents (Elt F) → (⟨S50000x128, .f32⟩ : BufTy).Contents (Elt F))
          (after candOps V (Proc.devRef .tc main_v46))
          (after candOps V (Proc.devRef .tc main_call2_v0))
          (after candOps V (Proc.devRef .tc main_v44)) :=
  stage_ternary aligned_candOps 15 main_v46 main_call2_v0 main_v44 main_v47 (select : (⟨S50000x128, .i1⟩ : BufTy).Contents (Elt F) → (⟨S50000x128, .f32⟩ : BufTy).Contents (Elt F) → (⟨S50000x128, .f32⟩ : BufTy).Contents (Elt F) → (⟨S50000x128, .f32⟩ : BufTy).Contents (Elt F)) dv dv dv dv rfl V (by decide) (by decide) (by decide) (by decide)

theorem sc_main_c_15 (V : Valuation τ sig (Elt F)) :
    after candOps V (Proc.devRef .tc main_c_15)
      = (constantI S_ 32 0#32 : (⟨S_, .i32⟩ : BufTy).Contents (Elt F)) :=
  stage_nullary aligned_candOps 16 main_c_15 (constantI S_ 32 0#32 : (⟨S_, .i32⟩ : BufTy).Contents (Elt F)) dv rfl V (by decide)

theorem sc_main_v48 (V : Valuation τ sig (Elt F)) :
    after candOps V (Proc.devRef .tc main_v48)
      = (broadcastInDim S100000 ![] bcast_S_S100000 : (⟨S_, .i32⟩ : BufTy).Contents (Elt F) → (⟨S100000, .i32⟩ : BufTy).Contents (Elt F))
          (after candOps V (Proc.devRef .tc main_c_15)) :=
  stage_unary aligned_candOps 17 main_c_15 main_v48 (broadcastInDim S100000 ![] bcast_S_S100000 : (⟨S_, .i32⟩ : BufTy).Contents (Elt F) → (⟨S100000, .i32⟩ : BufTy).Contents (Elt F)) dv dv rfl V (by decide) (by decide)

theorem sc_main_v49 (V : Valuation τ sig (Elt F)) :
    after candOps V (Proc.devRef .tc main_v49)
      = (cmpi .slt : (⟨S100000, .i32⟩ : BufTy).Contents (Elt F) → (⟨S100000, .i32⟩ : BufTy).Contents (Elt F) → (⟨S100000, .i1⟩ : BufTy).Contents (Elt F))
          (after candOps V (Proc.devRef .tc main_arg3))
          (after candOps V (Proc.devRef .tc main_v48)) :=
  stage_binary aligned_candOps 18 main_arg3 main_v48 main_v49 (cmpi .slt : (⟨S100000, .i32⟩ : BufTy).Contents (Elt F) → (⟨S100000, .i32⟩ : BufTy).Contents (Elt F) → (⟨S100000, .i1⟩ : BufTy).Contents (Elt F)) dv dv dv rfl V (by decide) (by decide) (by decide)

theorem sc_main_c_16 (V : Valuation τ sig (Elt F)) :
    after candOps V (Proc.devRef .tc main_c_16)
      = (constantI S_ 32 50000#32 : (⟨S_, .i32⟩ : BufTy).Contents (Elt F)) :=
  stage_nullary aligned_candOps 19 main_c_16 (constantI S_ 32 50000#32 : (⟨S_, .i32⟩ : BufTy).Contents (Elt F)) dv rfl V (by decide)

theorem sc_main_v50 (V : Valuation τ sig (Elt F)) :
    after candOps V (Proc.devRef .tc main_v50)
      = (broadcastInDim S100000 ![] bcast_S_S100000 : (⟨S_, .i32⟩ : BufTy).Contents (Elt F) → (⟨S100000, .i32⟩ : BufTy).Contents (Elt F))
          (after candOps V (Proc.devRef .tc main_c_16)) :=
  stage_unary aligned_candOps 20 main_c_16 main_v50 (broadcastInDim S100000 ![] bcast_S_S100000 : (⟨S_, .i32⟩ : BufTy).Contents (Elt F) → (⟨S100000, .i32⟩ : BufTy).Contents (Elt F)) dv dv rfl V (by decide) (by decide)

theorem sc_main_v51 (V : Valuation τ sig (Elt F)) :
    after candOps V (Proc.devRef .tc main_v51)
      = (addi : (⟨S100000, .i32⟩ : BufTy).Contents (Elt F) → (⟨S100000, .i32⟩ : BufTy).Contents (Elt F) → (⟨S100000, .i32⟩ : BufTy).Contents (Elt F))
          (after candOps V (Proc.devRef .tc main_arg3))
          (after candOps V (Proc.devRef .tc main_v50)) :=
  stage_binary aligned_candOps 21 main_arg3 main_v50 main_v51 (addi : (⟨S100000, .i32⟩ : BufTy).Contents (Elt F) → (⟨S100000, .i32⟩ : BufTy).Contents (Elt F) → (⟨S100000, .i32⟩ : BufTy).Contents (Elt F)) dv dv dv rfl V (by decide) (by decide) (by decide)

theorem sc_main_v52 (V : Valuation τ sig (Elt F)) :
    after candOps V (Proc.devRef .tc main_v52)
      = (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F))
          (after candOps V (Proc.devRef .tc main_v49))
          (after candOps V (Proc.devRef .tc main_v51))
          (after candOps V (Proc.devRef .tc main_arg3)) :=
  stage_ternary aligned_candOps 22 main_v49 main_v51 main_arg3 main_v52 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)) dv dv dv dv rfl V (by decide) (by decide) (by decide) (by decide)

theorem sc_main_v53 (V : Valuation τ sig (Elt F)) :
    after candOps V (Proc.devRef .tc main_v53)
      = (broadcastInDim S100000x1 ![0] bcast_S100000_S100000x1_0 : (⟨S100000, .i32⟩ : BufTy).Contents (Elt F) → (⟨S100000x1, .i32⟩ : BufTy).Contents (Elt F))
          (after candOps V (Proc.devRef .tc main_v52)) :=
  stage_unary aligned_candOps 23 main_v52 main_v53 (broadcastInDim S100000x1 ![0] bcast_S100000_S100000x1_0 : (⟨S100000, .i32⟩ : BufTy).Contents (Elt F) → (⟨S100000x1, .i32⟩ : BufTy).Contents (Elt F)) dv dv rfl V (by decide) (by decide)

theorem sc_main_v54 (V : Valuation τ sig (Elt F)) :
    after candOps V (Proc.devRef .tc main_v54)
      = ((fun x i => Host.gather gather_S50000x128_S100000x1_S100000x128_1_0_n_n_0_1_1128 x i) : (⟨S50000x128, .f32⟩ : BufTy).Contents (Elt F) → (⟨S100000x1, .i32⟩ : BufTy).Contents (Elt F) → (⟨S100000x128, .f32⟩ : BufTy).Contents (Elt F))
          (after candOps V (Proc.devRef .tc main_v47))
          (after candOps V (Proc.devRef .tc main_v53)) :=
  stage_binary aligned_candOps 24 main_v47 main_v53 main_v54 ((fun x i => Host.gather gather_S50000x128_S100000x1_S100000x128_1_0_n_n_0_1_1128 x i) : (⟨S50000x128, .f32⟩ : BufTy).Contents (Elt F) → (⟨S100000x1, .i32⟩ : BufTy).Contents (Elt F) → (⟨S100000x128, .f32⟩ : BufTy).Contents (Elt F)) dv dv dv rfl V (by decide) (by decide) (by decide)

theorem sc_main_c_17 (V : Valuation τ sig (Elt F)) :
    after candOps V (Proc.devRef .tc main_c_17)
      = (constantI S_ 32 0#32 : (⟨S_, .i32⟩ : BufTy).Contents (Elt F)) :=
  stage_nullary aligned_candOps 25 main_c_17 (constantI S_ 32 0#32 : (⟨S_, .i32⟩ : BufTy).Contents (Elt F)) dv rfl V (by decide)

theorem sc_main_v55 (V : Valuation τ sig (Elt F)) :
    after candOps V (Proc.devRef .tc main_v55)
      = (broadcastInDim S100000 ![] bcast_S_S100000 : (⟨S_, .i32⟩ : BufTy).Contents (Elt F) → (⟨S100000, .i32⟩ : BufTy).Contents (Elt F))
          (after candOps V (Proc.devRef .tc main_c_17)) :=
  stage_unary aligned_candOps 26 main_c_17 main_v55 (broadcastInDim S100000 ![] bcast_S_S100000 : (⟨S_, .i32⟩ : BufTy).Contents (Elt F) → (⟨S100000, .i32⟩ : BufTy).Contents (Elt F)) dv dv rfl V (by decide) (by decide)

theorem sc_main_v56 (V : Valuation τ sig (Elt F)) :
    after candOps V (Proc.devRef .tc main_v56)
      = (cmpi .slt : (⟨S100000, .i32⟩ : BufTy).Contents (Elt F) → (⟨S100000, .i32⟩ : BufTy).Contents (Elt F) → (⟨S100000, .i1⟩ : BufTy).Contents (Elt F))
          (after candOps V (Proc.devRef .tc main_arg4))
          (after candOps V (Proc.devRef .tc main_v55)) :=
  stage_binary aligned_candOps 27 main_arg4 main_v55 main_v56 (cmpi .slt : (⟨S100000, .i32⟩ : BufTy).Contents (Elt F) → (⟨S100000, .i32⟩ : BufTy).Contents (Elt F) → (⟨S100000, .i1⟩ : BufTy).Contents (Elt F)) dv dv dv rfl V (by decide) (by decide) (by decide)

theorem sc_main_c_18 (V : Valuation τ sig (Elt F)) :
    after candOps V (Proc.devRef .tc main_c_18)
      = (constantI S_ 32 50000#32 : (⟨S_, .i32⟩ : BufTy).Contents (Elt F)) :=
  stage_nullary aligned_candOps 28 main_c_18 (constantI S_ 32 50000#32 : (⟨S_, .i32⟩ : BufTy).Contents (Elt F)) dv rfl V (by decide)

theorem sc_main_v57 (V : Valuation τ sig (Elt F)) :
    after candOps V (Proc.devRef .tc main_v57)
      = (broadcastInDim S100000 ![] bcast_S_S100000 : (⟨S_, .i32⟩ : BufTy).Contents (Elt F) → (⟨S100000, .i32⟩ : BufTy).Contents (Elt F))
          (after candOps V (Proc.devRef .tc main_c_18)) :=
  stage_unary aligned_candOps 29 main_c_18 main_v57 (broadcastInDim S100000 ![] bcast_S_S100000 : (⟨S_, .i32⟩ : BufTy).Contents (Elt F) → (⟨S100000, .i32⟩ : BufTy).Contents (Elt F)) dv dv rfl V (by decide) (by decide)

theorem sc_main_v58 (V : Valuation τ sig (Elt F)) :
    after candOps V (Proc.devRef .tc main_v58)
      = (addi : (⟨S100000, .i32⟩ : BufTy).Contents (Elt F) → (⟨S100000, .i32⟩ : BufTy).Contents (Elt F) → (⟨S100000, .i32⟩ : BufTy).Contents (Elt F))
          (after candOps V (Proc.devRef .tc main_arg4))
          (after candOps V (Proc.devRef .tc main_v57)) :=
  stage_binary aligned_candOps 30 main_arg4 main_v57 main_v58 (addi : (⟨S100000, .i32⟩ : BufTy).Contents (Elt F) → (⟨S100000, .i32⟩ : BufTy).Contents (Elt F) → (⟨S100000, .i32⟩ : BufTy).Contents (Elt F)) dv dv dv rfl V (by decide) (by decide) (by decide)

theorem sc_main_v59 (V : Valuation τ sig (Elt F)) :
    after candOps V (Proc.devRef .tc main_v59)
      = (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F))
          (after candOps V (Proc.devRef .tc main_v56))
          (after candOps V (Proc.devRef .tc main_v58))
          (after candOps V (Proc.devRef .tc main_arg4)) :=
  stage_ternary aligned_candOps 31 main_v56 main_v58 main_arg4 main_v59 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)) dv dv dv dv rfl V (by decide) (by decide) (by decide) (by decide)

theorem sc_main_v60 (V : Valuation τ sig (Elt F)) :
    after candOps V (Proc.devRef .tc main_v60)
      = (broadcastInDim S100000x1 ![0] bcast_S100000_S100000x1_0 : (⟨S100000, .i32⟩ : BufTy).Contents (Elt F) → (⟨S100000x1, .i32⟩ : BufTy).Contents (Elt F))
          (after candOps V (Proc.devRef .tc main_v59)) :=
  stage_unary aligned_candOps 32 main_v59 main_v60 (broadcastInDim S100000x1 ![0] bcast_S100000_S100000x1_0 : (⟨S100000, .i32⟩ : BufTy).Contents (Elt F) → (⟨S100000x1, .i32⟩ : BufTy).Contents (Elt F)) dv dv rfl V (by decide) (by decide)

theorem sc_main_v61 (V : Valuation τ sig (Elt F)) :
    after candOps V (Proc.devRef .tc main_v61)
      = ((fun x i => Host.gather gather_S50000x128_S100000x1_S100000x128_1_0_n_n_0_1_1128 x i) : (⟨S50000x128, .f32⟩ : BufTy).Contents (Elt F) → (⟨S100000x1, .i32⟩ : BufTy).Contents (Elt F) → (⟨S100000x128, .f32⟩ : BufTy).Contents (Elt F))
          (after candOps V (Proc.devRef .tc main_v47))
          (after candOps V (Proc.devRef .tc main_v60)) :=
  stage_binary aligned_candOps 33 main_v47 main_v60 main_v61 ((fun x i => Host.gather gather_S50000x128_S100000x1_S100000x128_1_0_n_n_0_1_1128 x i) : (⟨S50000x128, .f32⟩ : BufTy).Contents (Elt F) → (⟨S100000x1, .i32⟩ : BufTy).Contents (Elt F) → (⟨S100000x128, .f32⟩ : BufTy).Contents (Elt F)) dv dv dv rfl V (by decide) (by decide) (by decide)

theorem sc_main_v62 (V : Valuation τ sig (Elt F)) :
    after candOps V (Proc.devRef .tc main_v62)
      = concatenate S100000x257 1 [⟨S100000x128, (after candOps V (Proc.devRef .tc main_v54))⟩, ⟨S100000x128, (after candOps V (Proc.devRef .tc main_v61))⟩, ⟨S100000x1, (after candOps V (Proc.devRef .tc main_arg5))⟩] concatenates_S100000x128_S100000x128_S100000x1_S100000x257_d1 :=
  stage_nary aligned_candOps 34 ![main_v54, main_v61, main_arg5] main_v62 (fun u => concatenate S100000x257 1 [⟨S100000x128, u 0⟩, ⟨S100000x128, u 1⟩, ⟨S100000x1, u 2⟩] concatenates_S100000x128_S100000x128_S100000x1_S100000x257_d1) (by decide) dv rfl V (by decide) (by decide)

/-- Before the scoring region, from any contents: the candidate matrix. -/
theorem cand_V (V : Valuation τ sig (Elt Ideal)) :
    after hostOps2_6 (after hostOps2_5 (after hostOps2_4 (after hostOps2_3 (after hostOps2_2 (after hostOps2_1 (after hostOps2 V)))))) (Proc.devRef .tc main_v62)
      = candOf (V (Proc.devRef .tc main_v39)) (V (Proc.devRef .tc main_arg3)) (V (Proc.devRef .tc main_arg4)) (V (Proc.devRef .tc main_arg5)) := by
  rw [after_candOps]
  rw [sc_main_v62 V, sc_main_v61 V, sc_main_v60 V, sc_main_v59 V, sc_main_v58 V, sc_main_v57 V,
    sc_main_c_18 V, sc_main_v56 V, sc_main_v55 V, sc_main_c_17 V, sc_main_v54 V, sc_main_v53 V,
    sc_main_v52 V, sc_main_v51 V, sc_main_v50 V, sc_main_c_16 V, sc_main_v49 V, sc_main_v48 V,
    sc_main_c_15 V, sc_main_v47 V, sc_main_call2_v0 V, sc_main_cst_14 V, sc_main_v46 V, sc_main_v45 V,
    sc_main_cst_13 V, sc_main_v44 V, sc_main_call1_v0 V, sc_main_cst_12 V, sc_main_v43 V, sc_main_v42 V,
    sc_main_cst_11 V, sc_main_v41 V, sc_main_call0_v0 V, sc_main_cst_10 V, sc_main_v40 V]
  rw [aligned_candOps.after_of_not_mem V (r := main_v39) (by decide),
    aligned_candOps.after_of_not_mem V (r := main_arg3) (by decide),
    aligned_candOps.after_of_not_mem V (r := main_arg4) (by decide),
    aligned_candOps.after_of_not_mem V (r := main_arg5) (by decide)]
  rfl

/-! ## After the scoring region -/

theorem aligned_hostOps3 : Aligned (hostOps3 (F := F)) hostOps3_W := by
  unfold Aligned; repeat (first | exact List.Forall₂.nil | refine List.Forall₂.cons rfl ?_)

theorem s3_main_cst_19 (V : Valuation τ sig (Elt F)) :
    after hostOps3 V (Proc.devRef .tc main_cst_19)
      = (constant S_ .f32 0xFF800000#32 : (⟨S_, .f32⟩ : BufTy).Contents (Elt F)) :=
  stage_nullary aligned_hostOps3 0 main_cst_19 (constant S_ .f32 0xFF800000#32 : (⟨S_, .f32⟩ : BufTy).Contents (Elt F)) dv rfl V (by decide)

theorem s3_main_v64 (V : Valuation τ sig (Elt F)) :
    after hostOps3 V (Proc.devRef .tc main_v64)
      = ((fun x v => Host.reduce FloatOps.maximumf x v reducesTo_S100000x1_S1_d0 h_S_) : (⟨S100000x1, .f32⟩ : BufTy).Contents (Elt F) → (⟨S_, .f32⟩ : BufTy).Contents (Elt F) → (⟨S1, .f32⟩ : BufTy).Contents (Elt F))
          (after hostOps3 V (Proc.devRef .tc main_v63))
          (after hostOps3 V (Proc.devRef .tc main_cst_19)) :=
  stage_binary aligned_hostOps3 1 main_v63 main_cst_19 main_v64 ((fun x v => Host.reduce FloatOps.maximumf x v reducesTo_S100000x1_S1_d0 h_S_) : (⟨S100000x1, .f32⟩ : BufTy).Contents (Elt F) → (⟨S_, .f32⟩ : BufTy).Contents (Elt F) → (⟨S1, .f32⟩ : BufTy).Contents (Elt F)) dv dv dv rfl V (by decide) (by decide) (by decide)

theorem s3_main_cst_20 (V : Valuation τ sig (Elt F)) :
    after hostOps3 V (Proc.devRef .tc main_cst_20)
      = (constant S_ .f32 0xFF800000#32 : (⟨S_, .f32⟩ : BufTy).Contents (Elt F)) :=
  stage_nullary aligned_hostOps3 2 main_cst_20 (constant S_ .f32 0xFF800000#32 : (⟨S_, .f32⟩ : BufTy).Contents (Elt F)) dv rfl V (by decide)

theorem s3_main_v65 (V : Valuation τ sig (Elt F)) :
    after hostOps3 V (Proc.devRef .tc main_v65)
      = (broadcastInDim S1 ![] bcast_S_S1 : (⟨S_, .f32⟩ : BufTy).Contents (Elt F) → (⟨S1, .f32⟩ : BufTy).Contents (Elt F))
          (after hostOps3 V (Proc.devRef .tc main_cst_20)) :=
  stage_unary aligned_hostOps3 3 main_cst_20 main_v65 (broadcastInDim S1 ![] bcast_S_S1 : (⟨S_, .f32⟩ : BufTy).Contents (Elt F) → (⟨S1, .f32⟩ : BufTy).Contents (Elt F)) dv dv rfl V (by decide) (by decide)

theorem s3_main_v66 (V : Valuation τ sig (Elt F)) :
    after hostOps3 V (Proc.devRef .tc main_v66)
      = (maximumf : (⟨S1, .f32⟩ : BufTy).Contents (Elt F) → (⟨S1, .f32⟩ : BufTy).Contents (Elt F) → (⟨S1, .f32⟩ : BufTy).Contents (Elt F))
          (after hostOps3 V (Proc.devRef .tc main_v65))
          (after hostOps3 V (Proc.devRef .tc main_v64)) :=
  stage_binary aligned_hostOps3 4 main_v65 main_v64 main_v66 (maximumf : (⟨S1, .f32⟩ : BufTy).Contents (Elt F) → (⟨S1, .f32⟩ : BufTy).Contents (Elt F) → (⟨S1, .f32⟩ : BufTy).Contents (Elt F)) dv dv dv rfl V (by decide) (by decide) (by decide)

theorem s3_main_v67 (V : Valuation τ sig (Elt F)) :
    after hostOps3 V (Proc.devRef .tc main_v67)
      = (broadcastInDim S1x1 ![1] bcast_S1_S1x1_1 : (⟨S1, .f32⟩ : BufTy).Contents (Elt F) → (⟨S1x1, .f32⟩ : BufTy).Contents (Elt F))
          (after hostOps3 V (Proc.devRef .tc main_v66)) :=
  stage_unary aligned_hostOps3 5 main_v66 main_v67 (broadcastInDim S1x1 ![1] bcast_S1_S1x1_1 : (⟨S1, .f32⟩ : BufTy).Contents (Elt F) → (⟨S1x1, .f32⟩ : BufTy).Contents (Elt F)) dv dv rfl V (by decide) (by decide)

theorem s3_main_v68 (V : Valuation τ sig (Elt F)) :
    after hostOps3 V (Proc.devRef .tc main_v68)
      = (broadcastInDim S100000x1 ![0, 1] bcast_S1x1_S100000x1_0_1 : (⟨S1x1, .f32⟩ : BufTy).Contents (Elt F) → (⟨S100000x1, .f32⟩ : BufTy).Contents (Elt F))
          (after hostOps3 V (Proc.devRef .tc main_v67)) :=
  stage_unary aligned_hostOps3 6 main_v67 main_v68 (broadcastInDim S100000x1 ![0, 1] bcast_S1x1_S100000x1_0_1 : (⟨S1x1, .f32⟩ : BufTy).Contents (Elt F) → (⟨S100000x1, .f32⟩ : BufTy).Contents (Elt F)) dv dv rfl V (by decide) (by decide)

theorem s3_main_v69 (V : Valuation τ sig (Elt F)) :
    after hostOps3 V (Proc.devRef .tc main_v69)
      = (subf : (⟨S100000x1, .f32⟩ : BufTy).Contents (Elt F) → (⟨S100000x1, .f32⟩ : BufTy).Contents (Elt F) → (⟨S100000x1, .f32⟩ : BufTy).Contents (Elt F))
          (after hostOps3 V (Proc.devRef .tc main_v63))
          (after hostOps3 V (Proc.devRef .tc main_v68)) :=
  stage_binary aligned_hostOps3 7 main_v63 main_v68 main_v69 (subf : (⟨S100000x1, .f32⟩ : BufTy).Contents (Elt F) → (⟨S100000x1, .f32⟩ : BufTy).Contents (Elt F) → (⟨S100000x1, .f32⟩ : BufTy).Contents (Elt F)) dv dv dv rfl V (by decide) (by decide) (by decide)

theorem s3_main_v70 (V : Valuation τ sig (Elt F)) :
    after hostOps3 V (Proc.devRef .tc main_v70)
      = (Host.exp : (⟨S100000x1, .f32⟩ : BufTy).Contents (Elt F) → (⟨S100000x1, .f32⟩ : BufTy).Contents (Elt F))
          (after hostOps3 V (Proc.devRef .tc main_v69)) :=
  stage_unary aligned_hostOps3 8 main_v69 main_v70 (Host.exp : (⟨S100000x1, .f32⟩ : BufTy).Contents (Elt F) → (⟨S100000x1, .f32⟩ : BufTy).Contents (Elt F)) dv dv rfl V (by decide) (by decide)

theorem s3_main_cst_21 (V : Valuation τ sig (Elt F)) :
    after hostOps3 V (Proc.devRef .tc main_cst_21)
      = (constant S_ .f32 0x00000000#32 : (⟨S_, .f32⟩ : BufTy).Contents (Elt F)) :=
  stage_nullary aligned_hostOps3 9 main_cst_21 (constant S_ .f32 0x00000000#32 : (⟨S_, .f32⟩ : BufTy).Contents (Elt F)) dv rfl V (by decide)

theorem s3_main_v71 (V : Valuation τ sig (Elt F)) :
    after hostOps3 V (Proc.devRef .tc main_v71)
      = ((fun x v => Host.reduceAdd x v reducesTo_S100000x1_S1_d0 h_S_) : (⟨S100000x1, .f32⟩ : BufTy).Contents (Elt F) → (⟨S_, .f32⟩ : BufTy).Contents (Elt F) → (⟨S1, .f32⟩ : BufTy).Contents (Elt F))
          (after hostOps3 V (Proc.devRef .tc main_v70))
          (after hostOps3 V (Proc.devRef .tc main_cst_21)) :=
  stage_binary aligned_hostOps3 10 main_v70 main_cst_21 main_v71 ((fun x v => Host.reduceAdd x v reducesTo_S100000x1_S1_d0 h_S_) : (⟨S100000x1, .f32⟩ : BufTy).Contents (Elt F) → (⟨S_, .f32⟩ : BufTy).Contents (Elt F) → (⟨S1, .f32⟩ : BufTy).Contents (Elt F)) dv dv dv rfl V (by decide) (by decide) (by decide)

theorem s3_main_v72 (V : Valuation τ sig (Elt F)) :
    after hostOps3 V (Proc.devRef .tc main_v72)
      = (broadcastInDim S1x1 ![1] bcast_S1_S1x1_1 : (⟨S1, .f32⟩ : BufTy).Contents (Elt F) → (⟨S1x1, .f32⟩ : BufTy).Contents (Elt F))
          (after hostOps3 V (Proc.devRef .tc main_v71)) :=
  stage_unary aligned_hostOps3 11 main_v71 main_v72 (broadcastInDim S1x1 ![1] bcast_S1_S1x1_1 : (⟨S1, .f32⟩ : BufTy).Contents (Elt F) → (⟨S1x1, .f32⟩ : BufTy).Contents (Elt F)) dv dv rfl V (by decide) (by decide)

theorem s3_main_v73 (V : Valuation τ sig (Elt F)) :
    after hostOps3 V (Proc.devRef .tc main_v73)
      = (broadcastInDim S100000x1 ![0, 1] bcast_S1x1_S100000x1_0_1 : (⟨S1x1, .f32⟩ : BufTy).Contents (Elt F) → (⟨S100000x1, .f32⟩ : BufTy).Contents (Elt F))
          (after hostOps3 V (Proc.devRef .tc main_v72)) :=
  stage_unary aligned_hostOps3 12 main_v72 main_v73 (broadcastInDim S100000x1 ![0, 1] bcast_S1x1_S100000x1_0_1 : (⟨S1x1, .f32⟩ : BufTy).Contents (Elt F) → (⟨S100000x1, .f32⟩ : BufTy).Contents (Elt F)) dv dv rfl V (by decide) (by decide)

theorem s3_main_v74 (V : Valuation τ sig (Elt F)) :
    after hostOps3 V (Proc.devRef .tc main_v74)
      = (Host.divf : (⟨S100000x1, .f32⟩ : BufTy).Contents (Elt F) → (⟨S100000x1, .f32⟩ : BufTy).Contents (Elt F) → (⟨S100000x1, .f32⟩ : BufTy).Contents (Elt F))
          (after hostOps3 V (Proc.devRef .tc main_v70))
          (after hostOps3 V (Proc.devRef .tc main_v73)) :=
  stage_binary aligned_hostOps3 13 main_v70 main_v73 main_v74 (Host.divf : (⟨S100000x1, .f32⟩ : BufTy).Contents (Elt F) → (⟨S100000x1, .f32⟩ : BufTy).Contents (Elt F) → (⟨S100000x1, .f32⟩ : BufTy).Contents (Elt F)) dv dv dv rfl V (by decide) (by decide) (by decide)

/-- After the scoring region, from any contents: the softmax of the scores over the candidates. -/
theorem probs_V (V : Valuation τ sig (Elt Ideal)) :
    after hostOps3 V (Proc.devRef .tc main_v74)
      = softmaxOf (V (Proc.devRef .tc main_v63)) := by
  rw [s3_main_v74 V, s3_main_v73 V, s3_main_v72 V, s3_main_v71 V, s3_main_cst_21 V, s3_main_v70 V,
    s3_main_v69 V, s3_main_v68 V, s3_main_v67 V, s3_main_v66 V, s3_main_v65 V, s3_main_cst_20 V,
    s3_main_v64 V, s3_main_cst_19 V]
  rw [aligned_hostOps3.after_of_not_mem V (r := main_v63) (by decide)]
  rfl

end Cert.KernelIdeal.Glue

end
-- ==== Proof.KIGlue.lean ====
/-
  The host operations between the kernel's regions, read as functions of the buffers they start from: the neighbour mean
  (gather the source rows, scatter-add them and a count of ones by destination, divide by the count clamped below at one),
  before each GraphSAGE region; the candidate matrix (non-finite clean-up of the second layer's output, its rows gathered
  at the two candidate index vectors, joined with the candidate feature column) before the scoring region; and the softmax
  over the candidates after it. Each is the same composition of host operations the reference applies; here they are read
  at the stages of the run's fold of buffer contents.
-/
import proofs.«138996_j84593675862715_1_alg».proof.Proof.KIRun
import proofs.«138996_j84593675862715_1_alg».proof.Proof.KIGlueV
import proofs.«138996_j84593675862715_1_alg».proof.Proof.RefDefs
import Idealize.ShloMosaic.Lib.StableHlo.Run
import Idealize.ShloMosaic.PureOps.Ideal

set_option maxRecDepth 16384

noncomputable section

namespace Cert.KernelIdeal.Glue

open Cert.KernelIdeal Cert.KernelIdeal.Gen Cert.KernelIdeal.Run
open Cert.ReferenceIdeal.RefClosed (aggOf candOf softmaxOf)
open Idealize.ShloMosaic Idealize.ShloMosaic.TcCoe Idealize.ShloMosaic.Tactic Idealize.ShloMosaic.StableHlo
open Idealize.SL Idealize.SL.Sem

variable (m : (ℓ : Loc nD τ sig) → Buf (Elt Ideal) ℓ) (c : Dev nD)

/-- Before the first region: the neighbour mean of the node features. -/
theorem agg0 : W1 m c (Proc.devRef .tc main_v18)
    = aggOf (W0 m c (Proc.devRef .tc main_arg0)) (W0 m c (Proc.devRef .tc main_arg1)) (W0 m c (Proc.devRef .tc main_arg2)) :=
  agg0_V (W0 m c)

/-- Before the second region: the neighbour mean of the first layer's output. -/
theorem agg1 : W3 m c (Proc.devRef .tc main_v38)
    = aggOf (W2 m c (Proc.devRef .tc main_v19)) (W2 m c (Proc.devRef .tc main_arg1)) (W2 m c (Proc.devRef .tc main_arg2)) :=
  agg1_V (W2 m c)

/-- Before the scoring region: the candidate matrix. -/
theorem cand : W11 m c (Proc.devRef .tc main_v62)
    = candOf (W4 m c (Proc.devRef .tc main_v39)) (W4 m c (Proc.devRef .tc main_arg3)) (W4 m c (Proc.devRef .tc main_arg4))
        (W4 m c (Proc.devRef .tc main_arg5)) :=
  cand_V (W4 m c)

/-- After the scoring region: the softmax of the scores over the candidates. -/
theorem probs : W13 m c (Proc.devRef .tc main_v74) = softmaxOf (W12 m c (Proc.devRef .tc main_v63)) :=
  probs_V (W12 m c)

end Cert.KernelIdeal.Glue

end
-- ==== Proof.RowSpec.lean ====
/-
  The specification both programs are compared with, one output entry at a time, at the ideal float
  values (a float an extended real, every operation exact, a change of format the identity).

  A graph-convolution layer's entry (i, q) depends on ONE row of the node features, the same row of the
  neighbour means, the two weight matrices' column q and entry q of five vectors:
      h = Σ_k x[i,k]·Wself[k,q] + Σ_k agg[i,k]·Wneigh[k,q] + b[q]
      y = γ[q]·(h − rm[q])·rsqrt(rv[q] + ε) + β[q]
      out = y where 0 ≤ y, else slope·y.
  The scoring head's entry i depends on one row of the concatenated edge features:
      z1 = lrelu(ce·W0 + b0) (257 → 64), z2 = lrelu(z1·W1 + b1) (64 → 64), out = z2·W2 + b2 (64 → 1).
  The three literal words (ε, the slope, the zero the comparison is made against) are the words both
  programs print; they are never evaluated here.
-/
import Idealize.ShloMosaic.PureOps.Ideal
import Idealize.ShloMosaic.PureOps.Ideal.Laws
import Idealize.ShloMosaic.Lib.ValueIdx

noncomputable section

open scoped BigOperators

namespace Cert.Bridge

open Idealize.ShloMosaic

/-- The leaky rectifier on one extended real: `z` where `0 ≤ z` (the comparison of extended reals,
    against the zero word), else the slope word times `z`. -/
def lrelu (z : EReal) : EReal :=
  Scalar.select (Ideal.cmp .oge z (Ideal.ofBits .f32 0x00000000#32)) z (Ideal.ofBits .f32 0x3C23D70A#32 * z)

/-- One entry of a graph-convolution layer with its normalisation and rectifier, from one row `xr` of the
    features, the same row `ar` of the neighbour means, the weights `ws`, `wn`, the bias `b`, the
    normalisation's scale `γ`, shift `β`, running mean `rm` and running variance `rv`, at column `q`. -/
def sageRow (xr ar : Fin 128 → EReal) (ws wn : Fin 128 → Fin 128 → EReal) (b γ β rm rv : Fin 128 → EReal)
    (q : Fin 128) : EReal :=
  lrelu (γ q * ((∑ k : Fin 128, xr k * ws k q) + (∑ k : Fin 128, ar k * wn k q) + b q - rm q)
      * Ideal.rsqrt (rv q + Ideal.ofBits .f32 0x3727C5AC#32) + β q)

/-- The first hidden layer of the scoring head at unit `j`, from one row `cer` of the edge features. -/
def mlpHidden0 (cer : Fin 257 → EReal) (mw0 : Fin 257 → Fin 64 → EReal) (mb0 : Fin 64 → EReal) (j : Fin 64) : EReal :=
  lrelu ((∑ k : Fin 257, cer k * mw0 k j) + mb0 j)

/-- The second hidden layer at unit `j`, from the first layer's 64 units `z`. -/
def mlpHidden1 (z : Fin 64 → EReal) (mw1 : Fin 64 → Fin 64 → EReal) (mb1 : Fin 64 → EReal) (j : Fin 64) : EReal :=
  lrelu ((∑ k : Fin 64, z k * mw1 k j) + mb1 j)

/-- The scoring head's one output for one edge: two rectified layers and a linear one. -/
def mlpRow (cer : Fin 257 → EReal) (mw0 : Fin 257 → Fin 64 → EReal) (mb0 : Fin 64 → EReal)
    (mw1 : Fin 64 → Fin 64 → EReal) (mb1 : Fin 64 → EReal) (mw2 : Fin 64 → Fin 1 → EReal) (mb2 : Fin 1 → EReal) : EReal :=
  (∑ k : Fin 64, mlpHidden1 (mlpHidden0 cer mw0 mb0) mw1 mb1 k * mw2 k 0) + mb2 0

end Cert.Bridge

end
-- ==== Proof.ArrSpec.lean ====
/-
  The two whole-array functions the kernel regions' output arrays are compared with: a graph-convolution layer's
  output array, entry (i, q) the row specification at row i of the node features and of the neighbour means; and the
  scoring head's output column, entry (i, 0) the row specification at row i of the edge features.
-/
import proofs.«138996_j84593675862715_1_alg».proof.KernelIdeal
import proofs.«138996_j84593675862715_1_alg».proof.Proof.RowSpec

noncomputable section

namespace Cert.KernelIdeal.Final

open Cert.KernelIdeal Idealize.ShloMosaic Idealize.ShloMosaic.ValueIdx

/-- A graph-convolution layer's output array: entry (i, q) is the row specification at row i of the features `x` and
    of the neighbour means `agg`, the weights and the five vectors whole, at column q. -/
def sageArr (x agg : S50000x128.Idx → EReal) (ws wn : S128x128.Idx → EReal) (b γ β rm rv : S128.Idx → EReal) :
    S50000x128.Idx → EReal := fun i =>
  Cert.Bridge.sageRow (fun k : Fin 128 => x (ix2 (i 0 : Fin 50000) k)) (fun k : Fin 128 => agg (ix2 (i 0 : Fin 50000) k))
    (fun (k q : Fin 128) => ws (ix2 k q)) (fun (k q : Fin 128) => wn (ix2 k q))
    (fun q : Fin 128 => b (ix1 q)) (fun q : Fin 128 => γ (ix1 q)) (fun q : Fin 128 => β (ix1 q))
    (fun q : Fin 128 => rm (ix1 q)) (fun q : Fin 128 => rv (ix1 q)) (i 1 : Fin 128)

/-- The scoring head's output column: entry (i, 0) is the row specification at row i of the edge features `ce`. -/
def mlpArr (ce : S100000x257.Idx → EReal) (mw0 : S257x64.Idx → EReal) (mb0 : S64.Idx → EReal)
    (mw1 : S64x64.Idx → EReal) (mb1 : S64.Idx → EReal) (mw2 : S64x1.Idx → EReal) (mb2 : S1.Idx → EReal) :
    S100000x1.Idx → EReal := fun i =>
  Cert.Bridge.mlpRow (fun k : Fin 257 => ce (ix2 (i 0 : Fin 100000) k))
    (fun (k : Fin 257) (j : Fin 64) => mw0 (ix2 k j)) (fun j : Fin 64 => mb0 (ix1 j))
    (fun (k j : Fin 64) => mw1 (ix2 k j)) (fun j : Fin 64 => mb1 (ix1 j))
    (fun (k : Fin 64) (j : Fin 1) => mw2 (ix2 k j)) (fun j : Fin 1 => mb2 (ix1 j))

end Cert.KernelIdeal.Final

end
-- ==== Proof.KIValue.lean ====
/-
  The idealized kernel's two results as one function of the argument arrays. Walking the fold of buffer contents from
  the launch memory: the first region's output array is the layer function of the node features and their neighbour
  mean; the second region's is the layer function of that array and of its neighbour mean; the scoring region's is the
  three-layer network of the candidate matrix built from the second layer's output; the softmax follows. No item
  writes an argument array, so each stage reads the arguments as launched.
-/
import proofs.«138996_j84593675862715_1_alg».proof.Proof.KIGlue
import proofs.«138996_j84593675862715_1_alg».proof.Proof.ArrSpec

set_option maxRecDepth 16384

noncomputable section

namespace Cert.KernelIdeal.Result

open Cert.KernelIdeal Cert.KernelIdeal.Gen Cert.KernelIdeal.Run
open Cert.KernelIdeal.Final (sageArr mlpArr)
open Cert.ReferenceIdeal.RefClosed (aggOf candOf softmaxOf)
open Idealize.ShloMosaic Idealize.ShloMosaic.TcCoe
open Idealize.SL Idealize.SL.Sem

variable (m : (ℓ : Loc nD τ sig) → Buf (Elt Ideal) ℓ) (c : Dev nD)

/-! ## An argument array read at a stage of the fold is the launch memory's -/

theorem W1_kept (r : Ref sig .tc) (h1 : r ∉ hostOps0_W) : W1 m c (Proc.devRef .tc r) = m ((c : Thread nD τ).loc r) :=
  (W1_keep m c r h1).trans rfl

theorem W2_kept (r : Ref sig .tc) (h1 : r ∉ hostOps0_W) (h2 : r ≠ main_v19) : W2 m c (Proc.devRef .tc r) = m ((c : Thread nD τ).loc r) :=
  (W2_keep m c r h2).trans <| (W1_keep m c r h1).trans rfl

theorem W3_kept (r : Ref sig .tc) (h1 : r ∉ hostOps0_W) (h2 : r ≠ main_v19) (h3 : r ∉ hostOps1_W) : W3 m c (Proc.devRef .tc r) = m ((c : Thread nD τ).loc r) :=
  (W3_keep m c r h3).trans <| (W2_keep m c r h2).trans <| (W1_keep m c r h1).trans rfl

theorem W4_kept (r : Ref sig .tc) (h1 : r ∉ hostOps0_W) (h2 : r ≠ main_v19) (h3 : r ∉ hostOps1_W) (h4 : r ≠ main_v39) : W4 m c (Proc.devRef .tc r) = m ((c : Thread nD τ).loc r) :=
  (W4_keep m c r h4).trans <| (W3_keep m c r h3).trans <| (W2_keep m c r h2).trans <| (W1_keep m c r h1).trans rfl

theorem W11_kept (r : Ref sig .tc) (h1 : r ∉ hostOps0_W) (h2 : r ≠ main_v19) (h3 : r ∉ hostOps1_W) (h4 : r ≠ main_v39) (h5 : r ∉ hostOps2_W) (h6 : r ∉ hostOps2_1_W) (h7 : r ∉ hostOps2_2_W) (h8 : r ∉ hostOps2_3_W) (h9 : r ∉ hostOps2_4_W) (h10 : r ∉ hostOps2_5_W) (h11 : r ∉ hostOps2_6_W) : W11 m c (Proc.devRef .tc r) = m ((c : Thread nD τ).loc r) :=
  (W11_keep m c r h11).trans <| (W10_keep m c r h10).trans <| (W9_keep m c r h9).trans <| (W8_keep m c r h8).trans <| (W7_keep m c r h7).trans <| (W6_keep m c r h6).trans <| (W5_keep m c r h5).trans <| (W4_keep m c r h4).trans <| (W3_keep m c r h3).trans <| (W2_keep m c r h2).trans <| (W1_keep m c r h1).trans rfl

/-! ## The stages -/

/-- The first layer's output. -/
def layer1 : S50000x128.Idx → EReal :=
  sageArr (m ((c : Thread nD τ).loc main_arg0)) (aggOf (m ((c : Thread nD τ).loc main_arg0)) (m ((c : Thread nD τ).loc main_arg1)) (m ((c : Thread nD τ).loc main_arg2))) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))

/-- The second layer's output. -/
def layer2 : S50000x128.Idx → EReal :=
  sageArr (layer1 m c) (aggOf (layer1 m c) (m ((c : Thread nD τ).loc main_arg1)) (m ((c : Thread nD τ).loc main_arg2))) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19))

/-- The candidates' scores. -/
def scores : S100000x1.Idx → EReal :=
  mlpArr (candOf (layer2 m c) (m ((c : Thread nD τ).loc main_arg3)) (m ((c : Thread nD τ).loc main_arg4)) (m ((c : Thread nD τ).loc main_arg5))) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25))

/-- What each region's output array ends holding: the whole-array function of the arrays the region was entered from. -/
structure Finals : Prop where
  f0 : ∀ (V : (c : Dev nD) → (b : Ref sig .tc) → Buf (Elt Ideal) ((c : Thread nD τ).loc b)) (c : Dev nD),
    (Sage0.dat (F := Ideal) V c).arrAt 9 cfg0.N = sageArr (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6)) (V c (Pipeline.arrRef spec0 7)) (V c (Pipeline.arrRef spec0 8))
  f1 : ∀ (V : (c : Dev nD) → (b : Ref sig .tc) → Buf (Elt Ideal) ((c : Thread nD τ).loc b)) (c : Dev nD),
    (Sage1.dat (F := Ideal) V c).arrAt 9 cfg1.N = sageArr (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6)) (V c (Pipeline.arrRef spec1 7)) (V c (Pipeline.arrRef spec1 8))
  f2 : ∀ (V : (c : Dev nD) → (b : Ref sig .tc) → Buf (Elt Ideal) ((c : Thread nD τ).loc b)) (c : Dev nD),
    (Mlp.dat (F := Ideal) V c).arrAt 7 cfg2.N = mlpArr (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6))

theorem v19_eq (hF : Finals) : W2 m c (Proc.devRef .tc main_v19) = layer1 m c := by
  refine (W2_arr m c 9).trans ?_
  rw [hF.f0]
  show sageArr (W1 m c (Proc.devRef .tc main_arg0)) (W1 m c (Proc.devRef .tc main_v18)) (W1 m c (Proc.devRef .tc main_arg6)) (W1 m c (Proc.devRef .tc main_arg7)) (W1 m c (Proc.devRef .tc main_arg8)) (W1 m c (Proc.devRef .tc main_arg9)) (W1 m c (Proc.devRef .tc main_arg10)) (W1 m c (Proc.devRef .tc main_arg11)) (W1 m c (Proc.devRef .tc main_arg12)) = _
  rw [Glue.agg0, W1_kept m c main_arg0 (by decide), W1_kept m c main_arg6 (by decide), W1_kept m c main_arg7 (by decide), W1_kept m c main_arg8 (by decide), W1_kept m c main_arg9 (by decide), W1_kept m c main_arg10 (by decide), W1_kept m c main_arg11 (by decide), W1_kept m c main_arg12 (by decide)]
  rfl

theorem v39_eq (hF : Finals) : W4 m c (Proc.devRef .tc main_v39) = layer2 m c := by
  refine (W4_arr m c 9).trans ?_
  rw [hF.f1]
  show sageArr (W3 m c (Proc.devRef .tc main_v19)) (W3 m c (Proc.devRef .tc main_v38)) (W3 m c (Proc.devRef .tc main_arg13)) (W3 m c (Proc.devRef .tc main_arg14)) (W3 m c (Proc.devRef .tc main_arg15)) (W3 m c (Proc.devRef .tc main_arg16)) (W3 m c (Proc.devRef .tc main_arg17)) (W3 m c (Proc.devRef .tc main_arg18)) (W3 m c (Proc.devRef .tc main_arg19)) = _
  rw [Glue.agg1, W3_keep m c main_v19 (by decide), v19_eq m c hF, W2_kept m c main_arg1 (by decide) (by decide), W2_kept m c main_arg2 (by decide) (by decide),
    W3_kept m c main_arg13 (by decide) (by decide) (by decide), W3_kept m c main_arg14 (by decide) (by decide) (by decide), W3_kept m c main_arg15 (by decide) (by decide) (by decide), W3_kept m c main_arg16 (by decide) (by decide) (by decide), W3_kept m c main_arg17 (by decide) (by decide) (by decide), W3_kept m c main_arg18 (by decide) (by decide) (by decide), W3_kept m c main_arg19 (by decide) (by decide) (by decide)]
  rfl

theorem v62_eq (hF : Finals) : W11 m c (Proc.devRef .tc main_v62) = candOf (layer2 m c) (m ((c : Thread nD τ).loc main_arg3)) (m ((c : Thread nD τ).loc main_arg4)) (m ((c : Thread nD τ).loc main_arg5)) := by
  rw [Glue.cand, v39_eq m c hF, W4_kept m c main_arg3 (by decide) (by decide) (by decide) (by decide), W4_kept m c main_arg4 (by decide) (by decide) (by decide) (by decide), W4_kept m c main_arg5 (by decide) (by decide) (by decide) (by decide)]

theorem v63_eq (hF : Finals) : W13 m c (Proc.devRef .tc main_v63) = scores m c := by
  refine (W13_keep m c main_v63 (by decide)).trans ?_
  refine (W12_arr m c 7).trans ?_
  rw [hF.f2]
  show mlpArr (W11 m c (Proc.devRef .tc main_v62)) (W11 m c (Proc.devRef .tc main_arg20)) (W11 m c (Proc.devRef .tc main_arg21)) (W11 m c (Proc.devRef .tc main_arg22)) (W11 m c (Proc.devRef .tc main_arg23)) (W11 m c (Proc.devRef .tc main_arg24)) (W11 m c (Proc.devRef .tc main_arg25)) = _
  rw [v62_eq m c hF, W11_kept m c main_arg20 (by decide) (by decide) (by decide) (by decide) (by decide) (by decide) (by decide) (by decide) (by decide) (by decide) (by decide), W11_kept m c main_arg21 (by decide) (by decide) (by decide) (by decide) (by decide) (by decide) (by decide) (by decide) (by decide) (by decide) (by decide), W11_kept m c main_arg22 (by decide) (by decide) (by decide) (by decide) (by decide) (by decide) (by decide) (by decide) (by decide) (by decide) (by decide), W11_kept m c main_arg23 (by decide) (by decide) (by decide) (by decide) (by decide) (by decide) (by decide) (by decide) (by decide) (by decide) (by decide), W11_kept m c main_arg24 (by decide) (by decide) (by decide) (by decide) (by decide) (by decide) (by decide) (by decide) (by decide) (by decide) (by decide), W11_kept m c main_arg25 (by decide) (by decide) (by decide) (by decide) (by decide) (by decide) (by decide) (by decide) (by decide) (by decide) (by decide)]
  rfl

theorem v74_eq (hF : Finals) : W13 m c (Proc.devRef .tc main_v74) = softmaxOf (scores m c) := by
  rw [Glue.probs]
  refine congrArg softmaxOf ?_
  refine (W12_arr m c 7).trans ?_
  rw [hF.f2]
  show mlpArr (W11 m c (Proc.devRef .tc main_v62)) (W11 m c (Proc.devRef .tc main_arg20)) (W11 m c (Proc.devRef .tc main_arg21)) (W11 m c (Proc.devRef .tc main_arg22)) (W11 m c (Proc.devRef .tc main_arg23)) (W11 m c (Proc.devRef .tc main_arg24)) (W11 m c (Proc.devRef .tc main_arg25)) = _
  rw [v62_eq m c hF, W11_kept m c main_arg20 (by decide) (by decide) (by decide) (by decide) (by decide) (by decide) (by decide) (by decide) (by decide) (by decide) (by decide), W11_kept m c main_arg21 (by decide) (by decide) (by decide) (by decide) (by decide) (by decide) (by decide) (by decide) (by decide) (by decide) (by decide), W11_kept m c main_arg22 (by decide) (by decide) (by decide) (by decide) (by decide) (by decide) (by decide) (by decide) (by decide) (by decide) (by decide), W11_kept m c main_arg23 (by decide) (by decide) (by decide) (by decide) (by decide) (by decide) (by decide) (by decide) (by decide) (by decide) (by decide), W11_kept m c main_arg24 (by decide) (by decide) (by decide) (by decide) (by decide) (by decide) (by decide) (by decide) (by decide) (by decide) (by decide), W11_kept m c main_arg25 (by decide) (by decide) (by decide) (by decide) (by decide) (by decide) (by decide) (by decide) (by decide) (by decide) (by decide)]
  rfl

end Cert.KernelIdeal.Result

end
-- ==== Proof.RowOps.lean ====
/-
  The non-pointwise operations of the two programs read at one entry, at the ideal float values, over
  variables of literal two-axis shapes. Nothing here mentions a program.

  A matrix product of an [M, K] by a [K, N] operand contracts the left operand's axis 1 with the right
  operand's axis 0: entry (p, q) is the sum over k of lhs (p, k) · rhs (k, q), for a kernel's product
  into a zero accumulator and for the host's product alike. A vector of b entries laid along every one of
  a rows reads entry q at (p, q), whichever way the program spells the broadcast. The rectifier, which
  both programs spell as a select on a comparison with a splat zero, reads the scalar rectifier of the
  specification at every entry.
-/
import proofs.«138996_j84593675862715_1_alg».proof.Proof.RowSpec
import Idealize.ShloMosaic.Lib.Pipeline.Value
import Idealize.ShloMosaic.Lib.ValueLayout
import Idealize.ShloMosaic.Lib.KernelVsHost

noncomputable section

open scoped BigOperators

namespace Cert.Bridge

open Idealize.ShloMosaic Idealize.ShloMosaic.ValueIdx

/-! ## A product contracted over one axis, entry by entry -/

section Contraction
variable {M K N : Nat}

/-- The sum over the contraction index of a product whose dimension numbers contract the left operand's
    axis 1 with the right operand's axis 0, re-indexed by that axis's one coordinate. The two facts
    `hl0`, `hr1` say where the free coordinates go: row p on the left, column q on the right. -/
theorem contr_sum_ix2 (d : DotDims ⟨2, ![M, K]⟩ ⟨2, ![K, N]⟩ ⟨2, ![M, N]⟩)
    (hr : d.contr.rank = 1) (hs : d.contr.size ⟨0, by omega⟩ = K)
    (hlc : d.lhsContracting = [1]) (hrc : d.rhsContracting = [0])
    (hl0 : ∀ j k, (d.lhsIdx j k 0).val = (j 0).val)
    (hr1 : ∀ j k, (d.rhsIdx j k 1).val = (j 1).val)
    (lhs : (⟨2, ![M, K]⟩ : Shape).Idx → EReal) (rhs : (⟨2, ![K, N]⟩ : Shape).Idx → EReal) (p : Fin M) (q : Fin N) :
    ∑ k : d.contr.Idx, lhs (d.lhsIdx (ix2 p q) k) * rhs (d.rhsIdx (ix2 p q) k)
      = ∑ k : Fin K, lhs (ix2 p k) * rhs (ix2 k q) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ => exact hr1 _ _)
  rw [el, er]

variable {φ₁ φ₂ : FTy}

/-- A kernel's matrix product into the zero splat, at entry (p, q). -/
theorem matmul_zero_ix2 (d : DotDims ⟨2, ![M, K]⟩ ⟨2, ![K, N]⟩ ⟨2, ![M, N]⟩)
    (hr : d.contr.rank = 1) (hs : d.contr.size ⟨0, by omega⟩ = K)
    (hlc : d.lhsContracting = [1]) (hrc : d.rhsContracting = [0])
    (hl0 : ∀ j k, (d.lhsIdx j k 0).val = (j 0).val)
    (hr1 : ∀ j k, (d.rhsIdx j k 1).val = (j 1).val)
    (prec : Option ContractPrecision) (lhs : FVec Ideal ⟨2, ![M, K]⟩ φ₁) (rhs : FVec Ideal ⟨2, ![K, N]⟩ φ₂)
    (p : Fin M) (q : Fin N) :
    matmul d prec lhs rhs (constant (F := Ideal) ⟨2, ![M, N]⟩ .f32 0x00000000#32) (ix2 p q)
      = ∑ k : Fin K, lhs (ix2 p k) * rhs (ix2 k q) :=
  (Ideal.matmul_constant_zero_apply d prec lhs rhs (ix2 p q)).trans (contr_sum_ix2 d hr hs hlc hrc hl0 hr1 lhs rhs p q)

/-- The host's matrix product, which has no accumulator, at entry (p, q): the same sum. -/
theorem dotGeneral_ix2 (d : DotDims ⟨2, ![M, K]⟩ ⟨2, ![K, N]⟩ ⟨2, ![M, N]⟩)
    (hr : d.contr.rank = 1) (hs : d.contr.size ⟨0, by omega⟩ = K)
    (hlc : d.lhsContracting = [1]) (hrc : d.rhsContracting = [0])
    (hl0 : ∀ j k, (d.lhsIdx j k 0).val = (j 0).val)
    (hr1 : ∀ j k, (d.rhsIdx j k 1).val = (j 1).val)
    (prec : Option ContractPrecision) (lhs : FVec Ideal ⟨2, ![M, K]⟩ φ₁) (rhs : FVec Ideal ⟨2, ![K, N]⟩ φ₂)
    (p : Fin M) (q : Fin N) :
    Host.dotGeneral d prec lhs rhs (ix2 p q) = ∑ k : Fin K, lhs (ix2 p k) * rhs (ix2 k q) :=
  (Ideal.dotGeneral_apply d prec .single lhs rhs (ix2 p q)).trans (contr_sum_ix2 d hr hs hlc hrc hl0 hr1 lhs rhs p q)

end Contraction

/-! ## A vector laid along every row -/

section Rows
variable {a b : Nat} {α : Type}

/-- The kernel's spelling: the vector cast to one row, the row broadcast down `a` rows. -/
theorem rowBroadcastTo_apply (v : (⟨1, ![b]⟩ : Shape).Idx → α) (h1 : (⟨1, ![b]⟩ : Shape).ShapeCasts ⟨2, ![1, b]⟩)
    (hb : (⟨2, ![1, b]⟩ : Shape).Broadcasts ⟨2, ![a, b]⟩) (p : Fin a) (q : Fin b) :
    broadcastTo ⟨2, ![a, b]⟩ (shapeCast ⟨2, ![1, b]⟩ v h1) hb (ix2 p q) = v (ix1 q) :=
  (broadcastTo_1b_ab_apply _ hb p q).trans (shapeCast_a_1a_apply v h1 0 q)

/-- The host's spelling: the vector broadcast to one row along axis 1, the row broadcast down `a` rows. -/
theorem rowBroadcastInDim_apply (v : (⟨1, ![b]⟩ : Shape).Idx → α)
    (h1 : (⟨1, ![b]⟩ : Shape).BroadcastsInDim ⟨2, ![1, b]⟩ ![1])
    (h2 : (⟨2, ![1, b]⟩ : Shape).BroadcastsInDim ⟨2, ![a, b]⟩ ![0, 1]) (p : Fin a) (q : Fin b) :
    broadcastInDim ⟨2, ![a, b]⟩ ![0, 1] h2 (broadcastInDim ⟨2, ![1, b]⟩ ![1] h1 v) (ix2 p q) = v (ix1 q) := by
  refine (broadcastInDim_oneRow_apply h2 _ p q).trans ?_
  refine broadcastInDim_apply ![1] h1 v (ix2 (0 : Fin 1) q) (ix1 q) fun ax => ?_
  match ax with
  | ⟨0, _⟩ =>
    show q.val = if b = 1 then 0 else q.val
    split
    · have := q.isLt; omega
    · rfl

end Rows

/-! ## The rectifier, entry by entry -/

section Rectifier
variable {s : Shape}

/-- The kernel's spelling: a select on the comparison with a splat of the zero word, the slope a splat too. -/
theorem lrelu_kernel_apply (y : FVec Ideal s .f32) (i : s.Idx) :
    select (cmpf .oge y (broadcast s (Scalar.ofBits (F := Ideal) .f32 0x00000000#32))) y
        (mulf (broadcast s (Scalar.ofBits (F := Ideal) .f32 0x3C23D70A#32)) y) i = lrelu (y i) := rfl

/-- The host's spelling: the zero and the slope are rank-0 constants broadcast in no dimension. -/
theorem lrelu_host_apply {s0 : Shape} (dims : Fin s0.rank → Fin s.rank) (h : s0.BroadcastsInDim s dims)
    (y : FVec Ideal s .f32) (i : s.Idx) :
    select (cmpf .oge y (broadcastInDim s dims h (constant (F := Ideal) s0 .f32 0x00000000#32))) y
        (mulf (broadcastInDim s dims h (id (constant (F := Ideal) s0 .f32 0x3C23D70A#32))) y) i = lrelu (y i) := rfl

end Rectifier

end Cert.Bridge

end
-- ==== Proof.KernelRows.lean ====
/-
  The three kernel bodies' stored values read at one entry, at the ideal float values.

  Each body computes its block from its loads by matrix products into a zero accumulator, vectors laid
  along the rows, pointwise arithmetic and the rectifier; the casts to a sixteen-bit format are the
  identity on extended reals and a cast of a block to its own shape is the identity. Read at entry
  (p, q) of the block, a graph-convolution body's value is the specification's `sageRow` of row p of its
  two input blocks; the scoring body's value at (p, 0) is `mlpRow` of row p of its input block.
-/
import proofs.«138996_j84593675862715_1_alg».proof.Proof.RowOps
import proofs.«138996_j84593675862715_1_alg».proof.Proof.Gen.KernelIdeal.Skeleton

noncomputable section

open scoped BigOperators

namespace Cert.Bridge

open Idealize.ShloMosaic Idealize.ShloMosaic.ValueIdx
open Cert.KernelIdeal

/-! ## The bodies' four matrix products, entry by entry -/

/-- Row p of the result reads row p of the left operand: the left operand's axis 0 is the product's free axis. -/
theorem sageDot_l0 (j : S5000x128.Idx) (k : dot_S5000x128_S128x128_S5000x128_1_0_0_1_n_n.contr.Idx) :
    (dot_S5000x128_S128x128_S5000x128_1_0_0_1_n_n.lhsIdx j k 0).val = (j 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl

/-- Column q of the result reads column q of the right operand. -/
theorem sageDot_r1 (j : S5000x128.Idx) (k : dot_S5000x128_S128x128_S5000x128_1_0_0_1_n_n.contr.Idx) :
    (dot_S5000x128_S128x128_S5000x128_1_0_0_1_n_n.rhsIdx j k 1).val = (j 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- The product of a 5000-row block of features by a 128 × 128 weight matrix, at entry (p, q): the sum over the 128 contracted coordinates. -/
theorem sageDot_apply {φ₁ φ₂ : FTy} (lhs : FVec Ideal S5000x128 φ₁) (rhs : FVec Ideal S128x128 φ₂) (p : Fin 5000) (q : Fin 128) :
    matmul dot_S5000x128_S128x128_S5000x128_1_0_0_1_n_n none lhs rhs (constant (F := Ideal) S5000x128 .f32 0x00000000#32) (ix2 p q)
      = ∑ k : Fin 128, lhs (ix2 p k) * rhs (ix2 k q) :=
  matmul_zero_ix2 dot_S5000x128_S128x128_S5000x128_1_0_0_1_n_n rfl rfl rfl rfl sageDot_l0 sageDot_r1 none lhs rhs p q

/-- Row p of the result reads row p of the left operand: the left operand's axis 0 is the product's free axis. -/
theorem mlpDot0_l0 (j : S2000x64.Idx) (k : dot_S2000x257_S257x64_S2000x64_1_0_0_1_n_n.contr.Idx) :
    (dot_S2000x257_S257x64_S2000x64_1_0_0_1_n_n.lhsIdx j k 0).val = (j 0).val := by
  unfold DotDims.lhsIdx
  rw [dif_neg (show ¬(0 : Fin S2000x257.rank) ∈ dot_S2000x257_S257x64_S2000x64_1_0_0_1_n_n.lhsBatch by decide),
    dif_pos (show (0 : Fin S2000x257.rank) ∈ dot_S2000x257_S257x64_S2000x64_1_0_0_1_n_n.lhsNonContracting by decide)]
  rfl

/-- Column q of the result reads column q of the right operand. -/
theorem mlpDot0_r1 (j : S2000x64.Idx) (k : dot_S2000x257_S257x64_S2000x64_1_0_0_1_n_n.contr.Idx) :
    (dot_S2000x257_S257x64_S2000x64_1_0_0_1_n_n.rhsIdx j k 1).val = (j 1).val := by
  unfold DotDims.rhsIdx
  rw [dif_neg (show ¬(1 : Fin S257x64.rank) ∈ dot_S2000x257_S257x64_S2000x64_1_0_0_1_n_n.rhsBatch by decide),
    dif_pos (show (1 : Fin S257x64.rank) ∈ dot_S2000x257_S257x64_S2000x64_1_0_0_1_n_n.rhsNonContracting by decide)]
  rfl

/-- The product of a 2000-row block of edge features by the first layer's 257 × 64 weights, at entry (p, q): the sum over the 257 contracted coordinates. -/
theorem mlpDot0_apply {φ₁ φ₂ : FTy} (lhs : FVec Ideal S2000x257 φ₁) (rhs : FVec Ideal S257x64 φ₂) (p : Fin 2000) (q : Fin 64) :
    matmul dot_S2000x257_S257x64_S2000x64_1_0_0_1_n_n none lhs rhs (constant (F := Ideal) S2000x64 .f32 0x00000000#32) (ix2 p q)
      = ∑ k : Fin 257, lhs (ix2 p k) * rhs (ix2 k q) :=
  matmul_zero_ix2 dot_S2000x257_S257x64_S2000x64_1_0_0_1_n_n rfl rfl rfl rfl mlpDot0_l0 mlpDot0_r1 none lhs rhs p q

/-- Row p of the result reads row p of the left operand: the left operand's axis 0 is the product's free axis. -/
theorem mlpDot1_l0 (j : S2000x64.Idx) (k : dot_S2000x64_S64x64_S2000x64_1_0_0_1_n_n.contr.Idx) :
    (dot_S2000x64_S64x64_S2000x64_1_0_0_1_n_n.lhsIdx j k 0).val = (j 0).val := by
  unfold DotDims.lhsIdx
  rw [dif_neg (show ¬(0 : Fin S2000x64.rank) ∈ dot_S2000x64_S64x64_S2000x64_1_0_0_1_n_n.lhsBatch by decide),
    dif_pos (show (0 : Fin S2000x64.rank) ∈ dot_S2000x64_S64x64_S2000x64_1_0_0_1_n_n.lhsNonContracting by decide)]
  rfl

/-- Column q of the result reads column q of the right operand. -/
theorem mlpDot1_r1 (j : S2000x64.Idx) (k : dot_S2000x64_S64x64_S2000x64_1_0_0_1_n_n.contr.Idx) :
    (dot_S2000x64_S64x64_S2000x64_1_0_0_1_n_n.rhsIdx j k 1).val = (j 1).val := by
  unfold DotDims.rhsIdx
  rw [dif_neg (show ¬(1 : Fin S64x64.rank) ∈ dot_S2000x64_S64x64_S2000x64_1_0_0_1_n_n.rhsBatch by decide),
    dif_pos (show (1 : Fin S64x64.rank) ∈ dot_S2000x64_S64x64_S2000x64_1_0_0_1_n_n.rhsNonContracting by decide)]
  rfl

/-- The product of the first hidden layer's block by the second layer's 64 × 64 weights, at entry (p, q): the sum over the 64 contracted coordinates. -/
theorem mlpDot1_apply {φ₁ φ₂ : FTy} (lhs : FVec Ideal S2000x64 φ₁) (rhs : FVec Ideal S64x64 φ₂) (p : Fin 2000) (q : Fin 64) :
    matmul dot_S2000x64_S64x64_S2000x64_1_0_0_1_n_n none lhs rhs (constant (F := Ideal) S2000x64 .f32 0x00000000#32) (ix2 p q)
      = ∑ k : Fin 64, lhs (ix2 p k) * rhs (ix2 k q) :=
  matmul_zero_ix2 dot_S2000x64_S64x64_S2000x64_1_0_0_1_n_n rfl rfl rfl rfl mlpDot1_l0 mlpDot1_r1 none lhs rhs p q

/-- Row p of the result reads row p of the left operand: the left operand's axis 0 is the product's free axis. -/
theorem mlpDot2_l0 (j : S2000x1.Idx) (k : dot_S2000x64_S64x1_S2000x1_1_0_0_1_n_n.contr.Idx) :
    (dot_S2000x64_S64x1_S2000x1_1_0_0_1_n_n.lhsIdx j k 0).val = (j 0).val := by
  unfold DotDims.lhsIdx
  rw [dif_neg (show ¬(0 : Fin S2000x64.rank) ∈ dot_S2000x64_S64x1_S2000x1_1_0_0_1_n_n.lhsBatch by decide),
    dif_pos (show (0 : Fin S2000x64.rank) ∈ dot_S2000x64_S64x1_S2000x1_1_0_0_1_n_n.lhsNonContracting by decide)]
  rfl

/-- Column q of the result reads column q of the right operand. -/
theorem mlpDot2_r1 (j : S2000x1.Idx) (k : dot_S2000x64_S64x1_S2000x1_1_0_0_1_n_n.contr.Idx) :
    (dot_S2000x64_S64x1_S2000x1_1_0_0_1_n_n.rhsIdx j k 1).val = (j 1).val := by
  unfold DotDims.rhsIdx
  rw [dif_neg (show ¬(1 : Fin S64x1.rank) ∈ dot_S2000x64_S64x1_S2000x1_1_0_0_1_n_n.rhsBatch by decide),
    dif_pos (show (1 : Fin S64x1.rank) ∈ dot_S2000x64_S64x1_S2000x1_1_0_0_1_n_n.rhsNonContracting by decide)]
  rfl

/-- The product of the second hidden layer's block by the output layer's 64 × 1 weights, at entry (p, q): the sum over the 64 contracted coordinates. -/
theorem mlpDot2_apply {φ₁ φ₂ : FTy} (lhs : FVec Ideal S2000x64 φ₁) (rhs : FVec Ideal S64x1 φ₂) (p : Fin 2000) (q : Fin 1) :
    matmul dot_S2000x64_S64x1_S2000x1_1_0_0_1_n_n none lhs rhs (constant (F := Ideal) S2000x1 .f32 0x00000000#32) (ix2 p q)
      = ∑ k : Fin 64, lhs (ix2 p k) * rhs (ix2 k q) :=
  matmul_zero_ix2 dot_S2000x64_S64x1_S2000x1_1_0_0_1_n_n rfl rfl rfl rfl mlpDot2_l0 mlpDot2_r1 none lhs rhs p q

/-! ## The graph-convolution bodies -/

/-- The first layer's body at entry (p, q) of its block: the specification's entry of row p of the feature block
    `X` and of the neighbour-mean block `A`. (This body casts the neighbour means to their own shape.) -/
theorem k0_pay1_apply (X A : Vec Ideal S5000x128 .f32) (ws wn : Vec Ideal S128x128 .f32)
    (b γ rm rv β : Vec Ideal S128 .f32) (p : Fin 5000) (q : Fin 128) :
    Gen.k0_pay1 X A ws wn b γ rm rv β (ix2 p q)
      = sageRow (fun k => X (ix2 p k)) (fun k => A (ix2 p k)) (fun k q => ws (ix2 k q)) (fun k q => wn (ix2 k q))
          (fun q => b (ix1 q)) (fun q => γ (ix1 q)) (fun q => β (ix1 q)) (fun q => rm (ix1 q)) (fun q => rv (ix1 q)) q := by
  unfold Gen.k0_pay1
  refine (lrelu_kernel_apply _ _).trans ?_
  refine congrArg lrelu ?_
  simp only [addf_apply, mulf_apply, subf_apply, rowBroadcastTo_apply, sageDot_apply, truncf_apply, shapeCast_self]
  rfl

/-- The second layer's body, likewise. (This body casts both input blocks to their own shape.) -/
theorem k1_pay1_apply (X A : Vec Ideal S5000x128 .f32) (ws wn : Vec Ideal S128x128 .f32)
    (b γ rm rv β : Vec Ideal S128 .f32) (p : Fin 5000) (q : Fin 128) :
    Gen.k1_pay1 X A ws wn b γ rm rv β (ix2 p q)
      = sageRow (fun k => X (ix2 p k)) (fun k => A (ix2 p k)) (fun k q => ws (ix2 k q)) (fun k q => wn (ix2 k q))
          (fun q => b (ix1 q)) (fun q => γ (ix1 q)) (fun q => β (ix1 q)) (fun q => rm (ix1 q)) (fun q => rv (ix1 q)) q := by
  unfold Gen.k1_pay1
  refine (lrelu_kernel_apply _ _).trans ?_
  refine congrArg lrelu ?_
  simp only [addf_apply, mulf_apply, subf_apply, rowBroadcastTo_apply, sageDot_apply, truncf_apply, shapeCast_self]
  rfl

/-! ## The scoring body -/

/-- The scoring body at entry (p, 0) of its block: the specification's score of row p of the edge-feature block. -/
theorem k2_pay1_apply (CE : Vec Ideal S2000x257 .f32) (mw0 : Vec Ideal S257x64 .f32) (mb0 : Vec Ideal S64 .f32)
    (mw1 : Vec Ideal S64x64 .f32) (mb1 : Vec Ideal S64 .f32) (mw2 : Vec Ideal S64x1 .f32) (mb2 : Vec Ideal S1 .f32)
    (p : Fin 2000) :
    Gen.k2_pay1 CE mw0 mb0 mw1 mb1 mw2 mb2 (ix2 p (0 : Fin 1))
      = mlpRow (fun k => CE (ix2 p k)) (fun k j => mw0 (ix2 k j)) (fun j => mb0 (ix1 j)) (fun k j => mw1 (ix2 k j))
          (fun j => mb1 (ix1 j)) (fun k j => mw2 (ix2 k j)) (fun j => mb2 (ix1 j)) := by
  unfold Gen.k2_pay1
  simp only [addf_apply, mulf_apply, rowBroadcastTo_apply, mlpDot0_apply, mlpDot1_apply, mlpDot2_apply, truncf_apply,
    shapeCast_self, lrelu_kernel_apply]
  rfl

end Cert.Bridge

end
-- ==== Proof.KISage0Final.lean ====
/-
  From blocks to the array, first graph-convolution region: the array the output window ends holding is ONE function of
  the arrays the region was entered from, entry (i, q) the row specification at row i. Point t of the grid writes rows
  5000·t … 5000·t + 4999; the two row-blocked inputs move with the output, the weights and the five vectors are whole at
  every point; the ten blocks cover the 50000 rows.
-/
import proofs.«138996_j84593675862715_1_alg».proof.Proof.KISage0
import proofs.«138996_j84593675862715_1_alg».proof.Proof.ArrSpec
import proofs.«138996_j84593675862715_1_alg».proof.Proof.KernelRows
import Idealize.ShloMosaic.Lib.Pipeline.Value
import Idealize.ShloMosaic.Lib.ValueIdx

set_option maxRecDepth 16384

noncomputable section

namespace Cert.KernelIdeal.Final.Sage0

open Cert.KernelIdeal Cert.KernelIdeal.Gen Cert.KernelIdeal.Final
open Idealize.ShloMosaic Idealize.ShloMosaic.TcCoe Idealize.ShloMosaic.ValueIdx Idealize.SL.Sem
open Idealize.ShloMosaic.Pipeline (Dat)

/-- The payload of the body's one store, read at entry (p, q) of the block: the row specification at row p of the two
    row blocks. -/
abbrev PaySpec : Prop :=
  ∀ (X A : Vec Ideal S5000x128 .f32) (ws wn : Vec Ideal S128x128 .f32) (b γ β rm rv : Vec Ideal S128 .f32)
    (p : Fin 5000) (q : Fin 128),
    k0_pay1 X A ws wn b γ rm rv β (ix2 p q)
      = Cert.Bridge.sageRow (fun k : Fin 128 => X (ix2 p k)) (fun k : Fin 128 => A (ix2 p k))
          (fun (k q : Fin 128) => ws (ix2 k q)) (fun (k q : Fin 128) => wn (ix2 k q))
          (fun q : Fin 128 => b (ix1 q)) (fun q : Fin 128 => γ (ix1 q)) (fun q : Fin 128 => β (ix1 q))
          (fun q : Fin 128 => rm (ix1 q)) (fun q : Fin 128 => rv (ix1 q)) q

theorem hz2 : (![0, 0] : Fin 2 → Nat) = fun _ => 0 := funext fun a => by fin_cases a <;> rfl
theorem hz1 : (![0] : Fin 1 → Nat) = fun _ => 0 := funext fun a => by fin_cases a <;> rfl

/-- The payload at entry (p, q) of a block whose row p is row r of the arrays, the weights and vectors being the
    arrays': entry (r, q) of the layer's output array. -/
theorem pay_at (hpay : PaySpec) (X A : Vec Ideal S5000x128 .f32) (Ws Wn : Vec Ideal S128x128 .f32)
    (B Γ Bt Rm Rv : Vec Ideal S128 .f32)
    (x agg : S50000x128.Idx → EReal) (ws wn : S128x128.Idx → EReal) (b γ β rm rv : S128.Idx → EReal)
    (r : Fin 50000) (p : Fin 5000) (q : Fin 128)
    (hX : ∀ k : Fin 128, X (ix2 p k) = x (ix2 r k))
    (hA : ∀ k : Fin 128, A (ix2 p k) = agg (ix2 r k))
    (hWs : ∀ k q : Fin 128, Ws (ix2 k q) = ws (ix2 k q)) (hWn : ∀ k q : Fin 128, Wn (ix2 k q) = wn (ix2 k q))
    (hB : ∀ q : Fin 128, B (ix1 q) = b (ix1 q)) (hΓ : ∀ q : Fin 128, Γ (ix1 q) = γ (ix1 q))
    (hBt : ∀ q : Fin 128, Bt (ix1 q) = β (ix1 q)) (hRm : ∀ q : Fin 128, Rm (ix1 q) = rm (ix1 q))
    (hRv : ∀ q : Fin 128, Rv (ix1 q) = rv (ix1 q)) :
    k0_pay1 X A Ws Wn B Γ Rm Rv Bt (ix2 p q) = sageArr x agg ws wn b γ β rm rv (ix2 r q) := by
  rw [hpay]
  show _ = Cert.Bridge.sageRow (fun k : Fin 128 => x (ix2 r k)) (fun k : Fin 128 => agg (ix2 r k))
          (fun (k q : Fin 128) => ws (ix2 k q)) (fun (k q : Fin 128) => wn (ix2 k q))
          (fun q : Fin 128 => b (ix1 q)) (fun q : Fin 128 => γ (ix1 q)) (fun q : Fin 128 => β (ix1 q))
          (fun q : Fin 128 => rm (ix1 q)) (fun q : Fin 128 => rv (ix1 q)) q
  simp only [hX, hA, hWs, hWn, hB, hΓ, hBt, hRm, hRv]

/-- The printed index maps, decided over the grid: the two row-blocked inputs sit at the output's block row, every block
    column is 0, the weights and the vectors are block 0 at every point, and the output's block row is the point. -/
theorem idx_facts : ∀ t : Fin cfg0.N,
    win0_0.index t (0 : Fin 2) = win0_9.index t (0 : Fin 2) ∧ win0_0.index t (1 : Fin 2) = 0
    ∧ win0_1.index t (0 : Fin 2) = win0_9.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0 ∧ win0_5.index t (0 : Fin 1) = 0 ∧ win0_6.index t (0 : Fin 1) = 0
    ∧ win0_7.index t (0 : Fin 1) = 0 ∧ win0_8.index t (0 : Fin 1) = 0
    ∧ win0_9.index t (0 : Fin 2) = t.val ∧ win0_9.index t (1 : Fin 2) = 0 :=
  (by decide +kernel : ∀ t : Fin grid0.N, _)

variable (V : (c : Dev nD) → (b : Ref sig .tc) → Buf (Elt Ideal) ((c : Thread nD τ).loc b))

set_option maxHeartbeats 4000000 in
/-- WHAT POINT `t` WRITES BACK is block `t` of the layer's output array of the arrays as the region finds them. -/
theorem flushed_eq (hpay : PaySpec) (c : Dev nD) (t : Fin cfg0.N) :
    (Sage0.dat (F := Ideal) V c).flushed 9 t = ((cfg0.win 9).blk t).view.read (Elt Ideal)
      (sageArr (V c (Pipeline.arrRef spec0 0)) (V c (Pipeline.arrRef spec0 1)) (V c (Pipeline.arrRef spec0 2))
        (V c (Pipeline.arrRef spec0 3)) (V c (Pipeline.arrRef spec0 4)) (V c (Pipeline.arrRef spec0 5))
        (V c (Pipeline.arrRef spec0 6)) (V c (Pipeline.arrRef spec0 7)) (V c (Pipeline.arrRef spec0 8))) := by
  show (cfg0.win 9).cut (grid0.coords t) ((Sage0.dat V c).after 9 t) = _
  rw [Sage0.after_9]
  unfold Sage0.outBlk
  rw [View.canon_unit_zero hz2]
  simp only [View.ld_unit_zero (S := S5000x128) hz2, View.ld_unit_zero (S := S128x128) hz2, View.ld_unit_zero (S := S128) hz1]
  obtain ⟨e00, e01, e10, e11, e20, e21, e30, e31, e4, e5, e6, e7, e8, e90, e91⟩ := idx_facts t
  funext j
  obtain ⟨p, q, rfl⟩ : ∃ (p : Fin 5000) (q : Fin 128), j = ix2 p q := ⟨j 0, j 1, eq_ix2 j⟩
  show k0_pay1 (Sage0.iblk V c 0 t) (Sage0.iblk V c 1 t) (Sage0.iblk V c 2 t) (Sage0.iblk V c 3 t) (Sage0.iblk V c 4 t)
        (Sage0.iblk V c 5 t) (Sage0.iblk V c 7 t) (Sage0.iblk V c 8 t) (Sage0.iblk V c 6 t) (ix2 p q)
      = sageArr (V c (Pipeline.arrRef spec0 0)) (V c (Pipeline.arrRef spec0 1)) (V c (Pipeline.arrRef spec0 2))
        (V c (Pipeline.arrRef spec0 3)) (V c (Pipeline.arrRef spec0 4)) (V c (Pipeline.arrRef spec0 5))
        (V c (Pipeline.arrRef spec0 6)) (V c (Pipeline.arrRef spec0 7)) (V c (Pipeline.arrRef spec0 8))
        (((cfg0.win 9).blk t).view.emb (ix2 p q))
  obtain ⟨r, q', hi⟩ : ∃ (r : Fin 50000) (q' : Fin 128), ((cfg0.win 9).blk t).view.emb (ix2 p q) = ix2 r q' :=
    ⟨_, _, eq_ix2 _⟩
  have hr : win0_9.index t (0 : Fin 2) * 5000 + 1 * p.val = r.val := congrArg Fin.val (congrFun hi 0)
  have hq : win0_9.index t (1 : Fin 2) * 128 + 1 * q.val = q'.val := congrArg Fin.val (congrFun hi 1)
  rw [hi]
  obtain rfl : q = q' := Fin.ext (by omega)
  refine pay_at hpay _ _ _ _ _ _ _ _ _ _ _ _ _ _ _ _ _ _ r p q ?_ ?_ ?_ ?_ ?_ ?_ ?_ ?_ ?_
  · intro k
    show V c (Pipeline.arrRef spec0 0) (((cfg0.win 0).blk t).view.emb (ix2 p k)) = _
    congr 1; funext a; apply Fin.ext
    match a with
    | ⟨0, _⟩ => show win0_0.index t (0 : Fin 2) * 5000 + 1 * p.val = r.val; omega
    | ⟨1, _⟩ => show win0_0.index t (1 : Fin 2) * 128 + 1 * k.val = k.val; omega
  · intro k
    show V c (Pipeline.arrRef spec0 1) (((cfg0.win 1).blk t).view.emb (ix2 p k)) = _
    congr 1; funext a; apply Fin.ext
    match a with
    | ⟨0, _⟩ => show win0_1.index t (0 : Fin 2) * 5000 + 1 * p.val = r.val; omega
    | ⟨1, _⟩ => show win0_1.index t (1 : Fin 2) * 128 + 1 * k.val = k.val; omega
  · intro k u
    show V c (Pipeline.arrRef spec0 2) (((cfg0.win 2).blk t).view.emb (ix2 k u)) = _
    congr 1; funext a; apply Fin.ext
    match a with
    | ⟨0, _⟩ => show win0_2.index t (0 : Fin 2) * 128 + 1 * k.val = k.val; omega
    | ⟨1, _⟩ => show win0_2.index t (1 : Fin 2) * 128 + 1 * u.val = u.val; omega
  · intro k u
    show V c (Pipeline.arrRef spec0 3) (((cfg0.win 3).blk t).view.emb (ix2 k u)) = _
    congr 1; funext a; apply Fin.ext
    match a with
    | ⟨0, _⟩ => show win0_3.index t (0 : Fin 2) * 128 + 1 * k.val = k.val; omega
    | ⟨1, _⟩ => show win0_3.index t (1 : Fin 2) * 128 + 1 * u.val = u.val; omega
  · intro u
    show V c (Pipeline.arrRef spec0 4) (((cfg0.win 4).blk t).view.emb (ix1 u)) = _
    congr 1; funext a; apply Fin.ext
    match a with
    | ⟨0, _⟩ => show win0_4.index t (0 : Fin 1) * 128 + 1 * u.val = u.val; omega
  · intro u
    show V c (Pipeline.arrRef spec0 5) (((cfg0.win 5).blk t).view.emb (ix1 u)) = _
    congr 1; funext a; apply Fin.ext
    match a with
    | ⟨0, _⟩ => show win0_5.index t (0 : Fin 1) * 128 + 1 * u.val = u.val; omega
  · intro u
    show V c (Pipeline.arrRef spec0 6) (((cfg0.win 6).blk t).view.emb (ix1 u)) = _
    congr 1; funext a; apply Fin.ext
    match a with
    | ⟨0, _⟩ => show win0_6.index t (0 : Fin 1) * 128 + 1 * u.val = u.val; omega
  · intro u
    show V c (Pipeline.arrRef spec0 7) (((cfg0.win 7).blk t).view.emb (ix1 u)) = _
    congr 1; funext a; apply Fin.ext
    match a with
    | ⟨0, _⟩ => show win0_7.index t (0 : Fin 1) * 128 + 1 * u.val = u.val; omega
  · intro u
    show V c (Pipeline.arrRef spec0 8) (((cfg0.win 8).blk t).view.emb (ix1 u)) = _
    congr 1; funext a; apply Fin.ext
    match a with
    | ⟨0, _⟩ => show win0_8.index t (0 : Fin 1) * 128 + 1 * u.val = u.val; omega

/-- An index of the array is in point `t`'s block iff each coordinate is in the block's range on its axis. -/
theorem mem_blk (t : Fin cfg0.N) (i : S50000x128.Idx) :
    i ∈ ((cfg0.win 9).blk t).view.set ↔ ∀ a : Fin 2, win0_9.index t a * S5000x128.size a ≤ (i a).val ∧ (i a).val < win0_9.index t a * S5000x128.size a + S5000x128.size a := by
  show i ∈ ((View.whole main_v19).slice (win0_9.rect t)).set ↔ _
  rw [View.set_slice_whole, Rect.mem_set_unit]
  exact Iff.rfl

/-- The ten blocks cover the array: row r is in the block of point r / 5000. -/
theorem covered (i : S50000x128.Idx) :
    ∃ t : Fin cfg0.N, (cfg0.win 9).flush t = true ∧ i ∈ ((cfg0.win 9).blk t).view.set := by
  have hi0 : (i 0).val < 50000 := (i 0).isLt
  have hi1 : (i 1).val < 128 := (i 1).isLt
  have hN : cfg0.N = 10 := rfl
  let t : Fin cfg0.N := ⟨(i 0).val / 5000, by omega⟩
  obtain ⟨-, -, -, -, -, -, -, -, -, -, -, -, -, e90, e91⟩ := idx_facts t
  have ht : t.val = (i 0).val / 5000 := rfl
  refine ⟨t, flush0_9 t, ?_⟩
  rw [mem_blk]
  intro a
  match a with
  | ⟨0, _⟩ => show win0_9.index t (0 : Fin 2) * 5000 ≤ (i 0).val ∧ (i 0).val < win0_9.index t (0 : Fin 2) * 5000 + 5000; omega
  | ⟨1, _⟩ => show win0_9.index t (1 : Fin 2) * 128 ≤ (i 1).val ∧ (i 1).val < win0_9.index t (1 : Fin 2) * 128 + 128; omega

/-- THE ARRAY the output window ends holding: the layer's output array of the arrays the region was entered from. -/
theorem final (hpay : PaySpec) (c : Dev nD) :
    (Sage0.dat (F := Ideal) V c).arrAt 9 cfg0.N
      = sageArr (V c (Pipeline.arrRef spec0 0)) (V c (Pipeline.arrRef spec0 1)) (V c (Pipeline.arrRef spec0 2))
        (V c (Pipeline.arrRef spec0 3)) (V c (Pipeline.arrRef spec0 4)) (V c (Pipeline.arrRef spec0 5))
        (V c (Pipeline.arrRef spec0 6)) (V c (Pipeline.arrRef spec0 7)) (V c (Pipeline.arrRef spec0 8)) :=
  (Sage0.dat (F := Ideal) V c).arrAt_eq_of_cover 9 _ (fun t _ => flushed_eq V hpay c t) covered

end Cert.KernelIdeal.Final.Sage0

namespace Cert.KernelIdeal.Final

open Cert.KernelIdeal Idealize.ShloMosaic Idealize.ShloMosaic.TcCoe Idealize.SL.Sem

/-- THE ARRAY the first layer's output window ends holding, the payload's value at an index supplied: the layer's output
    array of the arrays the region was entered from. -/
theorem sage0_final (V : (c : Dev nD) → (b : Ref sig .tc) → Buf (Elt Ideal) ((c : Thread nD τ).loc b)) (c : Dev nD) :
    (Cert.KernelIdeal.Sage0.dat (F := Ideal) V c).arrAt 9 cfg0.N
      = sageArr (V c (Pipeline.arrRef spec0 0)) (V c (Pipeline.arrRef spec0 1)) (V c (Pipeline.arrRef spec0 2))
        (V c (Pipeline.arrRef spec0 3)) (V c (Pipeline.arrRef spec0 4)) (V c (Pipeline.arrRef spec0 5))
        (V c (Pipeline.arrRef spec0 6)) (V c (Pipeline.arrRef spec0 7)) (V c (Pipeline.arrRef spec0 8)) :=
  Sage0.final V (fun X A ws wn b γ β rm rv p q => Cert.Bridge.k0_pay1_apply X A ws wn b γ rm rv β p q) c

end Cert.KernelIdeal.Final

end
-- ==== Proof.KISage1Final.lean ====
/-
  From blocks to the array, second graph-convolution region: the array the output window ends holding is ONE function of
  the arrays the region was entered from, entry (i, q) the row specification at row i. Point t of the grid writes rows
  5000·t … 5000·t + 4999; the two row-blocked inputs move with the output, the weights and the five vectors are whole at
  every point; the ten blocks cover the 50000 rows.
-/
import proofs.«138996_j84593675862715_1_alg».proof.Proof.KISage1
import proofs.«138996_j84593675862715_1_alg».proof.Proof.ArrSpec
import proofs.«138996_j84593675862715_1_alg».proof.Proof.KernelRows
import Idealize.ShloMosaic.Lib.Pipeline.Value
import Idealize.ShloMosaic.Lib.ValueIdx

set_option maxRecDepth 16384

noncomputable section

namespace Cert.KernelIdeal.Final.Sage1

open Cert.KernelIdeal Cert.KernelIdeal.Gen Cert.KernelIdeal.Final
open Idealize.ShloMosaic Idealize.ShloMosaic.TcCoe Idealize.ShloMosaic.ValueIdx Idealize.SL.Sem
open Idealize.ShloMosaic.Pipeline (Dat)

/-- The payload of the body's one store, read at entry (p, q) of the block: the row specification at row p of the two
    row blocks. -/
abbrev PaySpec : Prop :=
  ∀ (X A : Vec Ideal S5000x128 .f32) (ws wn : Vec Ideal S128x128 .f32) (b γ β rm rv : Vec Ideal S128 .f32)
    (p : Fin 5000) (q : Fin 128),
    k1_pay1 X A ws wn b γ rm rv β (ix2 p q)
      = Cert.Bridge.sageRow (fun k : Fin 128 => X (ix2 p k)) (fun k : Fin 128 => A (ix2 p k))
          (fun (k q : Fin 128) => ws (ix2 k q)) (fun (k q : Fin 128) => wn (ix2 k q))
          (fun q : Fin 128 => b (ix1 q)) (fun q : Fin 128 => γ (ix1 q)) (fun q : Fin 128 => β (ix1 q))
          (fun q : Fin 128 => rm (ix1 q)) (fun q : Fin 128 => rv (ix1 q)) q

theorem hz2 : (![0, 0] : Fin 2 → Nat) = fun _ => 0 := funext fun a => by fin_cases a <;> rfl
theorem hz1 : (![0] : Fin 1 → Nat) = fun _ => 0 := funext fun a => by fin_cases a <;> rfl

/-- The payload at entry (p, q) of a block whose row p is row r of the arrays, the weights and vectors being the
    arrays': entry (r, q) of the layer's output array. -/
theorem pay_at (hpay : PaySpec) (X A : Vec Ideal S5000x128 .f32) (Ws Wn : Vec Ideal S128x128 .f32)
    (B Γ Bt Rm Rv : Vec Ideal S128 .f32)
    (x agg : S50000x128.Idx → EReal) (ws wn : S128x128.Idx → EReal) (b γ β rm rv : S128.Idx → EReal)
    (r : Fin 50000) (p : Fin 5000) (q : Fin 128)
    (hX : ∀ k : Fin 128, X (ix2 p k) = x (ix2 r k))
    (hA : ∀ k : Fin 128, A (ix2 p k) = agg (ix2 r k))
    (hWs : ∀ k q : Fin 128, Ws (ix2 k q) = ws (ix2 k q)) (hWn : ∀ k q : Fin 128, Wn (ix2 k q) = wn (ix2 k q))
    (hB : ∀ q : Fin 128, B (ix1 q) = b (ix1 q)) (hΓ : ∀ q : Fin 128, Γ (ix1 q) = γ (ix1 q))
    (hBt : ∀ q : Fin 128, Bt (ix1 q) = β (ix1 q)) (hRm : ∀ q : Fin 128, Rm (ix1 q) = rm (ix1 q))
    (hRv : ∀ q : Fin 128, Rv (ix1 q) = rv (ix1 q)) :
    k1_pay1 X A Ws Wn B Γ Rm Rv Bt (ix2 p q) = sageArr x agg ws wn b γ β rm rv (ix2 r q) := by
  rw [hpay]
  show _ = Cert.Bridge.sageRow (fun k : Fin 128 => x (ix2 r k)) (fun k : Fin 128 => agg (ix2 r k))
          (fun (k q : Fin 128) => ws (ix2 k q)) (fun (k q : Fin 128) => wn (ix2 k q))
          (fun q : Fin 128 => b (ix1 q)) (fun q : Fin 128 => γ (ix1 q)) (fun q : Fin 128 => β (ix1 q))
          (fun q : Fin 128 => rm (ix1 q)) (fun q : Fin 128 => rv (ix1 q)) q
  simp only [hX, hA, hWs, hWn, hB, hΓ, hBt, hRm, hRv]

/-- The printed index maps, decided over the grid: the two row-blocked inputs sit at the output's block row, every block
    column is 0, the weights and the vectors are block 0 at every point, and the output's block row is the point. -/
theorem idx_facts : ∀ t : Fin cfg1.N,
    win1_0.index t (0 : Fin 2) = win1_9.index t (0 : Fin 2) ∧ win1_0.index t (1 : Fin 2) = 0
    ∧ win1_1.index t (0 : Fin 2) = win1_9.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0 ∧ win1_5.index t (0 : Fin 1) = 0 ∧ win1_6.index t (0 : Fin 1) = 0
    ∧ win1_7.index t (0 : Fin 1) = 0 ∧ win1_8.index t (0 : Fin 1) = 0
    ∧ win1_9.index t (0 : Fin 2) = t.val ∧ win1_9.index t (1 : Fin 2) = 0 :=
  (by decide +kernel : ∀ t : Fin grid1.N, _)

variable (V : (c : Dev nD) → (b : Ref sig .tc) → Buf (Elt Ideal) ((c : Thread nD τ).loc b))

set_option maxHeartbeats 4000000 in
/-- WHAT POINT `t` WRITES BACK is block `t` of the layer's output array of the arrays as the region finds them. -/
theorem flushed_eq (hpay : PaySpec) (c : Dev nD) (t : Fin cfg1.N) :
    (Sage1.dat (F := Ideal) V c).flushed 9 t = ((cfg1.win 9).blk t).view.read (Elt Ideal)
      (sageArr (V c (Pipeline.arrRef spec1 0)) (V c (Pipeline.arrRef spec1 1)) (V c (Pipeline.arrRef spec1 2))
        (V c (Pipeline.arrRef spec1 3)) (V c (Pipeline.arrRef spec1 4)) (V c (Pipeline.arrRef spec1 5))
        (V c (Pipeline.arrRef spec1 6)) (V c (Pipeline.arrRef spec1 7)) (V c (Pipeline.arrRef spec1 8))) := by
  show (cfg1.win 9).cut (grid1.coords t) ((Sage1.dat V c).after 9 t) = _
  rw [Sage1.after_9]
  unfold Sage1.outBlk
  rw [View.canon_unit_zero hz2]
  simp only [View.ld_unit_zero (S := S5000x128) hz2, View.ld_unit_zero (S := S128x128) hz2, View.ld_unit_zero (S := S128) hz1]
  obtain ⟨e00, e01, e10, e11, e20, e21, e30, e31, e4, e5, e6, e7, e8, e90, e91⟩ := idx_facts t
  funext j
  obtain ⟨p, q, rfl⟩ : ∃ (p : Fin 5000) (q : Fin 128), j = ix2 p q := ⟨j 0, j 1, eq_ix2 j⟩
  show k1_pay1 (Sage1.iblk V c 0 t) (Sage1.iblk V c 1 t) (Sage1.iblk V c 2 t) (Sage1.iblk V c 3 t) (Sage1.iblk V c 4 t)
        (Sage1.iblk V c 5 t) (Sage1.iblk V c 7 t) (Sage1.iblk V c 8 t) (Sage1.iblk V c 6 t) (ix2 p q)
      = sageArr (V c (Pipeline.arrRef spec1 0)) (V c (Pipeline.arrRef spec1 1)) (V c (Pipeline.arrRef spec1 2))
        (V c (Pipeline.arrRef spec1 3)) (V c (Pipeline.arrRef spec1 4)) (V c (Pipeline.arrRef spec1 5))
        (V c (Pipeline.arrRef spec1 6)) (V c (Pipeline.arrRef spec1 7)) (V c (Pipeline.arrRef spec1 8))
        (((cfg1.win 9).blk t).view.emb (ix2 p q))
  obtain ⟨r, q', hi⟩ : ∃ (r : Fin 50000) (q' : Fin 128), ((cfg1.win 9).blk t).view.emb (ix2 p q) = ix2 r q' :=
    ⟨_, _, eq_ix2 _⟩
  have hr : win1_9.index t (0 : Fin 2) * 5000 + 1 * p.val = r.val := congrArg Fin.val (congrFun hi 0)
  have hq : win1_9.index t (1 : Fin 2) * 128 + 1 * q.val = q'.val := congrArg Fin.val (congrFun hi 1)
  rw [hi]
  obtain rfl : q = q' := Fin.ext (by omega)
  refine pay_at hpay _ _ _ _ _ _ _ _ _ _ _ _ _ _ _ _ _ _ r p q ?_ ?_ ?_ ?_ ?_ ?_ ?_ ?_ ?_
  · intro k
    show V c (Pipeline.arrRef spec1 0) (((cfg1.win 0).blk t).view.emb (ix2 p k)) = _
    congr 1; funext a; apply Fin.ext
    match a with
    | ⟨0, _⟩ => show win1_0.index t (0 : Fin 2) * 5000 + 1 * p.val = r.val; omega
    | ⟨1, _⟩ => show win1_0.index t (1 : Fin 2) * 128 + 1 * k.val = k.val; omega
  · intro k
    show V c (Pipeline.arrRef spec1 1) (((cfg1.win 1).blk t).view.emb (ix2 p k)) = _
    congr 1; funext a; apply Fin.ext
    match a with
    | ⟨0, _⟩ => show win1_1.index t (0 : Fin 2) * 5000 + 1 * p.val = r.val; omega
    | ⟨1, _⟩ => show win1_1.index t (1 : Fin 2) * 128 + 1 * k.val = k.val; omega
  · intro k u
    show V c (Pipeline.arrRef spec1 2) (((cfg1.win 2).blk t).view.emb (ix2 k u)) = _
    congr 1; funext a; apply Fin.ext
    match a with
    | ⟨0, _⟩ => show win1_2.index t (0 : Fin 2) * 128 + 1 * k.val = k.val; omega
    | ⟨1, _⟩ => show win1_2.index t (1 : Fin 2) * 128 + 1 * u.val = u.val; omega
  · intro k u
    show V c (Pipeline.arrRef spec1 3) (((cfg1.win 3).blk t).view.emb (ix2 k u)) = _
    congr 1; funext a; apply Fin.ext
    match a with
    | ⟨0, _⟩ => show win1_3.index t (0 : Fin 2) * 128 + 1 * k.val = k.val; omega
    | ⟨1, _⟩ => show win1_3.index t (1 : Fin 2) * 128 + 1 * u.val = u.val; omega
  · intro u
    show V c (Pipeline.arrRef spec1 4) (((cfg1.win 4).blk t).view.emb (ix1 u)) = _
    congr 1; funext a; apply Fin.ext
    match a with
    | ⟨0, _⟩ => show win1_4.index t (0 : Fin 1) * 128 + 1 * u.val = u.val; omega
  · intro u
    show V c (Pipeline.arrRef spec1 5) (((cfg1.win 5).blk t).view.emb (ix1 u)) = _
    congr 1; funext a; apply Fin.ext
    match a with
    | ⟨0, _⟩ => show win1_5.index t (0 : Fin 1) * 128 + 1 * u.val = u.val; omega
  · intro u
    show V c (Pipeline.arrRef spec1 6) (((cfg1.win 6).blk t).view.emb (ix1 u)) = _
    congr 1; funext a; apply Fin.ext
    match a with
    | ⟨0, _⟩ => show win1_6.index t (0 : Fin 1) * 128 + 1 * u.val = u.val; omega
  · intro u
    show V c (Pipeline.arrRef spec1 7) (((cfg1.win 7).blk t).view.emb (ix1 u)) = _
    congr 1; funext a; apply Fin.ext
    match a with
    | ⟨0, _⟩ => show win1_7.index t (0 : Fin 1) * 128 + 1 * u.val = u.val; omega
  · intro u
    show V c (Pipeline.arrRef spec1 8) (((cfg1.win 8).blk t).view.emb (ix1 u)) = _
    congr 1; funext a; apply Fin.ext
    match a with
    | ⟨0, _⟩ => show win1_8.index t (0 : Fin 1) * 128 + 1 * u.val = u.val; omega

/-- An index of the array is in point `t`'s block iff each coordinate is in the block's range on its axis. -/
theorem mem_blk (t : Fin cfg1.N) (i : S50000x128.Idx) :
    i ∈ ((cfg1.win 9).blk t).view.set ↔ ∀ a : Fin 2, win1_9.index t a * S5000x128.size a ≤ (i a).val ∧ (i a).val < win1_9.index t a * S5000x128.size a + S5000x128.size a := by
  show i ∈ ((View.whole main_v39).slice (win1_9.rect t)).set ↔ _
  rw [View.set_slice_whole, Rect.mem_set_unit]
  exact Iff.rfl

/-- The ten blocks cover the array: row r is in the block of point r / 5000. -/
theorem covered (i : S50000x128.Idx) :
    ∃ t : Fin cfg1.N, (cfg1.win 9).flush t = true ∧ i ∈ ((cfg1.win 9).blk t).view.set := by
  have hi0 : (i 0).val < 50000 := (i 0).isLt
  have hi1 : (i 1).val < 128 := (i 1).isLt
  have hN : cfg1.N = 10 := rfl
  let t : Fin cfg1.N := ⟨(i 0).val / 5000, by omega⟩
  obtain ⟨-, -, -, -, -, -, -, -, -, -, -, -, -, e90, e91⟩ := idx_facts t
  have ht : t.val = (i 0).val / 5000 := rfl
  refine ⟨t, flush1_9 t, ?_⟩
  rw [mem_blk]
  intro a
  match a with
  | ⟨0, _⟩ => show win1_9.index t (0 : Fin 2) * 5000 ≤ (i 0).val ∧ (i 0).val < win1_9.index t (0 : Fin 2) * 5000 + 5000; omega
  | ⟨1, _⟩ => show win1_9.index t (1 : Fin 2) * 128 ≤ (i 1).val ∧ (i 1).val < win1_9.index t (1 : Fin 2) * 128 + 128; omega

/-- THE ARRAY the output window ends holding: the layer's output array of the arrays the region was entered from. -/
theorem final (hpay : PaySpec) (c : Dev nD) :
    (Sage1.dat (F := Ideal) V c).arrAt 9 cfg1.N
      = sageArr (V c (Pipeline.arrRef spec1 0)) (V c (Pipeline.arrRef spec1 1)) (V c (Pipeline.arrRef spec1 2))
        (V c (Pipeline.arrRef spec1 3)) (V c (Pipeline.arrRef spec1 4)) (V c (Pipeline.arrRef spec1 5))
        (V c (Pipeline.arrRef spec1 6)) (V c (Pipeline.arrRef spec1 7)) (V c (Pipeline.arrRef spec1 8)) :=
  (Sage1.dat (F := Ideal) V c).arrAt_eq_of_cover 9 _ (fun t _ => flushed_eq V hpay c t) covered

end Cert.KernelIdeal.Final.Sage1

namespace Cert.KernelIdeal.Final

open Cert.KernelIdeal Idealize.ShloMosaic Idealize.ShloMosaic.TcCoe Idealize.SL.Sem

/-- THE ARRAY the second layer's output window ends holding, the payload's value at an index supplied: the layer's output
    array of the arrays the region was entered from. -/
theorem sage1_final (V : (c : Dev nD) → (b : Ref sig .tc) → Buf (Elt Ideal) ((c : Thread nD τ).loc b)) (c : Dev nD) :
    (Cert.KernelIdeal.Sage1.dat (F := Ideal) V c).arrAt 9 cfg1.N
      = sageArr (V c (Pipeline.arrRef spec1 0)) (V c (Pipeline.arrRef spec1 1)) (V c (Pipeline.arrRef spec1 2))
        (V c (Pipeline.arrRef spec1 3)) (V c (Pipeline.arrRef spec1 4)) (V c (Pipeline.arrRef spec1 5))
        (V c (Pipeline.arrRef spec1 6)) (V c (Pipeline.arrRef spec1 7)) (V c (Pipeline.arrRef spec1 8)) :=
  Sage1.final V (fun X A ws wn b γ β rm rv p q => Cert.Bridge.k1_pay1_apply X A ws wn b γ rm rv β p q) c

end Cert.KernelIdeal.Final

end
-- ==== Proof.KIMlpFinal.lean ====
/-
  From blocks to the array, the scoring head's region: the column the output window ends holding is ONE function of the
  arrays the region was entered from, entry (i, 0) the row specification at row i of the edge features. Point t of the
  grid writes rows 2000·t … 2000·t + 1999; the edge features move with the output, the three weight matrices and the
  three biases are whole at every point; the fifty blocks cover the 100000 rows.
-/
import proofs.«138996_j84593675862715_1_alg».proof.Proof.KIMlp
import proofs.«138996_j84593675862715_1_alg».proof.Proof.ArrSpec
import proofs.«138996_j84593675862715_1_alg».proof.Proof.KernelRows
import Idealize.ShloMosaic.Lib.Pipeline.Value
import Idealize.ShloMosaic.Lib.ValueIdx

set_option maxRecDepth 16384

noncomputable section

namespace Cert.KernelIdeal.Final.Mlp

open Cert.KernelIdeal Cert.KernelIdeal.Gen Cert.KernelIdeal.Final
open Idealize.ShloMosaic Idealize.ShloMosaic.TcCoe Idealize.ShloMosaic.ValueIdx Idealize.SL.Sem
open Idealize.ShloMosaic.Pipeline (Dat)

/-- The payload of the body's one store, read at entry (p, 0) of the block: the row specification at row p of the
    block of edge features. -/
abbrev PaySpec : Prop :=
  ∀ (CE : Vec Ideal S2000x257 .f32) (mw0 : Vec Ideal S257x64 .f32) (mb0 : Vec Ideal S64 .f32)
    (mw1 : Vec Ideal S64x64 .f32) (mb1 : Vec Ideal S64 .f32) (mw2 : Vec Ideal S64x1 .f32) (mb2 : Vec Ideal S1 .f32)
    (p : Fin 2000),
    k2_pay1 CE mw0 mb0 mw1 mb1 mw2 mb2 (ix2 p (0 : Fin 1))
      = Cert.Bridge.mlpRow (fun k : Fin 257 => CE (ix2 p k))
          (fun (k : Fin 257) (j : Fin 64) => mw0 (ix2 k j)) (fun j : Fin 64 => mb0 (ix1 j))
          (fun (k j : Fin 64) => mw1 (ix2 k j)) (fun j : Fin 64 => mb1 (ix1 j))
          (fun (k : Fin 64) (j : Fin 1) => mw2 (ix2 k j)) (fun j : Fin 1 => mb2 (ix1 j))

theorem hz2 : (![0, 0] : Fin 2 → Nat) = fun _ => 0 := funext fun a => by fin_cases a <;> rfl
theorem hz1 : (![0] : Fin 1 → Nat) = fun _ => 0 := funext fun a => by fin_cases a <;> rfl

/-- The payload at entry (p, q) of a block whose row p is row r of the edge features, the weights and biases being the
    arrays': entry (r, q) of the scoring head's output column. -/
theorem pay_at (hpay : PaySpec) (CE : Vec Ideal S2000x257 .f32) (W0 : Vec Ideal S257x64 .f32) (B0 : Vec Ideal S64 .f32)
    (W1 : Vec Ideal S64x64 .f32) (B1 : Vec Ideal S64 .f32) (W2 : Vec Ideal S64x1 .f32) (B2 : Vec Ideal S1 .f32)
    (ce : S100000x257.Idx → EReal) (mw0 : S257x64.Idx → EReal) (mb0 : S64.Idx → EReal)
    (mw1 : S64x64.Idx → EReal) (mb1 : S64.Idx → EReal) (mw2 : S64x1.Idx → EReal) (mb2 : S1.Idx → EReal)
    (r : Fin 100000) (p : Fin 2000) (q : Fin 1)
    (hCE : ∀ k : Fin 257, CE (ix2 p k) = ce (ix2 r k))
    (hW0 : ∀ (k : Fin 257) (j : Fin 64), W0 (ix2 k j) = mw0 (ix2 k j)) (hB0 : ∀ j : Fin 64, B0 (ix1 j) = mb0 (ix1 j))
    (hW1 : ∀ k j : Fin 64, W1 (ix2 k j) = mw1 (ix2 k j)) (hB1 : ∀ j : Fin 64, B1 (ix1 j) = mb1 (ix1 j))
    (hW2 : ∀ (k : Fin 64) (j : Fin 1), W2 (ix2 k j) = mw2 (ix2 k j)) (hB2 : ∀ j : Fin 1, B2 (ix1 j) = mb2 (ix1 j)) :
    k2_pay1 CE W0 B0 W1 B1 W2 B2 (ix2 p q) = mlpArr ce mw0 mb0 mw1 mb1 mw2 mb2 (ix2 r q) := by
  obtain rfl : q = 0 := Subsingleton.elim _ _
  rw [hpay]
  show _ = Cert.Bridge.mlpRow (fun k : Fin 257 => ce (ix2 r k))
          (fun (k : Fin 257) (j : Fin 64) => mw0 (ix2 k j)) (fun j : Fin 64 => mb0 (ix1 j))
          (fun (k j : Fin 64) => mw1 (ix2 k j)) (fun j : Fin 64 => mb1 (ix1 j))
          (fun (k : Fin 64) (j : Fin 1) => mw2 (ix2 k j)) (fun j : Fin 1 => mb2 (ix1 j))
  simp only [hCE, hW0, hB0, hW1, hB1, hW2, hB2]

/-- The printed index maps, decided over the grid: the edge features sit at the output's block row, every block column
    is 0, the weights and the biases are block 0 at every point, and the output's block row is the point. -/
theorem idx_facts : ∀ t : Fin cfg2.N,
    win2_0.index t (0 : Fin 2) = win2_7.index t (0 : Fin 2) ∧ win2_0.index t (1 : Fin 2) = 0
    ∧ win2_1.index t (0 : Fin 2) = 0 ∧ win2_1.index t (1 : Fin 2) = 0
    ∧ win2_2.index t (0 : Fin 1) = 0
    ∧ win2_3.index t (0 : Fin 2) = 0 ∧ win2_3.index t (1 : Fin 2) = 0
    ∧ win2_4.index t (0 : Fin 1) = 0
    ∧ win2_5.index t (0 : Fin 2) = 0 ∧ win2_5.index t (1 : Fin 2) = 0
    ∧ win2_6.index t (0 : Fin 1) = 0
    ∧ win2_7.index t (0 : Fin 2) = t.val ∧ win2_7.index t (1 : Fin 2) = 0 :=
  (by decide +kernel : ∀ t : Fin grid2.N, _)

variable (V : (c : Dev nD) → (b : Ref sig .tc) → Buf (Elt Ideal) ((c : Thread nD τ).loc b))

set_option maxHeartbeats 4000000 in
/-- WHAT POINT `t` WRITES BACK is block `t` of the scoring head's output column of the arrays as the region finds them. -/
theorem flushed_eq (hpay : PaySpec) (c : Dev nD) (t : Fin cfg2.N) :
    (Mlp.dat (F := Ideal) V c).flushed 7 t = ((cfg2.win 7).blk t).view.read (Elt Ideal)
      (mlpArr (V c (Pipeline.arrRef spec2 0)) (V c (Pipeline.arrRef spec2 1)) (V c (Pipeline.arrRef spec2 2))
        (V c (Pipeline.arrRef spec2 3)) (V c (Pipeline.arrRef spec2 4)) (V c (Pipeline.arrRef spec2 5)) (V c (Pipeline.arrRef spec2 6))) := by
  show (cfg2.win 7).cut (grid2.coords t) ((Mlp.dat V c).after 7 t) = _
  rw [Mlp.after_7]
  unfold Mlp.outBlk
  rw [View.canon_unit_zero hz2]
  simp only [View.ld_unit_zero (S := S2000x257) hz2, View.ld_unit_zero (S := S257x64) hz2, View.ld_unit_zero (S := S64x64) hz2,
    View.ld_unit_zero (S := S64x1) hz2, View.ld_unit_zero (S := S64) hz1, View.ld_unit_zero (S := S1) hz1]
  obtain ⟨e00, e01, e10, e11, e2, e30, e31, e4, e50, e51, e6, e70, e71⟩ := idx_facts t
  funext j
  obtain ⟨p, q, rfl⟩ : ∃ (p : Fin 2000) (q : Fin 1), j = ix2 p q := ⟨j 0, j 1, eq_ix2 j⟩
  show k2_pay1 (Mlp.iblk V c 0 t) (Mlp.iblk V c 1 t) (Mlp.iblk V c 2 t) (Mlp.iblk V c 3 t) (Mlp.iblk V c 4 t)
        (Mlp.iblk V c 5 t) (Mlp.iblk V c 6 t) (ix2 p q)
      = mlpArr (V c (Pipeline.arrRef spec2 0)) (V c (Pipeline.arrRef spec2 1)) (V c (Pipeline.arrRef spec2 2))
        (V c (Pipeline.arrRef spec2 3)) (V c (Pipeline.arrRef spec2 4)) (V c (Pipeline.arrRef spec2 5)) (V c (Pipeline.arrRef spec2 6))
        (((cfg2.win 7).blk t).view.emb (ix2 p q))
  obtain ⟨r, q', hi⟩ : ∃ (r : Fin 100000) (q' : Fin 1), ((cfg2.win 7).blk t).view.emb (ix2 p q) = ix2 r q' :=
    ⟨_, _, eq_ix2 _⟩
  have hr : win2_7.index t (0 : Fin 2) * 2000 + 1 * p.val = r.val := congrArg Fin.val (congrFun hi 0)
  rw [hi]
  obtain rfl : q = q' := Subsingleton.elim _ _
  refine pay_at hpay _ _ _ _ _ _ _ _ _ _ _ _ _ _ r p q ?_ ?_ ?_ ?_ ?_ ?_ ?_
  · intro k
    show V c (Pipeline.arrRef spec2 0) (((cfg2.win 0).blk t).view.emb (ix2 p k)) = _
    congr 1; funext a; apply Fin.ext
    match a with
    | ⟨0, _⟩ => show win2_0.index t (0 : Fin 2) * 2000 + 1 * p.val = r.val; omega
    | ⟨1, _⟩ => show win2_0.index t (1 : Fin 2) * 257 + 1 * k.val = k.val; omega
  · intro k u
    show V c (Pipeline.arrRef spec2 1) (((cfg2.win 1).blk t).view.emb (ix2 k u)) = _
    congr 1; funext a; apply Fin.ext
    match a with
    | ⟨0, _⟩ => show win2_1.index t (0 : Fin 2) * 257 + 1 * k.val = k.val; omega
    | ⟨1, _⟩ => show win2_1.index t (1 : Fin 2) * 64 + 1 * u.val = u.val; omega
  · intro u
    show V c (Pipeline.arrRef spec2 2) (((cfg2.win 2).blk t).view.emb (ix1 u)) = _
    congr 1; funext a; apply Fin.ext
    match a with
    | ⟨0, _⟩ => show win2_2.index t (0 : Fin 1) * 64 + 1 * u.val = u.val; omega
  · intro k u
    show V c (Pipeline.arrRef spec2 3) (((cfg2.win 3).blk t).view.emb (ix2 k u)) = _
    congr 1; funext a; apply Fin.ext
    match a with
    | ⟨0, _⟩ => show win2_3.index t (0 : Fin 2) * 64 + 1 * k.val = k.val; omega
    | ⟨1, _⟩ => show win2_3.index t (1 : Fin 2) * 64 + 1 * u.val = u.val; omega
  · intro u
    show V c (Pipeline.arrRef spec2 4) (((cfg2.win 4).blk t).view.emb (ix1 u)) = _
    congr 1; funext a; apply Fin.ext
    match a with
    | ⟨0, _⟩ => show win2_4.index t (0 : Fin 1) * 64 + 1 * u.val = u.val; omega
  · intro k u
    show V c (Pipeline.arrRef spec2 5) (((cfg2.win 5).blk t).view.emb (ix2 k u)) = _
    congr 1; funext a; apply Fin.ext
    match a with
    | ⟨0, _⟩ => show win2_5.index t (0 : Fin 2) * 64 + 1 * k.val = k.val; omega
    | ⟨1, _⟩ => show win2_5.index t (1 : Fin 2) * 1 + 1 * u.val = u.val; omega
  · intro u
    show V c (Pipeline.arrRef spec2 6) (((cfg2.win 6).blk t).view.emb (ix1 u)) = _
    congr 1; funext a; apply Fin.ext
    match a with
    | ⟨0, _⟩ => show win2_6.index t (0 : Fin 1) * 1 + 1 * u.val = u.val; omega

/-- An index of the array is in point `t`'s block iff each coordinate is in the block's range on its axis. -/
theorem mem_blk (t : Fin cfg2.N) (i : S100000x1.Idx) :
    i ∈ ((cfg2.win 7).blk t).view.set ↔ ∀ a : Fin 2, win2_7.index t a * S2000x1.size a ≤ (i a).val ∧ (i a).val < win2_7.index t a * S2000x1.size a + S2000x1.size a := by
  show i ∈ ((View.whole main_v63).slice (win2_7.rect t)).set ↔ _
  rw [View.set_slice_whole, Rect.mem_set_unit]
  exact Iff.rfl

/-- The fifty blocks cover the column: row r is in the block of point r / 2000. -/
theorem covered (i : S100000x1.Idx) :
    ∃ t : Fin cfg2.N, (cfg2.win 7).flush t = true ∧ i ∈ ((cfg2.win 7).blk t).view.set := by
  have hi0 : (i 0).val < 100000 := (i 0).isLt
  have hi1 : (i 1).val < 1 := (i 1).isLt
  have hN : cfg2.N = 50 := rfl
  let t : Fin cfg2.N := ⟨(i 0).val / 2000, by omega⟩
  obtain ⟨-, -, -, -, -, -, -, -, -, -, -, e70, e71⟩ := idx_facts t
  have ht : t.val = (i 0).val / 2000 := rfl
  refine ⟨t, flush2_7 t, ?_⟩
  rw [mem_blk]
  intro a
  match a with
  | ⟨0, _⟩ => show win2_7.index t (0 : Fin 2) * 2000 ≤ (i 0).val ∧ (i 0).val < win2_7.index t (0 : Fin 2) * 2000 + 2000; omega
  | ⟨1, _⟩ => show win2_7.index t (1 : Fin 2) * 1 ≤ (i 1).val ∧ (i 1).val < win2_7.index t (1 : Fin 2) * 1 + 1; omega

/-- THE ARRAY the output window ends holding: the scoring head's output column of the arrays the region was entered from. -/
theorem final (hpay : PaySpec) (c : Dev nD) :
    (Mlp.dat (F := Ideal) V c).arrAt 7 cfg2.N
      = mlpArr (V c (Pipeline.arrRef spec2 0)) (V c (Pipeline.arrRef spec2 1)) (V c (Pipeline.arrRef spec2 2))
        (V c (Pipeline.arrRef spec2 3)) (V c (Pipeline.arrRef spec2 4)) (V c (Pipeline.arrRef spec2 5)) (V c (Pipeline.arrRef spec2 6)) :=
  (Mlp.dat (F := Ideal) V c).arrAt_eq_of_cover 7 _ (fun t _ => flushed_eq V hpay c t) covered

end Cert.KernelIdeal.Final.Mlp

namespace Cert.KernelIdeal.Final

open Cert.KernelIdeal Idealize.ShloMosaic Idealize.ShloMosaic.TcCoe Idealize.SL.Sem

/-- THE ARRAY the scoring head's output window ends holding, the payload's value at an index supplied: the head's output
    column of the arrays the region was entered from. -/
theorem mlp_final (V : (c : Dev nD) → (b : Ref sig .tc) → Buf (Elt Ideal) ((c : Thread nD τ).loc b)) (c : Dev nD) :
    (Cert.KernelIdeal.Mlp.dat (F := Ideal) V c).arrAt 7 cfg2.N
      = mlpArr (V c (Pipeline.arrRef spec2 0)) (V c (Pipeline.arrRef spec2 1)) (V c (Pipeline.arrRef spec2 2))
        (V c (Pipeline.arrRef spec2 3)) (V c (Pipeline.arrRef spec2 4)) (V c (Pipeline.arrRef spec2 5)) (V c (Pipeline.arrRef spec2 6)) :=
  Mlp.final V (fun CE mw0 mb0 mw1 mb1 mw2 mb2 p => Cert.Bridge.k2_pay1_apply CE mw0 mb0 mw1 mb1 mw2 mb2 p) c

end Cert.KernelIdeal.Final

end
-- ==== Proof.RefStages.lean ====
import proofs.«138996_j84593675862715_1_alg».proof.Proof.RefRun

set_option maxRecDepth 4096

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## Each result from its operands, read off the final contents

The line is in single-assignment form: every operation writes one buffer that no other operation writes, and reads
buffers written earlier (or never). So the contents after the WHOLE line satisfy each operation's equation: the result
buffer holds the operation's function of what the operand buffers hold — all read at the end. -/

/-- Operation by operation, the line `l` writes exactly the buffers of the references `ws`. -/
def Aligned (l : List (HloOp τ sig (Elt F))) (ws : List (Ref sig .tc)) : Prop :=
  List.Forall₂ (fun op y => op.writes = {Proc.devRef (τ := τ) .tc y}) l ws

theorem Aligned.not_written {l : List (HloOp τ sig (Elt F))} {ws : List (Ref sig .tc)} (h : Aligned l ws)
    {r : Ref sig .tc} (hr : r ∉ ws) : ∀ op ∈ l, Proc.devRef (τ := τ) .tc r ∉ op.writes := by
  induction h with
  | nil => intro op hop; cases hop
  | @cons op y l ws hab _ ih =>
    intro o ho
    rcases List.mem_cons.mp ho with rfl | ho
    · rw [hab, Finset.mem_singleton]
      exact fun e => hr (Proc.devRef_injective _ e ▸ List.mem_cons_self)
    · exact ih (fun hm => hr (List.mem_cons_of_mem _ hm)) o ho

/-- A buffer whose reference is not among the written ones keeps its contents. -/
theorem Aligned.after_of_not_mem {l : List (HloOp τ sig (Elt F))} {ws : List (Ref sig .tc)} (h : Aligned l ws)
    (V : Valuation τ sig (Elt F)) {r : Ref sig .tc} (hr : r ∉ ws) :
    after l V (Proc.devRef .tc r) = V (Proc.devRef .tc r) :=
  after_of_forall_not_mem l V (h.not_written hr)

/-- Two lines one after the other. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- Around the `k`-th operation: a buffer no later operation writes holds at the end what it held just after that
    operation, and one that neither it nor a later one writes, what it held just before. -/
theorem stage_core {l : List (HloOp τ sig (Elt F))} {ws : List (Ref sig .tc)} (hA : Aligned l ws) (k : Nat)
    (op : HloOp τ sig (Elt F)) (hk : l[k]? = some op) (V : Valuation τ sig (Elt F)) :
    ∃ U : Valuation τ sig (Elt F),
      (∀ r : Ref sig .tc, r ∉ ws.drop (k + 1) → after l V (Proc.devRef .tc r) = op.result U (Proc.devRef .tc r))
      ∧ (∀ r : Ref sig .tc, r ∉ ws.drop k → after l V (Proc.devRef .tc r) = U (Proc.devRef .tc r)) := by
  obtain ⟨hlt, rfl⟩ := List.getElem?_eq_some_iff.mp hk
  have hd : l.drop k = l[k] :: l.drop (k + 1) := List.drop_eq_getElem_cons hlt
  have e0 : after l V = after (l.drop k) (after (l.take k) V) := by
    rw [← after_app, List.take_append_drop]
  have e1 : after l V = after (l.drop (k + 1)) ((l[k]).result (after (l.take k) V)) := by
    rw [e0, hd, after_cons]
  have hA1 : Aligned (l.drop (k + 1)) (ws.drop (k + 1)) := List.forall₂_drop (k + 1) hA
  have hA0 : Aligned (l.drop k) (ws.drop k) := List.forall₂_drop k hA
  refine ⟨after (l.take k) V, fun r hr => ?_, fun r hr => ?_⟩
  · rw [e1]; exact hA1.after_of_not_mem _ hr
  · rw [e0]; exact hA0.after_of_not_mem _ hr

/-! ### The line's alignment -/

/-- The written references of the three windows. -/
abbrev W0 : List (Ref sig .tc) := [main_c, main_v0, main_v1, main_c_0, main_v2, main_v3, main_v4, main_v5, main_v6, main_cst,
  main_v7, main_v8, main_v9, main_cst_1, main_v10, main_cst_2, main_v11, main_v12, main_v13, main_cst_3,
  main_v14, main_v15, main_v16, main_v17, main_v18, main_v19, main_v20, main_v21, main_v22, main_v23,
  main_v24, main_v25, main_v26, main_v27, main_v28, main_v29, main_v30, main_cst_4, main_v31, main_v32,
  main_v33, main_v34, main_v35, main_v36, main_v37, main_v38, main_v39, main_cst_5, main_call0_cst, main_call0_v0,
  main_call0_v1, main_call0_v2, main_call0_v3, main_call0_v4, main_v40, main_c_6, main_v41, main_v42, main_c_7, main_v43,
  main_v44, main_v45, main_v46, main_v47, main_cst_8, main_v48]
abbrev W1 : List (Ref sig .tc) := [main_v49, main_v50, main_cst_9, main_v51, main_cst_10, main_v52, main_v53, main_v54, main_cst_11, main_v55,
  main_v56, main_v57, main_v58, main_v59, main_v60, main_v61, main_v62, main_v63, main_v64, main_v65,
  main_v66, main_v67, main_v68, main_v69, main_v70, main_v71, main_cst_12, main_v72, main_v73, main_v74,
  main_v75, main_v76, main_v77, main_v78, main_v79, main_v80, main_cst_13, main_call1_cst, main_call1_v0, main_call1_v1,
  main_call1_v2, main_call1_v3, main_call1_v4, main_v81, main_cst_14, main_call2_v0, main_call2_v1, main_call2_call0_v0, main_call2_v2, main_call2_cst,
  main_call2_v3, main_call2_v4, main_call2_cst_0, main_call2_call1_v0, main_call2_v5, main_call2_cst_1, main_call2_v6, main_call2_v7, main_call2_cst_2, main_call2_call2_v0,
  main_v82, main_c_15, main_v83, main_v84, main_c_16, main_v85, main_v86, main_v87, main_v88, main_v89,
  main_c_17, main_v90, main_v91, main_c_18, main_v92, main_v93, main_v94, main_v95, main_v96, main_v97,
  main_v98]
abbrev W2 : List (Ref sig .tc) := [main_v99, main_v100, main_v101, main_cst_19, main_call3_cst, main_call3_v0, main_call3_v1, main_call3_v2, main_call3_v3, main_call3_v4,
  main_v102, main_v103, main_v104, main_v105, main_v106, main_cst_20, main_call4_cst, main_call4_v0, main_call4_v1, main_call4_v2,
  main_call4_v3, main_call4_v4, main_v107, main_v108, main_v109, main_v110, main_v111, main_cst_21, main_v112, main_cst_22,
  main_v113, main_v114, main_v115, main_v116, main_v117, main_v118, main_cst_23, main_v119, main_v120, main_v121,
  main_v122]

theorem aligned0 : Aligned (ops0 (F := F)) W0 := by
  unfold Aligned; repeat (first | exact List.Forall₂.nil | refine List.Forall₂.cons rfl ?_)
theorem aligned1 : Aligned (ops1 (F := F)) W1 := by
  unfold Aligned; repeat (first | exact List.Forall₂.nil | refine List.Forall₂.cons rfl ?_)
theorem aligned2 : Aligned (ops2 (F := F)) W2 := by
  unfold Aligned; repeat (first | exact List.Forall₂.nil | refine List.Forall₂.cons rfl ?_)

/-- Operation by operation the line writes the references of `W`. -/
theorem aligned : Aligned (ops (F := F)) W := by
  show Aligned (ops0 ++ ops1 ++ ops2) (W0 ++ W1 ++ W2)
  exact List.rel_append (List.rel_append aligned0 aligned1) aligned2

/-! ### One operation's equation at the end of the line, by its builder -/

theorem stage_nullary (k : Nat) (y : Ref sig .tc) (v : y.ty.Contents (Elt F))
    (hy : y.space ≠ .host ∧ (y : DevRef τ sig).isScoped = false)
    (hk : (ops (F := F))[k]? = some (nullary y v hy)) (V : Valuation τ sig (Elt F)) (hy' : y ∉ W.drop (k + 1)) :
    after ops V (Proc.devRef .tc y) = v := by
  obtain ⟨U, h1, -⟩ := stage_core aligned k _ hk V
  rw [h1 y hy', nullary_result]

theorem stage_unary (k : Nat) (x y : Ref sig .tc) (f : x.ty.Contents (Elt F) → y.ty.Contents (Elt F))
    (hx : x.space ≠ .host ∧ (x : DevRef τ sig).isScoped = false) (hy : y.space ≠ .host ∧ (y : DevRef τ sig).isScoped = false)
    (hk : (ops (F := F))[k]? = some (unary x y f hx hy)) (V : Valuation τ sig (Elt F))
    (hx' : x ∉ W.drop k) (hy' : y ∉ W.drop (k + 1)) :
    after ops V (Proc.devRef .tc y) = f (after ops V (Proc.devRef .tc x)) := by
  obtain ⟨U, h1, h0⟩ := stage_core aligned k _ hk V
  rw [h1 y hy', h0 x hx', unary_result]

theorem stage_binary (k : Nat) (a b y : Ref sig .tc) (f : a.ty.Contents (Elt F) → b.ty.Contents (Elt F) → y.ty.Contents (Elt F))
    (ha : a.space ≠ .host ∧ (a : DevRef τ sig).isScoped = false) (hb : b.space ≠ .host ∧ (b : DevRef τ sig).isScoped = false)
    (hy : y.space ≠ .host ∧ (y : DevRef τ sig).isScoped = false)
    (hk : (ops (F := F))[k]? = some (binary a b y f ha hb hy)) (V : Valuation τ sig (Elt F))
    (ha' : a ∉ W.drop k) (hb' : b ∉ W.drop k) (hy' : y ∉ W.drop (k + 1)) :
    after ops V (Proc.devRef .tc y) = f (after ops V (Proc.devRef .tc a)) (after ops V (Proc.devRef .tc b)) := by
  obtain ⟨U, h1, h0⟩ := stage_core aligned k _ hk V
  rw [h1 y hy', h0 a ha', h0 b hb', binary_result]

theorem stage_ternary (k : Nat) (c a b y : Ref sig .tc)
    (f : c.ty.Contents (Elt F) → a.ty.Contents (Elt F) → b.ty.Contents (Elt F) → y.ty.Contents (Elt F))
    (hc : c.space ≠ .host ∧ (c : DevRef τ sig).isScoped = false) (ha : a.space ≠ .host ∧ (a : DevRef τ sig).isScoped = false)
    (hb : b.space ≠ .host ∧ (b : DevRef τ sig).isScoped = false) (hy : y.space ≠ .host ∧ (y : DevRef τ sig).isScoped = false)
    (hk : (ops (F := F))[k]? = some (ternary c a b y f hc ha hb hy)) (V : Valuation τ sig (Elt F))
    (hc' : c ∉ W.drop k) (ha' : a ∉ W.drop k) (hb' : b ∉ W.drop k) (hy' : y ∉ W.drop (k + 1)) :
    after ops V (Proc.devRef .tc y)
      = f (after ops V (Proc.devRef .tc c)) (after ops V (Proc.devRef .tc a)) (after ops V (Proc.devRef .tc b)) := by
  obtain ⟨U, h1, h0⟩ := stage_core aligned k _ hk V
  rw [h1 y hy', h0 c hc', h0 a ha', h0 b hb', ternary_result]

theorem stage_nary (k : Nat) {n : Nat} (xs : Fin n → Ref sig .tc) (y : Ref sig .tc)
    (f : ((i : Fin n) → (xs i).ty.Contents (Elt F)) → y.ty.Contents (Elt F))
    (hxs : ∀ i, (xs i).space ≠ .host ∧ ((xs i : Ref sig .tc) : DevRef τ sig).isScoped = false)
    (hy : y.space ≠ .host ∧ (y : DevRef τ sig).isScoped = false)
    (hk : (ops (F := F))[k]? = some (nary xs y f hxs hy)) (V : Valuation τ sig (Elt F))
    (hx' : ∀ i, xs i ∉ W.drop k) (hy' : y ∉ W.drop (k + 1)) :
    after ops V (Proc.devRef .tc y) = f (fun i => after ops V (Proc.devRef .tc (xs i))) := by
  obtain ⟨U, h1, h0⟩ := stage_core aligned k _ hk V
  rw [h1 y hy', nary_result]
  congr 1; funext i; exact (h0 (xs i) (hx' i)).symm

/-- The side condition every builder asks of a literal reference: on the device, not scoped. -/
local macro "dv" : term => `(by exact ⟨by decide, rfl⟩)

/-! ### The 188 equations -/
theorem st_main_c (V : Valuation τ sig (Elt F)) :
    after ops V (Proc.devRef .tc main_c)
      = (constantI S_ 32 0#32 : (⟨S_, .i32⟩ : BufTy).Contents (Elt F)) :=
  stage_nullary 0 main_c (constantI S_ 32 0#32 : (⟨S_, .i32⟩ : BufTy).Contents (Elt F)) dv rfl V (by decide)

theorem st_main_v0 (V : Valuation τ sig (Elt F)) :
    after ops V (Proc.devRef .tc main_v0)
      = (broadcastInDim S800000 ![] bcast_S_S800000 : (⟨S_, .i32⟩ : BufTy).Contents (Elt F) → (⟨S800000, .i32⟩ : BufTy).Contents (Elt F))
          (after ops V (Proc.devRef .tc main_c)) :=
  stage_unary 1 main_c main_v0 (broadcastInDim S800000 ![] bcast_S_S800000 : (⟨S_, .i32⟩ : BufTy).Contents (Elt F) → (⟨S800000, .i32⟩ : BufTy).Contents (Elt F)) dv dv rfl V (by decide) (by decide)

theorem st_main_v1 (V : Valuation τ sig (Elt F)) :
    after ops V (Proc.devRef .tc main_v1)
      = (cmpi .slt : (⟨S800000, .i32⟩ : BufTy).Contents (Elt F) → (⟨S800000, .i32⟩ : BufTy).Contents (Elt F) → (⟨S800000, .i1⟩ : BufTy).Contents (Elt F))
          (after ops V (Proc.devRef .tc main_arg1))
          (after ops V (Proc.devRef .tc main_v0)) :=
  stage_binary 2 main_arg1 main_v0 main_v1 (cmpi .slt : (⟨S800000, .i32⟩ : BufTy).Contents (Elt F) → (⟨S800000, .i32⟩ : BufTy).Contents (Elt F) → (⟨S800000, .i1⟩ : BufTy).Contents (Elt F)) dv dv dv rfl V (by decide) (by decide) (by decide)

theorem st_main_c_0 (V : Valuation τ sig (Elt F)) :
    after ops V (Proc.devRef .tc main_c_0)
      = (constantI S_ 32 50000#32 : (⟨S_, .i32⟩ : BufTy).Contents (Elt F)) :=
  stage_nullary 3 main_c_0 (constantI S_ 32 50000#32 : (⟨S_, .i32⟩ : BufTy).Contents (Elt F)) dv rfl V (by decide)

theorem st_main_v2 (V : Valuation τ sig (Elt F)) :
    after ops V (Proc.devRef .tc main_v2)
      = (broadcastInDim S800000 ![] bcast_S_S800000 : (⟨S_, .i32⟩ : BufTy).Contents (Elt F) → (⟨S800000, .i32⟩ : BufTy).Contents (Elt F))
          (after ops V (Proc.devRef .tc main_c_0)) :=
  stage_unary 4 main_c_0 main_v2 (broadcastInDim S800000 ![] bcast_S_S800000 : (⟨S_, .i32⟩ : BufTy).Contents (Elt F) → (⟨S800000, .i32⟩ : BufTy).Contents (Elt F)) dv dv rfl V (by decide) (by decide)

theorem st_main_v3 (V : Valuation τ sig (Elt F)) :
    after ops V (Proc.devRef .tc main_v3)
      = (addi : (⟨S800000, .i32⟩ : BufTy).Contents (Elt F) → (⟨S800000, .i32⟩ : BufTy).Contents (Elt F) → (⟨S800000, .i32⟩ : BufTy).Contents (Elt F))
          (after ops V (Proc.devRef .tc main_arg1))
          (after ops V (Proc.devRef .tc main_v2)) :=
  stage_binary 5 main_arg1 main_v2 main_v3 (addi : (⟨S800000, .i32⟩ : BufTy).Contents (Elt F) → (⟨S800000, .i32⟩ : BufTy).Contents (Elt F) → (⟨S800000, .i32⟩ : BufTy).Contents (Elt F)) dv dv dv rfl V (by decide) (by decide) (by decide)

theorem st_main_v4 (V : Valuation τ sig (Elt F)) :
    after ops V (Proc.devRef .tc main_v4)
      = (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F))
          (after ops V (Proc.devRef .tc main_v1))
          (after ops V (Proc.devRef .tc main_v3))
          (after ops V (Proc.devRef .tc main_arg1)) :=
  stage_ternary 6 main_v1 main_v3 main_arg1 main_v4 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) dv dv dv dv rfl V (by decide) (by decide) (by decide) (by decide)

theorem st_main_v5 (V : Valuation τ sig (Elt F)) :
    after ops V (Proc.devRef .tc main_v5)
      = (broadcastInDim S800000x1 ![0] bcast_S800000_S800000x1_0 : (⟨S800000, .i32⟩ : BufTy).Contents (Elt F) → (⟨S800000x1, .i32⟩ : BufTy).Contents (Elt F))
          (after ops V (Proc.devRef .tc main_v4)) :=
  stage_unary 7 main_v4 main_v5 (broadcastInDim S800000x1 ![0] bcast_S800000_S800000x1_0 : (⟨S800000, .i32⟩ : BufTy).Contents (Elt F) → (⟨S800000x1, .i32⟩ : BufTy).Contents (Elt F)) dv dv rfl V (by decide) (by decide)

theorem st_main_v6 (V : Valuation τ sig (Elt F)) :
    after ops V (Proc.devRef .tc main_v6)
      = ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F))
          (after ops V (Proc.devRef .tc main_arg0))
          (after ops V (Proc.devRef .tc main_v5)) :=
  stage_binary 8 main_arg0 main_v5 main_v6 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)) dv dv dv rfl V (by decide) (by decide) (by decide)

theorem st_main_cst (V : Valuation τ sig (Elt F)) :
    after ops V (Proc.devRef .tc main_cst)
      = (constant S_ .f32 0x00000000#32 : (⟨S_, .f32⟩ : BufTy).Contents (Elt F)) :=
  stage_nullary 9 main_cst (constant S_ .f32 0x00000000#32 : (⟨S_, .f32⟩ : BufTy).Contents (Elt F)) dv rfl V (by decide)

theorem st_main_v7 (V : Valuation τ sig (Elt F)) :
    after ops V (Proc.devRef .tc main_v7)
      = (broadcastInDim S50000x128 ![] bcast_S_S50000x128 : (⟨S_, .f32⟩ : BufTy).Contents (Elt F) → (⟨S50000x128, .f32⟩ : BufTy).Contents (Elt F))
          (after ops V (Proc.devRef .tc main_cst)) :=
  stage_unary 10 main_cst main_v7 (broadcastInDim S50000x128 ![] bcast_S_S50000x128 : (⟨S_, .f32⟩ : BufTy).Contents (Elt F) → (⟨S50000x128, .f32⟩ : BufTy).Contents (Elt F)) dv dv rfl V (by decide) (by decide)

theorem st_main_v8 (V : Valuation τ sig (Elt F)) :
    after ops V (Proc.devRef .tc main_v8)
      = (broadcastInDim S800000x1 ![0] bcast_S800000_S800000x1_0 : (⟨S800000, .i32⟩ : BufTy).Contents (Elt F) → (⟨S800000x1, .i32⟩ : BufTy).Contents (Elt F))
          (after ops V (Proc.devRef .tc main_arg2)) :=
  stage_unary 11 main_arg2 main_v8 (broadcastInDim S800000x1 ![0] bcast_S800000_S800000x1_0 : (⟨S800000, .i32⟩ : BufTy).Contents (Elt F) → (⟨S800000x1, .i32⟩ : BufTy).Contents (Elt F)) dv dv rfl V (by decide) (by decide)

theorem st_main_v9 (V : Valuation τ sig (Elt F)) :
    after ops V (Proc.devRef .tc main_v9)
      = ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F))
          (after ops V (Proc.devRef .tc main_v7))
          (after ops V (Proc.devRef .tc main_v8))
          (after ops V (Proc.devRef .tc main_v6)) :=
  stage_ternary 12 main_v7 main_v8 main_v6 main_v9 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)) dv dv dv dv rfl V (by decide) (by decide) (by decide) (by decide)

theorem st_main_cst_1 (V : Valuation τ sig (Elt F)) :
    after ops V (Proc.devRef .tc main_cst_1)
      = (constant S_ .f32 0x3F800000#32 : (⟨S_, .f32⟩ : BufTy).Contents (Elt F)) :=
  stage_nullary 13 main_cst_1 (constant S_ .f32 0x3F800000#32 : (⟨S_, .f32⟩ : BufTy).Contents (Elt F)) dv rfl V (by decide)

theorem st_main_v10 (V : Valuation τ sig (Elt F)) :
    after ops V (Proc.devRef .tc main_v10)
      = (broadcastInDim S800000 ![] bcast_S_S800000 : (⟨S_, .f32⟩ : BufTy).Contents (Elt F) → (⟨S800000, .f32⟩ : BufTy).Contents (Elt F))
          (after ops V (Proc.devRef .tc main_cst_1)) :=
  stage_unary 14 main_cst_1 main_v10 (broadcastInDim S800000 ![] bcast_S_S800000 : (⟨S_, .f32⟩ : BufTy).Contents (Elt F) → (⟨S800000, .f32⟩ : BufTy).Contents (Elt F)) dv dv rfl V (by decide) (by decide)

theorem st_main_cst_2 (V : Valuation τ sig (Elt F)) :
    after ops V (Proc.devRef .tc main_cst_2)
      = (constant S_ .f32 0x00000000#32 : (⟨S_, .f32⟩ : BufTy).Contents (Elt F)) :=
  stage_nullary 15 main_cst_2 (constant S_ .f32 0x00000000#32 : (⟨S_, .f32⟩ : BufTy).Contents (Elt F)) dv rfl V (by decide)

theorem st_main_v11 (V : Valuation τ sig (Elt F)) :
    after ops V (Proc.devRef .tc main_v11)
      = (broadcastInDim S50000 ![] bcast_S_S50000 : (⟨S_, .f32⟩ : BufTy).Contents (Elt F) → (⟨S50000, .f32⟩ : BufTy).Contents (Elt F))
          (after ops V (Proc.devRef .tc main_cst_2)) :=
  stage_unary 16 main_cst_2 main_v11 (broadcastInDim S50000 ![] bcast_S_S50000 : (⟨S_, .f32⟩ : BufTy).Contents (Elt F) → (⟨S50000, .f32⟩ : BufTy).Contents (Elt F)) dv dv rfl V (by decide) (by decide)

theorem st_main_v12 (V : Valuation τ sig (Elt F)) :
    after ops V (Proc.devRef .tc main_v12)
      = (broadcastInDim S800000x1 ![0] bcast_S800000_S800000x1_0 : (⟨S800000, .i32⟩ : BufTy).Contents (Elt F) → (⟨S800000x1, .i32⟩ : BufTy).Contents (Elt F))
          (after ops V (Proc.devRef .tc main_arg2)) :=
  stage_unary 17 main_arg2 main_v12 (broadcastInDim S800000x1 ![0] bcast_S800000_S800000x1_0 : (⟨S800000, .i32⟩ : BufTy).Contents (Elt F) → (⟨S800000x1, .i32⟩ : BufTy).Contents (Elt F)) dv dv rfl V (by decide) (by decide)

theorem st_main_v13 (V : Valuation τ sig (Elt F)) :
    after ops V (Proc.devRef .tc main_v13)
      = ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F))
          (after ops V (Proc.devRef .tc main_v11))
          (after ops V (Proc.devRef .tc main_v12))
          (after ops V (Proc.devRef .tc main_v10)) :=
  stage_ternary 18 main_v11 main_v12 main_v10 main_v13 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)) dv dv dv dv rfl V (by decide) (by decide) (by decide) (by decide)

theorem st_main_cst_3 (V : Valuation τ sig (Elt F)) :
    after ops V (Proc.devRef .tc main_cst_3)
      = (constant S_ .f32 0x3F800000#32 : (⟨S_, .f32⟩ : BufTy).Contents (Elt F)) :=
  stage_nullary 19 main_cst_3 (constant S_ .f32 0x3F800000#32 : (⟨S_, .f32⟩ : BufTy).Contents (Elt F)) dv rfl V (by decide)

theorem st_main_v14 (V : Valuation τ sig (Elt F)) :
    after ops V (Proc.devRef .tc main_v14)
      = (broadcastInDim S50000 ![] bcast_S_S50000 : (⟨S_, .f32⟩ : BufTy).Contents (Elt F) → (⟨S50000, .f32⟩ : BufTy).Contents (Elt F))
          (after ops V (Proc.devRef .tc main_cst_3)) :=
  stage_unary 20 main_cst_3 main_v14 (broadcastInDim S50000 ![] bcast_S_S50000 : (⟨S_, .f32⟩ : BufTy).Contents (Elt F) → (⟨S50000, .f32⟩ : BufTy).Contents (Elt F)) dv dv rfl V (by decide) (by decide)

theorem st_main_v15 (V : Valuation τ sig (Elt F)) :
    after ops V (Proc.devRef .tc main_v15)
      = (maximumf : (⟨S50000, .f32⟩ : BufTy).Contents (Elt F) → (⟨S50000, .f32⟩ : BufTy).Contents (Elt F) → (⟨S50000, .f32⟩ : BufTy).Contents (Elt F))
          (after ops V (Proc.devRef .tc main_v13))
          (after ops V (Proc.devRef .tc main_v14)) :=
  stage_binary 21 main_v13 main_v14 main_v15 (maximumf : (⟨S50000, .f32⟩ : BufTy).Contents (Elt F) → (⟨S50000, .f32⟩ : BufTy).Contents (Elt F) → (⟨S50000, .f32⟩ : BufTy).Contents (Elt F)) dv dv dv rfl V (by decide) (by decide) (by decide)

theorem st_main_v16 (V : Valuation τ sig (Elt F)) :
    after ops V (Proc.devRef .tc main_v16)
      = (broadcastInDim S50000x1 ![0] bcast_S50000_S50000x1_0 : (⟨S50000, .f32⟩ : BufTy).Contents (Elt F) → (⟨S50000x1, .f32⟩ : BufTy).Contents (Elt F))
          (after ops V (Proc.devRef .tc main_v15)) :=
  stage_unary 22 main_v15 main_v16 (broadcastInDim S50000x1 ![0] bcast_S50000_S50000x1_0 : (⟨S50000, .f32⟩ : BufTy).Contents (Elt F) → (⟨S50000x1, .f32⟩ : BufTy).Contents (Elt F)) dv dv rfl V (by decide) (by decide)

theorem st_main_v17 (V : Valuation τ sig (Elt F)) :
    after ops V (Proc.devRef .tc main_v17)
      = (broadcastInDim S50000x128 ![0, 1] bcast_S50000x1_S50000x128_0_1 : (⟨S50000x1, .f32⟩ : BufTy).Contents (Elt F) → (⟨S50000x128, .f32⟩ : BufTy).Contents (Elt F))
          (after ops V (Proc.devRef .tc main_v16)) :=
  stage_unary 23 main_v16 main_v17 (broadcastInDim S50000x128 ![0, 1] bcast_S50000x1_S50000x128_0_1 : (⟨S50000x1, .f32⟩ : BufTy).Contents (Elt F) → (⟨S50000x128, .f32⟩ : BufTy).Contents (Elt F)) dv dv rfl V (by decide) (by decide)

theorem st_main_v18 (V : Valuation τ sig (Elt F)) :
    after ops V (Proc.devRef .tc main_v18)
      = (Host.divf : (⟨S50000x128, .f32⟩ : BufTy).Contents (Elt F) → (⟨S50000x128, .f32⟩ : BufTy).Contents (Elt F) → (⟨S50000x128, .f32⟩ : BufTy).Contents (Elt F))
          (after ops V (Proc.devRef .tc main_v9))
          (after ops V (Proc.devRef .tc main_v17)) :=
  stage_binary 24 main_v9 main_v17 main_v18 (Host.divf : (⟨S50000x128, .f32⟩ : BufTy).Contents (Elt F) → (⟨S50000x128, .f32⟩ : BufTy).Contents (Elt F) → (⟨S50000x128, .f32⟩ : BufTy).Contents (Elt F)) dv dv dv rfl V (by decide) (by decide) (by decide)

theorem st_main_v19 (V : Valuation τ sig (Elt F)) :
    after ops V (Proc.devRef .tc main_v19)
      = ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F))
          (after ops V (Proc.devRef .tc main_arg0))
          (after ops V (Proc.devRef .tc main_arg6)) :=
  stage_binary 25 main_arg0 main_arg6 main_v19 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) dv dv dv rfl V (by decide) (by decide) (by decide)

theorem st_main_v20 (V : Valuation τ sig (Elt F)) :
    after ops V (Proc.devRef .tc main_v20)
      = ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F))
          (after ops V (Proc.devRef .tc main_v18))
          (after ops V (Proc.devRef .tc main_arg7)) :=
  stage_binary 26 main_v18 main_arg7 main_v20 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) dv dv dv rfl V (by decide) (by decide) (by decide)

theorem st_main_v21 (V : Valuation τ sig (Elt F)) :
    after ops V (Proc.devRef .tc main_v21)
      = (addf : (⟨S50000x128, .f32⟩ : BufTy).Contents (Elt F) → (⟨S50000x128, .f32⟩ : BufTy).Contents (Elt F) → (⟨S50000x128, .f32⟩ : BufTy).Contents (Elt F))
          (after ops V (Proc.devRef .tc main_v19))
          (after ops V (Proc.devRef .tc main_v20)) :=
  stage_binary 27 main_v19 main_v20 main_v21 (addf : (⟨S50000x128, .f32⟩ : BufTy).Contents (Elt F) → (⟨S50000x128, .f32⟩ : BufTy).Contents (Elt F) → (⟨S50000x128, .f32⟩ : BufTy).Contents (Elt F)) dv dv dv rfl V (by decide) (by decide) (by decide)

theorem st_main_v22 (V : Valuation τ sig (Elt F)) :
    after ops V (Proc.devRef .tc main_v22)
      = (broadcastInDim S1x128 ![1] bcast_S128_S1x128_1 : (⟨S128, .f32⟩ : BufTy).Contents (Elt F) → (⟨S1x128, .f32⟩ : BufTy).Contents (Elt F))
          (after ops V (Proc.devRef .tc main_arg8)) :=
  stage_unary 28 main_arg8 main_v22 (broadcastInDim S1x128 ![1] bcast_S128_S1x128_1 : (⟨S128, .f32⟩ : BufTy).Contents (Elt F) → (⟨S1x128, .f32⟩ : BufTy).Contents (Elt F)) dv dv rfl V (by decide) (by decide)

theorem st_main_v23 (V : Valuation τ sig (Elt F)) :
    after ops V (Proc.devRef .tc main_v23)
      = (broadcastInDim S50000x128 ![0, 1] bcast_S1x128_S50000x128_0_1 : (⟨S1x128, .f32⟩ : BufTy).Contents (Elt F) → (⟨S50000x128, .f32⟩ : BufTy).Contents (Elt F))
          (after ops V (Proc.devRef .tc main_v22)) :=
  stage_unary 29 main_v22 main_v23 (broadcastInDim S50000x128 ![0, 1] bcast_S1x128_S50000x128_0_1 : (⟨S1x128, .f32⟩ : BufTy).Contents (Elt F) → (⟨S50000x128, .f32⟩ : BufTy).Contents (Elt F)) dv dv rfl V (by decide) (by decide)

theorem st_main_v24 (V : Valuation τ sig (Elt F)) :
    after ops V (Proc.devRef .tc main_v24)
      = (addf : (⟨S50000x128, .f32⟩ : BufTy).Contents (Elt F) → (⟨S50000x128, .f32⟩ : BufTy).Contents (Elt F) → (⟨S50000x128, .f32⟩ : BufTy).Contents (Elt F))
          (after ops V (Proc.devRef .tc main_v21))
          (after ops V (Proc.devRef .tc main_v23)) :=
  stage_binary 30 main_v21 main_v23 main_v24 (addf : (⟨S50000x128, .f32⟩ : BufTy).Contents (Elt F) → (⟨S50000x128, .f32⟩ : BufTy).Contents (Elt F) → (⟨S50000x128, .f32⟩ : BufTy).Contents (Elt F)) dv dv dv rfl V (by decide) (by decide) (by decide)

theorem st_main_v25 (V : Valuation τ sig (Elt F)) :
    after ops V (Proc.devRef .tc main_v25)
      = (broadcastInDim S1x128 ![1] bcast_S128_S1x128_1 : (⟨S128, .f32⟩ : BufTy).Contents (Elt F) → (⟨S1x128, .f32⟩ : BufTy).Contents (Elt F))
          (after ops V (Proc.devRef .tc main_arg11)) :=
  stage_unary 31 main_arg11 main_v25 (broadcastInDim S1x128 ![1] bcast_S128_S1x128_1 : (⟨S128, .f32⟩ : BufTy).Contents (Elt F) → (⟨S1x128, .f32⟩ : BufTy).Contents (Elt F)) dv dv rfl V (by decide) (by decide)

theorem st_main_v26 (V : Valuation τ sig (Elt F)) :
    after ops V (Proc.devRef .tc main_v26)
      = (broadcastInDim S50000x128 ![0, 1] bcast_S1x128_S50000x128_0_1 : (⟨S1x128, .f32⟩ : BufTy).Contents (Elt F) → (⟨S50000x128, .f32⟩ : BufTy).Contents (Elt F))
          (after ops V (Proc.devRef .tc main_v25)) :=
  stage_unary 32 main_v25 main_v26 (broadcastInDim S50000x128 ![0, 1] bcast_S1x128_S50000x128_0_1 : (⟨S1x128, .f32⟩ : BufTy).Contents (Elt F) → (⟨S50000x128, .f32⟩ : BufTy).Contents (Elt F)) dv dv rfl V (by decide) (by decide)

theorem st_main_v27 (V : Valuation τ sig (Elt F)) :
    after ops V (Proc.devRef .tc main_v27)
      = (subf : (⟨S50000x128, .f32⟩ : BufTy).Contents (Elt F) → (⟨S50000x128, .f32⟩ : BufTy).Contents (Elt F) → (⟨S50000x128, .f32⟩ : BufTy).Contents (Elt F))
          (after ops V (Proc.devRef .tc main_v24))
          (after ops V (Proc.devRef .tc main_v26)) :=
  stage_binary 33 main_v24 main_v26 main_v27 (subf : (⟨S50000x128, .f32⟩ : BufTy).Contents (Elt F) → (⟨S50000x128, .f32⟩ : BufTy).Contents (Elt F) → (⟨S50000x128, .f32⟩ : BufTy).Contents (Elt F)) dv dv dv rfl V (by decide) (by decide) (by decide)

theorem st_main_v28 (V : Valuation τ sig (Elt F)) :
    after ops V (Proc.devRef .tc main_v28)
      = (broadcastInDim S1x128 ![1] bcast_S128_S1x128_1 : (⟨S128, .f32⟩ : BufTy).Contents (Elt F) → (⟨S1x128, .f32⟩ : BufTy).Contents (Elt F))
          (after ops V (Proc.devRef .tc main_arg9)) :=
  stage_unary 34 main_arg9 main_v28 (broadcastInDim S1x128 ![1] bcast_S128_S1x128_1 : (⟨S128, .f32⟩ : BufTy).Contents (Elt F) → (⟨S1x128, .f32⟩ : BufTy).Contents (Elt F)) dv dv rfl V (by decide) (by decide)

theorem st_main_v29 (V : Valuation τ sig (Elt F)) :
    after ops V (Proc.devRef .tc main_v29)
      = (broadcastInDim S50000x128 ![0, 1] bcast_S1x128_S50000x128_0_1 : (⟨S1x128, .f32⟩ : BufTy).Contents (Elt F) → (⟨S50000x128, .f32⟩ : BufTy).Contents (Elt F))
          (after ops V (Proc.devRef .tc main_v28)) :=
  stage_unary 35 main_v28 main_v29 (broadcastInDim S50000x128 ![0, 1] bcast_S1x128_S50000x128_0_1 : (⟨S1x128, .f32⟩ : BufTy).Contents (Elt F) → (⟨S50000x128, .f32⟩ : BufTy).Contents (Elt F)) dv dv rfl V (by decide) (by decide)

theorem st_main_v30 (V : Valuation τ sig (Elt F)) :
    after ops V (Proc.devRef .tc main_v30)
      = (mulf : (⟨S50000x128, .f32⟩ : BufTy).Contents (Elt F) → (⟨S50000x128, .f32⟩ : BufTy).Contents (Elt F) → (⟨S50000x128, .f32⟩ : BufTy).Contents (Elt F))
          (after ops V (Proc.devRef .tc main_v29))
          (after ops V (Proc.devRef .tc main_v27)) :=
  stage_binary 36 main_v29 main_v27 main_v30 (mulf : (⟨S50000x128, .f32⟩ : BufTy).Contents (Elt F) → (⟨S50000x128, .f32⟩ : BufTy).Contents (Elt F) → (⟨S50000x128, .f32⟩ : BufTy).Contents (Elt F)) dv dv dv rfl V (by decide) (by decide) (by decide)

theorem st_main_cst_4 (V : Valuation τ sig (Elt F)) :
    after ops V (Proc.devRef .tc main_cst_4)
      = (constant S_ .f32 0x3727C5AC#32 : (⟨S_, .f32⟩ : BufTy).Contents (Elt F)) :=
  stage_nullary 37 main_cst_4 (constant S_ .f32 0x3727C5AC#32 : (⟨S_, .f32⟩ : BufTy).Contents (Elt F)) dv rfl V (by decide)

theorem st_main_v31 (V : Valuation τ sig (Elt F)) :
    after ops V (Proc.devRef .tc main_v31)
      = (broadcastInDim S128 ![] bcast_S_S128 : (⟨S_, .f32⟩ : BufTy).Contents (Elt F) → (⟨S128, .f32⟩ : BufTy).Contents (Elt F))
          (after ops V (Proc.devRef .tc main_cst_4)) :=
  stage_unary 38 main_cst_4 main_v31 (broadcastInDim S128 ![] bcast_S_S128 : (⟨S_, .f32⟩ : BufTy).Contents (Elt F) → (⟨S128, .f32⟩ : BufTy).Contents (Elt F)) dv dv rfl V (by decide) (by decide)

theorem st_main_v32 (V : Valuation τ sig (Elt F)) :
    after ops V (Proc.devRef .tc main_v32)
      = (addf : (⟨S128, .f32⟩ : BufTy).Contents (Elt F) → (⟨S128, .f32⟩ : BufTy).Contents (Elt F) → (⟨S128, .f32⟩ : BufTy).Contents (Elt F))
          (after ops V (Proc.devRef .tc main_arg12))
          (after ops V (Proc.devRef .tc main_v31)) :=
  stage_binary 39 main_arg12 main_v31 main_v32 (addf : (⟨S128, .f32⟩ : BufTy).Contents (Elt F) → (⟨S128, .f32⟩ : BufTy).Contents (Elt F) → (⟨S128, .f32⟩ : BufTy).Contents (Elt F)) dv dv dv rfl V (by decide) (by decide) (by decide)

theorem st_main_v33 (V : Valuation τ sig (Elt F)) :
    after ops V (Proc.devRef .tc main_v33)
      = (Host.rsqrt : (⟨S128, .f32⟩ : BufTy).Contents (Elt F) → (⟨S128, .f32⟩ : BufTy).Contents (Elt F))
          (after ops V (Proc.devRef .tc main_v32)) :=
  stage_unary 40 main_v32 main_v33 (Host.rsqrt : (⟨S128, .f32⟩ : BufTy).Contents (Elt F) → (⟨S128, .f32⟩ : BufTy).Contents (Elt F)) dv dv rfl V (by decide) (by decide)

theorem st_main_v34 (V : Valuation τ sig (Elt F)) :
    after ops V (Proc.devRef .tc main_v34)
      = (broadcastInDim S1x128 ![1] bcast_S128_S1x128_1 : (⟨S128, .f32⟩ : BufTy).Contents (Elt F) → (⟨S1x128, .f32⟩ : BufTy).Contents (Elt F))
          (after ops V (Proc.devRef .tc main_v33)) :=
  stage_unary 41 main_v33 main_v34 (broadcastInDim S1x128 ![1] bcast_S128_S1x128_1 : (⟨S128, .f32⟩ : BufTy).Contents (Elt F) → (⟨S1x128, .f32⟩ : BufTy).Contents (Elt F)) dv dv rfl V (by decide) (by decide)

theorem st_main_v35 (V : Valuation τ sig (Elt F)) :
    after ops V (Proc.devRef .tc main_v35)
      = (broadcastInDim S50000x128 ![0, 1] bcast_S1x128_S50000x128_0_1 : (⟨S1x128, .f32⟩ : BufTy).Contents (Elt F) → (⟨S50000x128, .f32⟩ : BufTy).Contents (Elt F))
          (after ops V (Proc.devRef .tc main_v34)) :=
  stage_unary 42 main_v34 main_v35 (broadcastInDim S50000x128 ![0, 1] bcast_S1x128_S50000x128_0_1 : (⟨S1x128, .f32⟩ : BufTy).Contents (Elt F) → (⟨S50000x128, .f32⟩ : BufTy).Contents (Elt F)) dv dv rfl V (by decide) (by decide)

theorem st_main_v36 (V : Valuation τ sig (Elt F)) :
    after ops V (Proc.devRef .tc main_v36)
      = (mulf : (⟨S50000x128, .f32⟩ : BufTy).Contents (Elt F) → (⟨S50000x128, .f32⟩ : BufTy).Contents (Elt F) → (⟨S50000x128, .f32⟩ : BufTy).Contents (Elt F))
          (after ops V (Proc.devRef .tc main_v30))
          (after ops V (Proc.devRef .tc main_v35)) :=
  stage_binary 43 main_v30 main_v35 main_v36 (mulf : (⟨S50000x128, .f32⟩ : BufTy).Contents (Elt F) → (⟨S50000x128, .f32⟩ : BufTy).Contents (Elt F) → (⟨S50000x128, .f32⟩ : BufTy).Contents (Elt F)) dv dv dv rfl V (by decide) (by decide) (by decide)

theorem st_main_v37 (V : Valuation τ sig (Elt F)) :
    after ops V (Proc.devRef .tc main_v37)
      = (broadcastInDim S1x128 ![1] bcast_S128_S1x128_1 : (⟨S128, .f32⟩ : BufTy).Contents (Elt F) → (⟨S1x128, .f32⟩ : BufTy).Contents (Elt F))
          (after ops V (Proc.devRef .tc main_arg10)) :=
  stage_unary 44 main_arg10 main_v37 (broadcastInDim S1x128 ![1] bcast_S128_S1x128_1 : (⟨S128, .f32⟩ : BufTy).Contents (Elt F) → (⟨S1x128, .f32⟩ : BufTy).Contents (Elt F)) dv dv rfl V (by decide) (by decide)

theorem st_main_v38 (V : Valuation τ sig (Elt F)) :
    after ops V (Proc.devRef .tc main_v38)
      = (broadcastInDim S50000x128 ![0, 1] bcast_S1x128_S50000x128_0_1 : (⟨S1x128, .f32⟩ : BufTy).Contents (Elt F) → (⟨S50000x128, .f32⟩ : BufTy).Contents (Elt F))
          (after ops V (Proc.devRef .tc main_v37)) :=
  stage_unary 45 main_v37 main_v38 (broadcastInDim S50000x128 ![0, 1] bcast_S1x128_S50000x128_0_1 : (⟨S1x128, .f32⟩ : BufTy).Contents (Elt F) → (⟨S50000x128, .f32⟩ : BufTy).Contents (Elt F)) dv dv rfl V (by decide) (by decide)

theorem st_main_v39 (V : Valuation τ sig (Elt F)) :
    after ops V (Proc.devRef .tc main_v39)
      = (addf : (⟨S50000x128, .f32⟩ : BufTy).Contents (Elt F) → (⟨S50000x128, .f32⟩ : BufTy).Contents (Elt F) → (⟨S50000x128, .f32⟩ : BufTy).Contents (Elt F))
          (after ops V (Proc.devRef .tc main_v36))
          (after ops V (Proc.devRef .tc main_v38)) :=
  stage_binary 46 main_v36 main_v38 main_v39 (addf : (⟨S50000x128, .f32⟩ : BufTy).Contents (Elt F) → (⟨S50000x128, .f32⟩ : BufTy).Contents (Elt F) → (⟨S50000x128, .f32⟩ : BufTy).Contents (Elt F)) dv dv dv rfl V (by decide) (by decide) (by decide)

theorem st_main_cst_5 (V : Valuation τ sig (Elt F)) :
    after ops V (Proc.devRef .tc main_cst_5)
      = (constant S_ .f32 0x3C23D70A#32 : (⟨S_, .f32⟩ : BufTy).Contents (Elt F)) :=
  stage_nullary 47 main_cst_5 (constant S_ .f32 0x3C23D70A#32 : (⟨S_, .f32⟩ : BufTy).Contents (Elt F)) dv rfl V (by decide)

theorem st_main_call0_cst (V : Valuation τ sig (Elt F)) :
    after ops V (Proc.devRef .tc main_call0_cst)
      = (constant S_ .f32 0x00000000#32 : (⟨S_, .f32⟩ : BufTy).Contents (Elt F)) :=
  stage_nullary 48 main_call0_cst (constant S_ .f32 0x00000000#32 : (⟨S_, .f32⟩ : BufTy).Contents (Elt F)) dv rfl V (by decide)

theorem st_main_call0_v0 (V : Valuation τ sig (Elt F)) :
    after ops V (Proc.devRef .tc main_call0_v0)
      = (broadcastInDim S50000x128 ![] bcast_S_S50000x128 : (⟨S_, .f32⟩ : BufTy).Contents (Elt F) → (⟨S50000x128, .f32⟩ : BufTy).Contents (Elt F))
          (after ops V (Proc.devRef .tc main_call0_cst)) :=
  stage_unary 49 main_call0_cst main_call0_v0 (broadcastInDim S50000x128 ![] bcast_S_S50000x128 : (⟨S_, .f32⟩ : BufTy).Contents (Elt F) → (⟨S50000x128, .f32⟩ : BufTy).Contents (Elt F)) dv dv rfl V (by decide) (by decide)

theorem st_main_call0_v1 (V : Valuation τ sig (Elt F)) :
    after ops V (Proc.devRef .tc main_call0_v1)
      = (cmpf .oge : (⟨S50000x128, .f32⟩ : BufTy).Contents (Elt F) → (⟨S50000x128, .f32⟩ : BufTy).Contents (Elt F) → (⟨S50000x128, .i1⟩ : BufTy).Contents (Elt F))
          (after ops V (Proc.devRef .tc main_v39))
          (after ops V (Proc.devRef .tc main_call0_v0)) :=
  stage_binary 50 main_v39 main_call0_v0 main_call0_v1 (cmpf .oge : (⟨S50000x128, .f32⟩ : BufTy).Contents (Elt F) → (⟨S50000x128, .f32⟩ : BufTy).Contents (Elt F) → (⟨S50000x128, .i1⟩ : BufTy).Contents (Elt F)) dv dv dv rfl V (by decide) (by decide) (by decide)

theorem st_main_call0_v2 (V : Valuation τ sig (Elt F)) :
    after ops V (Proc.devRef .tc main_call0_v2)
      = (id : (⟨S_, .f32⟩ : BufTy).Contents (Elt F) → (⟨S_, .f32⟩ : BufTy).Contents (Elt F))
          (after ops V (Proc.devRef .tc main_cst_5)) :=
  stage_unary 51 main_cst_5 main_call0_v2 (id : (⟨S_, .f32⟩ : BufTy).Contents (Elt F) → (⟨S_, .f32⟩ : BufTy).Contents (Elt F)) dv dv rfl V (by decide) (by decide)

theorem st_main_call0_v3 (V : Valuation τ sig (Elt F)) :
    after ops V (Proc.devRef .tc main_call0_v3)
      = (broadcastInDim S50000x128 ![] bcast_S_S50000x128 : (⟨S_, .f32⟩ : BufTy).Contents (Elt F) → (⟨S50000x128, .f32⟩ : BufTy).Contents (Elt F))
          (after ops V (Proc.devRef .tc main_call0_v2)) :=
  stage_unary 52 main_call0_v2 main_call0_v3 (broadcastInDim S50000x128 ![] bcast_S_S50000x128 : (⟨S_, .f32⟩ : BufTy).Contents (Elt F) → (⟨S50000x128, .f32⟩ : BufTy).Contents (Elt F)) dv dv rfl V (by decide) (by decide)

theorem st_main_call0_v4 (V : Valuation τ sig (Elt F)) :
    after ops V (Proc.devRef .tc main_call0_v4)
      = (mulf : (⟨S50000x128, .f32⟩ : BufTy).Contents (Elt F) → (⟨S50000x128, .f32⟩ : BufTy).Contents (Elt F) → (⟨S50000x128, .f32⟩ : BufTy).Contents (Elt F))
          (after ops V (Proc.devRef .tc main_call0_v3))
          (after ops V (Proc.devRef .tc main_v39)) :=
  stage_binary 53 main_call0_v3 main_v39 main_call0_v4 (mulf : (⟨S50000x128, .f32⟩ : BufTy).Contents (Elt F) → (⟨S50000x128, .f32⟩ : BufTy).Contents (Elt F) → (⟨S50000x128, .f32⟩ : BufTy).Contents (Elt F)) dv dv dv rfl V (by decide) (by decide) (by decide)

theorem st_main_v40 (V : Valuation τ sig (Elt F)) :
    after ops V (Proc.devRef .tc main_v40)
      = (select : (⟨S50000x128, .i1⟩ : BufTy).Contents (Elt F) → (⟨S50000x128, .f32⟩ : BufTy).Contents (Elt F) → (⟨S50000x128, .f32⟩ : BufTy).Contents (Elt F) → (⟨S50000x128, .f32⟩ : BufTy).Contents (Elt F))
          (after ops V (Proc.devRef .tc main_call0_v1))
          (after ops V (Proc.devRef .tc main_v39))
          (after ops V (Proc.devRef .tc main_call0_v4)) :=
  stage_ternary 54 main_call0_v1 main_v39 main_call0_v4 main_v40 (select : (⟨S50000x128, .i1⟩ : BufTy).Contents (Elt F) → (⟨S50000x128, .f32⟩ : BufTy).Contents (Elt F) → (⟨S50000x128, .f32⟩ : BufTy).Contents (Elt F) → (⟨S50000x128, .f32⟩ : BufTy).Contents (Elt F)) dv dv dv dv rfl V (by decide) (by decide) (by decide) (by decide)

theorem st_main_c_6 (V : Valuation τ sig (Elt F)) :
    after ops V (Proc.devRef .tc main_c_6)
      = (constantI S_ 32 0#32 : (⟨S_, .i32⟩ : BufTy).Contents (Elt F)) :=
  stage_nullary 55 main_c_6 (constantI S_ 32 0#32 : (⟨S_, .i32⟩ : BufTy).Contents (Elt F)) dv rfl V (by decide)

theorem st_main_v41 (V : Valuation τ sig (Elt F)) :
    after ops V (Proc.devRef .tc main_v41)
      = (broadcastInDim S800000 ![] bcast_S_S800000 : (⟨S_, .i32⟩ : BufTy).Contents (Elt F) → (⟨S800000, .i32⟩ : BufTy).Contents (Elt F))
          (after ops V (Proc.devRef .tc main_c_6)) :=
  stage_unary 56 main_c_6 main_v41 (broadcastInDim S800000 ![] bcast_S_S800000 : (⟨S_, .i32⟩ : BufTy).Contents (Elt F) → (⟨S800000, .i32⟩ : BufTy).Contents (Elt F)) dv dv rfl V (by decide) (by decide)

theorem st_main_v42 (V : Valuation τ sig (Elt F)) :
    after ops V (Proc.devRef .tc main_v42)
      = (cmpi .slt : (⟨S800000, .i32⟩ : BufTy).Contents (Elt F) → (⟨S800000, .i32⟩ : BufTy).Contents (Elt F) → (⟨S800000, .i1⟩ : BufTy).Contents (Elt F))
          (after ops V (Proc.devRef .tc main_arg1))
          (after ops V (Proc.devRef .tc main_v41)) :=
  stage_binary 57 main_arg1 main_v41 main_v42 (cmpi .slt : (⟨S800000, .i32⟩ : BufTy).Contents (Elt F) → (⟨S800000, .i32⟩ : BufTy).Contents (Elt F) → (⟨S800000, .i1⟩ : BufTy).Contents (Elt F)) dv dv dv rfl V (by decide) (by decide) (by decide)

theorem st_main_c_7 (V : Valuation τ sig (Elt F)) :
    after ops V (Proc.devRef .tc main_c_7)
      = (constantI S_ 32 50000#32 : (⟨S_, .i32⟩ : BufTy).Contents (Elt F)) :=
  stage_nullary 58 main_c_7 (constantI S_ 32 50000#32 : (⟨S_, .i32⟩ : BufTy).Contents (Elt F)) dv rfl V (by decide)

theorem st_main_v43 (V : Valuation τ sig (Elt F)) :
    after ops V (Proc.devRef .tc main_v43)
      = (broadcastInDim S800000 ![] bcast_S_S800000 : (⟨S_, .i32⟩ : BufTy).Contents (Elt F) → (⟨S800000, .i32⟩ : BufTy).Contents (Elt F))
          (after ops V (Proc.devRef .tc main_c_7)) :=
  stage_unary 59 main_c_7 main_v43 (broadcastInDim S800000 ![] bcast_S_S800000 : (⟨S_, .i32⟩ : BufTy).Contents (Elt F) → (⟨S800000, .i32⟩ : BufTy).Contents (Elt F)) dv dv rfl V (by decide) (by decide)

theorem st_main_v44 (V : Valuation τ sig (Elt F)) :
    after ops V (Proc.devRef .tc main_v44)
      = (addi : (⟨S800000, .i32⟩ : BufTy).Contents (Elt F) → (⟨S800000, .i32⟩ : BufTy).Contents (Elt F) → (⟨S800000, .i32⟩ : BufTy).Contents (Elt F))
          (after ops V (Proc.devRef .tc main_arg1))
          (after ops V (Proc.devRef .tc main_v43)) :=
  stage_binary 60 main_arg1 main_v43 main_v44 (addi : (⟨S800000, .i32⟩ : BufTy).Contents (Elt F) → (⟨S800000, .i32⟩ : BufTy).Contents (Elt F) → (⟨S800000, .i32⟩ : BufTy).Contents (Elt F)) dv dv dv rfl V (by decide) (by decide) (by decide)

theorem st_main_v45 (V : Valuation τ sig (Elt F)) :
    after ops V (Proc.devRef .tc main_v45)
      = (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F))
          (after ops V (Proc.devRef .tc main_v42))
          (after ops V (Proc.devRef .tc main_v44))
          (after ops V (Proc.devRef .tc main_arg1)) :=
  stage_ternary 61 main_v42 main_v44 main_arg1 main_v45 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) dv dv dv dv rfl V (by decide) (by decide) (by decide) (by decide)

theorem st_main_v46 (V : Valuation τ sig (Elt F)) :
    after ops V (Proc.devRef .tc main_v46)
      = (broadcastInDim S800000x1 ![0] bcast_S800000_S800000x1_0 : (⟨S800000, .i32⟩ : BufTy).Contents (Elt F) → (⟨S800000x1, .i32⟩ : BufTy).Contents (Elt F))
          (after ops V (Proc.devRef .tc main_v45)) :=
  stage_unary 62 main_v45 main_v46 (broadcastInDim S800000x1 ![0] bcast_S800000_S800000x1_0 : (⟨S800000, .i32⟩ : BufTy).Contents (Elt F) → (⟨S800000x1, .i32⟩ : BufTy).Contents (Elt F)) dv dv rfl V (by decide) (by decide)

theorem st_main_v47 (V : Valuation τ sig (Elt F)) :
    after ops V (Proc.devRef .tc main_v47)
      = ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F))
          (after ops V (Proc.devRef .tc main_v40))
          (after ops V (Proc.devRef .tc main_v46)) :=
  stage_binary 63 main_v40 main_v46 main_v47 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)) dv dv dv rfl V (by decide) (by decide) (by decide)

theorem st_main_cst_8 (V : Valuation τ sig (Elt F)) :
    after ops V (Proc.devRef .tc main_cst_8)
      = (constant S_ .f32 0x00000000#32 : (⟨S_, .f32⟩ : BufTy).Contents (Elt F)) :=
  stage_nullary 64 main_cst_8 (constant S_ .f32 0x00000000#32 : (⟨S_, .f32⟩ : BufTy).Contents (Elt F)) dv rfl V (by decide)

theorem st_main_v48 (V : Valuation τ sig (Elt F)) :
    after ops V (Proc.devRef .tc main_v48)
      = (broadcastInDim S50000x128 ![] bcast_S_S50000x128 : (⟨S_, .f32⟩ : BufTy).Contents (Elt F) → (⟨S50000x128, .f32⟩ : BufTy).Contents (Elt F))
          (after ops V (Proc.devRef .tc main_cst_8)) :=
  stage_unary 65 main_cst_8 main_v48 (broadcastInDim S50000x128 ![] bcast_S_S50000x128 : (⟨S_, .f32⟩ : BufTy).Contents (Elt F) → (⟨S50000x128, .f32⟩ : BufTy).Contents (Elt F)) dv dv rfl V (by decide) (by decide)

theorem st_main_v49 (V : Valuation τ sig (Elt F)) :
    after ops V (Proc.devRef .tc main_v49)
      = (broadcastInDim S800000x1 ![0] bcast_S800000_S800000x1_0 : (⟨S800000, .i32⟩ : BufTy).Contents (Elt F) → (⟨S800000x1, .i32⟩ : BufTy).Contents (Elt F))
          (after ops V (Proc.devRef .tc main_arg2)) :=
  stage_unary 66 main_arg2 main_v49 (broadcastInDim S800000x1 ![0] bcast_S800000_S800000x1_0 : (⟨S800000, .i32⟩ : BufTy).Contents (Elt F) → (⟨S800000x1, .i32⟩ : BufTy).Contents (Elt F)) dv dv rfl V (by decide) (by decide)

theorem st_main_v50 (V : Valuation τ sig (Elt F)) :
    after ops V (Proc.devRef .tc main_v50)
      = ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F))
          (after ops V (Proc.devRef .tc main_v48))
          (after ops V (Proc.devRef .tc main_v49))
          (after ops V (Proc.devRef .tc main_v47)) :=
  stage_ternary 67 main_v48 main_v49 main_v47 main_v50 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)) dv dv dv dv rfl V (by decide) (by decide) (by decide) (by decide)

theorem st_main_cst_9 (V : Valuation τ sig (Elt F)) :
    after ops V (Proc.devRef .tc main_cst_9)
      = (constant S_ .f32 0x3F800000#32 : (⟨S_, .f32⟩ : BufTy).Contents (Elt F)) :=
  stage_nullary 68 main_cst_9 (constant S_ .f32 0x3F800000#32 : (⟨S_, .f32⟩ : BufTy).Contents (Elt F)) dv rfl V (by decide)

theorem st_main_v51 (V : Valuation τ sig (Elt F)) :
    after ops V (Proc.devRef .tc main_v51)
      = (broadcastInDim S800000 ![] bcast_S_S800000 : (⟨S_, .f32⟩ : BufTy).Contents (Elt F) → (⟨S800000, .f32⟩ : BufTy).Contents (Elt F))
          (after ops V (Proc.devRef .tc main_cst_9)) :=
  stage_unary 69 main_cst_9 main_v51 (broadcastInDim S800000 ![] bcast_S_S800000 : (⟨S_, .f32⟩ : BufTy).Contents (Elt F) → (⟨S800000, .f32⟩ : BufTy).Contents (Elt F)) dv dv rfl V (by decide) (by decide)

theorem st_main_cst_10 (V : Valuation τ sig (Elt F)) :
    after ops V (Proc.devRef .tc main_cst_10)
      = (constant S_ .f32 0x00000000#32 : (⟨S_, .f32⟩ : BufTy).Contents (Elt F)) :=
  stage_nullary 70 main_cst_10 (constant S_ .f32 0x00000000#32 : (⟨S_, .f32⟩ : BufTy).Contents (Elt F)) dv rfl V (by decide)

theorem st_main_v52 (V : Valuation τ sig (Elt F)) :
    after ops V (Proc.devRef .tc main_v52)
      = (broadcastInDim S50000 ![] bcast_S_S50000 : (⟨S_, .f32⟩ : BufTy).Contents (Elt F) → (⟨S50000, .f32⟩ : BufTy).Contents (Elt F))
          (after ops V (Proc.devRef .tc main_cst_10)) :=
  stage_unary 71 main_cst_10 main_v52 (broadcastInDim S50000 ![] bcast_S_S50000 : (⟨S_, .f32⟩ : BufTy).Contents (Elt F) → (⟨S50000, .f32⟩ : BufTy).Contents (Elt F)) dv dv rfl V (by decide) (by decide)

theorem st_main_v53 (V : Valuation τ sig (Elt F)) :
    after ops V (Proc.devRef .tc main_v53)
      = (broadcastInDim S800000x1 ![0] bcast_S800000_S800000x1_0 : (⟨S800000, .i32⟩ : BufTy).Contents (Elt F) → (⟨S800000x1, .i32⟩ : BufTy).Contents (Elt F))
          (after ops V (Proc.devRef .tc main_arg2)) :=
  stage_unary 72 main_arg2 main_v53 (broadcastInDim S800000x1 ![0] bcast_S800000_S800000x1_0 : (⟨S800000, .i32⟩ : BufTy).Contents (Elt F) → (⟨S800000x1, .i32⟩ : BufTy).Contents (Elt F)) dv dv rfl V (by decide) (by decide)

theorem st_main_v54 (V : Valuation τ sig (Elt F)) :
    after ops V (Proc.devRef .tc main_v54)
      = ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F))
          (after ops V (Proc.devRef .tc main_v52))
          (after ops V (Proc.devRef .tc main_v53))
          (after ops V (Proc.devRef .tc main_v51)) :=
  stage_ternary 73 main_v52 main_v53 main_v51 main_v54 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)) dv dv dv dv rfl V (by decide) (by decide) (by decide) (by decide)

theorem st_main_cst_11 (V : Valuation τ sig (Elt F)) :
    after ops V (Proc.devRef .tc main_cst_11)
      = (constant S_ .f32 0x3F800000#32 : (⟨S_, .f32⟩ : BufTy).Contents (Elt F)) :=
  stage_nullary 74 main_cst_11 (constant S_ .f32 0x3F800000#32 : (⟨S_, .f32⟩ : BufTy).Contents (Elt F)) dv rfl V (by decide)

theorem st_main_v55 (V : Valuation τ sig (Elt F)) :
    after ops V (Proc.devRef .tc main_v55)
      = (broadcastInDim S50000 ![] bcast_S_S50000 : (⟨S_, .f32⟩ : BufTy).Contents (Elt F) → (⟨S50000, .f32⟩ : BufTy).Contents (Elt F))
          (after ops V (Proc.devRef .tc main_cst_11)) :=
  stage_unary 75 main_cst_11 main_v55 (broadcastInDim S50000 ![] bcast_S_S50000 : (⟨S_, .f32⟩ : BufTy).Contents (Elt F) → (⟨S50000, .f32⟩ : BufTy).Contents (Elt F)) dv dv rfl V (by decide) (by decide)

theorem st_main_v56 (V : Valuation τ sig (Elt F)) :
    after ops V (Proc.devRef .tc main_v56)
      = (maximumf : (⟨S50000, .f32⟩ : BufTy).Contents (Elt F) → (⟨S50000, .f32⟩ : BufTy).Contents (Elt F) → (⟨S50000, .f32⟩ : BufTy).Contents (Elt F))
          (after ops V (Proc.devRef .tc main_v54))
          (after ops V (Proc.devRef .tc main_v55)) :=
  stage_binary 76 main_v54 main_v55 main_v56 (maximumf : (⟨S50000, .f32⟩ : BufTy).Contents (Elt F) → (⟨S50000, .f32⟩ : BufTy).Contents (Elt F) → (⟨S50000, .f32⟩ : BufTy).Contents (Elt F)) dv dv dv rfl V (by decide) (by decide) (by decide)

theorem st_main_v57 (V : Valuation τ sig (Elt F)) :
    after ops V (Proc.devRef .tc main_v57)
      = (broadcastInDim S50000x1 ![0] bcast_S50000_S50000x1_0 : (⟨S50000, .f32⟩ : BufTy).Contents (Elt F) → (⟨S50000x1, .f32⟩ : BufTy).Contents (Elt F))
          (after ops V (Proc.devRef .tc main_v56)) :=
  stage_unary 77 main_v56 main_v57 (broadcastInDim S50000x1 ![0] bcast_S50000_S50000x1_0 : (⟨S50000, .f32⟩ : BufTy).Contents (Elt F) → (⟨S50000x1, .f32⟩ : BufTy).Contents (Elt F)) dv dv rfl V (by decide) (by decide)

theorem st_main_v58 (V : Valuation τ sig (Elt F)) :
    after ops V (Proc.devRef .tc main_v58)
      = (broadcastInDim S50000x128 ![0, 1] bcast_S50000x1_S50000x128_0_1 : (⟨S50000x1, .f32⟩ : BufTy).Contents (Elt F) → (⟨S50000x128, .f32⟩ : BufTy).Contents (Elt F))
          (after ops V (Proc.devRef .tc main_v57)) :=
  stage_unary 78 main_v57 main_v58 (broadcastInDim S50000x128 ![0, 1] bcast_S50000x1_S50000x128_0_1 : (⟨S50000x1, .f32⟩ : BufTy).Contents (Elt F) → (⟨S50000x128, .f32⟩ : BufTy).Contents (Elt F)) dv dv rfl V (by decide) (by decide)

theorem st_main_v59 (V : Valuation τ sig (Elt F)) :
    after ops V (Proc.devRef .tc main_v59)
      = (Host.divf : (⟨S50000x128, .f32⟩ : BufTy).Contents (Elt F) → (⟨S50000x128, .f32⟩ : BufTy).Contents (Elt F) → (⟨S50000x128, .f32⟩ : BufTy).Contents (Elt F))
          (after ops V (Proc.devRef .tc main_v50))
          (after ops V (Proc.devRef .tc main_v58)) :=
  stage_binary 79 main_v50 main_v58 main_v59 (Host.divf : (⟨S50000x128, .f32⟩ : BufTy).Contents (Elt F) → (⟨S50000x128, .f32⟩ : BufTy).Contents (Elt F) → (⟨S50000x128, .f32⟩ : BufTy).Contents (Elt F)) dv dv dv rfl V (by decide) (by decide) (by decide)

theorem st_main_v60 (V : Valuation τ sig (Elt F)) :
    after ops V (Proc.devRef .tc main_v60)
      = ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F))
          (after ops V (Proc.devRef .tc main_v40))
          (after ops V (Proc.devRef .tc main_arg13)) :=
  stage_binary 80 main_v40 main_arg13 main_v60 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) dv dv dv rfl V (by decide) (by decide) (by decide)

theorem st_main_v61 (V : Valuation τ sig (Elt F)) :
    after ops V (Proc.devRef .tc main_v61)
      = ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F))
          (after ops V (Proc.devRef .tc main_v59))
          (after ops V (Proc.devRef .tc main_arg14)) :=
  stage_binary 81 main_v59 main_arg14 main_v61 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) dv dv dv rfl V (by decide) (by decide) (by decide)

theorem st_main_v62 (V : Valuation τ sig (Elt F)) :
    after ops V (Proc.devRef .tc main_v62)
      = (addf : (⟨S50000x128, .f32⟩ : BufTy).Contents (Elt F) → (⟨S50000x128, .f32⟩ : BufTy).Contents (Elt F) → (⟨S50000x128, .f32⟩ : BufTy).Contents (Elt F))
          (after ops V (Proc.devRef .tc main_v60))
          (after ops V (Proc.devRef .tc main_v61)) :=
  stage_binary 82 main_v60 main_v61 main_v62 (addf : (⟨S50000x128, .f32⟩ : BufTy).Contents (Elt F) → (⟨S50000x128, .f32⟩ : BufTy).Contents (Elt F) → (⟨S50000x128, .f32⟩ : BufTy).Contents (Elt F)) dv dv dv rfl V (by decide) (by decide) (by decide)

theorem st_main_v63 (V : Valuation τ sig (Elt F)) :
    after ops V (Proc.devRef .tc main_v63)
      = (broadcastInDim S1x128 ![1] bcast_S128_S1x128_1 : (⟨S128, .f32⟩ : BufTy).Contents (Elt F) → (⟨S1x128, .f32⟩ : BufTy).Contents (Elt F))
          (after ops V (Proc.devRef .tc main_arg15)) :=
  stage_unary 83 main_arg15 main_v63 (broadcastInDim S1x128 ![1] bcast_S128_S1x128_1 : (⟨S128, .f32⟩ : BufTy).Contents (Elt F) → (⟨S1x128, .f32⟩ : BufTy).Contents (Elt F)) dv dv rfl V (by decide) (by decide)

theorem st_main_v64 (V : Valuation τ sig (Elt F)) :
    after ops V (Proc.devRef .tc main_v64)
      = (broadcastInDim S50000x128 ![0, 1] bcast_S1x128_S50000x128_0_1 : (⟨S1x128, .f32⟩ : BufTy).Contents (Elt F) → (⟨S50000x128, .f32⟩ : BufTy).Contents (Elt F))
          (after ops V (Proc.devRef .tc main_v63)) :=
  stage_unary 84 main_v63 main_v64 (broadcastInDim S50000x128 ![0, 1] bcast_S1x128_S50000x128_0_1 : (⟨S1x128, .f32⟩ : BufTy).Contents (Elt F) → (⟨S50000x128, .f32⟩ : BufTy).Contents (Elt F)) dv dv rfl V (by decide) (by decide)

theorem st_main_v65 (V : Valuation τ sig (Elt F)) :
    after ops V (Proc.devRef .tc main_v65)
      = (addf : (⟨S50000x128, .f32⟩ : BufTy).Contents (Elt F) → (⟨S50000x128, .f32⟩ : BufTy).Contents (Elt F) → (⟨S50000x128, .f32⟩ : BufTy).Contents (Elt F))
          (after ops V (Proc.devRef .tc main_v62))
          (after ops V (Proc.devRef .tc main_v64)) :=
  stage_binary 85 main_v62 main_v64 main_v65 (addf : (⟨S50000x128, .f32⟩ : BufTy).Contents (Elt F) → (⟨S50000x128, .f32⟩ : BufTy).Contents (Elt F) → (⟨S50000x128, .f32⟩ : BufTy).Contents (Elt F)) dv dv dv rfl V (by decide) (by decide) (by decide)

theorem st_main_v66 (V : Valuation τ sig (Elt F)) :
    after ops V (Proc.devRef .tc main_v66)
      = (broadcastInDim S1x128 ![1] bcast_S128_S1x128_1 : (⟨S128, .f32⟩ : BufTy).Contents (Elt F) → (⟨S1x128, .f32⟩ : BufTy).Contents (Elt F))
          (after ops V (Proc.devRef .tc main_arg18)) :=
  stage_unary 86 main_arg18 main_v66 (broadcastInDim S1x128 ![1] bcast_S128_S1x128_1 : (⟨S128, .f32⟩ : BufTy).Contents (Elt F) → (⟨S1x128, .f32⟩ : BufTy).Contents (Elt F)) dv dv rfl V (by decide) (by decide)

theorem st_main_v67 (V : Valuation τ sig (Elt F)) :
    after ops V (Proc.devRef .tc main_v67)
      = (broadcastInDim S50000x128 ![0, 1] bcast_S1x128_S50000x128_0_1 : (⟨S1x128, .f32⟩ : BufTy).Contents (Elt F) → (⟨S50000x128, .f32⟩ : BufTy).Contents (Elt F))
          (after ops V (Proc.devRef .tc main_v66)) :=
  stage_unary 87 main_v66 main_v67 (broadcastInDim S50000x128 ![0, 1] bcast_S1x128_S50000x128_0_1 : (⟨S1x128, .f32⟩ : BufTy).Contents (Elt F) → (⟨S50000x128, .f32⟩ : BufTy).Contents (Elt F)) dv dv rfl V (by decide) (by decide)

theorem st_main_v68 (V : Valuation τ sig (Elt F)) :
    after ops V (Proc.devRef .tc main_v68)
      = (subf : (⟨S50000x128, .f32⟩ : BufTy).Contents (Elt F) → (⟨S50000x128, .f32⟩ : BufTy).Contents (Elt F) → (⟨S50000x128, .f32⟩ : BufTy).Contents (Elt F))
          (after ops V (Proc.devRef .tc main_v65))
          (after ops V (Proc.devRef .tc main_v67)) :=
  stage_binary 88 main_v65 main_v67 main_v68 (subf : (⟨S50000x128, .f32⟩ : BufTy).Contents (Elt F) → (⟨S50000x128, .f32⟩ : BufTy).Contents (Elt F) → (⟨S50000x128, .f32⟩ : BufTy).Contents (Elt F)) dv dv dv rfl V (by decide) (by decide) (by decide)

theorem st_main_v69 (V : Valuation τ sig (Elt F)) :
    after ops V (Proc.devRef .tc main_v69)
      = (broadcastInDim S1x128 ![1] bcast_S128_S1x128_1 : (⟨S128, .f32⟩ : BufTy).Contents (Elt F) → (⟨S1x128, .f32⟩ : BufTy).Contents (Elt F))
          (after ops V (Proc.devRef .tc main_arg16)) :=
  stage_unary 89 main_arg16 main_v69 (broadcastInDim S1x128 ![1] bcast_S128_S1x128_1 : (⟨S128, .f32⟩ : BufTy).Contents (Elt F) → (⟨S1x128, .f32⟩ : BufTy).Contents (Elt F)) dv dv rfl V (by decide) (by decide)

theorem st_main_v70 (V : Valuation τ sig (Elt F)) :
    after ops V (Proc.devRef .tc main_v70)
      = (broadcastInDim S50000x128 ![0, 1] bcast_S1x128_S50000x128_0_1 : (⟨S1x128, .f32⟩ : BufTy).Contents (Elt F) → (⟨S50000x128, .f32⟩ : BufTy).Contents (Elt F))
          (after ops V (Proc.devRef .tc main_v69)) :=
  stage_unary 90 main_v69 main_v70 (broadcastInDim S50000x128 ![0, 1] bcast_S1x128_S50000x128_0_1 : (⟨S1x128, .f32⟩ : BufTy).Contents (Elt F) → (⟨S50000x128, .f32⟩ : BufTy).Contents (Elt F)) dv dv rfl V (by decide) (by decide)

theorem st_main_v71 (V : Valuation τ sig (Elt F)) :
    after ops V (Proc.devRef .tc main_v71)
      = (mulf : (⟨S50000x128, .f32⟩ : BufTy).Contents (Elt F) → (⟨S50000x128, .f32⟩ : BufTy).Contents (Elt F) → (⟨S50000x128, .f32⟩ : BufTy).Contents (Elt F))
          (after ops V (Proc.devRef .tc main_v70))
          (after ops V (Proc.devRef .tc main_v68)) :=
  stage_binary 91 main_v70 main_v68 main_v71 (mulf : (⟨S50000x128, .f32⟩ : BufTy).Contents (Elt F) → (⟨S50000x128, .f32⟩ : BufTy).Contents (Elt F) → (⟨S50000x128, .f32⟩ : BufTy).Contents (Elt F)) dv dv dv rfl V (by decide) (by decide) (by decide)

theorem st_main_cst_12 (V : Valuation τ sig (Elt F)) :
    after ops V (Proc.devRef .tc main_cst_12)
      = (constant S_ .f32 0x3727C5AC#32 : (⟨S_, .f32⟩ : BufTy).Contents (Elt F)) :=
  stage_nullary 92 main_cst_12 (constant S_ .f32 0x3727C5AC#32 : (⟨S_, .f32⟩ : BufTy).Contents (Elt F)) dv rfl V (by decide)

theorem st_main_v72 (V : Valuation τ sig (Elt F)) :
    after ops V (Proc.devRef .tc main_v72)
      = (broadcastInDim S128 ![] bcast_S_S128 : (⟨S_, .f32⟩ : BufTy).Contents (Elt F) → (⟨S128, .f32⟩ : BufTy).Contents (Elt F))
          (after ops V (Proc.devRef .tc main_cst_12)) :=
  stage_unary 93 main_cst_12 main_v72 (broadcastInDim S128 ![] bcast_S_S128 : (⟨S_, .f32⟩ : BufTy).Contents (Elt F) → (⟨S128, .f32⟩ : BufTy).Contents (Elt F)) dv dv rfl V (by decide) (by decide)

theorem st_main_v73 (V : Valuation τ sig (Elt F)) :
    after ops V (Proc.devRef .tc main_v73)
      = (addf : (⟨S128, .f32⟩ : BufTy).Contents (Elt F) → (⟨S128, .f32⟩ : BufTy).Contents (Elt F) → (⟨S128, .f32⟩ : BufTy).Contents (Elt F))
          (after ops V (Proc.devRef .tc main_arg19))
          (after ops V (Proc.devRef .tc main_v72)) :=
  stage_binary 94 main_arg19 main_v72 main_v73 (addf : (⟨S128, .f32⟩ : BufTy).Contents (Elt F) → (⟨S128, .f32⟩ : BufTy).Contents (Elt F) → (⟨S128, .f32⟩ : BufTy).Contents (Elt F)) dv dv dv rfl V (by decide) (by decide) (by decide)

theorem st_main_v74 (V : Valuation τ sig (Elt F)) :
    after ops V (Proc.devRef .tc main_v74)
      = (Host.rsqrt : (⟨S128, .f32⟩ : BufTy).Contents (Elt F) → (⟨S128, .f32⟩ : BufTy).Contents (Elt F))
          (after ops V (Proc.devRef .tc main_v73)) :=
  stage_unary 95 main_v73 main_v74 (Host.rsqrt : (⟨S128, .f32⟩ : BufTy).Contents (Elt F) → (⟨S128, .f32⟩ : BufTy).Contents (Elt F)) dv dv rfl V (by decide) (by decide)

theorem st_main_v75 (V : Valuation τ sig (Elt F)) :
    after ops V (Proc.devRef .tc main_v75)
      = (broadcastInDim S1x128 ![1] bcast_S128_S1x128_1 : (⟨S128, .f32⟩ : BufTy).Contents (Elt F) → (⟨S1x128, .f32⟩ : BufTy).Contents (Elt F))
          (after ops V (Proc.devRef .tc main_v74)) :=
  stage_unary 96 main_v74 main_v75 (broadcastInDim S1x128 ![1] bcast_S128_S1x128_1 : (⟨S128, .f32⟩ : BufTy).Contents (Elt F) → (⟨S1x128, .f32⟩ : BufTy).Contents (Elt F)) dv dv rfl V (by decide) (by decide)

theorem st_main_v76 (V : Valuation τ sig (Elt F)) :
    after ops V (Proc.devRef .tc main_v76)
      = (broadcastInDim S50000x128 ![0, 1] bcast_S1x128_S50000x128_0_1 : (⟨S1x128, .f32⟩ : BufTy).Contents (Elt F) → (⟨S50000x128, .f32⟩ : BufTy).Contents (Elt F))
          (after ops V (Proc.devRef .tc main_v75)) :=
  stage_unary 97 main_v75 main_v76 (broadcastInDim S50000x128 ![0, 1] bcast_S1x128_S50000x128_0_1 : (⟨S1x128, .f32⟩ : BufTy).Contents (Elt F) → (⟨S50000x128, .f32⟩ : BufTy).Contents (Elt F)) dv dv rfl V (by decide) (by decide)

theorem st_main_v77 (V : Valuation τ sig (Elt F)) :
    after ops V (Proc.devRef .tc main_v77)
      = (mulf : (⟨S50000x128, .f32⟩ : BufTy).Contents (Elt F) → (⟨S50000x128, .f32⟩ : BufTy).Contents (Elt F) → (⟨S50000x128, .f32⟩ : BufTy).Contents (Elt F))
          (after ops V (Proc.devRef .tc main_v71))
          (after ops V (Proc.devRef .tc main_v76)) :=
  stage_binary 98 main_v71 main_v76 main_v77 (mulf : (⟨S50000x128, .f32⟩ : BufTy).Contents (Elt F) → (⟨S50000x128, .f32⟩ : BufTy).Contents (Elt F) → (⟨S50000x128, .f32⟩ : BufTy).Contents (Elt F)) dv dv dv rfl V (by decide) (by decide) (by decide)

theorem st_main_v78 (V : Valuation τ sig (Elt F)) :
    after ops V (Proc.devRef .tc main_v78)
      = (broadcastInDim S1x128 ![1] bcast_S128_S1x128_1 : (⟨S128, .f32⟩ : BufTy).Contents (Elt F) → (⟨S1x128, .f32⟩ : BufTy).Contents (Elt F))
          (after ops V (Proc.devRef .tc main_arg17)) :=
  stage_unary 99 main_arg17 main_v78 (broadcastInDim S1x128 ![1] bcast_S128_S1x128_1 : (⟨S128, .f32⟩ : BufTy).Contents (Elt F) → (⟨S1x128, .f32⟩ : BufTy).Contents (Elt F)) dv dv rfl V (by decide) (by decide)

theorem st_main_v79 (V : Valuation τ sig (Elt F)) :
    after ops V (Proc.devRef .tc main_v79)
      = (broadcastInDim S50000x128 ![0, 1] bcast_S1x128_S50000x128_0_1 : (⟨S1x128, .f32⟩ : BufTy).Contents (Elt F) → (⟨S50000x128, .f32⟩ : BufTy).Contents (Elt F))
          (after ops V (Proc.devRef .tc main_v78)) :=
  stage_unary 100 main_v78 main_v79 (broadcastInDim S50000x128 ![0, 1] bcast_S1x128_S50000x128_0_1 : (⟨S1x128, .f32⟩ : BufTy).Contents (Elt F) → (⟨S50000x128, .f32⟩ : BufTy).Contents (Elt F)) dv dv rfl V (by decide) (by decide)

theorem st_main_v80 (V : Valuation τ sig (Elt F)) :
    after ops V (Proc.devRef .tc main_v80)
      = (addf : (⟨S50000x128, .f32⟩ : BufTy).Contents (Elt F) → (⟨S50000x128, .f32⟩ : BufTy).Contents (Elt F) → (⟨S50000x128, .f32⟩ : BufTy).Contents (Elt F))
          (after ops V (Proc.devRef .tc main_v77))
          (after ops V (Proc.devRef .tc main_v79)) :=
  stage_binary 101 main_v77 main_v79 main_v80 (addf : (⟨S50000x128, .f32⟩ : BufTy).Contents (Elt F) → (⟨S50000x128, .f32⟩ : BufTy).Contents (Elt F) → (⟨S50000x128, .f32⟩ : BufTy).Contents (Elt F)) dv dv dv rfl V (by decide) (by decide) (by decide)

theorem st_main_cst_13 (V : Valuation τ sig (Elt F)) :
    after ops V (Proc.devRef .tc main_cst_13)
      = (constant S_ .f32 0x3C23D70A#32 : (⟨S_, .f32⟩ : BufTy).Contents (Elt F)) :=
  stage_nullary 102 main_cst_13 (constant S_ .f32 0x3C23D70A#32 : (⟨S_, .f32⟩ : BufTy).Contents (Elt F)) dv rfl V (by decide)

theorem st_main_call1_cst (V : Valuation τ sig (Elt F)) :
    after ops V (Proc.devRef .tc main_call1_cst)
      = (constant S_ .f32 0x00000000#32 : (⟨S_, .f32⟩ : BufTy).Contents (Elt F)) :=
  stage_nullary 103 main_call1_cst (constant S_ .f32 0x00000000#32 : (⟨S_, .f32⟩ : BufTy).Contents (Elt F)) dv rfl V (by decide)

theorem st_main_call1_v0 (V : Valuation τ sig (Elt F)) :
    after ops V (Proc.devRef .tc main_call1_v0)
      = (broadcastInDim S50000x128 ![] bcast_S_S50000x128 : (⟨S_, .f32⟩ : BufTy).Contents (Elt F) → (⟨S50000x128, .f32⟩ : BufTy).Contents (Elt F))
          (after ops V (Proc.devRef .tc main_call1_cst)) :=
  stage_unary 104 main_call1_cst main_call1_v0 (broadcastInDim S50000x128 ![] bcast_S_S50000x128 : (⟨S_, .f32⟩ : BufTy).Contents (Elt F) → (⟨S50000x128, .f32⟩ : BufTy).Contents (Elt F)) dv dv rfl V (by decide) (by decide)

theorem st_main_call1_v1 (V : Valuation τ sig (Elt F)) :
    after ops V (Proc.devRef .tc main_call1_v1)
      = (cmpf .oge : (⟨S50000x128, .f32⟩ : BufTy).Contents (Elt F) → (⟨S50000x128, .f32⟩ : BufTy).Contents (Elt F) → (⟨S50000x128, .i1⟩ : BufTy).Contents (Elt F))
          (after ops V (Proc.devRef .tc main_v80))
          (after ops V (Proc.devRef .tc main_call1_v0)) :=
  stage_binary 105 main_v80 main_call1_v0 main_call1_v1 (cmpf .oge : (⟨S50000x128, .f32⟩ : BufTy).Contents (Elt F) → (⟨S50000x128, .f32⟩ : BufTy).Contents (Elt F) → (⟨S50000x128, .i1⟩ : BufTy).Contents (Elt F)) dv dv dv rfl V (by decide) (by decide) (by decide)

theorem st_main_call1_v2 (V : Valuation τ sig (Elt F)) :
    after ops V (Proc.devRef .tc main_call1_v2)
      = (id : (⟨S_, .f32⟩ : BufTy).Contents (Elt F) → (⟨S_, .f32⟩ : BufTy).Contents (Elt F))
          (after ops V (Proc.devRef .tc main_cst_13)) :=
  stage_unary 106 main_cst_13 main_call1_v2 (id : (⟨S_, .f32⟩ : BufTy).Contents (Elt F) → (⟨S_, .f32⟩ : BufTy).Contents (Elt F)) dv dv rfl V (by decide) (by decide)

theorem st_main_call1_v3 (V : Valuation τ sig (Elt F)) :
    after ops V (Proc.devRef .tc main_call1_v3)
      = (broadcastInDim S50000x128 ![] bcast_S_S50000x128 : (⟨S_, .f32⟩ : BufTy).Contents (Elt F) → (⟨S50000x128, .f32⟩ : BufTy).Contents (Elt F))
          (after ops V (Proc.devRef .tc main_call1_v2)) :=
  stage_unary 107 main_call1_v2 main_call1_v3 (broadcastInDim S50000x128 ![] bcast_S_S50000x128 : (⟨S_, .f32⟩ : BufTy).Contents (Elt F) → (⟨S50000x128, .f32⟩ : BufTy).Contents (Elt F)) dv dv rfl V (by decide) (by decide)

theorem st_main_call1_v4 (V : Valuation τ sig (Elt F)) :
    after ops V (Proc.devRef .tc main_call1_v4)
      = (mulf : (⟨S50000x128, .f32⟩ : BufTy).Contents (Elt F) → (⟨S50000x128, .f32⟩ : BufTy).Contents (Elt F) → (⟨S50000x128, .f32⟩ : BufTy).Contents (Elt F))
          (after ops V (Proc.devRef .tc main_call1_v3))
          (after ops V (Proc.devRef .tc main_v80)) :=
  stage_binary 108 main_call1_v3 main_v80 main_call1_v4 (mulf : (⟨S50000x128, .f32⟩ : BufTy).Contents (Elt F) → (⟨S50000x128, .f32⟩ : BufTy).Contents (Elt F) → (⟨S50000x128, .f32⟩ : BufTy).Contents (Elt F)) dv dv dv rfl V (by decide) (by decide) (by decide)

theorem st_main_v81 (V : Valuation τ sig (Elt F)) :
    after ops V (Proc.devRef .tc main_v81)
      = (select : (⟨S50000x128, .i1⟩ : BufTy).Contents (Elt F) → (⟨S50000x128, .f32⟩ : BufTy).Contents (Elt F) → (⟨S50000x128, .f32⟩ : BufTy).Contents (Elt F) → (⟨S50000x128, .f32⟩ : BufTy).Contents (Elt F))
          (after ops V (Proc.devRef .tc main_call1_v1))
          (after ops V (Proc.devRef .tc main_v80))
          (after ops V (Proc.devRef .tc main_call1_v4)) :=
  stage_ternary 109 main_call1_v1 main_v80 main_call1_v4 main_v81 (select : (⟨S50000x128, .i1⟩ : BufTy).Contents (Elt F) → (⟨S50000x128, .f32⟩ : BufTy).Contents (Elt F) → (⟨S50000x128, .f32⟩ : BufTy).Contents (Elt F) → (⟨S50000x128, .f32⟩ : BufTy).Contents (Elt F)) dv dv dv dv rfl V (by decide) (by decide) (by decide) (by decide)

theorem st_main_cst_14 (V : Valuation τ sig (Elt F)) :
    after ops V (Proc.devRef .tc main_cst_14)
      = (constant S_ .f32 0x283424DC#32 : (⟨S_, .f32⟩ : BufTy).Contents (Elt F)) :=
  stage_nullary 110 main_cst_14 (constant S_ .f32 0x283424DC#32 : (⟨S_, .f32⟩ : BufTy).Contents (Elt F)) dv rfl V (by decide)

theorem st_main_call2_v0 (V : Valuation τ sig (Elt F)) :
    after ops V (Proc.devRef .tc main_call2_v0)
      = (cmpf .une : (⟨S50000x128, .f32⟩ : BufTy).Contents (Elt F) → (⟨S50000x128, .f32⟩ : BufTy).Contents (Elt F) → (⟨S50000x128, .i1⟩ : BufTy).Contents (Elt F))
          (after ops V (Proc.devRef .tc main_v81))
          (after ops V (Proc.devRef .tc main_v81)) :=
  stage_binary 111 main_v81 main_v81 main_call2_v0 (cmpf .une : (⟨S50000x128, .f32⟩ : BufTy).Contents (Elt F) → (⟨S50000x128, .f32⟩ : BufTy).Contents (Elt F) → (⟨S50000x128, .i1⟩ : BufTy).Contents (Elt F)) dv dv dv rfl V (by decide) (by decide) (by decide)

theorem st_main_call2_v1 (V : Valuation τ sig (Elt F)) :
    after ops V (Proc.devRef .tc main_call2_v1)
      = (id : (⟨S_, .f32⟩ : BufTy).Contents (Elt F) → (⟨S_, .f32⟩ : BufTy).Contents (Elt F))
          (after ops V (Proc.devRef .tc main_cst_14)) :=
  stage_unary 112 main_cst_14 main_call2_v1 (id : (⟨S_, .f32⟩ : BufTy).Contents (Elt F) → (⟨S_, .f32⟩ : BufTy).Contents (Elt F)) dv dv rfl V (by decide) (by decide)

theorem st_main_call2_call0_v0 (V : Valuation τ sig (Elt F)) :
    after ops V (Proc.devRef .tc main_call2_call0_v0)
      = (broadcastInDim S50000x128 ![] bcast_S_S50000x128 : (⟨S_, .f32⟩ : BufTy).Contents (Elt F) → (⟨S50000x128, .f32⟩ : BufTy).Contents (Elt F))
          (after ops V (Proc.devRef .tc main_call2_v1)) :=
  stage_unary 113 main_call2_v1 main_call2_call0_v0 (broadcastInDim S50000x128 ![] bcast_S_S50000x128 : (⟨S_, .f32⟩ : BufTy).Contents (Elt F) → (⟨S50000x128, .f32⟩ : BufTy).Contents (Elt F)) dv dv rfl V (by decide) (by decide)

theorem st_main_call2_v2 (V : Valuation τ sig (Elt F)) :
    after ops V (Proc.devRef .tc main_call2_v2)
      = (select : (⟨S50000x128, .i1⟩ : BufTy).Contents (Elt F) → (⟨S50000x128, .f32⟩ : BufTy).Contents (Elt F) → (⟨S50000x128, .f32⟩ : BufTy).Contents (Elt F) → (⟨S50000x128, .f32⟩ : BufTy).Contents (Elt F))
          (after ops V (Proc.devRef .tc main_call2_v0))
          (after ops V (Proc.devRef .tc main_call2_call0_v0))
          (after ops V (Proc.devRef .tc main_v81)) :=
  stage_ternary 114 main_call2_v0 main_call2_call0_v0 main_v81 main_call2_v2 (select : (⟨S50000x128, .i1⟩ : BufTy).Contents (Elt F) → (⟨S50000x128, .f32⟩ : BufTy).Contents (Elt F) → (⟨S50000x128, .f32⟩ : BufTy).Contents (Elt F) → (⟨S50000x128, .f32⟩ : BufTy).Contents (Elt F)) dv dv dv dv rfl V (by decide) (by decide) (by decide) (by decide)

theorem st_main_call2_cst (V : Valuation τ sig (Elt F)) :
    after ops V (Proc.devRef .tc main_call2_cst)
      = (constant S_ .f32 0x7F800000#32 : (⟨S_, .f32⟩ : BufTy).Contents (Elt F)) :=
  stage_nullary 115 main_call2_cst (constant S_ .f32 0x7F800000#32 : (⟨S_, .f32⟩ : BufTy).Contents (Elt F)) dv rfl V (by decide)

theorem st_main_call2_v3 (V : Valuation τ sig (Elt F)) :
    after ops V (Proc.devRef .tc main_call2_v3)
      = (broadcastInDim S50000x128 ![] bcast_S_S50000x128 : (⟨S_, .f32⟩ : BufTy).Contents (Elt F) → (⟨S50000x128, .f32⟩ : BufTy).Contents (Elt F))
          (after ops V (Proc.devRef .tc main_call2_cst)) :=
  stage_unary 116 main_call2_cst main_call2_v3 (broadcastInDim S50000x128 ![] bcast_S_S50000x128 : (⟨S_, .f32⟩ : BufTy).Contents (Elt F) → (⟨S50000x128, .f32⟩ : BufTy).Contents (Elt F)) dv dv rfl V (by decide) (by decide)

theorem st_main_call2_v4 (V : Valuation τ sig (Elt F)) :
    after ops V (Proc.devRef .tc main_call2_v4)
      = (cmpf .oeq : (⟨S50000x128, .f32⟩ : BufTy).Contents (Elt F) → (⟨S50000x128, .f32⟩ : BufTy).Contents (Elt F) → (⟨S50000x128, .i1⟩ : BufTy).Contents (Elt F))
          (after ops V (Proc.devRef .tc main_call2_v2))
          (after ops V (Proc.devRef .tc main_call2_v3)) :=
  stage_binary 117 main_call2_v2 main_call2_v3 main_call2_v4 (cmpf .oeq : (⟨S50000x128, .f32⟩ : BufTy).Contents (Elt F) → (⟨S50000x128, .f32⟩ : BufTy).Contents (Elt F) → (⟨S50000x128, .i1⟩ : BufTy).Contents (Elt F)) dv dv dv rfl V (by decide) (by decide) (by decide)

theorem st_main_call2_cst_0 (V : Valuation τ sig (Elt F)) :
    after ops V (Proc.devRef .tc main_call2_cst_0)
      = (constant S_ .f32 0x7F7FFFFF#32 : (⟨S_, .f32⟩ : BufTy).Contents (Elt F)) :=
  stage_nullary 118 main_call2_cst_0 (constant S_ .f32 0x7F7FFFFF#32 : (⟨S_, .f32⟩ : BufTy).Contents (Elt F)) dv rfl V (by decide)

theorem st_main_call2_call1_v0 (V : Valuation τ sig (Elt F)) :
    after ops V (Proc.devRef .tc main_call2_call1_v0)
      = (broadcastInDim S50000x128 ![] bcast_S_S50000x128 : (⟨S_, .f32⟩ : BufTy).Contents (Elt F) → (⟨S50000x128, .f32⟩ : BufTy).Contents (Elt F))
          (after ops V (Proc.devRef .tc main_call2_cst_0)) :=
  stage_unary 119 main_call2_cst_0 main_call2_call1_v0 (broadcastInDim S50000x128 ![] bcast_S_S50000x128 : (⟨S_, .f32⟩ : BufTy).Contents (Elt F) → (⟨S50000x128, .f32⟩ : BufTy).Contents (Elt F)) dv dv rfl V (by decide) (by decide)

theorem st_main_call2_v5 (V : Valuation τ sig (Elt F)) :
    after ops V (Proc.devRef .tc main_call2_v5)
      = (select : (⟨S50000x128, .i1⟩ : BufTy).Contents (Elt F) → (⟨S50000x128, .f32⟩ : BufTy).Contents (Elt F) → (⟨S50000x128, .f32⟩ : BufTy).Contents (Elt F) → (⟨S50000x128, .f32⟩ : BufTy).Contents (Elt F))
          (after ops V (Proc.devRef .tc main_call2_v4))
          (after ops V (Proc.devRef .tc main_call2_call1_v0))
          (after ops V (Proc.devRef .tc main_call2_v2)) :=
  stage_ternary 120 main_call2_v4 main_call2_call1_v0 main_call2_v2 main_call2_v5 (select : (⟨S50000x128, .i1⟩ : BufTy).Contents (Elt F) → (⟨S50000x128, .f32⟩ : BufTy).Contents (Elt F) → (⟨S50000x128, .f32⟩ : BufTy).Contents (Elt F) → (⟨S50000x128, .f32⟩ : BufTy).Contents (Elt F)) dv dv dv dv rfl V (by decide) (by decide) (by decide) (by decide)

theorem st_main_call2_cst_1 (V : Valuation τ sig (Elt F)) :
    after ops V (Proc.devRef .tc main_call2_cst_1)
      = (constant S_ .f32 0xFF800000#32 : (⟨S_, .f32⟩ : BufTy).Contents (Elt F)) :=
  stage_nullary 121 main_call2_cst_1 (constant S_ .f32 0xFF800000#32 : (⟨S_, .f32⟩ : BufTy).Contents (Elt F)) dv rfl V (by decide)

theorem st_main_call2_v6 (V : Valuation τ sig (Elt F)) :
    after ops V (Proc.devRef .tc main_call2_v6)
      = (broadcastInDim S50000x128 ![] bcast_S_S50000x128 : (⟨S_, .f32⟩ : BufTy).Contents (Elt F) → (⟨S50000x128, .f32⟩ : BufTy).Contents (Elt F))
          (after ops V (Proc.devRef .tc main_call2_cst_1)) :=
  stage_unary 122 main_call2_cst_1 main_call2_v6 (broadcastInDim S50000x128 ![] bcast_S_S50000x128 : (⟨S_, .f32⟩ : BufTy).Contents (Elt F) → (⟨S50000x128, .f32⟩ : BufTy).Contents (Elt F)) dv dv rfl V (by decide) (by decide)

theorem st_main_call2_v7 (V : Valuation τ sig (Elt F)) :
    after ops V (Proc.devRef .tc main_call2_v7)
      = (cmpf .oeq : (⟨S50000x128, .f32⟩ : BufTy).Contents (Elt F) → (⟨S50000x128, .f32⟩ : BufTy).Contents (Elt F) → (⟨S50000x128, .i1⟩ : BufTy).Contents (Elt F))
          (after ops V (Proc.devRef .tc main_call2_v5))
          (after ops V (Proc.devRef .tc main_call2_v6)) :=
  stage_binary 123 main_call2_v5 main_call2_v6 main_call2_v7 (cmpf .oeq : (⟨S50000x128, .f32⟩ : BufTy).Contents (Elt F) → (⟨S50000x128, .f32⟩ : BufTy).Contents (Elt F) → (⟨S50000x128, .i1⟩ : BufTy).Contents (Elt F)) dv dv dv rfl V (by decide) (by decide) (by decide)

theorem st_main_call2_cst_2 (V : Valuation τ sig (Elt F)) :
    after ops V (Proc.devRef .tc main_call2_cst_2)
      = (constant S_ .f32 0xFF7FFFFF#32 : (⟨S_, .f32⟩ : BufTy).Contents (Elt F)) :=
  stage_nullary 124 main_call2_cst_2 (constant S_ .f32 0xFF7FFFFF#32 : (⟨S_, .f32⟩ : BufTy).Contents (Elt F)) dv rfl V (by decide)

theorem st_main_call2_call2_v0 (V : Valuation τ sig (Elt F)) :
    after ops V (Proc.devRef .tc main_call2_call2_v0)
      = (broadcastInDim S50000x128 ![] bcast_S_S50000x128 : (⟨S_, .f32⟩ : BufTy).Contents (Elt F) → (⟨S50000x128, .f32⟩ : BufTy).Contents (Elt F))
          (after ops V (Proc.devRef .tc main_call2_cst_2)) :=
  stage_unary 125 main_call2_cst_2 main_call2_call2_v0 (broadcastInDim S50000x128 ![] bcast_S_S50000x128 : (⟨S_, .f32⟩ : BufTy).Contents (Elt F) → (⟨S50000x128, .f32⟩ : BufTy).Contents (Elt F)) dv dv rfl V (by decide) (by decide)

theorem st_main_v82 (V : Valuation τ sig (Elt F)) :
    after ops V (Proc.devRef .tc main_v82)
      = (select : (⟨S50000x128, .i1⟩ : BufTy).Contents (Elt F) → (⟨S50000x128, .f32⟩ : BufTy).Contents (Elt F) → (⟨S50000x128, .f32⟩ : BufTy).Contents (Elt F) → (⟨S50000x128, .f32⟩ : BufTy).Contents (Elt F))
          (after ops V (Proc.devRef .tc main_call2_v7))
          (after ops V (Proc.devRef .tc main_call2_call2_v0))
          (after ops V (Proc.devRef .tc main_call2_v5)) :=
  stage_ternary 126 main_call2_v7 main_call2_call2_v0 main_call2_v5 main_v82 (select : (⟨S50000x128, .i1⟩ : BufTy).Contents (Elt F) → (⟨S50000x128, .f32⟩ : BufTy).Contents (Elt F) → (⟨S50000x128, .f32⟩ : BufTy).Contents (Elt F) → (⟨S50000x128, .f32⟩ : BufTy).Contents (Elt F)) dv dv dv dv rfl V (by decide) (by decide) (by decide) (by decide)

theorem st_main_c_15 (V : Valuation τ sig (Elt F)) :
    after ops V (Proc.devRef .tc main_c_15)
      = (constantI S_ 32 0#32 : (⟨S_, .i32⟩ : BufTy).Contents (Elt F)) :=
  stage_nullary 127 main_c_15 (constantI S_ 32 0#32 : (⟨S_, .i32⟩ : BufTy).Contents (Elt F)) dv rfl V (by decide)

theorem st_main_v83 (V : Valuation τ sig (Elt F)) :
    after ops V (Proc.devRef .tc main_v83)
      = (broadcastInDim S100000 ![] bcast_S_S100000 : (⟨S_, .i32⟩ : BufTy).Contents (Elt F) → (⟨S100000, .i32⟩ : BufTy).Contents (Elt F))
          (after ops V (Proc.devRef .tc main_c_15)) :=
  stage_unary 128 main_c_15 main_v83 (broadcastInDim S100000 ![] bcast_S_S100000 : (⟨S_, .i32⟩ : BufTy).Contents (Elt F) → (⟨S100000, .i32⟩ : BufTy).Contents (Elt F)) dv dv rfl V (by decide) (by decide)

theorem st_main_v84 (V : Valuation τ sig (Elt F)) :
    after ops V (Proc.devRef .tc main_v84)
      = (cmpi .slt : (⟨S100000, .i32⟩ : BufTy).Contents (Elt F) → (⟨S100000, .i32⟩ : BufTy).Contents (Elt F) → (⟨S100000, .i1⟩ : BufTy).Contents (Elt F))
          (after ops V (Proc.devRef .tc main_arg3))
          (after ops V (Proc.devRef .tc main_v83)) :=
  stage_binary 129 main_arg3 main_v83 main_v84 (cmpi .slt : (⟨S100000, .i32⟩ : BufTy).Contents (Elt F) → (⟨S100000, .i32⟩ : BufTy).Contents (Elt F) → (⟨S100000, .i1⟩ : BufTy).Contents (Elt F)) dv dv dv rfl V (by decide) (by decide) (by decide)

theorem st_main_c_16 (V : Valuation τ sig (Elt F)) :
    after ops V (Proc.devRef .tc main_c_16)
      = (constantI S_ 32 50000#32 : (⟨S_, .i32⟩ : BufTy).Contents (Elt F)) :=
  stage_nullary 130 main_c_16 (constantI S_ 32 50000#32 : (⟨S_, .i32⟩ : BufTy).Contents (Elt F)) dv rfl V (by decide)

theorem st_main_v85 (V : Valuation τ sig (Elt F)) :
    after ops V (Proc.devRef .tc main_v85)
      = (broadcastInDim S100000 ![] bcast_S_S100000 : (⟨S_, .i32⟩ : BufTy).Contents (Elt F) → (⟨S100000, .i32⟩ : BufTy).Contents (Elt F))
          (after ops V (Proc.devRef .tc main_c_16)) :=
  stage_unary 131 main_c_16 main_v85 (broadcastInDim S100000 ![] bcast_S_S100000 : (⟨S_, .i32⟩ : BufTy).Contents (Elt F) → (⟨S100000, .i32⟩ : BufTy).Contents (Elt F)) dv dv rfl V (by decide) (by decide)

theorem st_main_v86 (V : Valuation τ sig (Elt F)) :
    after ops V (Proc.devRef .tc main_v86)
      = (addi : (⟨S100000, .i32⟩ : BufTy).Contents (Elt F) → (⟨S100000, .i32⟩ : BufTy).Contents (Elt F) → (⟨S100000, .i32⟩ : BufTy).Contents (Elt F))
          (after ops V (Proc.devRef .tc main_arg3))
          (after ops V (Proc.devRef .tc main_v85)) :=
  stage_binary 132 main_arg3 main_v85 main_v86 (addi : (⟨S100000, .i32⟩ : BufTy).Contents (Elt F) → (⟨S100000, .i32⟩ : BufTy).Contents (Elt F) → (⟨S100000, .i32⟩ : BufTy).Contents (Elt F)) dv dv dv rfl V (by decide) (by decide) (by decide)

theorem st_main_v87 (V : Valuation τ sig (Elt F)) :
    after ops V (Proc.devRef .tc main_v87)
      = (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F))
          (after ops V (Proc.devRef .tc main_v84))
          (after ops V (Proc.devRef .tc main_v86))
          (after ops V (Proc.devRef .tc main_arg3)) :=
  stage_ternary 133 main_v84 main_v86 main_arg3 main_v87 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)) dv dv dv dv rfl V (by decide) (by decide) (by decide) (by decide)

theorem st_main_v88 (V : Valuation τ sig (Elt F)) :
    after ops V (Proc.devRef .tc main_v88)
      = (broadcastInDim S100000x1 ![0] bcast_S100000_S100000x1_0 : (⟨S100000, .i32⟩ : BufTy).Contents (Elt F) → (⟨S100000x1, .i32⟩ : BufTy).Contents (Elt F))
          (after ops V (Proc.devRef .tc main_v87)) :=
  stage_unary 134 main_v87 main_v88 (broadcastInDim S100000x1 ![0] bcast_S100000_S100000x1_0 : (⟨S100000, .i32⟩ : BufTy).Contents (Elt F) → (⟨S100000x1, .i32⟩ : BufTy).Contents (Elt F)) dv dv rfl V (by decide) (by decide)

theorem st_main_v89 (V : Valuation τ sig (Elt F)) :
    after ops V (Proc.devRef .tc main_v89)
      = ((fun x i => Host.gather gather_S50000x128_S100000x1_S100000x128_1_0_n_n_0_1_1128 x i) : (⟨S50000x128, .f32⟩ : BufTy).Contents (Elt F) → (⟨S100000x1, .i32⟩ : BufTy).Contents (Elt F) → (⟨S100000x128, .f32⟩ : BufTy).Contents (Elt F))
          (after ops V (Proc.devRef .tc main_v82))
          (after ops V (Proc.devRef .tc main_v88)) :=
  stage_binary 135 main_v82 main_v88 main_v89 ((fun x i => Host.gather gather_S50000x128_S100000x1_S100000x128_1_0_n_n_0_1_1128 x i) : (⟨S50000x128, .f32⟩ : BufTy).Contents (Elt F) → (⟨S100000x1, .i32⟩ : BufTy).Contents (Elt F) → (⟨S100000x128, .f32⟩ : BufTy).Contents (Elt F)) dv dv dv rfl V (by decide) (by decide) (by decide)

theorem st_main_c_17 (V : Valuation τ sig (Elt F)) :
    after ops V (Proc.devRef .tc main_c_17)
      = (constantI S_ 32 0#32 : (⟨S_, .i32⟩ : BufTy).Contents (Elt F)) :=
  stage_nullary 136 main_c_17 (constantI S_ 32 0#32 : (⟨S_, .i32⟩ : BufTy).Contents (Elt F)) dv rfl V (by decide)

theorem st_main_v90 (V : Valuation τ sig (Elt F)) :
    after ops V (Proc.devRef .tc main_v90)
      = (broadcastInDim S100000 ![] bcast_S_S100000 : (⟨S_, .i32⟩ : BufTy).Contents (Elt F) → (⟨S100000, .i32⟩ : BufTy).Contents (Elt F))
          (after ops V (Proc.devRef .tc main_c_17)) :=
  stage_unary 137 main_c_17 main_v90 (broadcastInDim S100000 ![] bcast_S_S100000 : (⟨S_, .i32⟩ : BufTy).Contents (Elt F) → (⟨S100000, .i32⟩ : BufTy).Contents (Elt F)) dv dv rfl V (by decide) (by decide)

theorem st_main_v91 (V : Valuation τ sig (Elt F)) :
    after ops V (Proc.devRef .tc main_v91)
      = (cmpi .slt : (⟨S100000, .i32⟩ : BufTy).Contents (Elt F) → (⟨S100000, .i32⟩ : BufTy).Contents (Elt F) → (⟨S100000, .i1⟩ : BufTy).Contents (Elt F))
          (after ops V (Proc.devRef .tc main_arg4))
          (after ops V (Proc.devRef .tc main_v90)) :=
  stage_binary 138 main_arg4 main_v90 main_v91 (cmpi .slt : (⟨S100000, .i32⟩ : BufTy).Contents (Elt F) → (⟨S100000, .i32⟩ : BufTy).Contents (Elt F) → (⟨S100000, .i1⟩ : BufTy).Contents (Elt F)) dv dv dv rfl V (by decide) (by decide) (by decide)

theorem st_main_c_18 (V : Valuation τ sig (Elt F)) :
    after ops V (Proc.devRef .tc main_c_18)
      = (constantI S_ 32 50000#32 : (⟨S_, .i32⟩ : BufTy).Contents (Elt F)) :=
  stage_nullary 139 main_c_18 (constantI S_ 32 50000#32 : (⟨S_, .i32⟩ : BufTy).Contents (Elt F)) dv rfl V (by decide)

theorem st_main_v92 (V : Valuation τ sig (Elt F)) :
    after ops V (Proc.devRef .tc main_v92)
      = (broadcastInDim S100000 ![] bcast_S_S100000 : (⟨S_, .i32⟩ : BufTy).Contents (Elt F) → (⟨S100000, .i32⟩ : BufTy).Contents (Elt F))
          (after ops V (Proc.devRef .tc main_c_18)) :=
  stage_unary 140 main_c_18 main_v92 (broadcastInDim S100000 ![] bcast_S_S100000 : (⟨S_, .i32⟩ : BufTy).Contents (Elt F) → (⟨S100000, .i32⟩ : BufTy).Contents (Elt F)) dv dv rfl V (by decide) (by decide)

theorem st_main_v93 (V : Valuation τ sig (Elt F)) :
    after ops V (Proc.devRef .tc main_v93)
      = (addi : (⟨S100000, .i32⟩ : BufTy).Contents (Elt F) → (⟨S100000, .i32⟩ : BufTy).Contents (Elt F) → (⟨S100000, .i32⟩ : BufTy).Contents (Elt F))
          (after ops V (Proc.devRef .tc main_arg4))
          (after ops V (Proc.devRef .tc main_v92)) :=
  stage_binary 141 main_arg4 main_v92 main_v93 (addi : (⟨S100000, .i32⟩ : BufTy).Contents (Elt F) → (⟨S100000, .i32⟩ : BufTy).Contents (Elt F) → (⟨S100000, .i32⟩ : BufTy).Contents (Elt F)) dv dv dv rfl V (by decide) (by decide) (by decide)

theorem st_main_v94 (V : Valuation τ sig (Elt F)) :
    after ops V (Proc.devRef .tc main_v94)
      = (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F))
          (after ops V (Proc.devRef .tc main_v91))
          (after ops V (Proc.devRef .tc main_v93))
          (after ops V (Proc.devRef .tc main_arg4)) :=
  stage_ternary 142 main_v91 main_v93 main_arg4 main_v94 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)) dv dv dv dv rfl V (by decide) (by decide) (by decide) (by decide)

theorem st_main_v95 (V : Valuation τ sig (Elt F)) :
    after ops V (Proc.devRef .tc main_v95)
      = (broadcastInDim S100000x1 ![0] bcast_S100000_S100000x1_0 : (⟨S100000, .i32⟩ : BufTy).Contents (Elt F) → (⟨S100000x1, .i32⟩ : BufTy).Contents (Elt F))
          (after ops V (Proc.devRef .tc main_v94)) :=
  stage_unary 143 main_v94 main_v95 (broadcastInDim S100000x1 ![0] bcast_S100000_S100000x1_0 : (⟨S100000, .i32⟩ : BufTy).Contents (Elt F) → (⟨S100000x1, .i32⟩ : BufTy).Contents (Elt F)) dv dv rfl V (by decide) (by decide)

theorem st_main_v96 (V : Valuation τ sig (Elt F)) :
    after ops V (Proc.devRef .tc main_v96)
      = ((fun x i => Host.gather gather_S50000x128_S100000x1_S100000x128_1_0_n_n_0_1_1128 x i) : (⟨S50000x128, .f32⟩ : BufTy).Contents (Elt F) → (⟨S100000x1, .i32⟩ : BufTy).Contents (Elt F) → (⟨S100000x128, .f32⟩ : BufTy).Contents (Elt F))
          (after ops V (Proc.devRef .tc main_v82))
          (after ops V (Proc.devRef .tc main_v95)) :=
  stage_binary 144 main_v82 main_v95 main_v96 ((fun x i => Host.gather gather_S50000x128_S100000x1_S100000x128_1_0_n_n_0_1_1128 x i) : (⟨S50000x128, .f32⟩ : BufTy).Contents (Elt F) → (⟨S100000x1, .i32⟩ : BufTy).Contents (Elt F) → (⟨S100000x128, .f32⟩ : BufTy).Contents (Elt F)) dv dv dv rfl V (by decide) (by decide) (by decide)

theorem st_main_v97 (V : Valuation τ sig (Elt F)) :
    after ops V (Proc.devRef .tc main_v97)
      = concatenate S100000x257 1 [⟨S100000x128, (after ops V (Proc.devRef .tc main_v89))⟩, ⟨S100000x128, (after ops V (Proc.devRef .tc main_v96))⟩, ⟨S100000x1, (after ops V (Proc.devRef .tc main_arg5))⟩] concatenates_S100000x128_S100000x128_S100000x1_S100000x257_d1 :=
  stage_nary 145 ![main_v89, main_v96, main_arg5] main_v97 (fun u => concatenate S100000x257 1 [⟨S100000x128, u 0⟩, ⟨S100000x128, u 1⟩, ⟨S100000x1, u 2⟩] concatenates_S100000x128_S100000x128_S100000x1_S100000x257_d1) (by decide) dv rfl V (by decide) (by decide)

theorem st_main_v98 (V : Valuation τ sig (Elt F)) :
    after ops V (Proc.devRef .tc main_v98)
      = ((fun l r => Host.dotGeneral dot_S100000x257_S257x64_S100000x64_1_0_0_1_n_n none l r) : (⟨S100000x257, .f32⟩ : BufTy).Contents (Elt F) → (⟨S257x64, .f32⟩ : BufTy).Contents (Elt F) → (⟨S100000x64, .f32⟩ : BufTy).Contents (Elt F))
          (after ops V (Proc.devRef .tc main_v97))
          (after ops V (Proc.devRef .tc main_arg20)) :=
  stage_binary 146 main_v97 main_arg20 main_v98 ((fun l r => Host.dotGeneral dot_S100000x257_S257x64_S100000x64_1_0_0_1_n_n none l r) : (⟨S100000x257, .f32⟩ : BufTy).Contents (Elt F) → (⟨S257x64, .f32⟩ : BufTy).Contents (Elt F) → (⟨S100000x64, .f32⟩ : BufTy).Contents (Elt F)) dv dv dv rfl V (by decide) (by decide) (by decide)

theorem st_main_v99 (V : Valuation τ sig (Elt F)) :
    after ops V (Proc.devRef .tc main_v99)
      = (broadcastInDim S1x64 ![1] bcast_S64_S1x64_1 : (⟨S64, .f32⟩ : BufTy).Contents (Elt F) → (⟨S1x64, .f32⟩ : BufTy).Contents (Elt F))
          (after ops V (Proc.devRef .tc main_arg21)) :=
  stage_unary 147 main_arg21 main_v99 (broadcastInDim S1x64 ![1] bcast_S64_S1x64_1 : (⟨S64, .f32⟩ : BufTy).Contents (Elt F) → (⟨S1x64, .f32⟩ : BufTy).Contents (Elt F)) dv dv rfl V (by decide) (by decide)

theorem st_main_v100 (V : Valuation τ sig (Elt F)) :
    after ops V (Proc.devRef .tc main_v100)
      = (broadcastInDim S100000x64 ![0, 1] bcast_S1x64_S100000x64_0_1 : (⟨S1x64, .f32⟩ : BufTy).Contents (Elt F) → (⟨S100000x64, .f32⟩ : BufTy).Contents (Elt F))
          (after ops V (Proc.devRef .tc main_v99)) :=
  stage_unary 148 main_v99 main_v100 (broadcastInDim S100000x64 ![0, 1] bcast_S1x64_S100000x64_0_1 : (⟨S1x64, .f32⟩ : BufTy).Contents (Elt F) → (⟨S100000x64, .f32⟩ : BufTy).Contents (Elt F)) dv dv rfl V (by decide) (by decide)

theorem st_main_v101 (V : Valuation τ sig (Elt F)) :
    after ops V (Proc.devRef .tc main_v101)
      = (addf : (⟨S100000x64, .f32⟩ : BufTy).Contents (Elt F) → (⟨S100000x64, .f32⟩ : BufTy).Contents (Elt F) → (⟨S100000x64, .f32⟩ : BufTy).Contents (Elt F))
          (after ops V (Proc.devRef .tc main_v98))
          (after ops V (Proc.devRef .tc main_v100)) :=
  stage_binary 149 main_v98 main_v100 main_v101 (addf : (⟨S100000x64, .f32⟩ : BufTy).Contents (Elt F) → (⟨S100000x64, .f32⟩ : BufTy).Contents (Elt F) → (⟨S100000x64, .f32⟩ : BufTy).Contents (Elt F)) dv dv dv rfl V (by decide) (by decide) (by decide)

theorem st_main_cst_19 (V : Valuation τ sig (Elt F)) :
    after ops V (Proc.devRef .tc main_cst_19)
      = (constant S_ .f32 0x3C23D70A#32 : (⟨S_, .f32⟩ : BufTy).Contents (Elt F)) :=
  stage_nullary 150 main_cst_19 (constant S_ .f32 0x3C23D70A#32 : (⟨S_, .f32⟩ : BufTy).Contents (Elt F)) dv rfl V (by decide)

theorem st_main_call3_cst (V : Valuation τ sig (Elt F)) :
    after ops V (Proc.devRef .tc main_call3_cst)
      = (constant S_ .f32 0x00000000#32 : (⟨S_, .f32⟩ : BufTy).Contents (Elt F)) :=
  stage_nullary 151 main_call3_cst (constant S_ .f32 0x00000000#32 : (⟨S_, .f32⟩ : BufTy).Contents (Elt F)) dv rfl V (by decide)

theorem st_main_call3_v0 (V : Valuation τ sig (Elt F)) :
    after ops V (Proc.devRef .tc main_call3_v0)
      = (broadcastInDim S100000x64 ![] bcast_S_S100000x64 : (⟨S_, .f32⟩ : BufTy).Contents (Elt F) → (⟨S100000x64, .f32⟩ : BufTy).Contents (Elt F))
          (after ops V (Proc.devRef .tc main_call3_cst)) :=
  stage_unary 152 main_call3_cst main_call3_v0 (broadcastInDim S100000x64 ![] bcast_S_S100000x64 : (⟨S_, .f32⟩ : BufTy).Contents (Elt F) → (⟨S100000x64, .f32⟩ : BufTy).Contents (Elt F)) dv dv rfl V (by decide) (by decide)

theorem st_main_call3_v1 (V : Valuation τ sig (Elt F)) :
    after ops V (Proc.devRef .tc main_call3_v1)
      = (cmpf .oge : (⟨S100000x64, .f32⟩ : BufTy).Contents (Elt F) → (⟨S100000x64, .f32⟩ : BufTy).Contents (Elt F) → (⟨S100000x64, .i1⟩ : BufTy).Contents (Elt F))
          (after ops V (Proc.devRef .tc main_v101))
          (after ops V (Proc.devRef .tc main_call3_v0)) :=
  stage_binary 153 main_v101 main_call3_v0 main_call3_v1 (cmpf .oge : (⟨S100000x64, .f32⟩ : BufTy).Contents (Elt F) → (⟨S100000x64, .f32⟩ : BufTy).Contents (Elt F) → (⟨S100000x64, .i1⟩ : BufTy).Contents (Elt F)) dv dv dv rfl V (by decide) (by decide) (by decide)

theorem st_main_call3_v2 (V : Valuation τ sig (Elt F)) :
    after ops V (Proc.devRef .tc main_call3_v2)
      = (id : (⟨S_, .f32⟩ : BufTy).Contents (Elt F) → (⟨S_, .f32⟩ : BufTy).Contents (Elt F))
          (after ops V (Proc.devRef .tc main_cst_19)) :=
  stage_unary 154 main_cst_19 main_call3_v2 (id : (⟨S_, .f32⟩ : BufTy).Contents (Elt F) → (⟨S_, .f32⟩ : BufTy).Contents (Elt F)) dv dv rfl V (by decide) (by decide)

theorem st_main_call3_v3 (V : Valuation τ sig (Elt F)) :
    after ops V (Proc.devRef .tc main_call3_v3)
      = (broadcastInDim S100000x64 ![] bcast_S_S100000x64 : (⟨S_, .f32⟩ : BufTy).Contents (Elt F) → (⟨S100000x64, .f32⟩ : BufTy).Contents (Elt F))
          (after ops V (Proc.devRef .tc main_call3_v2)) :=
  stage_unary 155 main_call3_v2 main_call3_v3 (broadcastInDim S100000x64 ![] bcast_S_S100000x64 : (⟨S_, .f32⟩ : BufTy).Contents (Elt F) → (⟨S100000x64, .f32⟩ : BufTy).Contents (Elt F)) dv dv rfl V (by decide) (by decide)

theorem st_main_call3_v4 (V : Valuation τ sig (Elt F)) :
    after ops V (Proc.devRef .tc main_call3_v4)
      = (mulf : (⟨S100000x64, .f32⟩ : BufTy).Contents (Elt F) → (⟨S100000x64, .f32⟩ : BufTy).Contents (Elt F) → (⟨S100000x64, .f32⟩ : BufTy).Contents (Elt F))
          (after ops V (Proc.devRef .tc main_call3_v3))
          (after ops V (Proc.devRef .tc main_v101)) :=
  stage_binary 156 main_call3_v3 main_v101 main_call3_v4 (mulf : (⟨S100000x64, .f32⟩ : BufTy).Contents (Elt F) → (⟨S100000x64, .f32⟩ : BufTy).Contents (Elt F) → (⟨S100000x64, .f32⟩ : BufTy).Contents (Elt F)) dv dv dv rfl V (by decide) (by decide) (by decide)

theorem st_main_v102 (V : Valuation τ sig (Elt F)) :
    after ops V (Proc.devRef .tc main_v102)
      = (select : (⟨S100000x64, .i1⟩ : BufTy).Contents (Elt F) → (⟨S100000x64, .f32⟩ : BufTy).Contents (Elt F) → (⟨S100000x64, .f32⟩ : BufTy).Contents (Elt F) → (⟨S100000x64, .f32⟩ : BufTy).Contents (Elt F))
          (after ops V (Proc.devRef .tc main_call3_v1))
          (after ops V (Proc.devRef .tc main_v101))
          (after ops V (Proc.devRef .tc main_call3_v4)) :=
  stage_ternary 157 main_call3_v1 main_v101 main_call3_v4 main_v102 (select : (⟨S100000x64, .i1⟩ : BufTy).Contents (Elt F) → (⟨S100000x64, .f32⟩ : BufTy).Contents (Elt F) → (⟨S100000x64, .f32⟩ : BufTy).Contents (Elt F) → (⟨S100000x64, .f32⟩ : BufTy).Contents (Elt F)) dv dv dv dv rfl V (by decide) (by decide) (by decide) (by decide)

theorem st_main_v103 (V : Valuation τ sig (Elt F)) :
    after ops V (Proc.devRef .tc main_v103)
      = ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F))
          (after ops V (Proc.devRef .tc main_v102))
          (after ops V (Proc.devRef .tc main_arg22)) :=
  stage_binary 158 main_v102 main_arg22 main_v103 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)) dv dv dv rfl V (by decide) (by decide) (by decide)

theorem st_main_v104 (V : Valuation τ sig (Elt F)) :
    after ops V (Proc.devRef .tc main_v104)
      = (broadcastInDim S1x64 ![1] bcast_S64_S1x64_1 : (⟨S64, .f32⟩ : BufTy).Contents (Elt F) → (⟨S1x64, .f32⟩ : BufTy).Contents (Elt F))
          (after ops V (Proc.devRef .tc main_arg23)) :=
  stage_unary 159 main_arg23 main_v104 (broadcastInDim S1x64 ![1] bcast_S64_S1x64_1 : (⟨S64, .f32⟩ : BufTy).Contents (Elt F) → (⟨S1x64, .f32⟩ : BufTy).Contents (Elt F)) dv dv rfl V (by decide) (by decide)

theorem st_main_v105 (V : Valuation τ sig (Elt F)) :
    after ops V (Proc.devRef .tc main_v105)
      = (broadcastInDim S100000x64 ![0, 1] bcast_S1x64_S100000x64_0_1 : (⟨S1x64, .f32⟩ : BufTy).Contents (Elt F) → (⟨S100000x64, .f32⟩ : BufTy).Contents (Elt F))
          (after ops V (Proc.devRef .tc main_v104)) :=
  stage_unary 160 main_v104 main_v105 (broadcastInDim S100000x64 ![0, 1] bcast_S1x64_S100000x64_0_1 : (⟨S1x64, .f32⟩ : BufTy).Contents (Elt F) → (⟨S100000x64, .f32⟩ : BufTy).Contents (Elt F)) dv dv rfl V (by decide) (by decide)

theorem st_main_v106 (V : Valuation τ sig (Elt F)) :
    after ops V (Proc.devRef .tc main_v106)
      = (addf : (⟨S100000x64, .f32⟩ : BufTy).Contents (Elt F) → (⟨S100000x64, .f32⟩ : BufTy).Contents (Elt F) → (⟨S100000x64, .f32⟩ : BufTy).Contents (Elt F))
          (after ops V (Proc.devRef .tc main_v103))
          (after ops V (Proc.devRef .tc main_v105)) :=
  stage_binary 161 main_v103 main_v105 main_v106 (addf : (⟨S100000x64, .f32⟩ : BufTy).Contents (Elt F) → (⟨S100000x64, .f32⟩ : BufTy).Contents (Elt F) → (⟨S100000x64, .f32⟩ : BufTy).Contents (Elt F)) dv dv dv rfl V (by decide) (by decide) (by decide)

theorem st_main_cst_20 (V : Valuation τ sig (Elt F)) :
    after ops V (Proc.devRef .tc main_cst_20)
      = (constant S_ .f32 0x3C23D70A#32 : (⟨S_, .f32⟩ : BufTy).Contents (Elt F)) :=
  stage_nullary 162 main_cst_20 (constant S_ .f32 0x3C23D70A#32 : (⟨S_, .f32⟩ : BufTy).Contents (Elt F)) dv rfl V (by decide)

theorem st_main_call4_cst (V : Valuation τ sig (Elt F)) :
    after ops V (Proc.devRef .tc main_call4_cst)
      = (constant S_ .f32 0x00000000#32 : (⟨S_, .f32⟩ : BufTy).Contents (Elt F)) :=
  stage_nullary 163 main_call4_cst (constant S_ .f32 0x00000000#32 : (⟨S_, .f32⟩ : BufTy).Contents (Elt F)) dv rfl V (by decide)

theorem st_main_call4_v0 (V : Valuation τ sig (Elt F)) :
    after ops V (Proc.devRef .tc main_call4_v0)
      = (broadcastInDim S100000x64 ![] bcast_S_S100000x64 : (⟨S_, .f32⟩ : BufTy).Contents (Elt F) → (⟨S100000x64, .f32⟩ : BufTy).Contents (Elt F))
          (after ops V (Proc.devRef .tc main_call4_cst)) :=
  stage_unary 164 main_call4_cst main_call4_v0 (broadcastInDim S100000x64 ![] bcast_S_S100000x64 : (⟨S_, .f32⟩ : BufTy).Contents (Elt F) → (⟨S100000x64, .f32⟩ : BufTy).Contents (Elt F)) dv dv rfl V (by decide) (by decide)

theorem st_main_call4_v1 (V : Valuation τ sig (Elt F)) :
    after ops V (Proc.devRef .tc main_call4_v1)
      = (cmpf .oge : (⟨S100000x64, .f32⟩ : BufTy).Contents (Elt F) → (⟨S100000x64, .f32⟩ : BufTy).Contents (Elt F) → (⟨S100000x64, .i1⟩ : BufTy).Contents (Elt F))
          (after ops V (Proc.devRef .tc main_v106))
          (after ops V (Proc.devRef .tc main_call4_v0)) :=
  stage_binary 165 main_v106 main_call4_v0 main_call4_v1 (cmpf .oge : (⟨S100000x64, .f32⟩ : BufTy).Contents (Elt F) → (⟨S100000x64, .f32⟩ : BufTy).Contents (Elt F) → (⟨S100000x64, .i1⟩ : BufTy).Contents (Elt F)) dv dv dv rfl V (by decide) (by decide) (by decide)

theorem st_main_call4_v2 (V : Valuation τ sig (Elt F)) :
    after ops V (Proc.devRef .tc main_call4_v2)
      = (id : (⟨S_, .f32⟩ : BufTy).Contents (Elt F) → (⟨S_, .f32⟩ : BufTy).Contents (Elt F))
          (after ops V (Proc.devRef .tc main_cst_20)) :=
  stage_unary 166 main_cst_20 main_call4_v2 (id : (⟨S_, .f32⟩ : BufTy).Contents (Elt F) → (⟨S_, .f32⟩ : BufTy).Contents (Elt F)) dv dv rfl V (by decide) (by decide)

theorem st_main_call4_v3 (V : Valuation τ sig (Elt F)) :
    after ops V (Proc.devRef .tc main_call4_v3)
      = (broadcastInDim S100000x64 ![] bcast_S_S100000x64 : (⟨S_, .f32⟩ : BufTy).Contents (Elt F) → (⟨S100000x64, .f32⟩ : BufTy).Contents (Elt F))
          (after ops V (Proc.devRef .tc main_call4_v2)) :=
  stage_unary 167 main_call4_v2 main_call4_v3 (broadcastInDim S100000x64 ![] bcast_S_S100000x64 : (⟨S_, .f32⟩ : BufTy).Contents (Elt F) → (⟨S100000x64, .f32⟩ : BufTy).Contents (Elt F)) dv dv rfl V (by decide) (by decide)

theorem st_main_call4_v4 (V : Valuation τ sig (Elt F)) :
    after ops V (Proc.devRef .tc main_call4_v4)
      = (mulf : (⟨S100000x64, .f32⟩ : BufTy).Contents (Elt F) → (⟨S100000x64, .f32⟩ : BufTy).Contents (Elt F) → (⟨S100000x64, .f32⟩ : BufTy).Contents (Elt F))
          (after ops V (Proc.devRef .tc main_call4_v3))
          (after ops V (Proc.devRef .tc main_v106)) :=
  stage_binary 168 main_call4_v3 main_v106 main_call4_v4 (mulf : (⟨S100000x64, .f32⟩ : BufTy).Contents (Elt F) → (⟨S100000x64, .f32⟩ : BufTy).Contents (Elt F) → (⟨S100000x64, .f32⟩ : BufTy).Contents (Elt F)) dv dv dv rfl V (by decide) (by decide) (by decide)

theorem st_main_v107 (V : Valuation τ sig (Elt F)) :
    after ops V (Proc.devRef .tc main_v107)
      = (select : (⟨S100000x64, .i1⟩ : BufTy).Contents (Elt F) → (⟨S100000x64, .f32⟩ : BufTy).Contents (Elt F) → (⟨S100000x64, .f32⟩ : BufTy).Contents (Elt F) → (⟨S100000x64, .f32⟩ : BufTy).Contents (Elt F))
          (after ops V (Proc.devRef .tc main_call4_v1))
          (after ops V (Proc.devRef .tc main_v106))
          (after ops V (Proc.devRef .tc main_call4_v4)) :=
  stage_ternary 169 main_call4_v1 main_v106 main_call4_v4 main_v107 (select : (⟨S100000x64, .i1⟩ : BufTy).Contents (Elt F) → (⟨S100000x64, .f32⟩ : BufTy).Contents (Elt F) → (⟨S100000x64, .f32⟩ : BufTy).Contents (Elt F) → (⟨S100000x64, .f32⟩ : BufTy).Contents (Elt F)) dv dv dv dv rfl V (by decide) (by decide) (by decide) (by decide)

theorem st_main_v108 (V : Valuation τ sig (Elt F)) :
    after ops V (Proc.devRef .tc main_v108)
      = ((fun l r => Host.dotGeneral dot_S100000x64_S64x1_S100000x1_1_0_0_1_n_n none l r) : (⟨S100000x64, .f32⟩ : BufTy).Contents (Elt F) → (⟨S64x1, .f32⟩ : BufTy).Contents (Elt F) → (⟨S100000x1, .f32⟩ : BufTy).Contents (Elt F))
          (after ops V (Proc.devRef .tc main_v107))
          (after ops V (Proc.devRef .tc main_arg24)) :=
  stage_binary 170 main_v107 main_arg24 main_v108 ((fun l r => Host.dotGeneral dot_S100000x64_S64x1_S100000x1_1_0_0_1_n_n none l r) : (⟨S100000x64, .f32⟩ : BufTy).Contents (Elt F) → (⟨S64x1, .f32⟩ : BufTy).Contents (Elt F) → (⟨S100000x1, .f32⟩ : BufTy).Contents (Elt F)) dv dv dv rfl V (by decide) (by decide) (by decide)

theorem st_main_v109 (V : Valuation τ sig (Elt F)) :
    after ops V (Proc.devRef .tc main_v109)
      = (broadcastInDim S1x1 ![1] bcast_S1_S1x1_1 : (⟨S1, .f32⟩ : BufTy).Contents (Elt F) → (⟨S1x1, .f32⟩ : BufTy).Contents (Elt F))
          (after ops V (Proc.devRef .tc main_arg25)) :=
  stage_unary 171 main_arg25 main_v109 (broadcastInDim S1x1 ![1] bcast_S1_S1x1_1 : (⟨S1, .f32⟩ : BufTy).Contents (Elt F) → (⟨S1x1, .f32⟩ : BufTy).Contents (Elt F)) dv dv rfl V (by decide) (by decide)

theorem st_main_v110 (V : Valuation τ sig (Elt F)) :
    after ops V (Proc.devRef .tc main_v110)
      = (broadcastInDim S100000x1 ![0, 1] bcast_S1x1_S100000x1_0_1 : (⟨S1x1, .f32⟩ : BufTy).Contents (Elt F) → (⟨S100000x1, .f32⟩ : BufTy).Contents (Elt F))
          (after ops V (Proc.devRef .tc main_v109)) :=
  stage_unary 172 main_v109 main_v110 (broadcastInDim S100000x1 ![0, 1] bcast_S1x1_S100000x1_0_1 : (⟨S1x1, .f32⟩ : BufTy).Contents (Elt F) → (⟨S100000x1, .f32⟩ : BufTy).Contents (Elt F)) dv dv rfl V (by decide) (by decide)

theorem st_main_v111 (V : Valuation τ sig (Elt F)) :
    after ops V (Proc.devRef .tc main_v111)
      = (addf : (⟨S100000x1, .f32⟩ : BufTy).Contents (Elt F) → (⟨S100000x1, .f32⟩ : BufTy).Contents (Elt F) → (⟨S100000x1, .f32⟩ : BufTy).Contents (Elt F))
          (after ops V (Proc.devRef .tc main_v108))
          (after ops V (Proc.devRef .tc main_v110)) :=
  stage_binary 173 main_v108 main_v110 main_v111 (addf : (⟨S100000x1, .f32⟩ : BufTy).Contents (Elt F) → (⟨S100000x1, .f32⟩ : BufTy).Contents (Elt F) → (⟨S100000x1, .f32⟩ : BufTy).Contents (Elt F)) dv dv dv rfl V (by decide) (by decide) (by decide)

theorem st_main_cst_21 (V : Valuation τ sig (Elt F)) :
    after ops V (Proc.devRef .tc main_cst_21)
      = (constant S_ .f32 0xFF800000#32 : (⟨S_, .f32⟩ : BufTy).Contents (Elt F)) :=
  stage_nullary 174 main_cst_21 (constant S_ .f32 0xFF800000#32 : (⟨S_, .f32⟩ : BufTy).Contents (Elt F)) dv rfl V (by decide)

theorem st_main_v112 (V : Valuation τ sig (Elt F)) :
    after ops V (Proc.devRef .tc main_v112)
      = ((fun x v => Host.reduce FloatOps.maximumf x v reducesTo_S100000x1_S1_d0 h_S_) : (⟨S100000x1, .f32⟩ : BufTy).Contents (Elt F) → (⟨S_, .f32⟩ : BufTy).Contents (Elt F) → (⟨S1, .f32⟩ : BufTy).Contents (Elt F))
          (after ops V (Proc.devRef .tc main_v111))
          (after ops V (Proc.devRef .tc main_cst_21)) :=
  stage_binary 175 main_v111 main_cst_21 main_v112 ((fun x v => Host.reduce FloatOps.maximumf x v reducesTo_S100000x1_S1_d0 h_S_) : (⟨S100000x1, .f32⟩ : BufTy).Contents (Elt F) → (⟨S_, .f32⟩ : BufTy).Contents (Elt F) → (⟨S1, .f32⟩ : BufTy).Contents (Elt F)) dv dv dv rfl V (by decide) (by decide) (by decide)

theorem st_main_cst_22 (V : Valuation τ sig (Elt F)) :
    after ops V (Proc.devRef .tc main_cst_22)
      = (constant S_ .f32 0xFF800000#32 : (⟨S_, .f32⟩ : BufTy).Contents (Elt F)) :=
  stage_nullary 176 main_cst_22 (constant S_ .f32 0xFF800000#32 : (⟨S_, .f32⟩ : BufTy).Contents (Elt F)) dv rfl V (by decide)

theorem st_main_v113 (V : Valuation τ sig (Elt F)) :
    after ops V (Proc.devRef .tc main_v113)
      = (broadcastInDim S1 ![] bcast_S_S1 : (⟨S_, .f32⟩ : BufTy).Contents (Elt F) → (⟨S1, .f32⟩ : BufTy).Contents (Elt F))
          (after ops V (Proc.devRef .tc main_cst_22)) :=
  stage_unary 177 main_cst_22 main_v113 (broadcastInDim S1 ![] bcast_S_S1 : (⟨S_, .f32⟩ : BufTy).Contents (Elt F) → (⟨S1, .f32⟩ : BufTy).Contents (Elt F)) dv dv rfl V (by decide) (by decide)

theorem st_main_v114 (V : Valuation τ sig (Elt F)) :
    after ops V (Proc.devRef .tc main_v114)
      = (maximumf : (⟨S1, .f32⟩ : BufTy).Contents (Elt F) → (⟨S1, .f32⟩ : BufTy).Contents (Elt F) → (⟨S1, .f32⟩ : BufTy).Contents (Elt F))
          (after ops V (Proc.devRef .tc main_v113))
          (after ops V (Proc.devRef .tc main_v112)) :=
  stage_binary 178 main_v113 main_v112 main_v114 (maximumf : (⟨S1, .f32⟩ : BufTy).Contents (Elt F) → (⟨S1, .f32⟩ : BufTy).Contents (Elt F) → (⟨S1, .f32⟩ : BufTy).Contents (Elt F)) dv dv dv rfl V (by decide) (by decide) (by decide)

theorem st_main_v115 (V : Valuation τ sig (Elt F)) :
    after ops V (Proc.devRef .tc main_v115)
      = (broadcastInDim S1x1 ![1] bcast_S1_S1x1_1 : (⟨S1, .f32⟩ : BufTy).Contents (Elt F) → (⟨S1x1, .f32⟩ : BufTy).Contents (Elt F))
          (after ops V (Proc.devRef .tc main_v114)) :=
  stage_unary 179 main_v114 main_v115 (broadcastInDim S1x1 ![1] bcast_S1_S1x1_1 : (⟨S1, .f32⟩ : BufTy).Contents (Elt F) → (⟨S1x1, .f32⟩ : BufTy).Contents (Elt F)) dv dv rfl V (by decide) (by decide)

theorem st_main_v116 (V : Valuation τ sig (Elt F)) :
    after ops V (Proc.devRef .tc main_v116)
      = (broadcastInDim S100000x1 ![0, 1] bcast_S1x1_S100000x1_0_1 : (⟨S1x1, .f32⟩ : BufTy).Contents (Elt F) → (⟨S100000x1, .f32⟩ : BufTy).Contents (Elt F))
          (after ops V (Proc.devRef .tc main_v115)) :=
  stage_unary 180 main_v115 main_v116 (broadcastInDim S100000x1 ![0, 1] bcast_S1x1_S100000x1_0_1 : (⟨S1x1, .f32⟩ : BufTy).Contents (Elt F) → (⟨S100000x1, .f32⟩ : BufTy).Contents (Elt F)) dv dv rfl V (by decide) (by decide)

theorem st_main_v117 (V : Valuation τ sig (Elt F)) :
    after ops V (Proc.devRef .tc main_v117)
      = (subf : (⟨S100000x1, .f32⟩ : BufTy).Contents (Elt F) → (⟨S100000x1, .f32⟩ : BufTy).Contents (Elt F) → (⟨S100000x1, .f32⟩ : BufTy).Contents (Elt F))
          (after ops V (Proc.devRef .tc main_v111))
          (after ops V (Proc.devRef .tc main_v116)) :=
  stage_binary 181 main_v111 main_v116 main_v117 (subf : (⟨S100000x1, .f32⟩ : BufTy).Contents (Elt F) → (⟨S100000x1, .f32⟩ : BufTy).Contents (Elt F) → (⟨S100000x1, .f32⟩ : BufTy).Contents (Elt F)) dv dv dv rfl V (by decide) (by decide) (by decide)

theorem st_main_v118 (V : Valuation τ sig (Elt F)) :
    after ops V (Proc.devRef .tc main_v118)
      = (Host.exp : (⟨S100000x1, .f32⟩ : BufTy).Contents (Elt F) → (⟨S100000x1, .f32⟩ : BufTy).Contents (Elt F))
          (after ops V (Proc.devRef .tc main_v117)) :=
  stage_unary 182 main_v117 main_v118 (Host.exp : (⟨S100000x1, .f32⟩ : BufTy).Contents (Elt F) → (⟨S100000x1, .f32⟩ : BufTy).Contents (Elt F)) dv dv rfl V (by decide) (by decide)

theorem st_main_cst_23 (V : Valuation τ sig (Elt F)) :
    after ops V (Proc.devRef .tc main_cst_23)
      = (constant S_ .f32 0x00000000#32 : (⟨S_, .f32⟩ : BufTy).Contents (Elt F)) :=
  stage_nullary 183 main_cst_23 (constant S_ .f32 0x00000000#32 : (⟨S_, .f32⟩ : BufTy).Contents (Elt F)) dv rfl V (by decide)

theorem st_main_v119 (V : Valuation τ sig (Elt F)) :
    after ops V (Proc.devRef .tc main_v119)
      = ((fun x v => Host.reduceAdd x v reducesTo_S100000x1_S1_d0 h_S_) : (⟨S100000x1, .f32⟩ : BufTy).Contents (Elt F) → (⟨S_, .f32⟩ : BufTy).Contents (Elt F) → (⟨S1, .f32⟩ : BufTy).Contents (Elt F))
          (after ops V (Proc.devRef .tc main_v118))
          (after ops V (Proc.devRef .tc main_cst_23)) :=
  stage_binary 184 main_v118 main_cst_23 main_v119 ((fun x v => Host.reduceAdd x v reducesTo_S100000x1_S1_d0 h_S_) : (⟨S100000x1, .f32⟩ : BufTy).Contents (Elt F) → (⟨S_, .f32⟩ : BufTy).Contents (Elt F) → (⟨S1, .f32⟩ : BufTy).Contents (Elt F)) dv dv dv rfl V (by decide) (by decide) (by decide)

theorem st_main_v120 (V : Valuation τ sig (Elt F)) :
    after ops V (Proc.devRef .tc main_v120)
      = (broadcastInDim S1x1 ![1] bcast_S1_S1x1_1 : (⟨S1, .f32⟩ : BufTy).Contents (Elt F) → (⟨S1x1, .f32⟩ : BufTy).Contents (Elt F))
          (after ops V (Proc.devRef .tc main_v119)) :=
  stage_unary 185 main_v119 main_v120 (broadcastInDim S1x1 ![1] bcast_S1_S1x1_1 : (⟨S1, .f32⟩ : BufTy).Contents (Elt F) → (⟨S1x1, .f32⟩ : BufTy).Contents (Elt F)) dv dv rfl V (by decide) (by decide)

theorem st_main_v121 (V : Valuation τ sig (Elt F)) :
    after ops V (Proc.devRef .tc main_v121)
      = (broadcastInDim S100000x1 ![0, 1] bcast_S1x1_S100000x1_0_1 : (⟨S1x1, .f32⟩ : BufTy).Contents (Elt F) → (⟨S100000x1, .f32⟩ : BufTy).Contents (Elt F))
          (after ops V (Proc.devRef .tc main_v120)) :=
  stage_unary 186 main_v120 main_v121 (broadcastInDim S100000x1 ![0, 1] bcast_S1x1_S100000x1_0_1 : (⟨S1x1, .f32⟩ : BufTy).Contents (Elt F) → (⟨S100000x1, .f32⟩ : BufTy).Contents (Elt F)) dv dv rfl V (by decide) (by decide)

theorem st_main_v122 (V : Valuation τ sig (Elt F)) :
    after ops V (Proc.devRef .tc main_v122)
      = (Host.divf : (⟨S100000x1, .f32⟩ : BufTy).Contents (Elt F) → (⟨S100000x1, .f32⟩ : BufTy).Contents (Elt F) → (⟨S100000x1, .f32⟩ : BufTy).Contents (Elt F))
          (after ops V (Proc.devRef .tc main_v118))
          (after ops V (Proc.devRef .tc main_v121)) :=
  stage_binary 187 main_v118 main_v121 main_v122 (Host.divf : (⟨S100000x1, .f32⟩ : BufTy).Contents (Elt F) → (⟨S100000x1, .f32⟩ : BufTy).Contents (Elt F) → (⟨S100000x1, .f32⟩ : BufTy).Contents (Elt F)) dv dv dv rfl V (by decide) (by decide) (by decide)

end Cert.ReferenceIdeal.RefRun

end
-- ==== Proof.RefClosed.lean ====
import proofs.«138996_j84593675862715_1_alg».proof.Proof.RefDefs
import proofs.«138996_j84593675862715_1_alg».proof.Proof.RefStages

set_option maxRecDepth 4096

noncomputable section

namespace Cert.ReferenceIdeal.RefClosed

open Cert.ReferenceIdeal Cert.ReferenceIdeal.Gen Cert.ReferenceIdeal.RefRun Idealize.ShloMosaic Idealize.ShloMosaic.TcCoe Idealize.SL.Sem Idealize.ShloMosaic.StableHlo

/-! ## The stages at the end of the line

Each named intermediate of @main, read off the contents after the whole line, is its stage function of the operands'
contents there: the operations' equations (one per operation, each result from its operands at the end of the line)
rewritten from the result back to the stage's operands, and what is left is the stage function's own text. -/

/-- The first aggregation, at the end of the line. -/
theorem val_v18 (V : Valuation τ sig (Elt Ideal)) :
    after ops V (Proc.devRef .tc main_v18)
      = aggOf (after ops V (Proc.devRef .tc main_arg0)) (after ops V (Proc.devRef .tc main_arg1)) (after ops V (Proc.devRef .tc main_arg2)) := by
  rw [st_main_v18 V, st_main_v17 V, st_main_v16 V, st_main_v15 V, st_main_v14 V, st_main_cst_3 V,
    st_main_v13 V, st_main_v12 V, st_main_v11 V, st_main_cst_2 V, st_main_v10 V, st_main_cst_1 V,
    st_main_v9 V, st_main_v8 V, st_main_v7 V, st_main_cst V, st_main_v6 V, st_main_v5 V,
    st_main_v4 V, st_main_v3 V, st_main_v2 V, st_main_c_0 V, st_main_v1 V, st_main_v0 V,
    st_main_c V]
  rfl

/-- The first layer, at the end of the line. -/
theorem val_v40 (V : Valuation τ sig (Elt Ideal)) :
    after ops V (Proc.devRef .tc main_v40)
      = refLayer (after ops V (Proc.devRef .tc main_arg0)) (after ops V (Proc.devRef .tc main_v18)) (after ops V (Proc.devRef .tc main_arg6)) (after ops V (Proc.devRef .tc main_arg7)) (after ops V (Proc.devRef .tc main_arg8)) (after ops V (Proc.devRef .tc main_arg9)) (after ops V (Proc.devRef .tc main_arg10)) (after ops V (Proc.devRef .tc main_arg11)) (after ops V (Proc.devRef .tc main_arg12)) := by
  rw [st_main_v40 V, st_main_call0_v4 V, st_main_call0_v3 V, st_main_call0_v2 V, st_main_call0_v1 V, st_main_call0_v0 V,
    st_main_call0_cst V, st_main_cst_5 V, st_main_v39 V, st_main_v38 V, st_main_v37 V, st_main_v36 V,
    st_main_v35 V, st_main_v34 V, st_main_v33 V, st_main_v32 V, st_main_v31 V, st_main_cst_4 V,
    st_main_v30 V, st_main_v29 V, st_main_v28 V, st_main_v27 V, st_main_v26 V, st_main_v25 V,
    st_main_v24 V, st_main_v23 V, st_main_v22 V, st_main_v21 V, st_main_v20 V, st_main_v19 V]
  rfl

/-- The second aggregation, at the end of the line. -/
theorem val_v59 (V : Valuation τ sig (Elt Ideal)) :
    after ops V (Proc.devRef .tc main_v59)
      = aggOf (after ops V (Proc.devRef .tc main_v40)) (after ops V (Proc.devRef .tc main_arg1)) (after ops V (Proc.devRef .tc main_arg2)) := by
  rw [st_main_v59 V, st_main_v58 V, st_main_v57 V, st_main_v56 V, st_main_v55 V, st_main_cst_11 V,
    st_main_v54 V, st_main_v53 V, st_main_v52 V, st_main_cst_10 V, st_main_v51 V, st_main_cst_9 V,
    st_main_v50 V, st_main_v49 V, st_main_v48 V, st_main_cst_8 V, st_main_v47 V, st_main_v46 V,
    st_main_v45 V, st_main_v44 V, st_main_v43 V, st_main_c_7 V, st_main_v42 V, st_main_v41 V,
    st_main_c_6 V]
  rfl

/-- The second layer, at the end of the line. -/
theorem val_v81 (V : Valuation τ sig (Elt Ideal)) :
    after ops V (Proc.devRef .tc main_v81)
      = refLayer (after ops V (Proc.devRef .tc main_v40)) (after ops V (Proc.devRef .tc main_v59)) (after ops V (Proc.devRef .tc main_arg13)) (after ops V (Proc.devRef .tc main_arg14)) (after ops V (Proc.devRef .tc main_arg15)) (after ops V (Proc.devRef .tc main_arg16)) (after ops V (Proc.devRef .tc main_arg17)) (after ops V (Proc.devRef .tc main_arg18)) (after ops V (Proc.devRef .tc main_arg19)) := by
  rw [st_main_v81 V, st_main_call1_v4 V, st_main_call1_v3 V, st_main_call1_v2 V, st_main_call1_v1 V, st_main_call1_v0 V,
    st_main_call1_cst V, st_main_cst_13 V, st_main_v80 V, st_main_v79 V, st_main_v78 V, st_main_v77 V,
    st_main_v76 V, st_main_v75 V, st_main_v74 V, st_main_v73 V, st_main_v72 V, st_main_cst_12 V,
    st_main_v71 V, st_main_v70 V, st_main_v69 V, st_main_v68 V, st_main_v67 V, st_main_v66 V,
    st_main_v65 V, st_main_v64 V, st_main_v63 V, st_main_v62 V, st_main_v61 V, st_main_v60 V]
  rfl

/-- The candidates' features, at the end of the line. -/
theorem val_v97 (V : Valuation τ sig (Elt Ideal)) :
    after ops V (Proc.devRef .tc main_v97)
      = candOf (after ops V (Proc.devRef .tc main_v81)) (after ops V (Proc.devRef .tc main_arg3)) (after ops V (Proc.devRef .tc main_arg4)) (after ops V (Proc.devRef .tc main_arg5)) := by
  rw [st_main_v97 V, st_main_v96 V, st_main_v95 V, st_main_v94 V, st_main_v93 V, st_main_v92 V,
    st_main_c_18 V, st_main_v91 V, st_main_v90 V, st_main_c_17 V, st_main_v89 V, st_main_v88 V,
    st_main_v87 V, st_main_v86 V, st_main_v85 V, st_main_c_16 V, st_main_v84 V, st_main_v83 V,
    st_main_c_15 V, st_main_v82 V, st_main_call2_call2_v0 V, st_main_call2_cst_2 V, st_main_call2_v7 V, st_main_call2_v6 V,
    st_main_call2_cst_1 V, st_main_call2_v5 V, st_main_call2_call1_v0 V, st_main_call2_cst_0 V, st_main_call2_v4 V, st_main_call2_v3 V,
    st_main_call2_cst V, st_main_call2_v2 V, st_main_call2_call0_v0 V, st_main_call2_v1 V, st_main_call2_v0 V, st_main_cst_14 V]
  rfl

/-- The first result, at the end of the line. -/
theorem val_v111 (V : Valuation τ sig (Elt Ideal)) :
    after ops V (Proc.devRef .tc main_v111)
      = refMlp (after ops V (Proc.devRef .tc main_v97)) (after ops V (Proc.devRef .tc main_arg20)) (after ops V (Proc.devRef .tc main_arg21)) (after ops V (Proc.devRef .tc main_arg22)) (after ops V (Proc.devRef .tc main_arg23)) (after ops V (Proc.devRef .tc main_arg24)) (after ops V (Proc.devRef .tc main_arg25)) := by
  rw [st_main_v111 V, st_main_v110 V, st_main_v109 V, st_main_v108 V, st_main_v107 V, st_main_call4_v4 V,
    st_main_call4_v3 V, st_main_call4_v2 V, st_main_call4_v1 V, st_main_call4_v0 V, st_main_call4_cst V, st_main_cst_20 V,
    st_main_v106 V, st_main_v105 V, st_main_v104 V, st_main_v103 V, st_main_v102 V, st_main_call3_v4 V,
    st_main_call3_v3 V, st_main_call3_v2 V, st_main_call3_v1 V, st_main_call3_v0 V, st_main_call3_cst V, st_main_cst_19 V,
    st_main_v101 V, st_main_v100 V, st_main_v99 V, st_main_v98 V]
  rfl

/-- The second result from the first, at the end of the line. -/
theorem val_v122 (V : Valuation τ sig (Elt Ideal)) :
    after ops V (Proc.devRef .tc main_v122)
      = softmaxOf (after ops V (Proc.devRef .tc main_v111)) := by
  rw [st_main_v122 V, st_main_v121 V, st_main_v120 V, st_main_v119 V, st_main_cst_23 V, st_main_v118 V,
    st_main_v117 V, st_main_v116 V, st_main_v115 V, st_main_v114 V, st_main_v113 V, st_main_cst_22 V,
    st_main_v112 V, st_main_cst_21 V]
  rfl

/-! ## The results in closed form -/

/-- The first result is the perceptron of the candidates' features of the twice-propagated node features, all of
    the arguments' launch contents. -/
theorem res111_eq (m : (ℓ : Loc nD τ sig) → Buf (Elt Ideal) ℓ) (c : Dev nD) :
    res111 (F := Ideal) m c
      = refMlp
          (candOf
            (refLayer (refLayer (m ((c.tc : Thread nD τ).loc main_arg0)) (aggOf (m ((c.tc : Thread nD τ).loc main_arg0)) (m ((c.tc : Thread nD τ).loc main_arg1)) (m ((c.tc : Thread nD τ).loc main_arg2))) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)))
          (aggOf (refLayer (m ((c.tc : Thread nD τ).loc main_arg0)) (aggOf (m ((c.tc : Thread nD τ).loc main_arg0)) (m ((c.tc : Thread nD τ).loc main_arg1)) (m ((c.tc : Thread nD τ).loc main_arg2))) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))) (m ((c.tc : Thread nD τ).loc main_arg1)) (m ((c.tc : Thread nD τ).loc main_arg2)))
          (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)))
            (m ((c.tc : Thread nD τ).loc main_arg3)) (m ((c.tc : Thread nD τ).loc main_arg4)) (m ((c.tc : Thread nD τ).loc main_arg5)))
          (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) := by
  unfold res111
  rw [val_v111, val_v97, val_v81, val_v59, val_v40, val_v18,
    after_ops_of_not_mem _ main_arg0 (by decide), after_ops_of_not_mem _ main_arg1 (by decide),
    after_ops_of_not_mem _ main_arg2 (by decide), after_ops_of_not_mem _ main_arg3 (by decide),
    after_ops_of_not_mem _ main_arg4 (by decide), after_ops_of_not_mem _ main_arg5 (by decide),
    after_ops_of_not_mem _ main_arg6 (by decide), after_ops_of_not_mem _ main_arg7 (by decide),
    after_ops_of_not_mem _ main_arg8 (by decide), after_ops_of_not_mem _ main_arg9 (by decide),
    after_ops_of_not_mem _ main_arg10 (by decide), after_ops_of_not_mem _ main_arg11 (by decide),
    after_ops_of_not_mem _ main_arg12 (by decide), after_ops_of_not_mem _ main_arg13 (by decide),
    after_ops_of_not_mem _ main_arg14 (by decide), after_ops_of_not_mem _ main_arg15 (by decide),
    after_ops_of_not_mem _ main_arg16 (by decide), after_ops_of_not_mem _ main_arg17 (by decide),
    after_ops_of_not_mem _ main_arg18 (by decide), after_ops_of_not_mem _ main_arg19 (by decide),
    after_ops_of_not_mem _ main_arg20 (by decide), after_ops_of_not_mem _ main_arg21 (by decide),
    after_ops_of_not_mem _ main_arg22 (by decide), after_ops_of_not_mem _ main_arg23 (by decide),
    after_ops_of_not_mem _ main_arg24 (by decide), after_ops_of_not_mem _ main_arg25 (by decide)]

/-- The second result is the softmax of the first. -/
theorem res122_eq (m : (ℓ : Loc nD τ sig) → Buf (Elt Ideal) ℓ) (c : Dev nD) :
    res122 (F := Ideal) m c = softmaxOf (res111 (F := Ideal) m c) := by
  unfold res122 res111
  rw [val_v122]

end Cert.ReferenceIdeal.RefClosed

end
-- ==== Proof.RefDots.lean ====
/-
  The reference's four matrix products read at one entry, at the ideal float values: entry (p, q) of the
  host's product of an [M, K] by a [K, N] operand is the sum over k of lhs (p, k) · rhs (k, q).
-/
import proofs.«138996_j84593675862715_1_alg».proof.Proof.RowOps
import proofs.«138996_j84593675862715_1_alg».proof.Proof.Gen.ReferenceIdeal

noncomputable section

open scoped BigOperators

namespace Cert.Bridge

open Idealize.ShloMosaic Idealize.ShloMosaic.ValueIdx
open Cert.ReferenceIdeal

/-- Row p of the result reads row p of the left operand: the left operand's axis 0 is the product's free axis. -/
theorem refSageDot_l0 (j : S50000x128.Idx) (k : dot_S50000x128_S128x128_S50000x128_1_0_0_1_n_n.contr.Idx) :
    (dot_S50000x128_S128x128_S50000x128_1_0_0_1_n_n.lhsIdx j k 0).val = (j 0).val := by
  unfold DotDims.lhsIdx
  rw [dif_neg (show ¬(0 : Fin S50000x128.rank) ∈ dot_S50000x128_S128x128_S50000x128_1_0_0_1_n_n.lhsBatch by decide),
    dif_pos (show (0 : Fin S50000x128.rank) ∈ dot_S50000x128_S128x128_S50000x128_1_0_0_1_n_n.lhsNonContracting by decide)]
  rfl

/-- Column q of the result reads column q of the right operand. -/
theorem refSageDot_r1 (j : S50000x128.Idx) (k : dot_S50000x128_S128x128_S50000x128_1_0_0_1_n_n.contr.Idx) :
    (dot_S50000x128_S128x128_S50000x128_1_0_0_1_n_n.rhsIdx j k 1).val = (j 1).val := by
  unfold DotDims.rhsIdx
  rw [dif_neg (show ¬(1 : Fin S128x128.rank) ∈ dot_S50000x128_S128x128_S50000x128_1_0_0_1_n_n.rhsBatch by decide),
    dif_pos (show (1 : Fin S128x128.rank) ∈ dot_S50000x128_S128x128_S50000x128_1_0_0_1_n_n.rhsNonContracting by decide)]
  rfl

/-- The product of the 50000 × 128 node features (or neighbour means) by a 128 × 128 weight matrix, at entry (p, q): the sum over the 128 contracted coordinates. -/
theorem refSageDot_apply {φ₁ φ₂ : FTy} (lhs : FVec Ideal S50000x128 φ₁) (rhs : FVec Ideal S128x128 φ₂) (p : Fin 50000) (q : Fin 128) :
    Host.dotGeneral dot_S50000x128_S128x128_S50000x128_1_0_0_1_n_n none lhs rhs (ix2 p q)
      = ∑ k : Fin 128, lhs (ix2 p k) * rhs (ix2 k q) :=
  dotGeneral_ix2 dot_S50000x128_S128x128_S50000x128_1_0_0_1_n_n rfl rfl rfl rfl refSageDot_l0 refSageDot_r1 none lhs rhs p q

/-- Row p of the result reads row p of the left operand: the left operand's axis 0 is the product's free axis. -/
theorem refMlpDot0_l0 (j : S100000x64.Idx) (k : dot_S100000x257_S257x64_S100000x64_1_0_0_1_n_n.contr.Idx) :
    (dot_S100000x257_S257x64_S100000x64_1_0_0_1_n_n.lhsIdx j k 0).val = (j 0).val := by
  unfold DotDims.lhsIdx
  rw [dif_neg (show ¬(0 : Fin S100000x257.rank) ∈ dot_S100000x257_S257x64_S100000x64_1_0_0_1_n_n.lhsBatch by decide),
    dif_pos (show (0 : Fin S100000x257.rank) ∈ dot_S100000x257_S257x64_S100000x64_1_0_0_1_n_n.lhsNonContracting by decide)]
  rfl

/-- Column q of the result reads column q of the right operand. -/
theorem refMlpDot0_r1 (j : S100000x64.Idx) (k : dot_S100000x257_S257x64_S100000x64_1_0_0_1_n_n.contr.Idx) :
    (dot_S100000x257_S257x64_S100000x64_1_0_0_1_n_n.rhsIdx j k 1).val = (j 1).val := by
  unfold DotDims.rhsIdx
  rw [dif_neg (show ¬(1 : Fin S257x64.rank) ∈ dot_S100000x257_S257x64_S100000x64_1_0_0_1_n_n.rhsBatch by decide),
    dif_pos (show (1 : Fin S257x64.rank) ∈ dot_S100000x257_S257x64_S100000x64_1_0_0_1_n_n.rhsNonContracting by decide)]
  rfl

/-- The product of the 100000 × 257 edge features by the first layer's 257 × 64 weights, at entry (p, q): the sum over the 257 contracted coordinates. -/
theorem refMlpDot0_apply {φ₁ φ₂ : FTy} (lhs : FVec Ideal S100000x257 φ₁) (rhs : FVec Ideal S257x64 φ₂) (p : Fin 100000) (q : Fin 64) :
    Host.dotGeneral dot_S100000x257_S257x64_S100000x64_1_0_0_1_n_n none lhs rhs (ix2 p q)
      = ∑ k : Fin 257, lhs (ix2 p k) * rhs (ix2 k q) :=
  dotGeneral_ix2 dot_S100000x257_S257x64_S100000x64_1_0_0_1_n_n rfl rfl rfl rfl refMlpDot0_l0 refMlpDot0_r1 none lhs rhs p q

/-- Row p of the result reads row p of the left operand: the left operand's axis 0 is the product's free axis. -/
theorem refMlpDot1_l0 (j : S100000x64.Idx) (k : dot_S100000x64_S64x64_S100000x64_1_0_0_1_n_n.contr.Idx) :
    (dot_S100000x64_S64x64_S100000x64_1_0_0_1_n_n.lhsIdx j k 0).val = (j 0).val := by
  unfold DotDims.lhsIdx
  rw [dif_neg (show ¬(0 : Fin S100000x64.rank) ∈ dot_S100000x64_S64x64_S100000x64_1_0_0_1_n_n.lhsBatch by decide),
    dif_pos (show (0 : Fin S100000x64.rank) ∈ dot_S100000x64_S64x64_S100000x64_1_0_0_1_n_n.lhsNonContracting by decide)]
  rfl

/-- Column q of the result reads column q of the right operand. -/
theorem refMlpDot1_r1 (j : S100000x64.Idx) (k : dot_S100000x64_S64x64_S100000x64_1_0_0_1_n_n.contr.Idx) :
    (dot_S100000x64_S64x64_S100000x64_1_0_0_1_n_n.rhsIdx j k 1).val = (j 1).val := by
  unfold DotDims.rhsIdx
  rw [dif_neg (show ¬(1 : Fin S64x64.rank) ∈ dot_S100000x64_S64x64_S100000x64_1_0_0_1_n_n.rhsBatch by decide),
    dif_pos (show (1 : Fin S64x64.rank) ∈ dot_S100000x64_S64x64_S100000x64_1_0_0_1_n_n.rhsNonContracting by decide)]
  rfl

/-- The product of the first hidden layer by the second layer's 64 × 64 weights, at entry (p, q): the sum over the 64 contracted coordinates. -/
theorem refMlpDot1_apply {φ₁ φ₂ : FTy} (lhs : FVec Ideal S100000x64 φ₁) (rhs : FVec Ideal S64x64 φ₂) (p : Fin 100000) (q : Fin 64) :
    Host.dotGeneral dot_S100000x64_S64x64_S100000x64_1_0_0_1_n_n none lhs rhs (ix2 p q)
      = ∑ k : Fin 64, lhs (ix2 p k) * rhs (ix2 k q) :=
  dotGeneral_ix2 dot_S100000x64_S64x64_S100000x64_1_0_0_1_n_n rfl rfl rfl rfl refMlpDot1_l0 refMlpDot1_r1 none lhs rhs p q

/-- Row p of the result reads row p of the left operand: the left operand's axis 0 is the product's free axis. -/
theorem refMlpDot2_l0 (j : S100000x1.Idx) (k : dot_S100000x64_S64x1_S100000x1_1_0_0_1_n_n.contr.Idx) :
    (dot_S100000x64_S64x1_S100000x1_1_0_0_1_n_n.lhsIdx j k 0).val = (j 0).val := by
  unfold DotDims.lhsIdx
  rw [dif_neg (show ¬(0 : Fin S100000x64.rank) ∈ dot_S100000x64_S64x1_S100000x1_1_0_0_1_n_n.lhsBatch by decide),
    dif_pos (show (0 : Fin S100000x64.rank) ∈ dot_S100000x64_S64x1_S100000x1_1_0_0_1_n_n.lhsNonContracting by decide)]
  rfl

/-- Column q of the result reads column q of the right operand. -/
theorem refMlpDot2_r1 (j : S100000x1.Idx) (k : dot_S100000x64_S64x1_S100000x1_1_0_0_1_n_n.contr.Idx) :
    (dot_S100000x64_S64x1_S100000x1_1_0_0_1_n_n.rhsIdx j k 1).val = (j 1).val := by
  unfold DotDims.rhsIdx
  rw [dif_neg (show ¬(1 : Fin S64x1.rank) ∈ dot_S100000x64_S64x1_S100000x1_1_0_0_1_n_n.rhsBatch by decide),
    dif_pos (show (1 : Fin S64x1.rank) ∈ dot_S100000x64_S64x1_S100000x1_1_0_0_1_n_n.rhsNonContracting by decide)]
  rfl

/-- The product of the second hidden layer by the output layer's 64 × 1 weights, at entry (p, q): the sum over the 64 contracted coordinates. -/
theorem refMlpDot2_apply {φ₁ φ₂ : FTy} (lhs : FVec Ideal S100000x64 φ₁) (rhs : FVec Ideal S64x1 φ₂) (p : Fin 100000) (q : Fin 1) :
    Host.dotGeneral dot_S100000x64_S64x1_S100000x1_1_0_0_1_n_n none lhs rhs (ix2 p q)
      = ∑ k : Fin 64, lhs (ix2 p k) * rhs (ix2 k q) :=
  dotGeneral_ix2 dot_S100000x64_S64x1_S100000x1_1_0_0_1_n_n rfl rfl rfl rfl refMlpDot2_l0 refMlpDot2_r1 none lhs rhs p q

end Cert.Bridge

end
-- ==== Proof.RefRows.lean ====
/-
  The reference's two closed terms read at one entry, at the ideal float values.

  A layer of the reference is two host matrix products, five vectors laid along the rows by a broadcast to one
  row and a broadcast of the row, pointwise arithmetic, the host's reciprocal square root and the rectifier
  written as a select; read at entry (i, q) it is the specification's `sageRow` of row i of the features and
  of the neighbour means. The scoring head is three products, three row vectors and two rectifiers; read at
  entry (i, 0) it is `mlpRow` of row i of the edge features.
-/
import proofs.«138996_j84593675862715_1_alg».proof.Proof.RefDots
import proofs.«138996_j84593675862715_1_alg».proof.Proof.RefDefs

noncomputable section

open scoped BigOperators

namespace Cert.Bridge

open Idealize.ShloMosaic Idealize.ShloMosaic.ValueIdx
open Cert.ReferenceIdeal Cert.ReferenceIdeal.RefClosed

/-- The host's row broadcast again, with the two dimension maps written as maps between the literal ranks: the
    vector's one axis goes to axis 1 of the row, and the row's two axes go to the two axes of the array. -/
theorem rowBroadcastInDim_lit {a b : Nat} {α : Type} (v : (⟨1, ![b]⟩ : Shape).Idx → α)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2)) (p : Fin a) (q : Fin b) :
    broadcastInDim ⟨2, ![a, b]⟩ (![0, 1] : Fin 2 → Fin 2) h2
        (broadcastInDim ⟨2, ![1, b]⟩ (![1] : Fin 1 → Fin 2) h1 v) (ix2 p q) = v (ix1 q) :=
  rowBroadcastInDim_apply v h1 h2 p q

/-! ## A graph-convolution layer of the reference, entry by entry -/

/-- The reference's layer at entry (i, q): the specification's entry of row i of the features and of the neighbour
    means. The host's products, row broadcasts and rectifier are read by their lemmas; what is left is the pointwise
    arithmetic and the reciprocal square root, which is one function on the host and in a kernel. -/
theorem refLayer_apply (x agg : FVec Ideal S50000x128 .f32) (ws wn : FVec Ideal S128x128 .f32) (b γ β rm rv : FVec Ideal S128 .f32)
    (i : Fin 50000) (q : Fin 128) :
    refLayer x agg ws wn b γ β rm rv (ix2 i q)
      = sageRow (fun k => x (ix2 i k)) (fun k => agg (ix2 i k)) (fun k q => ws (ix2 k q)) (fun k q => wn (ix2 k q))
          (fun q => b (ix1 q)) (fun q => γ (ix1 q)) (fun q => β (ix1 q)) (fun q => rm (ix1 q)) (fun q => rv (ix1 q)) q := by
  unfold refLayer
  refine (lrelu_host_apply _ _ _ _).trans ?_
  refine congrArg lrelu ?_
  simp only [addf_apply, mulf_apply, subf_apply, rowBroadcastInDim_lit, refSageDot_apply]
  rfl

/-! ## The reference's scoring head, entry by entry -/

/-- The reference's scoring head at entry (i, 0): the specification's score of row i of the edge features. -/
theorem refMlp_apply (ce : FVec Ideal S100000x257 .f32) (mw0 : FVec Ideal S257x64 .f32) (mb0 : FVec Ideal S64 .f32)
    (mw1 : FVec Ideal S64x64 .f32) (mb1 : FVec Ideal S64 .f32) (mw2 : FVec Ideal S64x1 .f32) (mb2 : FVec Ideal S1 .f32)
    (i : Fin 100000) :
    refMlp ce mw0 mb0 mw1 mb1 mw2 mb2 (ix2 i (0 : Fin 1))
      = mlpRow (fun k => ce (ix2 i k)) (fun k j => mw0 (ix2 k j)) (fun j => mb0 (ix1 j)) (fun k j => mw1 (ix2 k j))
          (fun j => mb1 (ix1 j)) (fun k j => mw2 (ix2 k j)) (fun j => mb2 (ix1 j)) := by
  unfold refMlp
  simp only [addf_apply, mulf_apply, rowBroadcastInDim_lit, refMlpDot0_apply, refMlpDot1_apply, refMlpDot2_apply,
    lrelu_host_apply]
  rfl

end Cert.Bridge

end
-- ==== Proof.RefArr.lean ====
/-
  The reference's two closed terms as whole arrays: a layer of the reference is the array whose entry (i, q) is
  the row specification at row i, and the scoring head is the column whose entry (i, 0) is the row specification
  of row i of the edge features — the same two arrays the kernel regions' outputs are compared with.
-/
import proofs.«138996_j84593675862715_1_alg».proof.Proof.RefRows
import proofs.«138996_j84593675862715_1_alg».proof.Proof.ArrSpec

noncomputable section

namespace Cert.Bridge

open Idealize.ShloMosaic Idealize.ShloMosaic.ValueIdx
open Cert.ReferenceIdeal Cert.ReferenceIdeal.RefClosed

/-- A layer of the reference is the layer's specification array: entry by entry, splitting an index into its row
    and its column. -/
theorem refLayer_eq_sageArr (x agg : FVec Ideal S50000x128 .f32) (ws wn : FVec Ideal S128x128 .f32)
    (b γ β rm rv : FVec Ideal S128 .f32) :
    refLayer x agg ws wn b γ β rm rv = Cert.KernelIdeal.Final.sageArr x agg ws wn b γ β rm rv := by
  funext j
  obtain ⟨i, q, rfl⟩ : ∃ (i : Fin 50000) (q : Fin 128), j = ix2 i q := ⟨j 0, j 1, eq_ix2 j⟩
  exact refLayer_apply x agg ws wn b γ β rm rv i q

/-- The reference's scoring head is the head's specification column: its second coordinate is always 0. -/
theorem refMlp_eq_mlpArr (ce : FVec Ideal S100000x257 .f32) (mw0 : FVec Ideal S257x64 .f32) (mb0 : FVec Ideal S64 .f32)
    (mw1 : FVec Ideal S64x64 .f32) (mb1 : FVec Ideal S64 .f32) (mw2 : FVec Ideal S64x1 .f32) (mb2 : FVec Ideal S1 .f32) :
    refMlp ce mw0 mb0 mw1 mb1 mw2 mb2 = Cert.KernelIdeal.Final.mlpArr ce mw0 mb0 mw1 mb1 mw2 mb2 := by
  funext j
  obtain ⟨i, z, rfl⟩ : ∃ (i : Fin 100000) (z : Fin 1), j = ix2 i z := ⟨j 0, j 1, eq_ix2 j⟩
  obtain rfl : z = 0 := Subsingleton.elim _ _
  exact refMlp_apply ce mw0 mb0 mw1 mb1 mw2 mb2 i

end Cert.Bridge

end
-- ==== Proof.Algebraic.lean ====
/-
  The value claim: at the ideal float values the idealized kernel and the reference, run from memories that agree on
  the twenty-six arguments, both end, with equal results and unchanged arguments.

  Both results are one function of the arguments. The first is the scores: the three-layer scoring head of the
  candidate edges' features, which are built from the node features propagated through two graph-convolution layers,
  each layer the row specification at every row of its input and of its neighbour means. The second is the softmax
  of the first. On the kernel's side the two arrays are read off the fold of its buffer contents, each region's
  output array being the specification array of the arrays the region was entered from. On the reference's side its
  two results are closed terms of its own arguments; each layer of the reference is the same specification array and
  its scoring head the same specification column, and its arguments are the kernel's.
-/
import proofs.«138996_j84593675862715_1_alg».proof.Defs
import proofs.«138996_j84593675862715_1_alg».proof.Proof.KIValue
import proofs.«138996_j84593675862715_1_alg».proof.Proof.KISage0Final
import proofs.«138996_j84593675862715_1_alg».proof.Proof.KISage1Final
import proofs.«138996_j84593675862715_1_alg».proof.Proof.KIMlpFinal
import proofs.«138996_j84593675862715_1_alg».proof.Proof.RefRun
import proofs.«138996_j84593675862715_1_alg».proof.Proof.RefClosed
import proofs.«138996_j84593675862715_1_alg».proof.Proof.RefArr
import proofs.«138996_j84593675862715_1_alg».proof.Proof.Gen.Pre_finite_inputs

set_option maxRecDepth 16384

noncomputable section

namespace Cert.Proof

open Idealize.ShloMosaic Idealize.ShloMosaic.TcCoe Idealize.SL.Sem
open Cert.ReferenceIdeal.RefClosed (aggOf candOf softmaxOf refLayer refMlp res111_eq res122_eq)
open Cert.ReferenceIdeal.RefRun (res111 res122)
open Cert.KernelIdeal.Result (scores layer1 layer2 Finals v63_eq v74_eq)

/-- What each of the three regions' output arrays ends holding: the two layers' specification arrays and the scoring
    head's specification column, of the arrays the region was entered from. -/
theorem finals : Finals :=
  ⟨Cert.KernelIdeal.Final.sage0_final, Cert.KernelIdeal.Final.sage1_final, Cert.KernelIdeal.Final.mlp_final⟩

/-- The reference's closed term for its first result is the kernel side's: each of its two layers is the layer's
    specification array and its scoring head the head's specification column. -/
theorem closed_eq (x : FVec Ideal Cert.ReferenceIdeal.S50000x128 .f32) (src dst : IVec Cert.ReferenceIdeal.S800000 32)
    (u v : IVec Cert.ReferenceIdeal.S100000 32) (f : FVec Ideal Cert.ReferenceIdeal.S100000x1 .f32)
    (ws0 wn0 : FVec Ideal Cert.ReferenceIdeal.S128x128 .f32) (b0 g0 be0 rm0 rv0 : FVec Ideal Cert.ReferenceIdeal.S128 .f32)
    (ws1 wn1 : FVec Ideal Cert.ReferenceIdeal.S128x128 .f32) (b1 g1 be1 rm1 rv1 : FVec Ideal Cert.ReferenceIdeal.S128 .f32)
    (mw0 : FVec Ideal Cert.ReferenceIdeal.S257x64 .f32) (mb0 : FVec Ideal Cert.ReferenceIdeal.S64 .f32)
    (mw1 : FVec Ideal Cert.ReferenceIdeal.S64x64 .f32) (mb1 : FVec Ideal Cert.ReferenceIdeal.S64 .f32)
    (mw2 : FVec Ideal Cert.ReferenceIdeal.S64x1 .f32) (mb2 : FVec Ideal Cert.ReferenceIdeal.S1 .f32) :
    refMlp (candOf (refLayer (refLayer x (aggOf x src dst) ws0 wn0 b0 g0 be0 rm0 rv0)
        (aggOf (refLayer x (aggOf x src dst) ws0 wn0 b0 g0 be0 rm0 rv0) src dst) ws1 wn1 b1 g1 be1 rm1 rv1) u v f)
        mw0 mb0 mw1 mb1 mw2 mb2
      = Cert.KernelIdeal.Final.mlpArr (candOf (Cert.KernelIdeal.Final.sageArr (Cert.KernelIdeal.Final.sageArr x (aggOf x src dst) ws0 wn0 b0 g0 be0 rm0 rv0)
        (aggOf (Cert.KernelIdeal.Final.sageArr x (aggOf x src dst) ws0 wn0 b0 g0 be0 rm0 rv0) src dst) ws1 wn1 b1 g1 be1 rm1 rv1) u v f)
        mw0 mb0 mw1 mb1 mw2 mb2 := by
  rw [Cert.Bridge.refLayer_eq_sageArr, Cert.Bridge.refLayer_eq_sageArr, Cert.Bridge.refMlp_eq_mlpArr]

set_option maxHeartbeats 4000000 in
/-- From memories that agree on the arguments, the reference's first result is the kernel side's scores. -/
theorem ref_scores (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (h13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (h14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (h15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))
    (h16 : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16))
    (h17 : m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17))
    (h18 : m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18))
    (h19 : m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19))
    (h20 : m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20))
    (h21 : m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21))
    (h22 : m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22))
    (h23 : m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23))
    (h24 : m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24))
    (h25 : m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) :
    res111 (F := Ideal) m' c = scores m c := by
  refine (res111_eq m' c).trans ?_
  refine (closed_eq _ _ _ _ _ _ _ _ _ _ _ _ _ _ _ _ _ _ _ _ _ _ _ _ _ _).trans ?_
  simp only [h0, h1, h2, h3, h4, h5, h6, h7, h8, h9, h10, h11, h12, h13, h14, h15, h16, h17, h18, h19, h20, h21, h22, h23, h24, h25]
  rfl

open Cert.KernelIdeal.Run in
set_option maxHeartbeats 4000000 in
/-- The kernel's run, read: both result arrays at their functions of the arguments, the arguments unchanged. -/
theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v63) = scores m c
      ∧ r.2.mem ((c.tc : Thread Cert.KernelIdeal.nD Cert.KernelIdeal.τ).loc Cert.KernelIdeal.main_v74) = softmaxOf (scores m c)
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)) :=
  (θ_run _ _ _).mono (fun r h c => ⟨(h c Cert.KernelIdeal.main_v63 (by decide)).trans (v63_eq m c finals),
      (h c Cert.KernelIdeal.main_v74 (by decide)).trans (v74_eq m c finals),
      (h c Cert.KernelIdeal.main_arg0 (by decide)).trans (W13_kept m c Cert.KernelIdeal.main_arg0 (by decide) (by decide) (by decide) (by decide) (by decide) (by decide) (by decide) (by decide) (by decide) (by decide) (by decide) (by decide) (by decide)),
      (h c Cert.KernelIdeal.main_arg1 (by decide)).trans (W13_kept m c Cert.KernelIdeal.main_arg1 (by decide) (by decide) (by decide) (by decide) (by decide) (by decide) (by decide) (by decide) (by decide) (by decide) (by decide) (by decide) (by decide)),
      (h c Cert.KernelIdeal.main_arg2 (by decide)).trans (W13_kept m c Cert.KernelIdeal.main_arg2 (by decide) (by decide) (by decide) (by decide) (by decide) (by decide) (by decide) (by decide) (by decide) (by decide) (by decide) (by decide) (by decide)),
      (h c Cert.KernelIdeal.main_arg3 (by decide)).trans (W13_kept m c Cert.KernelIdeal.main_arg3 (by decide) (by decide) (by decide) (by decide) (by decide) (by decide) (by decide) (by decide) (by decide) (by decide) (by decide) (by decide) (by decide)),
      (h c Cert.KernelIdeal.main_arg4 (by decide)).trans (W13_kept m c Cert.KernelIdeal.main_arg4 (by decide) (by decide) (by decide) (by decide) (by decide) (by decide) (by decide) (by decide) (by decide) (by decide) (by decide) (by decide) (by decide)),
      (h c Cert.KernelIdeal.main_arg5 (by decide)).trans (W13_kept m c Cert.KernelIdeal.main_arg5 (by decide) (by decide) (by decide) (by decide) (by decide) (by decide) (by decide) (by decide) (by decide) (by decide) (by decide) (by decide) (by decide)),
      (h c Cert.KernelIdeal.main_arg6 (by decide)).trans (W13_kept m c Cert.KernelIdeal.main_arg6 (by decide) (by decide) (by decide) (by decide) (by decide) (by decide) (by decide) (by decide) (by decide) (by decide) (by decide) (by decide) (by decide)),
      (h c Cert.KernelIdeal.main_arg7 (by decide)).trans (W13_kept m c Cert.KernelIdeal.main_arg7 (by decide) (by decide) (by decide) (by decide) (by decide) (by decide) (by decide) (by decide) (by decide) (by decide) (by decide) (by decide) (by decide)),
      (h c Cert.KernelIdeal.main_arg8 (by decide)).trans (W13_kept m c Cert.KernelIdeal.main_arg8 (by decide) (by decide) (by decide) (by decide) (by decide) (by decide) (by decide) (by decide) (by decide) (by decide) (by decide) (by decide) (by decide)),
      (h c Cert.KernelIdeal.main_arg9 (by decide)).trans (W13_kept m c Cert.KernelIdeal.main_arg9 (by decide) (by decide) (by decide) (by decide) (by decide) (by decide) (by decide) (by decide) (by decide) (by decide) (by decide) (by decide) (by decide)),
      (h c Cert.KernelIdeal.main_arg10 (by decide)).trans (W13_kept m c Cert.KernelIdeal.main_arg10 (by decide) (by decide) (by decide) (by decide) (by decide) (by decide) (by decide) (by decide) (by decide) (by decide) (by decide) (by decide) (by decide)),
      (h c Cert.KernelIdeal.main_arg11 (by decide)).trans (W13_kept m c Cert.KernelIdeal.main_arg11 (by decide) (by decide) (by decide) (by decide) (by decide) (by decide) (by decide) (by decide) (by decide) (by decide) (by decide) (by decide) (by decide)),
      (h c Cert.KernelIdeal.main_arg12 (by decide)).trans (W13_kept m c Cert.KernelIdeal.main_arg12 (by decide) (by decide) (by decide) (by decide) (by decide) (by decide) (by decide) (by decide) (by decide) (by decide) (by decide) (by decide) (by decide)),
      (h c Cert.KernelIdeal.main_arg13 (by decide)).trans (W13_kept m c Cert.KernelIdeal.main_arg13 (by decide) (by decide) (by decide) (by decide) (by decide) (by decide) (by decide) (by decide) (by decide) (by decide) (by decide) (by decide) (by decide)),
      (h c Cert.KernelIdeal.main_arg14 (by decide)).trans (W13_kept m c Cert.KernelIdeal.main_arg14 (by decide) (by decide) (by decide) (by decide) (by decide) (by decide) (by decide) (by decide) (by decide) (by decide) (by decide) (by decide) (by decide)),
      (h c Cert.KernelIdeal.main_arg15 (by decide)).trans (W13_kept m c Cert.KernelIdeal.main_arg15 (by decide) (by decide) (by decide) (by decide) (by decide) (by decide) (by decide) (by decide) (by decide) (by decide) (by decide) (by decide) (by decide)),
      (h c Cert.KernelIdeal.main_arg16 (by decide)).trans (W13_kept m c Cert.KernelIdeal.main_arg16 (by decide) (by decide) (by decide) (by decide) (by decide) (by decide) (by decide) (by decide) (by decide) (by decide) (by decide) (by decide) (by decide)),
      (h c Cert.KernelIdeal.main_arg17 (by decide)).trans (W13_kept m c Cert.KernelIdeal.main_arg17 (by decide) (by decide) (by decide) (by decide) (by decide) (by decide) (by decide) (by decide) (by decide) (by decide) (by decide) (by decide) (by decide)),
      (h c Cert.KernelIdeal.main_arg18 (by decide)).trans (W13_kept m c Cert.KernelIdeal.main_arg18 (by decide) (by decide) (by decide) (by decide) (by decide) (by decide) (by decide) (by decide) (by decide) (by decide) (by decide) (by decide) (by decide)),
      (h c Cert.KernelIdeal.main_arg19 (by decide)).trans (W13_kept m c Cert.KernelIdeal.main_arg19 (by decide) (by decide) (by decide) (by decide) (by decide) (by decide) (by decide) (by decide) (by decide) (by decide) (by decide) (by decide) (by decide)),
      (h c Cert.KernelIdeal.main_arg20 (by decide)).trans (W13_kept m c Cert.KernelIdeal.main_arg20 (by decide) (by decide) (by decide) (by decide) (by decide) (by decide) (by decide) (by decide) (by decide) (by decide) (by decide) (by decide) (by decide)),
      (h c Cert.KernelIdeal.main_arg21 (by decide)).trans (W13_kept m c Cert.KernelIdeal.main_arg21 (by decide) (by decide) (by decide) (by decide) (by decide) (by decide) (by decide) (by decide) (by decide) (by decide) (by decide) (by decide) (by decide)),
      (h c Cert.KernelIdeal.main_arg22 (by decide)).trans (W13_kept m c Cert.KernelIdeal.main_arg22 (by decide) (by decide) (by decide) (by decide) (by decide) (by decide) (by decide) (by decide) (by decide) (by decide) (by decide) (by decide) (by decide)),
      (h c Cert.KernelIdeal.main_arg23 (by decide)).trans (W13_kept m c Cert.KernelIdeal.main_arg23 (by decide) (by decide) (by decide) (by decide) (by decide) (by decide) (by decide) (by decide) (by decide) (by decide) (by decide) (by decide) (by decide)),
      (h c Cert.KernelIdeal.main_arg24 (by decide)).trans (W13_kept m c Cert.KernelIdeal.main_arg24 (by decide) (by decide) (by decide) (by decide) (by decide) (by decide) (by decide) (by decide) (by decide) (by decide) (by decide) (by decide) (by decide)),
      (h c Cert.KernelIdeal.main_arg25 (by decide)).trans (W13_kept m c Cert.KernelIdeal.main_arg25 (by decide) (by decide) (by decide) (by decide) (by decide) (by decide) (by decide) (by decide) (by decide) (by decide) (by decide) (by decide) (by decide))⟩) (Cert.KernelIdeal.Run.run (F := Ideal) m ρ)

set_option maxHeartbeats 4000000 in
/-- The reference's run, read from a memory that agrees with the kernel's on the arguments: the same two functions
    of the kernel's arguments, its own arguments unchanged. -/
theorem ref_run (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (ρ' : Dev Cert.ReferenceIdeal.nD → PrngReg)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) :
    θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
      r.2.mem ((c.tc : Thread Cert.ReferenceIdeal.nD Cert.ReferenceIdeal.τ).loc Cert.ReferenceIdeal.main_v111) = scores m c
      ∧ r.2.mem ((c.tc : Thread Cert.ReferenceIdeal.nD Cert.ReferenceIdeal.τ).loc Cert.ReferenceIdeal.main_v122) = softmaxOf (scores m c)
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)) := by
  have key : ∀ c : Dev Cert.KernelIdeal.nD, res111 (F := Ideal) m' c = scores m c := fun c => by
    obtain ⟨h0, h1, h2, h3, h4, h5, h6, h7, h8, h9, h10, h11, h12, h13, h14, h15, h16, h17, h18, h19, h20, h21, h22, h23, h24, h25⟩ := hagree c
    exact ref_scores m m' c h0 h1 h2 h3 h4 h5 h6 h7 h8 h9 h10 h11 h12 h13 h14 h15 h16 h17 h18 h19 h20 h21 h22 h23 h24 h25
  exact (θ_run _ _ _).mono (fun r h c => ⟨(h c).1.trans (key c),
      (h c).2.1.trans ((res122_eq m' c).trans (congrArg softmaxOf (key c))), (h c).2.2⟩)
      (Cert.ReferenceIdeal.RefRun.run (F := Ideal) m' ρ')

/-- The two programs' results are one function of the arguments: the scores of the twice-propagated node features and
    their softmax, for the kernel read off the fold of its buffer contents and for the reference off its closed terms. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) :=
  fun m ρ m' ρ' _ hagree => ⟨fun c => scores m c, fun c => softmaxOf (scores m c), kernel_run m ρ, ref_run m m' ρ' hagree⟩

end Cert.Proof

end
-- ==== Proof.lean ====
/-
  The certificate's five claims, assembled.

  The program is a two-layer GraphSAGE network with batch normalisation in evaluation mode followed by a three-layer
  candidate-scoring network and a softmax over the candidates. The kernel computes the two dense layer transforms and the
  scoring network in three tiled regions (rows in blocks of 5000, resp. 2000), with the irregular gather / scatter-add
  aggregation, the non-finite clean-up, the candidate gather and the softmax left to host operations; the reference
  computes everything with host operations.

  Frames: each of the kernel's two printings runs as thirteen items (host stretches and the three regions); a region
  leaves its input arrays as found and its output array at what the grid points' blocks hold, so no argument array is
  ever written. The reference is a straight line of host operations that writes no argument.

  The idealized kernel differs from the word-level one by no rewrite, so nothing is owed for that conjunct.

  Values: at the exact instance a block of a row-tiled matrix product is the matching rows of the whole product, the
  format changes are the identity and the product into a zero accumulator is the plain sum of products, so each region's
  output array is the reference's layer function of the same arrays; the host operations around the regions are the
  same functions on both sides.
-/
import proofs.«138996_j84593675862715_1_alg».proof.Defs
import proofs.«138996_j84593675862715_1_alg».proof.Proof.Gen.Kernel
import proofs.«138996_j84593675862715_1_alg».proof.Proof.Gen.KernelIdeal
import proofs.«138996_j84593675862715_1_alg».proof.Proof.Gen.ReferenceIdeal
import proofs.«138996_j84593675862715_1_alg».proof.Proof.Gen.Pre_finite_inputs
import proofs.«138996_j84593675862715_1_alg».proof.Proof.KRun
import proofs.«138996_j84593675862715_1_alg».proof.Proof.KIRun
import proofs.«138996_j84593675862715_1_alg».proof.Proof.RefRun
import proofs.«138996_j84593675862715_1_alg».proof.Proof.Algebraic
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Run.frame m ρ

theorem frame_ki : Cert.frame_KernelIdeal (hKernelIdeal := Cert.KernelIdeal.Gen.facts) (hPre_finite_inputs := Cert.Pre_finite_inputs.Gen.facts) :=
  fun m ρ _ => Cert.KernelIdeal.Run.frame m ρ

theorem frame_ri : Cert.frame_ReferenceIdeal (hReferenceIdeal := Cert.ReferenceIdeal.Gen.facts) (hPre_finite_inputs := Cert.Pre_finite_inputs.Gen.facts) :=
  fun m ρ _ => Cert.ReferenceIdeal.RefRun.frame m ρ

theorem claim : Cert.Claim := ⟨Cert.Kernel.Gen.facts, Cert.KernelIdeal.Gen.facts, Cert.ReferenceIdeal.Gen.facts, Cert.Pre_finite_inputs.Gen.facts,
  frame_k, frame_ki, frame_ri, trivial, Cert.Proof.algebraic⟩

end Cert.Proof

end
